-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v3_0)) (v4 : (c : Dev Cert.KernelIdeal.nD) → Buf (Elt Ideal) ((c.tc : Thread Cert.KernelIdeal.nD Cert.KernelIdeal.τ).loc Cert.KernelIdeal.main_v3_1)) (v5 : (c : Dev Cert.KernelIdeal.nD) → Buf (Elt Ideal) ((c.tc : Thread Cert.KernelIdeal.nD Cert.KernelIdeal.τ).loc Cert.KernelIdeal.main_v5_0)) (v6 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v3_0) = v3 c
          ∧ r.2.mem ((c.tc : Thread Cert.KernelIdeal.nD Cert.KernelIdeal.τ).loc Cert.KernelIdeal.main_v3_1) = v4 c
          ∧ r.2.mem ((c.tc : Thread Cert.KernelIdeal.nD Cert.KernelIdeal.τ).loc Cert.KernelIdeal.main_v5_0) = v5 c
          ∧ r.2.mem ((c.tc : Thread Cert.KernelIdeal.nD Cert.KernelIdeal.τ).loc Cert.KernelIdeal.main_v5_1) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_v101) = v5 c
          ∧ r.2.mem ((c.tc : Thread Cert.ReferenceIdeal.nD Cert.ReferenceIdeal.τ).loc Cert.ReferenceIdeal.main_v99) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x1024 : Shape := ⟨2, ![256, 1024]⟩
abbrev S512x4096 : Shape := ⟨2, ![512, 4096]⟩
abbrev S1024x4096 : Shape := ⟨2, ![1024, 4096]⟩
abbrev S4096 : Shape := ⟨1, ![4096]⟩
abbrev S1024x512 : Shape := ⟨2, ![1024, 512]⟩
abbrev S512 : Shape := ⟨1, ![512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S512x4096 : S_.BroadcastsInDim S512x4096 (![] : Fin 0 → Fin S512x4096.rank)
  reducesTo_S512x4096_S_d0_1 : S512x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  main_v88

def fn_part4 {F : FTy → Type} [FloatOps F] (main_arg14 : FVec F S1024x4096 .f32) (main_arg15 : FVec F S4096 .f32) (main_arg16 : FVec F S1024x512 .f32) (main_arg17 : FVec F S512 .f32) (main_v63 : IVec S_ 1) (main_v67 : IVec S_ 1) : IVec S_ 1 :=
  let main_v68 : IVec S_ 1 := andi main_v63 main_v67
  let main_v69 : FVec F S1024x4096 .f32 := Host.absf main_arg14
  let main_cst_26 : FVec F S_ .f32 := constant S_ .f32 0x7F800000#32
  let main_v70 : FVec F S1024x4096 .f32 := broadcastInDim S1024x4096 ![] bcast_S_S1024x4096 main_cst_26
  let main_v71 : IVec S1024x4096 1 := cmpf .olt main_v69 main_v70
  let main_c_27 : IVec S_ 1 := constantI S_ 1 1#1
  let main_v72 : IVec S_ 1 := (fun x v => Host.reduce IntOp.andi x v reducesTo_S1024x4096_S_d0_1 h_S_) main_v71 main_c_27
  let main_v73 : IVec S_ 1 := andi main_v68 main_v72
  let main_v74 : FVec F S4096 .f32 := Host.absf main_arg15
  let main_cst_28 : FVec F S_ .f32 := constant S_ .f32 0x7F800000#32
  let main_v75 : FVec F S4096 .f32 := broadcastInDim S4096 ![] bcast_S_S4096 main_cst_28
  let main_v76 : IVec S4096 1 := cmpf .olt main_v74 main_v75
  let main_c_29 : IVec S_ 1 := constantI S_ 1 1#1
  let main_v77 : IVec S_ 1 := (fun x v => Host.reduce IntOp.andi x v reducesTo_S4096_S_d0 h_S_) main_v76 main_c_29
  let main_v78 : IVec S_ 1 := andi main_v73 main_v77
  let main_v79 : FVec F S1024x512 .f32 := Host.absf main_arg16
  let main_cst_30 : FVec F S_ .f32 := constant S_ .f32 0x7F800000#32
  let main_v80 : FVec F S1024x512 .f32 := broadcastInDim S1024x512 ![] bcast_S_S1024x512 main_cst_30
  let main_v81 : IVec S1024x512 1 := cmpf .olt main_v79 main_v80
  let main_c_31 : IVec S_ 1 := constantI S_ 1 1#1
  let main_v82 : IVec S_ 1 := (fun x v => Host.reduce IntOp.andi x v reducesTo_S1024x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024x4096 .f32) (main_arg12 : FVec F S4096 .f32) (main_arg13 : FVec F S1024x4096 .f32) (main_arg14 : FVec F S1024x4096 .f32) (main_arg15 : FVec F S4096 .f32) (main_arg16 : FVec F S1024x512 .f32) (main_arg17 : FVec F S512 .f32) (main_v48 : IVec S_ 1) (main_v49 : FVec F S1024x4096 .f32) (main_v50 : FVec F S1024x4096 .f32) : IVec S_ 1 :=
  let main_v51 : IVec S1024x4096 1 := cmpf .olt main_v49 main_v50
  let main_c_19 : IVec S_ 1 := constantI S_ 1 1#1
  let main_v52 : IVec S_ 1 := (fun x v => Host.reduce IntOp.andi x v reducesTo_S1024x4096_S_d0_1 h_S_) main_v51 main_c_19
  let main_v53 : IVec S_ 1 := andi main_v48 main_v52
  let main_v54 : FVec F S1024x4096 .f32 := Host.absf main_arg11
  let main_cst_20 : FVec F S_ .f32 := constant S_ .f32 0x7F800000#32
  let main_v55 : FVec F S1024x4096 .f32 := broadcastInDim S1024x4096 ![] bcast_S_S1024x4096 main_cst_20
  let main_v56 : IVec S1024x4096 1 := cmpf .olt main_v54 main_v55
  let main_c_21 : IVec S_ 1 := constantI S_ 1 1#1
  let main_v57 : IVec S_ 1 := (fun x v => Host.reduce IntOp.andi x v reducesTo_S1024x4096_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S1024x4096 .f32 := Host.absf main_arg13
  let main_cst_24 : FVec F S_ .f32 := constant S_ .f32 0x7F800000#32
  let main_v65 : FVec F S1024x4096 .f32 := broadcastInDim S1024x4096 ![] bcast_S_S1024x4096 main_cst_24
  let main_v66 : IVec S1024x4096 1 := cmpf .olt main_v64 main_v65
  let main_c_25 : IVec S_ 1 := constantI S_ 1 1#1
  let main_v67 : IVec S_ 1 := (fun x v => Host.reduce IntOp.andi x v reducesTo_S1024x4096_S_d0_1 h_S_) main_v66 main_c_25
  fn_part4 (F := F) main_arg14 main_arg15 main_arg16 main_arg17 main_v63 main_v67

def fn_part2 {F : FTy → Type} [FloatOps F] (main_arg7 : FVec F S512x4096 .f32) (main_arg8 : FVec F S1024x4096 .f32) (main_arg9 : FVec F S4096 .f32) (main_arg10 : FVec F S1024x4096 .f32) (main_arg11 : FVec F S1024x4096 .f32) (main_arg12 : FVec F S4096 .f32) (main_arg13 : FVec F S1024x4096 .f32) (main_arg14 : FVec F S1024x4096 .f32) (main_arg15 : FVec F S4096 .f32) (main_arg16 : FVec F S1024x512 .f32) (main_arg17 : FVec F S512 .f32) (main_v33 : IVec S_ 1) : IVec S_ 1 :=
  let main_v34 : FVec F S512x4096 .f32 := Host.absf main_arg7
  let main_cst_12 : FVec F S_ .f32 := constant S_ .f32 0x7F800000#32
  let main_v35 : FVec F S512x4096 .f32 := broadcastInDim S512x4096 ![] bcast_S_S512x4096 main_cst_12
  let main_v36 : IVec S512x4096 1 := cmpf .olt main_v34 main_v35
  let main_c_13 : IVec S_ 1 := constantI S_ 1 1#1
  let main_v37 : IVec S_ 1 := (fun x v => Host.reduce IntOp.andi x v reducesTo_S512x4096_S_d0_1 h_S_) main_v36 main_c_13
  let main_v38 : IVec S_ 1 := andi main_v33 main_v37
  let main_v39 : FVec F S1024x4096 .f32 := Host.absf main_arg8
  let main_cst_14 : FVec F S_ .f32 := constant S_ .f32 0x7F800000#32
  let main_v40 : FVec F S1024x4096 .f32 := broadcastInDim S1024x4096 ![] bcast_S_S1024x4096 main_cst_14
  let main_v41 : IVec S1024x4096 1 := cmpf .olt main_v39 main_v40
  let main_c_15 : IVec S_ 1 := constantI S_ 1 1#1
  let main_v42 : IVec S_ 1 := (fun x v => Host.reduce IntOp.andi x v reducesTo_S1024x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S1024x4096 .f32 := Host.absf main_arg10
  let main_cst_18 : FVec F S_ .f32 := constant S_ .f32 0x7F800000#32
  let main_v50 : FVec F S1024x4096 .f32 := broadcastInDim S1024x4096 ![] bcast_S_S1024x4096 main_cst_18
  fn_part3 (F := F) main_arg11 main_arg12 main_arg13 main_arg14 main_arg15 main_arg16 main_arg17 main_v48 main_v49 main_v50

def fn_part1 {F : FTy → Type} [FloatOps F] (main_arg4 : FVec F S256x1024 .f32) (main_arg5 : FVec F S256x1024 .f32) (main_arg6 : FVec F S256x1024 .f32) (main_arg7 : FVec F S512x4096 .f32) (main_arg8 : FVec F S1024x4096 .f32) (main_arg9 : FVec F S4096 .f32) (main_arg10 : FVec F S1024x4096 .f32) (main_arg11 : FVec F S1024x4096 .f32) (main_arg12 : FVec F S4096 .f32) (main_arg13 : FVec F S1024x4096 .f32) (main_arg14 : FVec F S1024x4096 .f32) (main_arg15 : FVec F S4096 .f32) (main_arg16 : FVec F S1024x512 .f32) (main_arg17 : FVec F S512 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S256x512 .f32) (main_arg1 : FVec F S256x1024 .f32) (main_arg2 : FVec F S256x1024 .f32) (main_arg3 : FVec F S256x1024 .f32) (main_arg4 : FVec F S256x1024 .f32) (main_arg5 : FVec F S256x1024 .f32) (main_arg6 : FVec F S256x1024 .f32) (main_arg7 : FVec F S512x4096 .f32) (main_arg8 : FVec F S1024x4096 .f32) (main_arg9 : FVec F S4096 .f32) (main_arg10 : FVec F S1024x4096 .f32) (main_arg11 : FVec F S1024x4096 .f32) (main_arg12 : FVec F S4096 .f32) (main_arg13 : FVec F S1024x4096 .f32) (main_arg14 : FVec F S1024x4096 .f32) (main_arg15 : FVec F S4096 .f32) (main_arg16 : FVec F S1024x512 .f32) (main_arg17 : FVec F S512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S256x512 : Shape := ⟨2, ![256, 512]⟩
abbrev S256x1024 : Shape := ⟨2, ![256, 1024]⟩
abbrev S512x4096 : Shape := ⟨2, ![512, 4096]⟩
abbrev S1024x4096 : Shape := ⟨2, ![1024, 4096]⟩
abbrev S4096 : Shape := ⟨1, ![4096]⟩
abbrev S1024x512 : Shape := ⟨2, ![1024, 512]⟩
abbrev S512 : Shape := ⟨1, ![512]⟩
abbrev S1x4096 : Shape := ⟨2, ![1, 4096]⟩
abbrev S256x128 : Shape := ⟨2, ![256, 128]⟩
abbrev S512x128 : Shape := ⟨2, ![512, 128]⟩
abbrev S1024x128 : Shape := ⟨2, ![1024, 128]⟩
abbrev S1x128 : Shape := ⟨2, ![1, 128]⟩
abbrev S1x512 : Shape := ⟨2, ![1, 512]⟩
abbrev S1024x256 : Shape := ⟨2, ![1024, 256]⟩
abbrev S1x256 : Shape := ⟨2, ![1, 256]⟩
abbrev S256x256 : Shape := ⟨2, ![256, 256]⟩

abbrev nBuf : Space → Nat
  | .hbm => 29
  | .vmem => 103
  | .smem => 0
  | _ => 0

abbrev bufTy : (tb : Table) → Fin (tcTables nBuf tb) → BufTy
  | .hbm, ⟨0, _⟩ => ⟨S256x512, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S512x4096, .f32⟩
  | .hbm, ⟨8, _⟩ => ⟨S1024x4096, .f32⟩
  | .hbm, ⟨9, _⟩ => ⟨S4096, .f32⟩
  | .hbm, ⟨10, _⟩ => ⟨S1024x4096, .f32⟩
  | .hbm, ⟨11, _⟩ => ⟨S1024x4096, .f32⟩
  | .hbm, ⟨12, _⟩ => ⟨S4096, .f32⟩
  | .hbm, ⟨13, _⟩ => ⟨S1024x4096, .f32⟩
  | .hbm, ⟨14, _⟩ => ⟨S1024x4096, .f32⟩
  | .hbm, ⟨15, _⟩ => ⟨S4096, .f32⟩
  | .hbm, ⟨16, _⟩ => ⟨S1024x512, .f32⟩
  | .hbm, ⟨17, _⟩ => ⟨S512, .f32⟩
  | .hbm, ⟨18, _⟩ => ⟨S1x4096, .f32⟩
  | .hbm, ⟨19, _⟩ => ⟨S256x1024, .f32⟩
  | .hbm, ⟨20, _⟩ => ⟨S256x1024, .f32⟩
  | .hbm, ⟨21, _⟩ => ⟨S1x4096, .f32⟩
  | .hbm, ⟨22, _⟩ => ⟨S256x1024, .f32⟩
  | .hbm, ⟨23, _⟩ => ⟨S256x1024, .f32⟩
  | .hbm, ⟨24, _⟩ => ⟨S1x4096, .f32⟩
  | .hbm, ⟨25, _⟩ => ⟨S256x1024, .f32⟩
  | .hbm, ⟨26, _⟩ => ⟨S256x1024, .f32⟩
  | .hbm, ⟨27, _⟩ => ⟨S1x512, .f32⟩
  | .hbm, ⟨28, _⟩ => ⟨S256x512, .f32⟩
  | .local _ .vmem, ⟨0, _⟩ => ⟨S256x512, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S256x1024, .f32⟩
  | .local _ .vmem, ⟨33, _⟩ => ⟨S256x1024, .f32⟩
  | .local _ .vmem, ⟨34, _⟩ => ⟨S256x128, .f32⟩
  | .local _ .vmem, ⟨35, _⟩ => ⟨S256x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S1024x128, .f32⟩
  | .local _ .vmem, ⟨42, _⟩ => ⟨S1024x128, .f32⟩
  | .local _ .vmem, ⟨43, _⟩ => ⟨S1024x128, .f32⟩
  | .local _ .vmem, ⟨44, _⟩ => ⟨S1024x128, .f32⟩
  | .local _ .vmem, ⟨45, _⟩ => ⟨S1024x128, .f32⟩
  | .local _ .vmem, ⟨46, _⟩ => ⟨S1024x128, .f32⟩
  | .local _ .vmem, ⟨47, _⟩ => ⟨S1024x128, .f32⟩
  | .local _ .vmem, ⟨48, _⟩ => ⟨S1024x128, .f32⟩
  | .local _ .vmem, ⟨49, _⟩ => ⟨S1024x128, .f32⟩
  | .local _ .vmem, ⟨50, _⟩ => ⟨S1024x128, .f32⟩
  | .local _ .vmem, ⟨51, _⟩ => ⟨S1024x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S256x128, .f32⟩
  | .local _ .vmem, ⟨61, _⟩ => ⟨S256x128, .f32⟩
  | .local _ .vmem, ⟨62, _⟩ => ⟨S256x128, .f32⟩
  | .local _ .vmem, ⟨63, _⟩ => ⟨S256x128, .f32⟩
  | .local _ .vmem, ⟨64, _⟩ => ⟨S256x1024, .f32⟩
  | .local _ .vmem, ⟨65, _⟩ => ⟨S256x1024, .f32⟩
  | .local _ .vmem, ⟨66, _⟩ => ⟨S256x128, .f32⟩
  | .local _ .vmem, ⟨67, _⟩ => ⟨S256x128, .f32⟩
  | .local _ .vmem, ⟨68, _⟩ => ⟨S1024x128, .f32⟩
  | .local _ .vmem, ⟨69, _⟩ => ⟨S1024x128, .f32⟩
  | .local _ .vmem, ⟨70, _⟩ => ⟨S1024x128, .f32⟩
  | .local _ .vmem, ⟨71, _⟩ => ⟨S1024x128, .f32⟩
  | .local _ .vmem, ⟨72, _⟩ => ⟨S1024x128, .f32⟩
  | .local _ .vmem, ⟨73, _⟩ => ⟨S1024x128, .f32⟩
  | .local _ .vmem, ⟨74, _⟩ => ⟨S1024x128, .f32⟩
  | .local _ .vmem, ⟨75, _⟩ => ⟨S1024x128, .f32⟩
  | .local _ .vmem, ⟨76, _⟩ => ⟨S1024x128, .f32⟩
  | .local _ .vmem, ⟨77, _⟩ => ⟨S1024x128, .f32⟩
  | .local _ .vmem, ⟨78, _⟩ => ⟨S1024x128, .f32⟩
  | .local _ .vmem, ⟨79, _⟩ => ⟨S1024x128, .f32⟩
  | .local _ .vmem, ⟨80, _⟩ => ⟨S1024x128, .f32⟩
  | .local _ .vmem, ⟨81, _⟩ => ⟨S1024x128, .f32⟩
  | .local _ .vmem, ⟨82, _⟩ => ⟨S1024x128, .f32⟩
  | .local _ .vmem, ⟨83, _⟩ => ⟨S1024x128, .f32⟩
  | .local _ .vmem, ⟨84, _⟩ => ⟨S1x128, .f32⟩
  | .local _ .vmem, ⟨85, _⟩ => ⟨S1x128, .f32⟩
  | .local _ .vmem, ⟨86, _⟩ => ⟨S1x128, .f32⟩
  | .local _ .vmem, ⟨87, _⟩ => ⟨S1x128, .f32⟩
  | .local _ .vmem, ⟨88, _⟩ => ⟨S1x128, .f32⟩
  | .local _ .vmem, ⟨89, _⟩ => ⟨S1x128, .f32⟩
  | .local _ .vmem, ⟨90, _⟩ => ⟨S1x128, .f32⟩
  | .local _ .vmem, ⟨91, _⟩ => ⟨S1x128, .f32⟩
  | .local _ .vmem, ⟨92, _⟩ => ⟨S256x128, .f32⟩
  | .local _ .vmem, ⟨93, _⟩ => ⟨S256x128, .f32⟩
  | .local _ .vmem, ⟨94, _⟩ => ⟨S256x128, .f32⟩
  | .local _ .vmem, ⟨95, _⟩ => ⟨S256x128, .f32⟩
  | .local _ .vmem, ⟨96, _⟩ => ⟨S256x1024, .f32⟩
  | .local _ .vmem, ⟨97, _⟩ => ⟨S1024x256, .f32⟩
  | .local _ .vmem, ⟨98, _⟩ => ⟨S1024x256, .f32⟩
  | .local _ .vmem, ⟨99, _⟩ => ⟨S1x256, .f32⟩
  | .local _ .vmem, ⟨100, _⟩ => ⟨S1x256, .f32⟩
  | .local _ .vmem, ⟨101, _⟩ => ⟨S256x256, .f32⟩
  | .local _ .vmem, ⟨102, _⟩ => ⟨S256x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | _, _ => false

abbrev semScoped : Fin 0 → Bool
  | ⟨_, h⟩ => absurd h (Nat.not_lt_zero _)

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  ofTc nBuf bufTy 0 103 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1_0 : Ref sig .tc := ⟨.hbm, 19, rfl⟩
abbrev main_v1_1 : Ref sig .tc := ⟨.hbm, 20, rfl⟩
abbrev main_v2 : Ref sig .tc := ⟨.hbm, 21, rfl⟩
abbrev main_v3_0 : Ref sig .tc := ⟨.hbm, 22, rfl⟩
abbrev main_v3_1 : Ref sig .tc := ⟨.hbm, 23, rfl⟩
abbrev main_v4 : Ref sig .tc := ⟨.hbm, 24, rfl⟩
abbrev main_v5_0 : Ref sig .tc := ⟨.hbm, 25, rfl⟩
abbrev main_v5_1 : Ref sig .tc := ⟨.hbm, 26, rfl⟩
abbrev main_v6 : Ref sig .tc := ⟨.hbm, 27, rfl⟩
abbrev main_v7 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc1_stg0_0 : Ref sig .tc := ⟨.vmem, 32, rfl⟩
abbrev cc1_stg1_0 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg3_1 : Ref sig .tc := ⟨.vmem, 37, rfl⟩
abbrev cc1_stg4_0 : Ref sig .tc := ⟨.vmem, 38, rfl⟩
abbrev cc1_stg4_1 : Ref sig .tc := ⟨.vmem, 39, rfl⟩
abbrev cc1_stg5_0 : Ref sig .tc := ⟨.vmem, 40, rfl⟩
abbrev cc1_stg5_1 : Ref sig .tc := ⟨.vmem, 41, rfl⟩
abbrev cc1_stg6_0 : Ref sig .tc := ⟨.vmem, 42, rfl⟩
abbrev cc1_stg6_1 : Ref sig .tc := ⟨.vmem, 43, rfl⟩
abbrev cc1_stg7_0 : Ref sig .tc := ⟨.vmem, 44, rfl⟩
abbrev cc1_stg7_1 : Ref sig .tc := ⟨.vmem, 45, rfl⟩
abbrev cc1_stg8_0 : Ref sig .tc := ⟨.vmem, 46, rfl⟩
abbrev cc1_stg8_1 : Ref sig .tc := ⟨.vmem, 47, rfl⟩
abbrev cc1_stg9_0 : Ref sig .tc := ⟨.vmem, 48, rfl⟩
abbrev cc1_stg9_1 : Ref sig .tc := ⟨.vmem, 49, rfl⟩
abbrev cc1_stg10_0 : Ref sig .tc := ⟨.vmem, 50, rfl⟩
abbrev cc1_stg10_1 : Ref sig .tc := ⟨.vmem, 51, rfl⟩
abbrev cc1_stg11_0 : Ref sig .tc := ⟨.vmem, 52, rfl⟩
abbrev cc1_stg11_1 : Ref sig .tc := ⟨.vmem, 53, rfl⟩
abbrev cc1_stg12_0 : Ref sig .tc := ⟨.vmem, 54, rfl⟩
abbrev cc1_stg12_1 : Ref sig .tc := ⟨.vmem, 55, rfl⟩
abbrev cc1_stg13_0 : Ref sig .tc := ⟨.vmem, 56, rfl⟩
abbrev cc1_stg13_1 : Ref sig .tc := ⟨.vmem, 57, rfl⟩
abbrev cc1_stg14_0 : Ref sig .tc := ⟨.vmem, 58, rfl⟩
abbrev cc1_stg14_1 : Ref sig .tc := ⟨.vmem, 59, rfl⟩
abbrev cc1_stg15_0 : Ref sig .tc := ⟨.vmem, 60, rfl⟩
abbrev cc1_stg15_1 : Ref sig .tc := ⟨.vmem, 61, rfl⟩
abbrev cc1_stg16_0 : Ref sig .tc := ⟨.vmem, 62, rfl⟩
abbrev cc1_stg16_1 : Ref sig .tc := ⟨.vmem, 63, rfl⟩
abbrev cc2_stg0_0 : Ref sig .tc := ⟨.vmem, 64, rfl⟩
abbrev cc2_stg1_0 : Ref sig .tc := ⟨.vmem, 65, rfl⟩
abbrev cc2_stg2_0 : Ref sig .tc := ⟨.vmem, 66, rfl⟩
abbrev cc2_stg2_1 : Ref sig .tc := ⟨.vmem, 67, rfl⟩
abbrev cc2_stg3_0 : Ref sig .tc := ⟨.vmem, 68, rfl⟩
abbrev cc2_stg3_1 : Ref sig .tc := ⟨.vmem, 69, rfl⟩
abbrev cc2_stg4_0 : Ref sig .tc := ⟨.vmem, 70, rfl⟩
abbrev cc2_stg4_1 : Ref sig .tc := ⟨.vmem, 71, rfl⟩
abbrev cc2_stg5_0 : Ref sig .tc := ⟨.vmem, 72, rfl⟩
abbrev cc2_stg5_1 : Ref sig .tc := ⟨.vmem, 73, rfl⟩
abbrev cc2_stg6_0 : Ref sig .tc := ⟨.vmem, 74, rfl⟩
abbrev cc2_stg6_1 : Ref sig .tc := ⟨.vmem, 75, rfl⟩
abbrev cc2_stg7_0 : Ref sig .tc := ⟨.vmem, 76, rfl⟩
abbrev cc2_stg7_1 : Ref sig .tc := ⟨.vmem, 77, rfl⟩
abbrev cc2_stg8_0 : Ref sig .tc := ⟨.vmem, 78, rfl⟩
abbrev cc2_stg8_1 : Ref sig .tc := ⟨.vmem, 79, rfl⟩
abbrev cc2_stg9_0 : Ref sig .tc := ⟨.vmem, 80, rfl⟩
abbrev cc2_stg9_1 : Ref sig .tc := ⟨.vmem, 81, rfl⟩
abbrev cc2_stg10_0 : Ref sig .tc := ⟨.vmem, 82, rfl⟩
abbrev cc2_stg10_1 : Ref sig .tc := ⟨.vmem, 83, rfl⟩
abbrev cc2_stg11_0 : Ref sig .tc := ⟨.vmem, 84, rfl⟩
abbrev cc2_stg11_1 : Ref sig .tc := ⟨.vmem, 85, rfl⟩
abbrev cc2_stg12_0 : Ref sig .tc := ⟨.vmem, 86, rfl⟩
abbrev cc2_stg12_1 : Ref sig .tc := ⟨.vmem, 87, rfl⟩
abbrev cc2_stg13_0 : Ref sig .tc := ⟨.vmem, 88, rfl⟩
abbrev cc2_stg13_1 : Ref sig .tc := ⟨.vmem, 89, rfl⟩
abbrev cc2_stg14_0 : Ref sig .tc := ⟨.vmem, 90, rfl⟩
abbrev cc2_stg14_1 : Ref sig .tc := ⟨.vmem, 91, rfl⟩
abbrev cc2_stg15_0 : Ref sig .tc := ⟨.vmem, 92, rfl⟩
abbrev cc2_stg15_1 : Ref sig .tc := ⟨.vmem, 93, rfl⟩
abbrev cc2_stg16_0 : Ref sig .tc := ⟨.vmem, 94, rfl⟩
abbrev cc2_stg16_1 : Ref sig .tc := ⟨.vmem, 95, rfl⟩
abbrev cc3_stg0_0 : Ref sig .tc := ⟨.vmem, 96, rfl⟩
abbrev cc3_stg1_0 : Ref sig .tc := ⟨.vmem, 97, rfl⟩
abbrev cc3_stg1_1 : Ref sig .tc := ⟨.vmem, 98, rfl⟩
abbrev cc3_stg2_0 : Ref sig .tc := ⟨.vmem, 99, rfl⟩
abbrev cc3_stg2_1 : Ref sig .tc := ⟨.vmem, 100, rfl⟩
abbrev cc3_stg3_0 : Ref sig .tc := ⟨.vmem, 101, rfl⟩
abbrev cc3_stg3_1 : Ref sig .tc := ⟨.vmem, 102, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc1_sem0_0 : DmaSem sig := 32
abbrev cc1_sem1_0 : DmaSem sig := 33
abbrev cc1_sem2_0 : DmaSem sig := 34
abbrev cc1_sem2_1 : DmaSem sig := 35
abbrev cc1_sem3_0 : DmaSem sig := 36
abbrev cc1_sem3_1 : DmaSem sig := 37
abbrev cc1_sem4_0 : DmaSem sig := 38
abbrev cc1_sem4_1 : DmaSem sig := 39
abbrev cc1_sem5_0 : DmaSem sig := 40
abbrev cc1_sem5_1 : DmaSem sig := 41
abbrev cc1_sem6_0 : DmaSem sig := 42
abbrev cc1_sem6_1 : DmaSem sig := 43
abbrev cc1_sem7_0 : DmaSem sig := 44
abbrev cc1_sem7_1 : DmaSem sig := 45
abbrev cc1_sem8_0 : DmaSem sig := 46
abbrev cc1_sem8_1 : DmaSem sig := 47
abbrev cc1_sem9_0 : DmaSem sig := 48
abbrev cc1_sem9_1 : DmaSem sig := 49
abbrev cc1_sem10_0 : DmaSem sig := 50
abbrev cc1_sem10_1 : DmaSem sig := 51
abbrev cc1_sem11_0 : DmaSem sig := 52
abbrev cc1_sem11_1 : DmaSem sig := 53
abbrev cc1_sem12_0 : DmaSem sig := 54
abbrev cc1_sem12_1 : DmaSem sig := 55
abbrev cc1_sem13_0 : DmaSem sig := 56
abbrev cc1_sem13_1 : DmaSem sig := 57
abbrev cc1_sem14_0 : DmaSem sig := 58
abbrev cc1_sem14_1 : DmaSem sig := 59
abbrev cc1_sem15_0 : DmaSem sig := 60
abbrev cc1_sem15_1 : DmaSem sig := 61
abbrev cc1_sem16_0 : DmaSem sig := 62
abbrev cc1_sem16_1 : DmaSem sig := 63
abbrev cc2_sem0_0 : DmaSem sig := 64
abbrev cc2_sem1_0 : DmaSem sig := 65
abbrev cc2_sem2_0 : DmaSem sig := 66
abbrev cc2_sem2_1 : DmaSem sig := 67
abbrev cc2_sem3_0 : DmaSem sig := 68
abbrev cc2_sem3_1 : DmaSem sig := 69
abbrev cc2_sem4_0 : DmaSem sig := 70
abbrev cc2_sem4_1 : DmaSem sig := 71
abbrev cc2_sem5_0 : DmaSem sig := 72
abbrev cc2_sem5_1 : DmaSem sig := 73
abbrev cc2_sem6_0 : DmaSem sig := 74
abbrev cc2_sem6_1 : DmaSem sig := 75
abbrev cc2_sem7_0 : DmaSem sig := 76
abbrev cc2_sem7_1 : DmaSem sig := 77
abbrev cc2_sem8_0 : DmaSem sig := 78
abbrev cc2_sem8_1 : DmaSem sig := 79
abbrev cc2_sem9_0 : DmaSem sig := 80
abbrev cc2_sem9_1 : DmaSem sig := 81
abbrev cc2_sem10_0 : DmaSem sig := 82
abbrev cc2_sem10_1 : DmaSem sig := 83
abbrev cc2_sem11_0 : DmaSem sig := 84
abbrev cc2_sem11_1 : DmaSem sig := 85
abbrev cc2_sem12_0 : DmaSem sig := 86
abbrev cc2_sem12_1 : DmaSem sig := 87
abbrev cc2_sem13_0 : DmaSem sig := 88
abbrev cc2_sem13_1 : DmaSem sig := 89
abbrev cc2_sem14_0 : DmaSem sig := 90
abbrev cc2_sem14_1 : DmaSem sig := 91
abbrev cc2_sem15_0 : DmaSem sig := 92
abbrev cc2_sem15_1 : DmaSem sig := 93
abbrev cc2_sem16_0 : DmaSem sig := 94
abbrev cc2_sem16_1 : DmaSem sig := 95
abbrev cc3_sem0_0 : DmaSem sig := 96
abbrev cc3_sem1_0 : DmaSem sig := 97
abbrev cc3_sem1_1 : DmaSem sig := 98
abbrev cc3_sem2_0 : DmaSem sig := 99
abbrev cc3_sem2_1 : DmaSem sig := 100
abbrev cc3_sem3_0 : DmaSem sig := 101
abbrev cc3_sem3_1 : DmaSem sig := 102

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_4 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc1_transform_7 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_8 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_9 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_10 (i : grid1.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc1_transform_11 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_12 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_13 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_14 (i : grid1.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1024x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S256x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc2_transform_4 (i : grid2.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc2_transform_5 (i : grid2.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc2_transform_6 (i : grid2.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc2_transform_7 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc2_transform_8 (i : grid2.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc2_transform_9 (i : grid2.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc2_transform_10 (i : grid2.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc2_transform_11 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc2_transform_12 (i : grid2.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc2_transform_13 (i : grid2.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc2_transform_14 (i : grid2.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_16 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1024x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1024x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1024x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1024x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S1x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S1x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S1x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S256x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S256x128 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S256x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S4096_S1x4096 : S4096.ShapeCasts S1x4096
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S256x128_S256x128_0_0 : ∀ a, (![0, 0] : Fin 2 → Nat) a + S256x128.size a ≤ S256x128.size a
  h_S256x128 : 0 < S256x128.numel
  inb_S512x128_S512x128_0_0 : ∀ a, (![0, 0] : Fin 2 → Nat) a + S512x128.size a ≤ S512x128.size a
  h_S512x128 : 0 < S512x128.numel
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  shapeCasts_S256x1024_S256x1024 : S256x1024.ShapeCasts S256x1024
  shapeCasts_S512_S1x512 : S512.ShapeCasts S1x512
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x512_S512x128_S256x128_1_0_0_1_n_n_wf : DotDims.WF S256x512 S512x128 S256x128 [1] [0] [0] [1] [] []
  dot_S256x1024_S1024x128_S256x128_1_0_0_1_n_n_wf : DotDims.WF S256x1024 S1024x128 S256x128 [1] [0] [0] [1] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .f32 = 32 ∨ (Rect.block (s := S256x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x1024.size a
  hwx0_2 : ∀ i : grid0.Coords, EltTy.bits .f32 = 32 ∨ (Rect.block (s := S256x1024) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x4096.size a
  hwx0_3 : ∀ i : grid0.Coords, EltTy.bits .f32 = 32 ∨ (Rect.block (s := S512x4096) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x4096.size a
  hwx0_4 : ∀ i : grid0.Coords, EltTy.bits .f32 = 32 ∨ (Rect.block (s := S512x4096) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x4096.size a
  hwx0_5 : ∀ i : grid0.Coords, EltTy.bits .f32 = 32 ∨ (Rect.block (s := S512x4096) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x4096.size a
  hwx0_6 : ∀ i : grid0.Coords, EltTy.bits .f32 = 32 ∨ (Rect.block (s := S512x4096) S512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x4096.size a
  hwx0_7 : ∀ i : grid0.Coords, EltTy.bits .f32 = 32 ∨ (Rect.block (s := S1024x4096) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S1024x4096.size a
  hwx0_8 : ∀ i : grid0.Coords, EltTy.bits .f32 = 32 ∨ (Rect.block (s := S1024x4096) S1024x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S1024x4096.size a
  hwx0_9 : ∀ i : grid0.Coords, EltTy.bits .f32 = 32 ∨ (Rect.block (s := S1024x4096) S1024x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S1024x4096.size a
  hwx0_10 : ∀ i : grid0.Coords, EltTy.bits .f32 = 32 ∨ (Rect.block (s := S1024x4096) S1024x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x4096.size a
  hwx0_11 : ∀ i : grid0.Coords, EltTy.bits .f32 = 32 ∨ (Rect.block (s := S1x4096) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x4096.size a
  hwx0_12 : ∀ i : grid0.Coords, EltTy.bits .f32 = 32 ∨ (Rect.block (s := S1x4096) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x4096.size a
  hwx0_13 : ∀ i : grid0.Coords, EltTy.bits .f32 = 32 ∨ (Rect.block (s := S1x4096) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x4096.size a
  hwx0_14 : ∀ i : grid0.Coords, EltTy.bits .f32 = 32 ∨ (Rect.block (s := S1x4096) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x1024.size a
  hwx0_15 : ∀ i : grid0.Coords, EltTy.bits .f32 = 32 ∨ (Rect.block (s := S256x1024) S256x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x128.size a ≤ S256x1024.size a
  hwx0_16 : ∀ i : grid0.Coords, EltTy.bits .f32 = 32 ∨ (Rect.block (s := S256x1024) S256x128.size (cc0_transform_16 i) (hinb0_16 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S256x1024.size a
  hwx1_0 : ∀ i : grid1.Coords, EltTy.bits .f32 = 32 ∨ (Rect.block (s := S256x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .f32 = 32 ∨ (Rect.block (s := S256x1024) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x1024.size a
  hwx1_2 : ∀ i : grid1.Coords, EltTy.bits .f32 = 32 ∨ (Rect.block (s := S256x1024) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S1024x4096.size a
  hwx1_3 : ∀ i : grid1.Coords, EltTy.bits .f32 = 32 ∨ (Rect.block (s := S1024x4096) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S1024x4096.size a
  hwx1_4 : ∀ i : grid1.Coords, EltTy.bits .f32 = 32 ∨ (Rect.block (s := S1024x4096) S1024x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S1024x4096.size a
  hwx1_5 : ∀ i : grid1.Coords, EltTy.bits .f32 = 32 ∨ (Rect.block (s := S1024x4096) S1024x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S1024x4096.size a
  hwx1_6 : ∀ i : grid1.Coords, EltTy.bits .f32 = 32 ∨ (Rect.block (s := S1024x4096) S1024x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S1024x4096.size a
  hwx1_7 : ∀ i : grid1.Coords, EltTy.bits .f32 = 32 ∨ (Rect.block (s := S1024x4096) S1024x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x128.size a ≤ S1024x4096.size a
  hwx1_8 : ∀ i : grid1.Coords, EltTy.bits .f32 = 32 ∨ (Rect.block (s := S1024x4096) S1024x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x128.size a ≤ S1024x4096.size a
  hwx1_9 : ∀ i : grid1.Coords, EltTy.bits .f32 = 32 ∨ (Rect.block (s := S1024x4096) S1024x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1024x128.size a ≤ S1024x4096.size a
  hwx1_10 : ∀ i : grid1.Coords, EltTy.bits .f32 = 32 ∨ (Rect.block (s := S1024x4096) S1024x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x4096.size a
  hwx1_11 : ∀ i : grid1.Coords, EltTy.bits .f32 = 32 ∨ (Rect.block (s := S1x4096) S1x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x4096.size a
  hwx1_12 : ∀ i : grid1.Coords, EltTy.bits .f32 = 32 ∨ (Rect.block (s := S1x4096) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x4096.size a
  hwx1_13 : ∀ i : grid1.Coords, EltTy.bits .f32 = 32 ∨ (Rect.block (s := S1x4096) S1x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x4096.size a
  hwx1_14 : ∀ i : grid1.Coords, EltTy.bits .f32 = 32 ∨ (Rect.block (s := S1x4096) S1x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S256x128.size a ≤ S256x1024.size a
  hwx1_15 : ∀ i : grid1.Coords, EltTy.bits .f32 = 32 ∨ (Rect.block (s := S256x1024) S256x128.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S256x128.size a ≤ S256x1024.size a
  hwx1_16 : ∀ i : grid1.Coords, EltTy.bits .f32 = 32 ∨ (Rect.block (s := S256x1024) S256x128.size (cc1_transform_16 i) (hinb1_16 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S256x1024.size a
  hwx2_0 : ∀ i : grid2.Coords, EltTy.bits .f32 = 32 ∨ (Rect.block (s := S256x1024) S256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S256x1024.size a
  hwx2_1 : ∀ i : grid2.Coords, EltTy.bits .f32 = 32 ∨ (Rect.block (s := S256x1024) S256x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x1024.size a
  hwx2_2 : ∀ i : grid2.Coords, EltTy.bits .f32 = 32 ∨ (Rect.block (s := S256x1024) S256x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S1024x4096.size a
  hwx2_3 : ∀ i : grid2.Coords, EltTy.bits .f32 = 32 ∨ (Rect.block (s := S1024x4096) S1024x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S1024x4096.size a
  hwx2_4 : ∀ i : grid2.Coords, EltTy.bits .f32 = 32 ∨ (Rect.block (s := S1024x4096) S1024x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x128.size a ≤ S1024x4096.size a
  hwx2_5 : ∀ i : grid2.Coords, EltTy.bits .f32 = 32 ∨ (Rect.block (s := S1024x4096) S1024x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x128.size a ≤ S1024x4096.size a
  hwx2_6 : ∀ i : grid2.Coords, EltTy.bits .f32 = 32 ∨ (Rect.block (s := S1024x4096) S1024x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x128.size a ≤ S1024x4096.size a
  hwx2_7 : ∀ i : grid2.Coords, EltTy.bits .f32 = 32 ∨ (Rect.block (s := S1024x4096) S1024x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x128.size a ≤ S1024x4096.size a
  hwx2_8 : ∀ i : grid2.Coords, EltTy.bits .f32 = 32 ∨ (Rect.block (s := S1024x4096) S1024x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1024x128.size a ≤ S1024x4096.size a
  hwx2_9 : ∀ i : grid2.Coords, EltTy.bits .f32 = 32 ∨ (Rect.block (s := S1024x4096) S1024x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1024x128.size a ≤ S1024x4096.size a
  hwx2_10 : ∀ i : grid2.Coords, EltTy.bits .f32 = 32 ∨ (Rect.block (s := S1024x4096) S1024x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x4096.size a
  hwx2_11 : ∀ i : grid2.Coords, EltTy.bits .f32 = 32 ∨ (Rect.block (s := S1x4096) S1x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x4096.size a
  hwx2_12 : ∀ i : grid2.Coords, EltTy.bits .f32 = 32 ∨ (Rect.block (s := S1x4096) S1x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S1x128.size a ≤ S1x4096.size a
  hwx2_13 : ∀ i : grid2.Coords, EltTy.bits .f32 = 32 ∨ (Rect.block (s := S1x4096) S1x128.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x4096.size a
  hwx2_14 : ∀ i : grid2.Coords, EltTy.bits .f32 = 32 ∨ (Rect.block (s := S1x4096) S1x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S256x128.size a ≤ S256x1024.size a
  hwx2_15 : ∀ i : grid2.Coords, EltTy.bits .f32 = 32 ∨ (Rect.block (s := S256x1024) S256x128.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S256x128.size a ≤ S256x1024.size a
  hwx2_16 : ∀ i : grid2.Coords, EltTy.bits .f32 = 32 ∨ (Rect.block (s := S256x1024) S256x128.size (cc2_transform_16 i) (hinb2_16 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S256x1024.size a
  hwx3_0 : ∀ i : grid3.Coords, EltTy.bits .f32 = 32 ∨ (Rect.block (s := S256x1024) S256x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S1024x512.size a
  hwx3_1 : ∀ i : grid3.Coords, EltTy.bits .f32 = 32 ∨ (Rect.block (s := S1024x512) S1024x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x512.size a
  hwx3_2 : ∀ i : grid3.Coords, EltTy.bits .f32 = 32 ∨ (Rect.block (s := S1x512) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x512.size a
  hwx3_3 : ∀ i : grid3.Coords, EltTy.bits .f32 = 32 ∨ (Rect.block (s := S256x512) S256x256.size (cc3_transform_3 i) (hinb3_3 i)).WholeWords (EltTy.packing .f32)

variable [Facts₀]

def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S512x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1024x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S1024x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S1024x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0) S1x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0) S1x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0) S1x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v1_0) S256x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v1_1) S256x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v1_0) S256x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S1024x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S1024x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S1024x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S1024x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S1024x128.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S1024x128.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_arg11) S1024x128.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v2) S1x128.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_v2) S1x128.size cc1_transform_12 reads1_12 false false 2 stage1_12 sem1_12
    hrank1 hreads1_12 hinb1_12 nbuf1_12 (Memref.isWhole_whole _) hwx1_12 hstage1_12

abbrev win1_13 : Pipeline.Window sig grid1 :=
  Pipeline.Window.ofSpec (Memref.whole main_v2) S1x128.size cc1_transform_13 reads1_13 false false 2 stage1_13 sem1_13
    hrank1 hreads1_13 hinb1_13 nbuf1_13 (Memref.isWhole_whole _) hwx1_13 hstage1_13

abbrev win1_14 : Pipeline.Window sig grid1 :=
  Pipeline.Window.ofSpec (Memref.whole main_v2) S1x128.size cc1_transform_14 reads1_14 false false 2 stage1_14 sem1_14
    hrank1 hreads1_14 hinb1_14 nbuf1_14 (Memref.isWhole_whole _) hwx1_14 hstage1_14

abbrev win1_15 : Pipeline.Window sig grid1 :=
  Pipeline.Window.ofSpec (Memref.whole main_v3_0) S256x128.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v3_1) S256x128.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

abbrev win2_0 : Pipeline.Window sig grid2 :=
  Pipeline.Window.ofSpec (Memref.whole main_v3_0) S256x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S256x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S1024x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S1024x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S1024x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S1024x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S1024x128.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_arg14) S1024x128.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_arg14) S1024x128.size cc2_transform_9 reads2_9 false false 2 stage2_9 sem2_9
    hrank2 hreads2_9 hinb2_9 nbuf2_9 (Memref.isWhole_whole _) hwx2_9 hstage2_9

abbrev win2_10 : Pipeline.Window sig grid2 :=
  Pipeline.Window.ofSpec (Memref.whole main_arg14) S1024x128.size cc2_transform_10 reads2_10 false false 2 stage2_10 sem2_10
    hrank2 hreads2_10 hinb2_10 nbuf2_10 (Memref.isWhole_whole _) hwx2_10 hstage2_10

abbrev win2_11 : Pipeline.Window sig grid2 :=
  Pipeline.Window.ofSpec (Memref.whole main_v4) S1x128.size cc2_transform_11 reads2_11 false false 2 stage2_11 sem2_11
    hrank2 hreads2_11 hinb2_11 nbuf2_11 (Memref.isWhole_whole _) hwx2_11 hstage2_11

abbrev win2_12 : Pipeline.Window sig grid2 :=
  Pipeline.Window.ofSpec (Memref.whole main_v4) S1x128.size cc2_transform_12 reads2_12 false false 2 stage2_12 sem2_12
    hrank2 hreads2_12 hinb2_12 nbuf2_12 (Memref.isWhole_whole _) hwx2_12 hstage2_12

abbrev win2_13 : Pipeline.Window sig grid2 :=
  Pipeline.Window.ofSpec (Memref.whole main_v4) S1x128.size cc2_transform_13 reads2_13 false false 2 stage2_13 sem2_13
    hrank2 hreads2_13 hinb2_13 nbuf2_13 (Memref.isWhole_whole _) hwx2_13 hstage2_13

abbrev win2_14 : Pipeline.Window sig grid2 :=
  Pipeline.Window.ofSpec (Memref.whole main_v4) S1x128.size cc2_transform_14 reads2_14 false false 2 stage2_14 sem2_14
    hrank2 hreads2_14 hinb2_14 nbuf2_14 (Memref.isWhole_whole _) hwx2_14 hstage2_14

abbrev win2_15 : Pipeline.Window sig grid2 :=
  Pipeline.Window.ofSpec (Memref.whole main_v5_0) S256x128.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_v5_1) S256x128.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

abbrev win3_0 : Pipeline.Window sig grid3 :=
  Pipeline.Window.ofSpec (Memref.whole main_v5_0) S256x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg16) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S256x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S256x512 : Shape := ⟨2, ![256, 512]⟩
abbrev S256x1024 : Shape := ⟨2, ![256, 1024]⟩
abbrev S512x4096 : Shape := ⟨2, ![512, 4096]⟩
abbrev S1024x4096 : Shape := ⟨2, ![1024, 4096]⟩
abbrev S4096 : Shape := ⟨1, ![4096]⟩
abbrev S1024x512 : Shape := ⟨2, ![1024, 512]⟩
abbrev S512 : Shape := ⟨1, ![512]⟩
abbrev S256x4096 : Shape := ⟨2, ![256, 4096]⟩
abbrev S1x4096 : Shape := ⟨2, ![1, 4096]⟩
abbrev S_ : Shape := ⟨0, ![]⟩
abbrev S1x512 : Shape := ⟨2, ![1, 512]⟩

abbrev nBuf : Space → Nat
  | .hbm => 142
  | .vmem => 0
  | .smem => 0
  | _ => 0

abbrev hbmTy0_0 (i : Nat) : BufTy := match i % 128 with
  | 0 => ⟨S256x512, .f32⟩
  | 1 => ⟨S256x1024, .f32⟩
  | 2 => ⟨S256x1024, .f32⟩
  | 3 => ⟨S256x1024, .f32⟩
  | 4 => ⟨S256x1024, .f32⟩
  | 5 => ⟨S256x1024, .f32⟩
  | 6 => ⟨S256x1024, .f32⟩
  | 7 => ⟨S512x4096, .f32⟩
  | 8 => ⟨S1024x4096, .f32⟩
  | 9 => ⟨S4096, .f32⟩
  | 10 => ⟨S1024x4096, .f32⟩
  | 11 => ⟨S1024x4096, .f32⟩
  | 12 => ⟨S4096, .f32⟩
  | 13 => ⟨S1024x4096, .f32⟩
  | 14 => ⟨S1024x4096, .f32⟩
  | 15 => ⟨S4096, .f32⟩
  | 16 => ⟨S1024x512, .f32⟩
  | 17 => ⟨S512, .f32⟩
  | 18 => ⟨S256x4096, .f32⟩
  | 19 => ⟨S256x4096, .f32⟩
  | 20 => ⟨S256x4096, .f32⟩
  | 21 => ⟨S1x4096, .f32⟩
  | 22 => ⟨S256x4096, .f32⟩
  | 23 => ⟨S256x4096, .f32⟩
  | 24 => ⟨S256x1024, .f32⟩
  | 25 => ⟨S256x1024, .f32⟩
  | 26 => ⟨S256x1024, .f32⟩
  | 27 => ⟨S256x1024, .f32⟩
  | 28 => ⟨S256x1024, .f32⟩
  | 29 => ⟨S256x1024, .f32⟩
  | 30 => ⟨S_, .f32⟩
  | 31 => ⟨S256x1024, .f32⟩
  | 32 => ⟨S256x1024, .f32⟩
  | 33 => ⟨S_, .f32⟩
  | 34 => ⟨S256x1024, .f32⟩
  | 35 => ⟨S256x1024, .f32⟩
  | 36 => ⟨S256x1024, .f32⟩
  | 37 => ⟨S256x1024, .f32⟩
  | 38 => ⟨S_, .f32⟩
  | 39 => ⟨S256x1024, .f32⟩
  | 40 => ⟨S256x1024, .f32⟩
  | 41 => ⟨S_, .f32⟩
  | 42 => ⟨S256x1024, .f32⟩
  | 43 => ⟨S256x1024, .f32⟩
  | 44 => ⟨S256x1024, .f32⟩
  | 45 => ⟨S256x1024, .f32⟩
  | 46 => ⟨S256x1024, .f32⟩
  | 47 => ⟨S_, .f32⟩
  | 48 => ⟨S256x1024, .f32⟩
  | 49 => ⟨S256x1024, .f32⟩
  | 50 => ⟨S_, .f32⟩
  | 51 => ⟨S256x1024, .f32⟩
  | 52 => ⟨S256x1024, .f32⟩
  | 53 => ⟨S256x1024, .f32⟩
  | 54 => ⟨S256x1024, .f32⟩
  | 55 => ⟨S256x1024, .f32⟩
  | 56 => ⟨S256x1024, .f32⟩
  | 57 => ⟨S256x1024, .f32⟩
  | 58 => ⟨S256x4096, .f32⟩
  | 59 => ⟨S256x4096, .f32⟩
  | 60 => ⟨S256x4096, .f32⟩
  | 61 => ⟨S1x4096, .f32⟩
  | 62 => ⟨S256x4096, .f32⟩
  | 63 => ⟨S256x4096, .f32⟩
  | 64 => ⟨S256x1024, .f32⟩
  | 65 => ⟨S256x1024, .f32⟩
  | 66 => ⟨S256x1024, .f32⟩
  | 67 => ⟨S256x1024, .f32⟩
  | 68 => ⟨S256x1024, .f32⟩
  | 69 => ⟨S256x1024, .f32⟩
  | 70 => ⟨S_, .f32⟩
  | 71 => ⟨S256x1024, .f32⟩
  | 72 => ⟨S256x1024, .f32⟩
  | 73 => ⟨S_, .f32⟩
  | 74 => ⟨S256x1024, .f32⟩
  | 75 => ⟨S256x1024, .f32⟩
  | 76 => ⟨S256x1024, .f32⟩
  | 77 => ⟨S256x1024, .f32⟩
  | 78 => ⟨S_, .f32⟩
  | 79 => ⟨S256x1024, .f32⟩
  | 80 => ⟨S256x1024, .f32⟩
  | 81 => ⟨S_, .f32⟩
  | 82 => ⟨S256x1024, .f32⟩
  | 83 => ⟨S256x1024, .f32⟩
  | 84 => ⟨S256x1024, .f32⟩
  | 85 => ⟨S256x1024, .f32⟩
  | 86 => ⟨S256x1024, .f32⟩
  | 87 => ⟨S_, .f32⟩
  | 88 => ⟨S256x1024, .f32⟩
  | 89 => ⟨S256x1024, .f32⟩
  | 90 => ⟨S_, .f32⟩
  | 91 => ⟨S256x1024, .f32⟩
  | 92 => ⟨S256x1024, .f32⟩
  | 93 => ⟨S256x1024, .f32⟩
  | 94 => ⟨S256x1024, .f32⟩
  | 95 => ⟨S256x1024, .f32⟩
  | 96 => ⟨S256x1024, .f32⟩
  | 97 => ⟨S256x1024, .f32⟩
  | 98 => ⟨S256x4096, .f32⟩
  | 99 => ⟨S256x4096, .f32⟩
  | 100 => ⟨S256x4096, .f32⟩
  | 101 => ⟨S1x4096, .f32⟩
  | 102 => ⟨S256x4096, .f32⟩
  | 103 => ⟨S256x4096, .f32⟩
  | 104 => ⟨S256x1024, .f32⟩
  | 105 => ⟨S256x1024, .f32⟩
  | 106 => ⟨S256x1024, .f32⟩
  | 107 => ⟨S256x1024, .f32⟩
  | 108 => ⟨S256x1024, .f32⟩
  | 109 => ⟨S256x1024, .f32⟩
  | 110 => ⟨S_, .f32⟩
  | 111 => ⟨S256x1024, .f32⟩
  | 112 => ⟨S256x1024, .f32⟩
  | 113 => ⟨S_, .f32⟩
  | 114 => ⟨S256x1024, .f32⟩
  | 115 => ⟨S256x1024, .f32⟩
  | 116 => ⟨S256x1024, .f32⟩
  | 117 => ⟨S256x1024, .f32⟩
  | 118 => ⟨S_, .f32⟩
  | 119 => ⟨S256x1024, .f32⟩
  | 120 => ⟨S256x1024, .f32⟩
  | 121 => ⟨S_, .f32⟩
  | 122 => ⟨S256x1024, .f32⟩
  | 123 => ⟨S256x1024, .f32⟩
  | 124 => ⟨S256x1024, .f32⟩
  | 125 => ⟨S256x1024, .f32⟩
  | 126 => ⟨S256x1024, .f32⟩
  | 127 => ⟨S_, .f32⟩
  | _ => ⟨S256x512, .f32⟩

abbrev hbmTy0_1 (i : Nat) : BufTy := match i % 128 with
  | 0 => ⟨S256x1024, .f32⟩
  | 1 => ⟨S256x1024, .f32⟩
  | 2 => ⟨S_, .f32⟩
  | 3 => ⟨S256x1024, .f32⟩
  | 4 => ⟨S256x1024, .f32⟩
  | 5 => ⟨S256x1024, .f32⟩
  | 6 => ⟨S256x1024, .f32⟩
  | 7 => ⟨S256x1024, .f32⟩
  | 8 => ⟨S256x1024, .f32⟩
  | 9 => ⟨S256x1024, .f32⟩
  | 10 => ⟨S256x512, .f32⟩
  | 11 => ⟨S1x512, .f32⟩
  | 12 => ⟨S256x512, .f32⟩
  | 13 => ⟨S256x512, .f32⟩
  | _ => ⟨S256x512, .f32⟩

abbrev hbmTy (i : Nat) : BufTy := match i / 128 with
  | 0 => hbmTy0_0 i
  | 1 => hbmTy0_1 i
  | _ => ⟨S256x512, .f32⟩

abbrev bufTy : (tb : Table) → Fin (tcTables nBuf tb) → BufTy
  | .hbm, ⟨i, _⟩ => hbmTy i
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_11 : Ref sig .tc := ⟨.hbm, 110, rfl⟩
abbrev main_v80 : Ref sig .tc := ⟨.hbm, 111, rfl⟩
abbrev main_v81 : Ref sig .tc := ⟨.hbm, 112, rfl⟩
abbrev main_cst_12 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_13 : Ref sig .tc := ⟨.hbm, 118, rfl⟩
abbrev main_v86 : Ref sig .tc := ⟨.hbm, 119, rfl⟩
abbrev main_v87 : Ref sig .tc := ⟨.hbm, 120, rfl⟩
abbrev main_cst_14 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_15 : Ref sig .tc := ⟨.hbm, 127, rfl⟩
abbrev main_v93 : Ref sig .tc := ⟨.hbm, 128, rfl⟩
abbrev main_v94 : Ref sig .tc := ⟨.hbm, 129, rfl⟩
abbrev main_cst_16 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  slices_S256x4096_S256x1024_0_0 : S256x4096.Slices ![0, 0] S256x1024
  slices_S256x4096_S256x1024_0_1024 : S256x4096.Slices ![0, 1024] S256x1024
  slices_S256x4096_S256x1024_0_2048 : S256x4096.Slices ![0, 2048] S256x1024
  slices_S256x4096_S256x1024_0_3072 : S256x4096.Slices ![0, 3072] S256x1024
  bcast_S_S256x1024 : S_.BroadcastsInDim S256x1024 (![] : Fin 0 → Fin S256x1024.rank)
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  dot_S256x512_S512x4096_S256x4096_1_0_0_1_n_n_wf : DotDims.WF S256x512 S512x4096 S256x4096 [1] [0] [0] [1] [] []
  dot_S256x1024_S1024x4096_S256x4096_1_0_0_1_n_n_wf : DotDims.WF S256x1024 S1024x4096 S256x4096 [1] [0] [0] [1] [] []
  dot_S256x1024_S1024x512_S256x512_1_0_0_1_n_n_wf : DotDims.WF S256x1024 S1024x512 S256x512 [1] [0] [0] [1] [] []

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

class Facts : Prop extends Facts₀ where

variable [Facts]
-- ==== Proof.KernelFrame.Body0.lean ====
/-
  The first LSTM cell's kernel body, run once on whole staging buffers: from the fifteen input blocks
  (the rows of the layer's input and of its previous hidden state, the tile of the cell state, and per
  gate the tile of the input weights, of the recurrent weights and of the bias row) it leaves the tile
  of the new hidden state in the sixteenth buffer and the tile of the new cell state in the
  seventeenth, the inputs untouched. Every load and every store is of a whole buffer.
-/
import proofs.«137003_j53412213293363_2_alg».proof.Proof.Gen.Kernel.Launch
import proofs.«137003_j53412213293363_2_alg».proof.Proof.Gen.Kernel.Skeleton
import proofs.«137003_j53412213293363_2_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev r0_x : Rect S256x512 := Rect.unit (s := S256x512) ![0, 0] S256x512.size inb_S256x512_S256x512_0_0
abbrev r0_h : Rect S256x1024 := Rect.unit (s := S256x1024) ![0, 0] S256x1024.size inb_S256x1024_S256x1024_0_0
abbrev r0_t : Rect S256x128 := Rect.unit (s := S256x128) ![0, 0] S256x128.size inb_S256x128_S256x128_0_0
abbrev r0_w : Rect S512x128 := Rect.unit (s := S512x128) ![0, 0] S512x128.size inb_S512x128_S512x128_0_0
abbrev r0_u : Rect S1024x128 := Rect.unit (s := S1024x128) ![0, 0] S1024x128.size inb_S1024x128_S1024x128_0_0
abbrev r0_b : Rect S1x128 := Rect.unit (s := S1x128) ![0, 0] S1x128.size inb_S1x128_S1x128_0_0

/-! ## What the body leaves in the two output buffers -/

/-- The new hidden state's tile, from the fifteen input blocks: the body's one store into that buffer. -/
def out0_15 (x0 : Vec F S256x512 .f32) (x1 : Vec F S256x1024 .f32) (x2 : Vec F S256x128 .f32) (x3 : Vec F S512x128 .f32) (x4 : Vec F S512x128 .f32) (x5 : Vec F S512x128 .f32) (x6 : Vec F S512x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) (x14 : Vec F S1x128 .f32) : Vec F S256x128 .f32 :=
  View.canon [⟨r0_t, k0_pay2 (k0_pay3 (View.ld x0 r0_x)) (k0_pay4 (View.ld x1 r0_h)) (View.ld x2 r0_t) (k0_pay5 (View.ld x0 r0_x) (View.ld x1 r0_h) (View.ld x3 r0_w) (View.ld x7 r0_u) (View.ld x11 r0_b)) (k0_pay6 (View.ld x0 r0_x) (View.ld x1 r0_h) (View.ld x4 r0_w) (View.ld x8 r0_u) (View.ld x12 r0_b)) (k0_pay7 (View.ld x5 r0_w)) (k0_pay8 (View.ld x9 r0_u)) (View.ld x13 r0_b) (View.ld x6 r0_w) (View.ld x10 r0_u) (View.ld x14 r0_b)⟩]

/-- The new cell state's tile, from the blocks it depends on (the output gate's are not among them). -/
def out0_16 (x0 : Vec F S256x512 .f32) (x1 : Vec F S256x1024 .f32) (x2 : Vec F S256x128 .f32) (x3 : Vec F S512x128 .f32) (x4 : Vec F S512x128 .f32) (x5 : Vec F S512x128 .f32) (x6 : Vec F S512x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) : Vec F S256x128 .f32 :=
  View.canon [⟨r0_t, k0_pay1 (k0_pay3 (View.ld x0 r0_x)) (k0_pay4 (View.ld x1 r0_h)) (View.ld x2 r0_t) (k0_pay5 (View.ld x0 r0_x) (View.ld x1 r0_h) (View.ld x3 r0_w) (View.ld x7 r0_u) (View.ld x11 r0_b)) (k0_pay6 (View.ld x0 r0_x) (View.ld x1 r0_h) (View.ld x4 r0_w) (View.ld x8 r0_u) (View.ld x12 r0_b)) (k0_pay7 (View.ld x5 r0_w)) (k0_pay8 (View.ld x9 r0_u)) (View.ld x13 r0_b)⟩]

/-- One store of the whole tile covers the buffer. -/
theorem cover0_t (p0 : Vec F S256x128 .f32) (y : S256x128.Idx) :
    ∃ pc ∈ ([⟨r0_t, p0⟩] : List (View.Piece (Elt F) S256x128 .f32)), y ∈ pc.1.set :=
  View.cover_of_tiled [⟨r0_t, p0⟩] S256x128.size (by rfl) y

/-! ## The body's triple -/

set_option maxHeartbeats 4000000 in
/-- The kernel body on whole staging memrefs, the inputs' at contents `xW` and the outputs' at anything, runs to the
    continuation holding the inputs' as they were and the two outputs' at `out0_15`, `out0_16` of the inputs'. -/
theorem sound_kernel0 (c : Dev nD) (E : Set ℕ) (i : grid0.Coords) (arg1 : Memref sig .tc .vmem S256x512 .f32) (harg1 : arg1.IsWhole) (arg2 : Memref sig .tc .vmem S256x1024 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S256x128 .f32) (harg16 : arg16.IsWhole) (arg17 : Memref sig .tc .vmem S256x128 .f32) (harg17 : arg17.IsWhole)
    (x0 : Vec F S256x512 .f32) (x1 : Vec F S256x1024 .f32) (x2 : Vec F S256x128 .f32) (x3 : Vec F S512x128 .f32) (x4 : Vec F S512x128 .f32) (x5 : Vec F S512x128 .f32) (x6 : Vec F S512x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14) ∗ owns (c : Thread nD τ) arg17 fullShare (out0_16 x0 x1 x2 x3 x4 x5 x6 x7 x8 x9 x10 x11 x12 x13)) -∗ K ⟨⟩))
      ⊢ wp frame (wpE (defs₀ (F := F)) Variants.none c none) E (cc0__lstm_cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__lstm_cell_kernel_eq_skeleton]; unfold cc0__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover0_t _)
  iexists _; isplitr
  swap; · iexact H16
  ipureintro
  exact View.read_writes_eq_canon _ _ _ (cover0_t _)

end Cert.Kernel.Hand

end
-- ==== Proof.KernelFrame.Dat0.lean ====
/-
  The proof data of the first LSTM cell's pipeline: what each window's staging buffer holds
  when the body runs at a grid point and what the body leaves there, as functions of the arrays the
  region finds. An input window's buffer holds its block of the array at every point, whether the
  block was fetched there or earlier; the two output buffers are left at the body's results on the
  fifteen input blocks. The weight matrix, the recurrent matrix and the bias row are each read through
  four windows, one per gate: each of those windows holds its array at a quarter of the full share.
-/
import proofs.«137003_j53412213293363_2_alg».proof.Proof.KernelFrame.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's current staging buffer holds its block at every point, fetched there or not. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The share of its array each window holds: a quarter for the four gate windows on one array, all of it otherwise. -/
def q0 : Fin cfg0.W → PosShare TreeShare
  | ⟨0, _⟩ => fullShare
  | ⟨1, _⟩ => fullShare
  | ⟨2, _⟩ => fullShare
  | ⟨3, _⟩ => fullShare.left.left
  | ⟨4, _⟩ => fullShare.left.right
  | ⟨5, _⟩ => fullShare.right.left
  | ⟨6, _⟩ => fullShare.right.right
  | ⟨7, _⟩ => fullShare.left.left
  | ⟨8, _⟩ => fullShare.left.right
  | ⟨9, _⟩ => fullShare.right.left
  | ⟨10, _⟩ => fullShare.right.right
  | ⟨11, _⟩ => fullShare.left.left
  | ⟨12, _⟩ => fullShare.left.right
  | ⟨13, _⟩ => fullShare.right.left
  | ⟨14, _⟩ => fullShare.right.right
  | ⟨15, _⟩ => fullShare
  | ⟨16, _⟩ => fullShare
  | ⟨_ + 17, h⟩ => absurd h (Nat.not_lt.2 (Nat.le_add_left _ _))

/-- The proof data of pipeline 0 on core `c`: the arrays as the region finds them; after the body at point `t` each
    input's buffer at its block and each output's at the body's result on the input blocks; the invariant the scoped
    buffers no window stages and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 17, h⟩ => absurd h (Nat.not_lt.2 (Nat.le_add_left _ _))
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel0 c Set.univ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelFrame.Body1.lean ====
/-
  The second LSTM cell's kernel body, run once on whole staging buffers: from the fifteen input blocks
  (the rows of the layer's input and of its previous hidden state, the tile of the cell state, and per
  gate the tile of the input weights, of the recurrent weights and of the bias row) it leaves the tile
  of the new hidden state in the sixteenth buffer and the tile of the new cell state in the
  seventeenth, the inputs untouched. Every load and every store is of a whole buffer.
-/
import proofs.«137003_j53412213293363_2_alg».proof.Proof.Gen.Kernel.Launch
import proofs.«137003_j53412213293363_2_alg».proof.Proof.Gen.Kernel.Skeleton
import proofs.«137003_j53412213293363_2_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev r1_x : Rect S256x1024 := Rect.unit (s := S256x1024) ![0, 0] S256x1024.size inb_S256x1024_S256x1024_0_0
abbrev r1_h : Rect S256x1024 := Rect.unit (s := S256x1024) ![0, 0] S256x1024.size inb_S256x1024_S256x1024_0_0
abbrev r1_t : Rect S256x128 := Rect.unit (s := S256x128) ![0, 0] S256x128.size inb_S256x128_S256x128_0_0
abbrev r1_w : Rect S1024x128 := Rect.unit (s := S1024x128) ![0, 0] S1024x128.size inb_S1024x128_S1024x128_0_0
abbrev r1_u : Rect S1024x128 := Rect.unit (s := S1024x128) ![0, 0] S1024x128.size inb_S1024x128_S1024x128_0_0
abbrev r1_b : Rect S1x128 := Rect.unit (s := S1x128) ![0, 0] S1x128.size inb_S1x128_S1x128_0_0

/-! ## What the body leaves in the two output buffers -/

/-- The new hidden state's tile, from the fifteen input blocks: the body's one store into that buffer. -/
def out1_15 (x0 : Vec F S256x1024 .f32) (x1 : Vec F S256x1024 .f32) (x2 : Vec F S256x128 .f32) (x3 : Vec F S1024x128 .f32) (x4 : Vec F S1024x128 .f32) (x5 : Vec F S1024x128 .f32) (x6 : Vec F S1024x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) (x14 : Vec F S1x128 .f32) : Vec F S256x128 .f32 :=
  View.canon [⟨r1_t, k1_pay2 (k1_pay3 (View.ld x0 r1_x)) (k1_pay4 (View.ld x1 r1_h)) (View.ld x2 r1_t) (k1_pay5 (View.ld x0 r1_x) (View.ld x1 r1_h) (View.ld x3 r1_w) (View.ld x7 r1_u) (View.ld x11 r1_b)) (k1_pay6 (View.ld x0 r1_x) (View.ld x1 r1_h) (View.ld x4 r1_w) (View.ld x8 r1_u) (View.ld x12 r1_b)) (k1_pay7 (View.ld x5 r1_w)) (k1_pay8 (View.ld x9 r1_u)) (View.ld x13 r1_b) (View.ld x6 r1_w) (View.ld x10 r1_u) (View.ld x14 r1_b)⟩]

/-- The new cell state's tile, from the blocks it depends on (the output gate's are not among them). -/
def out1_16 (x0 : Vec F S256x1024 .f32) (x1 : Vec F S256x1024 .f32) (x2 : Vec F S256x128 .f32) (x3 : Vec F S1024x128 .f32) (x4 : Vec F S1024x128 .f32) (x5 : Vec F S1024x128 .f32) (x6 : Vec F S1024x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) : Vec F S256x128 .f32 :=
  View.canon [⟨r1_t, k1_pay1 (k1_pay3 (View.ld x0 r1_x)) (k1_pay4 (View.ld x1 r1_h)) (View.ld x2 r1_t) (k1_pay5 (View.ld x0 r1_x) (View.ld x1 r1_h) (View.ld x3 r1_w) (View.ld x7 r1_u) (View.ld x11 r1_b)) (k1_pay6 (View.ld x0 r1_x) (View.ld x1 r1_h) (View.ld x4 r1_w) (View.ld x8 r1_u) (View.ld x12 r1_b)) (k1_pay7 (View.ld x5 r1_w)) (k1_pay8 (View.ld x9 r1_u)) (View.ld x13 r1_b)⟩]

/-- One store of the whole tile covers the buffer. -/
theorem cover1_t (p0 : Vec F S256x128 .f32) (y : S256x128.Idx) :
    ∃ pc ∈ ([⟨r1_t, p0⟩] : List (View.Piece (Elt F) S256x128 .f32)), y ∈ pc.1.set :=
  View.cover_of_tiled [⟨r1_t, p0⟩] S256x128.size (by rfl) y

/-! ## The body's triple -/

set_option maxHeartbeats 4000000 in
/-- The kernel body on whole staging memrefs, the inputs' at contents `xW` and the outputs' at anything, runs to the
    continuation holding the inputs' as they were and the two outputs' at `out1_15`, `out1_16` of the inputs'. -/
theorem sound_kernel1 (c : Dev nD) (E : Set ℕ) (i : grid1.Coords) (arg1 : Memref sig .tc .vmem S256x1024 .f32) (harg1 : arg1.IsWhole) (arg2 : Memref sig .tc .vmem S256x1024 .f32) (harg2 : arg2.IsWhole) (arg3 : Memref sig .tc .vmem S256x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S256x128 .f32) (harg16 : arg16.IsWhole) (arg17 : Memref sig .tc .vmem S256x128 .f32) (harg17 : arg17.IsWhole)
    (x0 : Vec F S256x1024 .f32) (x1 : Vec F S256x1024 .f32) (x2 : Vec F S256x128 .f32) (x3 : Vec F S1024x128 .f32) (x4 : Vec F S1024x128 .f32) (x5 : Vec F S1024x128 .f32) (x6 : Vec F S1024x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out1_15 x0 x1 x2 x3 x4 x5 x6 x7 x8 x9 x10 x11 x12 x13 x14) ∗ owns (c : Thread nD τ) arg17 fullShare (out1_16 x0 x1 x2 x3 x4 x5 x6 x7 x8 x9 x10 x11 x12 x13)) -∗ K ⟨⟩))
      ⊢ wp frame (wpE (defs₀ (F := F)) Variants.none c none) E (cc1__lstm_cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__lstm_cell_kernel_eq_skeleton]; unfold cc1__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover1_t _)
  iexists _; isplitr
  swap; · iexact H16
  ipureintro
  exact View.read_writes_eq_canon _ _ _ (cover1_t _)

end Cert.Kernel.Hand

end
-- ==== Proof.KernelFrame.Dat1.lean ====
/-
  The proof data of the second LSTM cell's pipeline: what each window's staging buffer holds
  when the body runs at a grid point and what the body leaves there, as functions of the arrays the
  region finds. An input window's buffer holds its block of the array at every point, whether the
  block was fetched there or earlier; the two output buffers are left at the body's results on the
  fifteen input blocks. The weight matrix, the recurrent matrix and the bias row are each read through
  four windows, one per gate: each of those windows holds its array at a quarter of the full share.
-/
import proofs.«137003_j53412213293363_2_alg».proof.Proof.KernelFrame.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's current staging buffer holds its block at every point, fetched there or not. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- The share of its array each window holds: a quarter for the four gate windows on one array, all of it otherwise. -/
def q1 : Fin cfg1.W → PosShare TreeShare
  | ⟨0, _⟩ => fullShare
  | ⟨1, _⟩ => fullShare
  | ⟨2, _⟩ => fullShare
  | ⟨3, _⟩ => fullShare.left.left
  | ⟨4, _⟩ => fullShare.left.right
  | ⟨5, _⟩ => fullShare.right.left
  | ⟨6, _⟩ => fullShare.right.right
  | ⟨7, _⟩ => fullShare.left.left
  | ⟨8, _⟩ => fullShare.left.right
  | ⟨9, _⟩ => fullShare.right.left
  | ⟨10, _⟩ => fullShare.right.right
  | ⟨11, _⟩ => fullShare.left.left
  | ⟨12, _⟩ => fullShare.left.right
  | ⟨13, _⟩ => fullShare.right.left
  | ⟨14, _⟩ => fullShare.right.right
  | ⟨15, _⟩ => fullShare
  | ⟨16, _⟩ => fullShare
  | ⟨_ + 17, h⟩ => absurd h (Nat.not_lt.2 (Nat.le_add_left _ _))

/-- The proof data of pipeline 1 on core `c`: the arrays as the region finds them; after the body at point `t` each
    input's buffer at its block and each output's at the body's result on the input blocks; the invariant the scoped
    buffers no window stages and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
    | ⟨_ + 17, h⟩ => absurd h (Nat.not_lt.2 (Nat.le_add_left _ _))
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel1 c Set.univ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelFrame.Body2.lean ====
/-
  The third LSTM cell's kernel body, run once on whole staging buffers: from the fifteen input blocks
  (the rows of the layer's input and of its previous hidden state, the tile of the cell state, and per
  gate the tile of the input weights, of the recurrent weights and of the bias row) it leaves the tile
  of the new hidden state in the sixteenth buffer and the tile of the new cell state in the
  seventeenth, the inputs untouched. Every load and every store is of a whole buffer.
-/
import proofs.«137003_j53412213293363_2_alg».proof.Proof.Gen.Kernel.Launch
import proofs.«137003_j53412213293363_2_alg».proof.Proof.Gen.Kernel.Skeleton
import proofs.«137003_j53412213293363_2_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev r2_x : Rect S256x1024 := Rect.unit (s := S256x1024) ![0, 0] S256x1024.size inb_S256x1024_S256x1024_0_0
abbrev r2_h : Rect S256x1024 := Rect.unit (s := S256x1024) ![0, 0] S256x1024.size inb_S256x1024_S256x1024_0_0
abbrev r2_t : Rect S256x128 := Rect.unit (s := S256x128) ![0, 0] S256x128.size inb_S256x128_S256x128_0_0
abbrev r2_w : Rect S1024x128 := Rect.unit (s := S1024x128) ![0, 0] S1024x128.size inb_S1024x128_S1024x128_0_0
abbrev r2_u : Rect S1024x128 := Rect.unit (s := S1024x128) ![0, 0] S1024x128.size inb_S1024x128_S1024x128_0_0
abbrev r2_b : Rect S1x128 := Rect.unit (s := S1x128) ![0, 0] S1x128.size inb_S1x128_S1x128_0_0

/-! ## What the body leaves in the two output buffers -/

/-- The new hidden state's tile, from the fifteen input blocks: the body's one store into that buffer. -/
def out2_15 (x0 : Vec F S256x1024 .f32) (x1 : Vec F S256x1024 .f32) (x2 : Vec F S256x128 .f32) (x3 : Vec F S1024x128 .f32) (x4 : Vec F S1024x128 .f32) (x5 : Vec F S1024x128 .f32) (x6 : Vec F S1024x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) (x14 : Vec F S1x128 .f32) : Vec F S256x128 .f32 :=
  View.canon [⟨r2_t, k2_pay2 (k2_pay3 (View.ld x0 r2_x)) (k2_pay4 (View.ld x1 r2_h)) (View.ld x2 r2_t) (k2_pay5 (View.ld x0 r2_x) (View.ld x1 r2_h) (View.ld x3 r2_w) (View.ld x7 r2_u) (View.ld x11 r2_b)) (k2_pay6 (View.ld x0 r2_x) (View.ld x1 r2_h) (View.ld x4 r2_w) (View.ld x8 r2_u) (View.ld x12 r2_b)) (k2_pay7 (View.ld x5 r2_w)) (k2_pay8 (View.ld x9 r2_u)) (View.ld x13 r2_b) (View.ld x6 r2_w) (View.ld x10 r2_u) (View.ld x14 r2_b)⟩]

/-- The new cell state's tile, from the blocks it depends on (the output gate's are not among them). -/
def out2_16 (x0 : Vec F S256x1024 .f32) (x1 : Vec F S256x1024 .f32) (x2 : Vec F S256x128 .f32) (x3 : Vec F S1024x128 .f32) (x4 : Vec F S1024x128 .f32) (x5 : Vec F S1024x128 .f32) (x6 : Vec F S1024x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) : Vec F S256x128 .f32 :=
  View.canon [⟨r2_t, k2_pay1 (k2_pay3 (View.ld x0 r2_x)) (k2_pay4 (View.ld x1 r2_h)) (View.ld x2 r2_t) (k2_pay5 (View.ld x0 r2_x) (View.ld x1 r2_h) (View.ld x3 r2_w) (View.ld x7 r2_u) (View.ld x11 r2_b)) (k2_pay6 (View.ld x0 r2_x) (View.ld x1 r2_h) (View.ld x4 r2_w) (View.ld x8 r2_u) (View.ld x12 r2_b)) (k2_pay7 (View.ld x5 r2_w)) (k2_pay8 (View.ld x9 r2_u)) (View.ld x13 r2_b)⟩]

/-- One store of the whole tile covers the buffer. -/
theorem cover2_t (p0 : Vec F S256x128 .f32) (y : S256x128.Idx) :
    ∃ pc ∈ ([⟨r2_t, p0⟩] : List (View.Piece (Elt F) S256x128 .f32)), y ∈ pc.1.set :=
  View.cover_of_tiled [⟨r2_t, p0⟩] S256x128.size (by rfl) y

/-! ## The body's triple -/

set_option maxHeartbeats 4000000 in
/-- The kernel body on whole staging memrefs, the inputs' at contents `xW` and the outputs' at anything, runs to the
    continuation holding the inputs' as they were and the two outputs' at `out2_15`, `out2_16` of the inputs'. -/
theorem sound_kernel2 (c : Dev nD) (E : Set ℕ) (i : grid2.Coords) (arg1 : Memref sig .tc .vmem S256x1024 .f32) (harg1 : arg1.IsWhole) (arg2 : Memref sig .tc .vmem S256x1024 .f32) (harg2 : arg2.IsWhole) (arg3 : Memref sig .tc .vmem S256x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S256x128 .f32) (harg16 : arg16.IsWhole) (arg17 : Memref sig .tc .vmem S256x128 .f32) (harg17 : arg17.IsWhole)
    (x0 : Vec F S256x1024 .f32) (x1 : Vec F S256x1024 .f32) (x2 : Vec F S256x128 .f32) (x3 : Vec F S1024x128 .f32) (x4 : Vec F S1024x128 .f32) (x5 : Vec F S1024x128 .f32) (x6 : Vec F S1024x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out2_15 x0 x1 x2 x3 x4 x5 x6 x7 x8 x9 x10 x11 x12 x13 x14) ∗ owns (c : Thread nD τ) arg17 fullShare (out2_16 x0 x1 x2 x3 x4 x5 x6 x7 x8 x9 x10 x11 x12 x13)) -∗ K ⟨⟩))
      ⊢ wp frame (wpE (defs₀ (F := F)) Variants.none c none) E (cc2__lstm_cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2__lstm_cell_kernel_eq_skeleton]; unfold cc2__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover2_t _)
  iexists _; isplitr
  swap; · iexact H16
  ipureintro
  exact View.read_writes_eq_canon _ _ _ (cover2_t _)

end Cert.Kernel.Hand

end
-- ==== Proof.KernelFrame.Dat2.lean ====
/-
  The proof data of the third LSTM cell's pipeline: what each window's staging buffer holds
  when the body runs at a grid point and what the body leaves there, as functions of the arrays the
  region finds. An input window's buffer holds its block of the array at every point, whether the
  block was fetched there or earlier; the two output buffers are left at the body's results on the
  fifteen input blocks. The weight matrix, the recurrent matrix and the bias row are each read through
  four windows, one per gate: each of those windows holds its array at a quarter of the full share.
-/
import proofs.«137003_j53412213293363_2_alg».proof.Proof.KernelFrame.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's current staging buffer holds its block at every point, fetched there or not. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- Input window 13's current staging buffer holds its block at every point, fetched there or not. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
/-- Input window 14's current staging buffer holds its block at every point, fetched there or not. -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The share of its array each window holds: a quarter for the four gate windows on one array, all of it otherwise. -/
def q2 : Fin cfg2.W → PosShare TreeShare
  | ⟨0, _⟩ => fullShare
  | ⟨1, _⟩ => fullShare
  | ⟨2, _⟩ => fullShare
  | ⟨3, _⟩ => fullShare.left.left
  | ⟨4, _⟩ => fullShare.left.right
  | ⟨5, _⟩ => fullShare.right.left
  | ⟨6, _⟩ => fullShare.right.right
  | ⟨7, _⟩ => fullShare.left.left
  | ⟨8, _⟩ => fullShare.left.right
  | ⟨9, _⟩ => fullShare.right.left
  | ⟨10, _⟩ => fullShare.right.right
  | ⟨11, _⟩ => fullShare.left.left
  | ⟨12, _⟩ => fullShare.left.right
  | ⟨13, _⟩ => fullShare.right.left
  | ⟨14, _⟩ => fullShare.right.right
  | ⟨15, _⟩ => fullShare
  | ⟨16, _⟩ => fullShare
  | ⟨_ + 17, h⟩ => absurd h (Nat.not_lt.2 (Nat.le_add_left _ _))

/-- The proof data of pipeline 2 on core `c`: the arrays as the region finds them; after the body at point `t` each
    input's buffer at its block and each output's at the body's result on the input blocks; the invariant the scoped
    buffers no window stages and the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t)
    | ⟨16, _⟩ => out2_16 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    | ⟨_ + 17, h⟩ => absurd h (Nat.not_lt.2 (Nat.le_add_left _ _))
  Φ _ := Pipeline.ΦA spec2 c
  q := q2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) := by dsimp only [dat2]
theorem after2_16 (c : Dev nD) (t : Fin cfg2.N) : (dat2 V c).after 16 t = out2_16 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t))

/-- The body at any point: the inputs' buffers hold their blocks, so the body's run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel2 c Set.univ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelFrame.Body3.lean ====
/-
  The dense layer's kernel body, run once on whole staging buffers: from the rows of the last hidden
  state, a tile of the projection matrix and the matching tile of the bias row it leaves the tile of
  the logits in the fourth buffer, the inputs untouched.
-/
import proofs.«137003_j53412213293363_2_alg».proof.Proof.Gen.Kernel.Launch
import proofs.«137003_j53412213293363_2_alg».proof.Proof.Gen.Kernel.Skeleton
import proofs.«137003_j53412213293363_2_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev r3_h : Rect S256x1024 := Rect.unit (s := S256x1024) ![0, 0] S256x1024.size inb_S256x1024_S256x1024_0_0
abbrev r3_w : Rect S1024x256 := Rect.unit (s := S1024x256) ![0, 0] S1024x256.size inb_S1024x256_S1024x256_0_0
abbrev r3_b : Rect S1x256 := Rect.unit (s := S1x256) ![0, 0] S1x256.size inb_S1x256_S1x256_0_0
abbrev r3_t : Rect S256x256 := Rect.unit (s := S256x256) ![0, 0] S256x256.size inb_S256x256_S256x256_0_0

/-- The logits' tile, from the three input blocks: the body's one store. -/
def out3_3 (x0 : Vec F S256x1024 .f32) (x1 : Vec F S1024x256 .f32) (x2 : Vec F S1x256 .f32) : Vec F S256x256 .f32 :=
  View.canon [⟨r3_t, k3_pay1 (View.ld x0 r3_h) (View.ld x1 r3_w) (View.ld x2 r3_b)⟩]

/-- One store of the whole tile covers the buffer. -/
theorem cover3_t (p0 : Vec F S256x256 .f32) (y : S256x256.Idx) :
    ∃ pc ∈ ([⟨r3_t, p0⟩] : List (View.Piece (Elt F) S256x256 .f32)), y ∈ pc.1.set :=
  View.cover_of_tiled [⟨r3_t, p0⟩] S256x256.size (by rfl) y

set_option maxHeartbeats 4000000 in
/-- The kernel body on whole staging memrefs runs to the continuation holding the inputs' as they were and the output's
    at `out3_3` of the inputs'. -/
theorem sound_kernel3 (c : Dev nD) (E : Set ℕ) (i : grid3.Coords) (arg1 : Memref sig .tc .vmem S256x1024 .f32) (harg1 : arg1.IsWhole) (arg2 : Memref sig .tc .vmem S1024x256 .f32) (harg2 : arg2.IsWhole) (arg3 : Memref sig .tc .vmem S1x256 .f32) (harg3 : arg3.IsWhole) (arg4 : Memref sig .tc .vmem S256x256 .f32) (harg4 : arg4.IsWhole)
    (x0 : Vec F S256x1024 .f32) (x1 : Vec F S1024x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_t _)

end Cert.Kernel.Hand

end
-- ==== Proof.KernelFrame.Dat3.lean ====
/-
  The proof data of the dense layer's pipeline: each input window's staging buffer holds its block of
  the array the region finds at every grid point, and the output buffer is left at the body's result on
  the three input blocks. No two windows share an array here, so every array is held at the full share.
-/
import proofs.«137003_j53412213293363_2_alg».proof.Proof.KernelFrame.Body3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KernelFrame.Vals.lean ====
/-
  The buffer contents between @main's eight items, as a fold from the launch memory: a host stretch
  (one reshape of a bias vector to a row) leaves `StableHlo.after` of its operations; a kernel region
  leaves its output arrays at what the write-backs of all its grid points leave and every other buffer
  as it found it. No item writes an argument array, so each argument reads back through the fold to the
  launch memory.
-/
import proofs.«137003_j53412213293363_2_alg».proof.Proof.KernelFrame.Dat0
import proofs.«137003_j53412213293363_2_alg».proof.Proof.KernelFrame.Dat1
import proofs.«137003_j53412213293363_2_alg».proof.Proof.KernelFrame.Dat2
import proofs.«137003_j53412213293363_2_alg».proof.Proof.KernelFrame.Dat3
import proofs.«137003_j53412213293363_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- What region 0 leaves in `main_v1_0`: the write-backs of all its points folded over the entry contents. -/
def o0h (c : Dev nD) : Buf (Elt F) ((c : Thread nD τ).loc main_v1_0) := (dat0 (V1 m ρ) c).arrAt 15 cfg0.N
/-- What region 0 leaves in `main_v1_1`: the write-backs of all its points folded over the entry contents. -/
def o0c (c : Dev nD) : Buf (Elt F) ((c : Thread nD τ).loc main_v1_1) := (dat0 (V1 m ρ) c).arrAt 16 cfg0.N
/-- At region 0's exit. -/
def W2 (c : Dev nD) : Valuation τ sig (Elt F) :=
  Function.update (Function.update (W1 m ρ c) (Proc.devRef .tc main_v1_0) (o0h m ρ c)) (Proc.devRef .tc main_v1_1) (o0c m ρ c)
/-- The same read at the TensorCore's references. -/
abbrev V2 : (c : Dev nD) → (b : Ref sig .tc) → Buf (Elt F) ((c : Thread nD τ).loc b) := fun c b => W2 m ρ c b
theorem W2_of_ne (c : Dev nD) (b : Ref sig .tc) (h0 : b ≠ main_v1_0) (h1 : b ≠ main_v1_1) :
    W2 m ρ c (Proc.devRef .tc b) = W1 m ρ c (Proc.devRef .tc b) := by
  unfold W2
  rw [Function.update_of_ne (StableHlo.devRef_ne_of_ne h1 : (Proc.devRef .tc b : DevRef τ sig) ≠ Proc.devRef .tc main_v1_1), Function.update_of_ne (StableHlo.devRef_ne_of_ne h0 : (Proc.devRef .tc b : DevRef τ sig) ≠ Proc.devRef .tc main_v1_0)]
theorem W2_main_v1_0 (c : Dev nD) : W2 m ρ c (Proc.devRef .tc main_v1_0) = o0h m ρ c := by
  unfold W2
  rw [Function.update_of_ne (StableHlo.devRef_ne_of_ne (by decide : main_v1_0 ≠ main_v1_1) : (Proc.devRef .tc main_v1_0 : DevRef τ sig) ≠ Proc.devRef .tc main_v1_1), Function.update_self]
theorem W2_main_v1_1 (c : Dev nD) : W2 m ρ c (Proc.devRef .tc main_v1_1) = o0c m ρ c := by
  unfold W2
  rw [Function.update_self]
theorem W1_of_ne (c : Dev nD) (b : Ref sig .tc) (h : b ∉ hostOps0_W) : W1 m ρ c (Proc.devRef .tc b) = W0 m ρ c (Proc.devRef .tc b) :=
  StableHlo.after_of_writes_sub hostOps0 _ hostOps0_writes h

/-- After `hostOps1` (region 1's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- What region 1 leaves in `main_v3_0`: the write-backs of all its points folded over the entry contents. -/
def o1h (c : Dev nD) : Buf (Elt F) ((c : Thread nD τ).loc main_v3_0) := (dat1 (V3 m ρ) c).arrAt 15 cfg1.N
/-- What region 1 leaves in `main_v3_1`: the write-backs of all its points folded over the entry contents. -/
def o1c (c : Dev nD) : Buf (Elt F) ((c : Thread nD τ).loc main_v3_1) := (dat1 (V3 m ρ) c).arrAt 16 cfg1.N
/-- At region 1's exit. -/
def W4 (c : Dev nD) : Valuation τ sig (Elt F) :=
  Function.update (Function.update (W3 m ρ c) (Proc.devRef .tc main_v3_0) (o1h m ρ c)) (Proc.devRef .tc main_v3_1) (o1c m ρ c)
/-- The same read at the TensorCore's references. -/
abbrev V4 : (c : Dev nD) → (b : Ref sig .tc) → Buf (Elt F) ((c : Thread nD τ).loc b) := fun c b => W4 m ρ c b
theorem W4_of_ne (c : Dev nD) (b : Ref sig .tc) (h0 : b ≠ main_v3_0) (h1 : b ≠ main_v3_1) :
    W4 m ρ c (Proc.devRef .tc b) = W3 m ρ c (Proc.devRef .tc b) := by
  unfold W4
  rw [Function.update_of_ne (StableHlo.devRef_ne_of_ne h1 : (Proc.devRef .tc b : DevRef τ sig) ≠ Proc.devRef .tc main_v3_1), Function.update_of_ne (StableHlo.devRef_ne_of_ne h0 : (Proc.devRef .tc b : DevRef τ sig) ≠ Proc.devRef .tc main_v3_0)]
theorem W4_main_v3_0 (c : Dev nD) : W4 m ρ c (Proc.devRef .tc main_v3_0) = o1h m ρ c := by
  unfold W4
  rw [Function.update_of_ne (StableHlo.devRef_ne_of_ne (by decide : main_v3_0 ≠ main_v3_1) : (Proc.devRef .tc main_v3_0 : DevRef τ sig) ≠ Proc.devRef .tc main_v3_1), Function.update_self]
theorem W4_main_v3_1 (c : Dev nD) : W4 m ρ c (Proc.devRef .tc main_v3_1) = o1c m ρ c := by
  unfold W4
  rw [Function.update_self]
theorem W3_of_ne (c : Dev nD) (b : Ref sig .tc) (h : b ∉ hostOps1_W) : W3 m ρ c (Proc.devRef .tc b) = W2 m ρ c (Proc.devRef .tc b) :=
  StableHlo.after_of_writes_sub hostOps1 _ hostOps1_writes h

/-- After `hostOps2` (region 2's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- What region 2 leaves in `main_v5_0`: the write-backs of all its points folded over the entry contents. -/
def o2h (c : Dev nD) : Buf (Elt F) ((c : Thread nD τ).loc main_v5_0) := (dat2 (V5 m ρ) c).arrAt 15 cfg2.N
/-- What region 2 leaves in `main_v5_1`: the write-backs of all its points folded over the entry contents. -/
def o2c (c : Dev nD) : Buf (Elt F) ((c : Thread nD τ).loc main_v5_1) := (dat2 (V5 m ρ) c).arrAt 16 cfg2.N
/-- At region 2's exit. -/
def W6 (c : Dev nD) : Valuation τ sig (Elt F) :=
  Function.update (Function.update (W5 m ρ c) (Proc.devRef .tc main_v5_0) (o2h m ρ c)) (Proc.devRef .tc main_v5_1) (o2c m ρ c)
/-- The same read at the TensorCore's references. -/
abbrev V6 : (c : Dev nD) → (b : Ref sig .tc) → Buf (Elt F) ((c : Thread nD τ).loc b) := fun c b => W6 m ρ c b
theorem W6_of_ne (c : Dev nD) (b : Ref sig .tc) (h0 : b ≠ main_v5_0) (h1 : b ≠ main_v5_1) :
    W6 m ρ c (Proc.devRef .tc b) = W5 m ρ c (Proc.devRef .tc b) := by
  unfold W6
  rw [Function.update_of_ne (StableHlo.devRef_ne_of_ne h1 : (Proc.devRef .tc b : DevRef τ sig) ≠ Proc.devRef .tc main_v5_1), Function.update_of_ne (StableHlo.devRef_ne_of_ne h0 : (Proc.devRef .tc b : DevRef τ sig) ≠ Proc.devRef .tc main_v5_0)]
theorem W6_main_v5_0 (c : Dev nD) : W6 m ρ c (Proc.devRef .tc main_v5_0) = o2h m ρ c := by
  unfold W6
  rw [Function.update_of_ne (StableHlo.devRef_ne_of_ne (by decide : main_v5_0 ≠ main_v5_1) : (Proc.devRef .tc main_v5_0 : DevRef τ sig) ≠ Proc.devRef .tc main_v5_1), Function.update_self]
theorem W6_main_v5_1 (c : Dev nD) : W6 m ρ c (Proc.devRef .tc main_v5_1) = o2c m ρ c := by
  unfold W6
  rw [Function.update_self]
theorem W5_of_ne (c : Dev nD) (b : Ref sig .tc) (h : b ∉ hostOps2_W) : W5 m ρ c (Proc.devRef .tc b) = W4 m ρ c (Proc.devRef .tc b) :=
  StableHlo.after_of_writes_sub hostOps2 _ hostOps2_writes h

/-- After `hostOps3` (region 3's entry). -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- What region 3 leaves in `main_v7`: the write-backs of all its points folded over the entry contents. -/
def o3 (c : Dev nD) : Buf (Elt F) ((c : Thread nD τ).loc main_v7) := (dat3 (V7 m ρ) c).arrAt 3 cfg3.N
/-- At region 3's exit. -/
def W8 (c : Dev nD) : Valuation τ sig (Elt F) :=
  Function.update (W7 m ρ c) (Proc.devRef .tc main_v7) (o3 m ρ c)
/-- The same read at the TensorCore's references. -/
abbrev V8 : (c : Dev nD) → (b : Ref sig .tc) → Buf (Elt F) ((c : Thread nD τ).loc b) := fun c b => W8 m ρ c b
theorem W8_of_ne (c : Dev nD) (b : Ref sig .tc) (h0 : b ≠ main_v7) :
    W8 m ρ c (Proc.devRef .tc b) = W7 m ρ c (Proc.devRef .tc b) := by
  unfold W8
  rw [Function.update_of_ne (StableHlo.devRef_ne_of_ne h0 : (Proc.devRef .tc b : DevRef τ sig) ≠ Proc.devRef .tc main_v7)]
theorem W8_main_v7 (c : Dev nD) : W8 m ρ c (Proc.devRef .tc main_v7) = o3 m ρ c := by
  unfold W8
  rw [Function.update_self]
theorem W7_of_ne (c : Dev nD) (b : Ref sig .tc) (h : b ∉ hostOps3_W) : W7 m ρ c (Proc.devRef .tc b) = W6 m ρ c (Proc.devRef .tc b) :=
  StableHlo.after_of_writes_sub hostOps3 _ hostOps3_writes h

/-! ## The arguments end as launched -/
theorem W8_main_arg0 (c : Dev nD) : W8 m ρ c (Proc.devRef .tc main_arg0) = m ((c : Thread nD τ).loc main_arg0) :=
  (W8_of_ne m ρ c main_arg0 (by decide)).trans <| (W7_of_ne m ρ c main_arg0 (by decide)).trans <| (W6_of_ne m ρ c main_arg0 (by decide) (by decide)).trans <| (W5_of_ne m ρ c main_arg0 (by decide)).trans <| (W4_of_ne m ρ c main_arg0 (by decide) (by decide)).trans <| (W3_of_ne m ρ c main_arg0 (by decide)).trans <| (W2_of_ne m ρ c main_arg0 (by decide) (by decide)).trans <| (W1_of_ne m ρ c main_arg0 (by decide)).trans rfl
theorem W8_main_arg1 (c : Dev nD) : W8 m ρ c (Proc.devRef .tc main_arg1) = m ((c : Thread nD τ).loc main_arg1) :=
  (W8_of_ne m ρ c main_arg1 (by decide)).trans <| (W7_of_ne m ρ c main_arg1 (by decide)).trans <| (W6_of_ne m ρ c main_arg1 (by decide) (by decide)).trans <| (W5_of_ne m ρ c main_arg1 (by decide)).trans <| (W4_of_ne m ρ c main_arg1 (by decide) (by decide)).trans <| (W3_of_ne m ρ c main_arg1 (by decide)).trans <| (W2_of_ne m ρ c main_arg1 (by decide) (by decide)).trans <| (W1_of_ne m ρ c main_arg1 (by decide)).trans rfl
theorem W8_main_arg2 (c : Dev nD) : W8 m ρ c (Proc.devRef .tc main_arg2) = m ((c : Thread nD τ).loc main_arg2) :=
  (W8_of_ne m ρ c main_arg2 (by decide)).trans <| (W7_of_ne m ρ c main_arg2 (by decide)).trans <| (W6_of_ne m ρ c main_arg2 (by decide) (by decide)).trans <| (W5_of_ne m ρ c main_arg2 (by decide)).trans <| (W4_of_ne m ρ c main_arg2 (by decide) (by decide)).trans <| (W3_of_ne m ρ c main_arg2 (by decide)).trans <| (W2_of_ne m ρ c main_arg2 (by decide) (by decide)).trans <| (W1_of_ne m ρ c main_arg2 (by decide)).trans rfl
theorem W8_main_arg3 (c : Dev nD) : W8 m ρ c (Proc.devRef .tc main_arg3) = m ((c : Thread nD τ).loc main_arg3) :=
  (W8_of_ne m ρ c main_arg3 (by decide)).trans <| (W7_of_ne m ρ c main_arg3 (by decide)).trans <| (W6_of_ne m ρ c main_arg3 (by decide) (by decide)).trans <| (W5_of_ne m ρ c main_arg3 (by decide)).trans <| (W4_of_ne m ρ c main_arg3 (by decide) (by decide)).trans <| (W3_of_ne m ρ c main_arg3 (by decide)).trans <| (W2_of_ne m ρ c main_arg3 (by decide) (by decide)).trans <| (W1_of_ne m ρ c main_arg3 (by decide)).trans rfl
theorem W8_main_arg4 (c : Dev nD) : W8 m ρ c (Proc.devRef .tc main_arg4) = m ((c : Thread nD τ).loc main_arg4) :=
  (W8_of_ne m ρ c main_arg4 (by decide)).trans <| (W7_of_ne m ρ c main_arg4 (by decide)).trans <| (W6_of_ne m ρ c main_arg4 (by decide) (by decide)).trans <| (W5_of_ne m ρ c main_arg4 (by decide)).trans <| (W4_of_ne m ρ c main_arg4 (by decide) (by decide)).trans <| (W3_of_ne m ρ c main_arg4 (by decide)).trans <| (W2_of_ne m ρ c main_arg4 (by decide) (by decide)).trans <| (W1_of_ne m ρ c main_arg4 (by decide)).trans rfl
theorem W8_main_arg5 (c : Dev nD) : W8 m ρ c (Proc.devRef .tc main_arg5) = m ((c : Thread nD τ).loc main_arg5) :=
  (W8_of_ne m ρ c main_arg5 (by decide)).trans <| (W7_of_ne m ρ c main_arg5 (by decide)).trans <| (W6_of_ne m ρ c main_arg5 (by decide) (by decide)).trans <| (W5_of_ne m ρ c main_arg5 (by decide)).trans <| (W4_of_ne m ρ c main_arg5 (by decide) (by decide)).trans <| (W3_of_ne m ρ c main_arg5 (by decide)).trans <| (W2_of_ne m ρ c main_arg5 (by decide) (by decide)).trans <| (W1_of_ne m ρ c main_arg5 (by decide)).trans rfl
theorem W8_main_arg6 (c : Dev nD) : W8 m ρ c (Proc.devRef .tc main_arg6) = m ((c : Thread nD τ).loc main_arg6) :=
  (W8_of_ne m ρ c main_arg6 (by decide)).trans <| (W7_of_ne m ρ c main_arg6 (by decide)).trans <| (W6_of_ne m ρ c main_arg6 (by decide) (by decide)).trans <| (W5_of_ne m ρ c main_arg6 (by decide)).trans <| (W4_of_ne m ρ c main_arg6 (by decide) (by decide)).trans <| (W3_of_ne m ρ c main_arg6 (by decide)).trans <| (W2_of_ne m ρ c main_arg6 (by decide) (by decide)).trans <| (W1_of_ne m ρ c main_arg6 (by decide)).trans rfl
theorem W8_main_arg7 (c : Dev nD) : W8 m ρ c (Proc.devRef .tc main_arg7) = m ((c : Thread nD τ).loc main_arg7) :=
  (W8_of_ne m ρ c main_arg7 (by decide)).trans <| (W7_of_ne m ρ c main_arg7 (by decide)).trans <| (W6_of_ne m ρ c main_arg7 (by decide) (by decide)).trans <| (W5_of_ne m ρ c main_arg7 (by decide)).trans <| (W4_of_ne m ρ c main_arg7 (by decide) (by decide)).trans <| (W3_of_ne m ρ c main_arg7 (by decide)).trans <| (W2_of_ne m ρ c main_arg7 (by decide) (by decide)).trans <| (W1_of_ne m ρ c main_arg7 (by decide)).trans rfl
theorem W8_main_arg8 (c : Dev nD) : W8 m ρ c (Proc.devRef .tc main_arg8) = m ((c : Thread nD τ).loc main_arg8) :=
  (W8_of_ne m ρ c main_arg8 (by decide)).trans <| (W7_of_ne m ρ c main_arg8 (by decide)).trans <| (W6_of_ne m ρ c main_arg8 (by decide) (by decide)).trans <| (W5_of_ne m ρ c main_arg8 (by decide)).trans <| (W4_of_ne m ρ c main_arg8 (by decide) (by decide)).trans <| (W3_of_ne m ρ c main_arg8 (by decide)).trans <| (W2_of_ne m ρ c main_arg8 (by decide) (by decide)).trans <| (W1_of_ne m ρ c main_arg8 (by decide)).trans rfl
theorem W8_main_arg9 (c : Dev nD) : W8 m ρ c (Proc.devRef .tc main_arg9) = m ((c : Thread nD τ).loc main_arg9) :=
  (W8_of_ne m ρ c main_arg9 (by decide)).trans <| (W7_of_ne m ρ c main_arg9 (by decide)).trans <| (W6_of_ne m ρ c main_arg9 (by decide) (by decide)).trans <| (W5_of_ne m ρ c main_arg9 (by decide)).trans <| (W4_of_ne m ρ c main_arg9 (by decide) (by decide)).trans <| (W3_of_ne m ρ c main_arg9 (by decide)).trans <| (W2_of_ne m ρ c main_arg9 (by decide) (by decide)).trans <| (W1_of_ne m ρ c main_arg9 (by decide)).trans rfl
theorem W8_main_arg10 (c : Dev nD) : W8 m ρ c (Proc.devRef .tc main_arg10) = m ((c : Thread nD τ).loc main_arg10) :=
  (W8_of_ne m ρ c main_arg10 (by decide)).trans <| (W7_of_ne m ρ c main_arg10 (by decide)).trans <| (W6_of_ne m ρ c main_arg10 (by decide) (by decide)).trans <| (W5_of_ne m ρ c main_arg10 (by decide)).trans <| (W4_of_ne m ρ c main_arg10 (by decide) (by decide)).trans <| (W3_of_ne m ρ c main_arg10 (by decide)).trans <| (W2_of_ne m ρ c main_arg10 (by decide) (by decide)).trans <| (W1_of_ne m ρ c main_arg10 (by decide)).trans rfl
theorem W8_main_arg11 (c : Dev nD) : W8 m ρ c (Proc.devRef .tc main_arg11) = m ((c : Thread nD τ).loc main_arg11) :=
  (W8_of_ne m ρ c main_arg11 (by decide)).trans <| (W7_of_ne m ρ c main_arg11 (by decide)).trans <| (W6_of_ne m ρ c main_arg11 (by decide) (by decide)).trans <| (W5_of_ne m ρ c main_arg11 (by decide)).trans <| (W4_of_ne m ρ c main_arg11 (by decide) (by decide)).trans <| (W3_of_ne m ρ c main_arg11 (by decide)).trans <| (W2_of_ne m ρ c main_arg11 (by decide) (by decide)).trans <| (W1_of_ne m ρ c main_arg11 (by decide)).trans rfl
theorem W8_main_arg12 (c : Dev nD) : W8 m ρ c (Proc.devRef .tc main_arg12) = m ((c : Thread nD τ).loc main_arg12) :=
  (W8_of_ne m ρ c main_arg12 (by decide)).trans <| (W7_of_ne m ρ c main_arg12 (by decide)).trans <| (W6_of_ne m ρ c main_arg12 (by decide) (by decide)).trans <| (W5_of_ne m ρ c main_arg12 (by decide)).trans <| (W4_of_ne m ρ c main_arg12 (by decide) (by decide)).trans <| (W3_of_ne m ρ c main_arg12 (by decide)).trans <| (W2_of_ne m ρ c main_arg12 (by decide) (by decide)).trans <| (W1_of_ne m ρ c main_arg12 (by decide)).trans rfl
theorem W8_main_arg13 (c : Dev nD) : W8 m ρ c (Proc.devRef .tc main_arg13) = m ((c : Thread nD τ).loc main_arg13) :=
  (W8_of_ne m ρ c main_arg13 (by decide)).trans <| (W7_of_ne m ρ c main_arg13 (by decide)).trans <| (W6_of_ne m ρ c main_arg13 (by decide) (by decide)).trans <| (W5_of_ne m ρ c main_arg13 (by decide)).trans <| (W4_of_ne m ρ c main_arg13 (by decide) (by decide)).trans <| (W3_of_ne m ρ c main_arg13 (by decide)).trans <| (W2_of_ne m ρ c main_arg13 (by decide) (by decide)).trans <| (W1_of_ne m ρ c main_arg13 (by decide)).trans rfl
theorem W8_main_arg14 (c : Dev nD) : W8 m ρ c (Proc.devRef .tc main_arg14) = m ((c : Thread nD τ).loc main_arg14) :=
  (W8_of_ne m ρ c main_arg14 (by decide)).trans <| (W7_of_ne m ρ c main_arg14 (by decide)).trans <| (W6_of_ne m ρ c main_arg14 (by decide) (by decide)).trans <| (W5_of_ne m ρ c main_arg14 (by decide)).trans <| (W4_of_ne m ρ c main_arg14 (by decide) (by decide)).trans <| (W3_of_ne m ρ c main_arg14 (by decide)).trans <| (W2_of_ne m ρ c main_arg14 (by decide) (by decide)).trans <| (W1_of_ne m ρ c main_arg14 (by decide)).trans rfl
theorem W8_main_arg15 (c : Dev nD) : W8 m ρ c (Proc.devRef .tc main_arg15) = m ((c : Thread nD τ).loc main_arg15) :=
  (W8_of_ne m ρ c main_arg15 (by decide)).trans <| (W7_of_ne m ρ c main_arg15 (by decide)).trans <| (W6_of_ne m ρ c main_arg15 (by decide) (by decide)).trans <| (W5_of_ne m ρ c main_arg15 (by decide)).trans <| (W4_of_ne m ρ c main_arg15 (by decide) (by decide)).trans <| (W3_of_ne m ρ c main_arg15 (by decide)).trans <| (W2_of_ne m ρ c main_arg15 (by decide) (by decide)).trans <| (W1_of_ne m ρ c main_arg15 (by decide)).trans rfl
theorem W8_main_arg16 (c : Dev nD) : W8 m ρ c (Proc.devRef .tc main_arg16) = m ((c : Thread nD τ).loc main_arg16) :=
  (W8_of_ne m ρ c main_arg16 (by decide)).trans <| (W7_of_ne m ρ c main_arg16 (by decide)).trans <| (W6_of_ne m ρ c main_arg16 (by decide) (by decide)).trans <| (W5_of_ne m ρ c main_arg16 (by decide)).trans <| (W4_of_ne m ρ c main_arg16 (by decide) (by decide)).trans <| (W3_of_ne m ρ c main_arg16 (by decide)).trans <| (W2_of_ne m ρ c main_arg16 (by decide) (by decide)).trans <| (W1_of_ne m ρ c main_arg16 (by decide)).trans rfl
theorem W8_main_arg17 (c : Dev nD) : W8 m ρ c (Proc.devRef .tc main_arg17) = m ((c : Thread nD τ).loc main_arg17) :=
  (W8_of_ne m ρ c main_arg17 (by decide)).trans <| (W7_of_ne m ρ c main_arg17 (by decide)).trans <| (W6_of_ne m ρ c main_arg17 (by decide) (by decide)).trans <| (W5_of_ne m ρ c main_arg17 (by decide)).trans <| (W4_of_ne m ρ c main_arg17 (by decide) (by decide)).trans <| (W3_of_ne m ρ c main_arg17 (by decide)).trans <| (W2_of_ne m ρ c main_arg17 (by decide) (by decide)).trans <| (W1_of_ne m ρ c main_arg17 (by decide)).trans rfl

end Cert.Kernel.Hand

end
-- ==== Proof.KernelFrame.PDats.lean ====
/-
  Every pipeline's proof data at its region's entry contents, and what rides beside the buffers through
  every item of @main: the core's generator register at some state and its dues, at nothing.
-/
import proofs.«137003_j53412213293363_2_alg».proof.Proof.KernelFrame.Vals

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents: a literal match, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item. -/
abbrev R (c : Dev nD) : sProp 𝕄 := iprop((∃ r, prngReg c r) ∗ ∃ W, owes (c : Thread nD τ) (0 : CellTallies nD τ sig Unit) W)
/-- The last thread state without the dues: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.LibQuarterShares.lean ====
/-
  A buffer held at a share, dealt to four readers and taken back.

  A share `q` of a buffer's elements splits into its left and right halves, and each half again: four
  pairwise-disjoint positive shares that compose back to `q`. Four windows that only read one array can
  therefore each hold the array at one of the quarters while a kernel runs, and the array is whole again
  at `q` afterwards, at the same contents. General in the location, the element set, the share and the
  contents.
-/
import Idealize.ShloMosaic.Rules.PointsTo

noncomputable section

namespace Idealize.ShloMosaic

open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

variable {ℓ : Loc nD τ sig} {I : Finset (Idx ℓ)} {q : PosShare TreeShare} {f : Buf Val ℓ}

/-- The share `q` dealt as its four quarters. -/
theorem pointsTo_quarters_split :
    (ℓ ↦[I]{q} f : sProp 𝕄)
      ⊢ iprop((ℓ ↦[I]{q.left.left} f) ∗ (ℓ ↦[I]{q.left.right} f) ∗ (ℓ ↦[I]{q.right.left} f) ∗ ℓ ↦[I]{q.right.right} f) := by
  iintro H
  ihave H' := (pointsTo_share (PosShare.mem_left_op_right q)).1 $$ H
  icases H' with ⟨Hl, Hr⟩
  ihave Hl' := (pointsTo_share (PosShare.mem_left_op_right q.left)).1 $$ Hl
  ihave Hr' := (pointsTo_share (PosShare.mem_left_op_right q.right)).1 $$ Hr
  icases Hl' with ⟨H1, H2⟩
  icases Hr' with ⟨H3, H4⟩
  isplitl [H1]; · iexact H1
  isplitl [H2]; · iexact H2
  isplitl [H3]; · iexact H3
  iexact H4

/-- The four quarters make the share `q` again. -/
theorem pointsTo_quarters_join :
    iprop((ℓ ↦[I]{q.left.left} f) ∗ (ℓ ↦[I]{q.left.right} f) ∗ (ℓ ↦[I]{q.right.left} f) ∗ ℓ ↦[I]{q.right.right} f)
      ⊢ (ℓ ↦[I]{q} f : sProp 𝕄) := by
  iintro ⟨H1, H2, H3, H4⟩
  iapply (pointsTo_share (PosShare.mem_left_op_right q)).2
  isplitl [H1 H2]
  · iapply (pointsTo_share (PosShare.mem_left_op_right q.left)).2
    isplitl [H1]; · iexact H1
    iexact H2
  · iapply (pointsTo_share (PosShare.mem_left_op_right q.right)).2
    isplitl [H3]; · iexact H3
    iexact H4

end Idealize.ShloMosaic

end
-- ==== Proof.KernelFrame.Shares0.lean ====
/-
  Dealing the arrays' buffers among the windows of the first LSTM cell's pipeline, and taking them back.

  The region reads eight distinct buffers through seventeen windows: the weight matrix, the recurrent
  matrix and the bias row are each read through four windows, one per gate. Whole at the full share,
  those three buffers are dealt to their windows as the four quarters of the full share; the other five
  go whole to their one window. After the region the same quarters make the full share again, at the
  contents the arrays then have. Both directions, at any contents the windows' arrays agree with.
-/
import proofs.«137003_j53412213293363_2_alg».proof.Proof.KernelFrame.Dat0
import proofs.«137003_j53412213293363_2_alg».proof.Proof.LibQuarterShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays. -/
theorem arrImage0 : Finset.univ.image (Pipeline.arrRef spec0) = ([main_arg0, main_arg1, main_arg2, main_arg7, main_arg8, main_v0, main_v1_0, main_v1_1] : List (Ref sig .tc)).toFinset := by decide

/-- The pipeline's arrays, window by window, each a whole buffer held at the window's share. -/
theorem arrays_eq0 (c : Dev nD) (Fw : (w : Fin cfg0.W) → Buf (Elt F) ((cfg0.win w).arr.view.loc (c : Thread nD τ))) :
    (dat0 V c).arrays Fw = bigSep Finset.univ fun w => (((c : Thread nD τ).loc (Pipeline.arrRef spec0 w)) ↦{(dat0 V c).share w} Fw w : sProp 𝕄) := by
  unfold Dat.arrays
  exact bigSep_congr fun w _ => by rw [(arr_whole0 w).set_eq_univ]

/-- The arrays, and the distinct buffers behind them, as chains. -/
theorem arrays_chain0 (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    (dat0 V c).arrays Fw = iprop(
      (((c : Thread nD τ).loc (Pipeline.arrRef spec0 0)) ↦{fullShare} V' (Pipeline.arrRef spec0 0)) ∗
      (((c : Thread nD τ).loc (Pipeline.arrRef spec0 1)) ↦{fullShare} V' (Pipeline.arrRef spec0 1)) ∗
      (((c : Thread nD τ).loc (Pipeline.arrRef spec0 2)) ↦{fullShare} V' (Pipeline.arrRef spec0 2)) ∗
      (((c : Thread nD τ).loc (Pipeline.arrRef spec0 3)) ↦{fullShare.left.left} V' (Pipeline.arrRef spec0 3)) ∗
      (((c : Thread nD τ).loc (Pipeline.arrRef spec0 4)) ↦{fullShare.left.right} V' (Pipeline.arrRef spec0 4)) ∗
      (((c : Thread nD τ).loc (Pipeline.arrRef spec0 5)) ↦{fullShare.right.left} V' (Pipeline.arrRef spec0 5)) ∗
      (((c : Thread nD τ).loc (Pipeline.arrRef spec0 6)) ↦{fullShare.right.right} V' (Pipeline.arrRef spec0 6)) ∗
      (((c : Thread nD τ).loc (Pipeline.arrRef spec0 7)) ↦{fullShare.left.left} V' (Pipeline.arrRef spec0 7)) ∗
      (((c : Thread nD τ).loc (Pipeline.arrRef spec0 8)) ↦{fullShare.left.right} V' (Pipeline.arrRef spec0 8)) ∗
      (((c : Thread nD τ).loc (Pipeline.arrRef spec0 9)) ↦{fullShare.right.left} V' (Pipeline.arrRef spec0 9)) ∗
      (((c : Thread nD τ).loc (Pipeline.arrRef spec0 10)) ↦{fullShare.right.right} V' (Pipeline.arrRef spec0 10)) ∗
      (((c : Thread nD τ).loc (Pipeline.arrRef spec0 11)) ↦{fullShare.left.left} V' (Pipeline.arrRef spec0 11)) ∗
      (((c : Thread nD τ).loc (Pipeline.arrRef spec0 12)) ↦{fullShare.left.right} V' (Pipeline.arrRef spec0 12)) ∗
      (((c : Thread nD τ).loc (Pipeline.arrRef spec0 13)) ↦{fullShare.right.left} V' (Pipeline.arrRef spec0 13)) ∗
      (((c : Thread nD τ).loc (Pipeline.arrRef spec0 14)) ↦{fullShare.right.right} V' (Pipeline.arrRef spec0 14)) ∗
      (((c : Thread nD τ).loc (Pipeline.arrRef spec0 15)) ↦{fullShare} V' (Pipeline.arrRef spec0 15)) ∗
      (((c : Thread nD τ).loc (Pipeline.arrRef spec0 16)) ↦{fullShare} V' (Pipeline.arrRef spec0 16))) := by
  rw [arrays_eq0, bigSep_W0]
  simp only [hF]
  rfl

theorem arrBufs_chain0 (c : Dev nD) (V' : (b : Ref sig .tc) → Buf (Elt F) ((c : Thread nD τ).loc b)) :
    (Pipeline.arrBufs (Ix := Unit) (Name := ℕ) (U := UR sig nD τ) (Lvl := ℕ) spec0 c V' : sProp 𝕄) = iprop(
      (((c : Thread nD τ).loc main_arg0) ↦{fullShare} V' main_arg0) ∗
      (((c : Thread nD τ).loc main_arg1) ↦{fullShare} V' main_arg1) ∗
      (((c : Thread nD τ).loc main_arg2) ↦{fullShare} V' main_arg2) ∗
      (((c : Thread nD τ).loc main_arg7) ↦{fullShare} V' main_arg7) ∗
      (((c : Thread nD τ).loc main_arg8) ↦{fullShare} V' main_arg8) ∗
      (((c : Thread nD τ).loc main_v0) ↦{fullShare} V' main_v0) ∗
      (((c : Thread nD τ).loc main_v1_0) ↦{fullShare} V' main_v1_0) ∗
      (((c : Thread nD τ).loc main_v1_1) ↦{fullShare} V' main_v1_1)) := by
  unfold Pipeline.arrBufs
  rw [bigSep_eq_bigSepL_of_eq _ arrImage0 (by decide)]
  rfl

/-- ENTRY: the buffers whole at the full share, dealt to the windows. -/
theorem arrays_split0 (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    (Pipeline.arrBufs (Ix := Unit) (Name := ℕ) (U := UR sig nD τ) (Lvl := ℕ) spec0 c V' : sProp 𝕄) ⊢ (dat0 V c).arrays Fw := by
  rw [arrays_chain0 V c V' Fw hF, arrBufs_chain0]
  iintro ⟨Hx, Hh, Hc, HW, HU, Hb, Hoh, Hoc⟩
  ihave HW' := pointsTo_quarters_split $$ HW
  icases HW' with ⟨HW0, HW1, HW2, HW3⟩
  ihave HU' := pointsTo_quarters_split $$ HU
  icases HU' with ⟨HU0, HU1, HU2, HU3⟩
  ihave Hb' := pointsTo_quarters_split $$ Hb
  icases Hb' with ⟨Hb0, Hb1, Hb2, Hb3⟩
  isplitl [Hx]; · iexact Hx
  isplitl [Hh]; · iexact Hh
  isplitl [Hc]; · iexact Hc
  isplitl [HW0]; · iexact HW0
  isplitl [HW1]; · iexact HW1
  isplitl [HW2]; · iexact HW2
  isplitl [HW3]; · iexact HW3
  isplitl [HU0]; · iexact HU0
  isplitl [HU1]; · iexact HU1
  isplitl [HU2]; · iexact HU2
  isplitl [HU3]; · iexact HU3
  isplitl [Hb0]; · iexact Hb0
  isplitl [Hb1]; · iexact Hb1
  isplitl [Hb2]; · iexact Hb2
  isplitl [Hb3]; · iexact Hb3
  isplitl [Hoh]; · iexact Hoh
  iexact Hoc

/-- EXIT: the windows' shares taken back, each buffer whole at the full share again. -/
theorem arrays_join0 (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    (dat0 V c).arrays Fw ⊢ (Pipeline.arrBufs (Ix := Unit) (Name := ℕ) (U := UR sig nD τ) (Lvl := ℕ) spec0 c V' : sProp 𝕄) := by
  rw [arrays_chain0 V c V' Fw hF, arrBufs_chain0]
  iintro ⟨Hx, Hh, Hc, HW0, HW1, HW2, HW3, HU0, HU1, HU2, HU3, Hb0, Hb1, Hb2, Hb3, Hoh, Hoc⟩
  isplitl [Hx]; · iexact Hx
  isplitl [Hh]; · iexact Hh
  isplitl [Hc]; · iexact Hc
  isplitl [HW0 HW1 HW2 HW3]
  · iapply pointsTo_quarters_join
    isplitl [HW0]; · iexact HW0
    isplitl [HW1]; · iexact HW1
    isplitl [HW2]; · iexact HW2
    iexact HW3
  isplitl [HU0 HU1 HU2 HU3]
  · iapply pointsTo_quarters_join
    isplitl [HU0]; · iexact HU0
    isplitl [HU1]; · iexact HU1
    isplitl [HU2]; · iexact HU2
    iexact HU3
  isplitl [Hb0 Hb1 Hb2 Hb3]
  · iapply pointsTo_quarters_join
    isplitl [Hb0]; · iexact Hb0
    isplitl [Hb1]; · iexact Hb1
    isplitl [Hb2]; · iexact Hb2
    iexact Hb3
  isplitl [Hoh]; · iexact Hoh
  iexact Hoc

end Cert.Kernel.Hand

end
-- ==== Proof.KernelFrame.Reg0.lean ====
/-
  The first LSTM cell's region over the thread state: entered from every unscoped buffer at the contents the
  preceding reshape leaves, left with its two output arrays at what the write-backs of all eight grid
  points leave and every other buffer as found. Its eight buffers are split out of the unscoped buffers
  and dealt to the seventeen windows (the three shared ones by quarters), and taken back at the exit.
-/
import proofs.«137003_j53412213293363_2_alg».proof.Proof.KernelFrame.PDats
import proofs.«137003_j53412213293363_2_alg».proof.Proof.KernelFrame.Shares0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's array is neither of the region's two output arrays. -/
theorem in_ne0 : ∀ w : Fin cfg0.W, (cfg0.win w).isOut = false →
    Pipeline.arrRef spec0 w ≠ main_v1_0 ∧ Pipeline.arrRef spec0 w ≠ main_v1_1 := by decide
/-- The output windows are the last two. -/
theorem out_cases0 : ∀ w : Fin cfg0.W, (cfg0.win w).isOut = true → w = 15 ∨ w = 16 := by decide

/-- At the region's exit each of its arrays holds what the pipeline leaves: an input array what it held, an output
    array the folded write-backs. -/
theorem hF0 (c : Dev nD) (w : Fin cfg0.W) : (dat0 (V1 m ρ) c).arrAt w cfg0.N = V2 m ρ c (Pipeline.arrRef spec0 w) := by
  by_cases hw : (cfg0.win w).isOut = true
  · rcases out_cases0 w hw with rfl | rfl
    · exact (W2_main_v1_0 m ρ c).symm
    · exact (W2_main_v1_1 m ρ c).symm
  · have hw' : (cfg0.win w).isOut = false := by simpa using hw
    exact ((dat0 (V1 m ρ) c).arrAt_in w hw' _).trans
      ((A_eq0 (V1 m ρ) c w).trans (W2_of_ne m ρ c _ (in_ne0 w hw').1 (in_ne0 w hw').2).symm)

/-- Every buffer that is no array of the region is as the region found it. -/
theorem hrest0 (c : Dev nD) : ∀ b, b ∉ Finset.univ.image (Pipeline.arrRef spec0) → V2 m ρ c b = V1 m ρ c b :=
  fun b hb => W2_of_ne m ρ c b (fun e => hb (Finset.mem_image.mpr ⟨15, Finset.mem_univ _, e.symm⟩))
    (fun e => hb (Finset.mem_image.mpr ⟨16, Finset.mem_univ _, e.symm⟩))

/-- ENTRY, the arrays' part: the unscoped buffers at the entry contents are the pipeline's arrays, dealt, and the rest. -/
theorem enter0 (c : Dev nD) :
    (StableHlo.held (c : Thread nD τ) (Pipeline.ucRefs τ sig) (W1 m ρ c) : sProp 𝕄)
      ⊢ iprop((dat0 (V1 m ρ) c).arrays ((dat0 (V1 m ρ) c).arrAt · 0)
          ∗ Pipeline.unscopedRest (Ix := Unit) (Name := ℕ) (U := UR sig nD τ) (Lvl := ℕ) spec0 c (V1 m ρ c)) := by
  rw [← Pipeline.unscopedBufs_held (Ix := Unit) (Name := ℕ) (U := UR sig nD τ) (Lvl := ℕ) c (W1 m ρ c),
    Pipeline.unscopedBufs_split₀ cfgs 0 winFacts₀0.arr_unscoped c (V1 m ρ c)]
  exact sep_mono (arrays_split0 (V1 m ρ) c (V1 m ρ c) _ (fun w => A_eq0 (V1 m ρ) c w)) .rfl

/-- EXIT, the arrays' part: the pipeline's arrays as it leaves them and the rest are the unscoped buffers at the exit contents. -/
theorem leave0 (c : Dev nD) :
    iprop((dat0 (V1 m ρ) c).arrays ((dat0 (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held (Ix := Unit) (Name := ℕ) (U := UR sig nD τ) (Lvl := ℕ) c (W2 m ρ c),
    Pipeline.unscopedBufs_split₀ cfgs 0 winFacts₀0.arr_unscoped c (V2 m ρ c)]
  refine sep_mono (arrays_join0 (V1 m ρ) c (V2 m ρ c) _ (hF0 m ρ c)) (Entails.of_eq ?_)
  unfold Pipeline.unscopedRest
  exact bigSep_congr fun b hb => by rw [hrest0 m ρ c b (Finset.mem_sdiff.mp hb).2]

set_option backward.isDefEq.respectTransparency.types false in
/-- Region 0 as a segment of @main. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hE : (StableHlo.held (c : Thread nD τ) (Pipeline.ucRefs τ sig) (W1 m ρ c) : sProp 𝕄)
        ⊢ iprop((pdats m ρ 0 c).arrays ((pdats m ρ 0 c).arrAt · 0)
          ∗ Pipeline.unscopedRest (Ix := Unit) (Name := ℕ) (U := UR sig nD τ) (Lvl := ℕ) spec0 c (V1 m ρ c)) := enter0 m ρ c
    iintro ⟨⟨Hub, Hp, HO⟩, -, -⟩
    ihave H := hE $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hJ : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := leave0 m ρ c
    iintro ⟨Ha, HO, HY, Hrest⟩
    imodintro
    isplitl [Ha Hrest]
    · iapply hJ; isplitl [Ha] <;> iassumption
    isplitl [HY]; · iexact HY
    unfold Pipeline.Dat.owesAt Pipeline.owesWithin
    icases HO with ⟨%W, -, HO⟩; iexists W; iexact HO

end Cert.Kernel.Hand

end
-- ==== Proof.KernelFrame.Shares1.lean ====
/-
  Dealing the arrays' buffers among the windows of the second LSTM cell's pipeline, and taking them back.

  The region reads eight distinct buffers through seventeen windows: the weight matrix, the recurrent
  matrix and the bias row are each read through four windows, one per gate. Whole at the full share,
  those three buffers are dealt to their windows as the four quarters of the full share; the other five
  go whole to their one window. After the region the same quarters make the full share again, at the
  contents the arrays then have. Both directions, at any contents the windows' arrays agree with.
-/
import proofs.«137003_j53412213293363_2_alg».proof.Proof.KernelFrame.Dat1
import proofs.«137003_j53412213293363_2_alg».proof.Proof.LibQuarterShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays. -/
theorem arrImage1 : Finset.univ.image (Pipeline.arrRef spec1) = ([main_v1_0, main_arg3, main_arg4, main_arg10, main_arg11, main_v2, main_v3_0, main_v3_1] : List (Ref sig .tc)).toFinset := by decide

/-- The pipeline's arrays, window by window, each a whole buffer held at the window's share. -/
theorem arrays_eq1 (c : Dev nD) (Fw : (w : Fin cfg1.W) → Buf (Elt F) ((cfg1.win w).arr.view.loc (c : Thread nD τ))) :
    (dat1 V c).arrays Fw = bigSep Finset.univ fun w => (((c : Thread nD τ).loc (Pipeline.arrRef spec1 w)) ↦{(dat1 V c).share w} Fw w : sProp 𝕄) := by
  unfold Dat.arrays
  exact bigSep_congr fun w _ => by rw [(arr_whole1 w).set_eq_univ]

/-- The arrays, and the distinct buffers behind them, as chains. -/
theorem arrays_chain1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    (dat1 V c).arrays Fw = iprop(
      (((c : Thread nD τ).loc (Pipeline.arrRef spec1 0)) ↦{fullShare} V' (Pipeline.arrRef spec1 0)) ∗
      (((c : Thread nD τ).loc (Pipeline.arrRef spec1 1)) ↦{fullShare} V' (Pipeline.arrRef spec1 1)) ∗
      (((c : Thread nD τ).loc (Pipeline.arrRef spec1 2)) ↦{fullShare} V' (Pipeline.arrRef spec1 2)) ∗
      (((c : Thread nD τ).loc (Pipeline.arrRef spec1 3)) ↦{fullShare.left.left} V' (Pipeline.arrRef spec1 3)) ∗
      (((c : Thread nD τ).loc (Pipeline.arrRef spec1 4)) ↦{fullShare.left.right} V' (Pipeline.arrRef spec1 4)) ∗
      (((c : Thread nD τ).loc (Pipeline.arrRef spec1 5)) ↦{fullShare.right.left} V' (Pipeline.arrRef spec1 5)) ∗
      (((c : Thread nD τ).loc (Pipeline.arrRef spec1 6)) ↦{fullShare.right.right} V' (Pipeline.arrRef spec1 6)) ∗
      (((c : Thread nD τ).loc (Pipeline.arrRef spec1 7)) ↦{fullShare.left.left} V' (Pipeline.arrRef spec1 7)) ∗
      (((c : Thread nD τ).loc (Pipeline.arrRef spec1 8)) ↦{fullShare.left.right} V' (Pipeline.arrRef spec1 8)) ∗
      (((c : Thread nD τ).loc (Pipeline.arrRef spec1 9)) ↦{fullShare.right.left} V' (Pipeline.arrRef spec1 9)) ∗
      (((c : Thread nD τ).loc (Pipeline.arrRef spec1 10)) ↦{fullShare.right.right} V' (Pipeline.arrRef spec1 10)) ∗
      (((c : Thread nD τ).loc (Pipeline.arrRef spec1 11)) ↦{fullShare.left.left} V' (Pipeline.arrRef spec1 11)) ∗
      (((c : Thread nD τ).loc (Pipeline.arrRef spec1 12)) ↦{fullShare.left.right} V' (Pipeline.arrRef spec1 12)) ∗
      (((c : Thread nD τ).loc (Pipeline.arrRef spec1 13)) ↦{fullShare.right.left} V' (Pipeline.arrRef spec1 13)) ∗
      (((c : Thread nD τ).loc (Pipeline.arrRef spec1 14)) ↦{fullShare.right.right} V' (Pipeline.arrRef spec1 14)) ∗
      (((c : Thread nD τ).loc (Pipeline.arrRef spec1 15)) ↦{fullShare} V' (Pipeline.arrRef spec1 15)) ∗
      (((c : Thread nD τ).loc (Pipeline.arrRef spec1 16)) ↦{fullShare} V' (Pipeline.arrRef spec1 16))) := by
  rw [arrays_eq1, bigSep_W1]
  simp only [hF]
  rfl

theorem arrBufs_chain1 (c : Dev nD) (V' : (b : Ref sig .tc) → Buf (Elt F) ((c : Thread nD τ).loc b)) :
    (Pipeline.arrBufs (Ix := Unit) (Name := ℕ) (U := UR sig nD τ) (Lvl := ℕ) spec1 c V' : sProp 𝕄) = iprop(
      (((c : Thread nD τ).loc main_v1_0) ↦{fullShare} V' main_v1_0) ∗
      (((c : Thread nD τ).loc main_arg3) ↦{fullShare} V' main_arg3) ∗
      (((c : Thread nD τ).loc main_arg4) ↦{fullShare} V' main_arg4) ∗
      (((c : Thread nD τ).loc main_arg10) ↦{fullShare} V' main_arg10) ∗
      (((c : Thread nD τ).loc main_arg11) ↦{fullShare} V' main_arg11) ∗
      (((c : Thread nD τ).loc main_v2) ↦{fullShare} V' main_v2) ∗
      (((c : Thread nD τ).loc main_v3_0) ↦{fullShare} V' main_v3_0) ∗
      (((c : Thread nD τ).loc main_v3_1) ↦{fullShare} V' main_v3_1)) := by
  unfold Pipeline.arrBufs
  rw [bigSep_eq_bigSepL_of_eq _ arrImage1 (by decide)]
  rfl

/-- ENTRY: the buffers whole at the full share, dealt to the windows. -/
theorem arrays_split1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    (Pipeline.arrBufs (Ix := Unit) (Name := ℕ) (U := UR sig nD τ) (Lvl := ℕ) spec1 c V' : sProp 𝕄) ⊢ (dat1 V c).arrays Fw := by
  rw [arrays_chain1 V c V' Fw hF, arrBufs_chain1]
  iintro ⟨Hx, Hh, Hc, HW, HU, Hb, Hoh, Hoc⟩
  ihave HW' := pointsTo_quarters_split $$ HW
  icases HW' with ⟨HW0, HW1, HW2, HW3⟩
  ihave HU' := pointsTo_quarters_split $$ HU
  icases HU' with ⟨HU0, HU1, HU2, HU3⟩
  ihave Hb' := pointsTo_quarters_split $$ Hb
  icases Hb' with ⟨Hb0, Hb1, Hb2, Hb3⟩
  isplitl [Hx]; · iexact Hx
  isplitl [Hh]; · iexact Hh
  isplitl [Hc]; · iexact Hc
  isplitl [HW0]; · iexact HW0
  isplitl [HW1]; · iexact HW1
  isplitl [HW2]; · iexact HW2
  isplitl [HW3]; · iexact HW3
  isplitl [HU0]; · iexact HU0
  isplitl [HU1]; · iexact HU1
  isplitl [HU2]; · iexact HU2
  isplitl [HU3]; · iexact HU3
  isplitl [Hb0]; · iexact Hb0
  isplitl [Hb1]; · iexact Hb1
  isplitl [Hb2]; · iexact Hb2
  isplitl [Hb3]; · iexact Hb3
  isplitl [Hoh]; · iexact Hoh
  iexact Hoc

/-- EXIT: the windows' shares taken back, each buffer whole at the full share again. -/
theorem arrays_join1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    (dat1 V c).arrays Fw ⊢ (Pipeline.arrBufs (Ix := Unit) (Name := ℕ) (U := UR sig nD τ) (Lvl := ℕ) spec1 c V' : sProp 𝕄) := by
  rw [arrays_chain1 V c V' Fw hF, arrBufs_chain1]
  iintro ⟨Hx, Hh, Hc, HW0, HW1, HW2, HW3, HU0, HU1, HU2, HU3, Hb0, Hb1, Hb2, Hb3, Hoh, Hoc⟩
  isplitl [Hx]; · iexact Hx
  isplitl [Hh]; · iexact Hh
  isplitl [Hc]; · iexact Hc
  isplitl [HW0 HW1 HW2 HW3]
  · iapply pointsTo_quarters_join
    isplitl [HW0]; · iexact HW0
    isplitl [HW1]; · iexact HW1
    isplitl [HW2]; · iexact HW2
    iexact HW3
  isplitl [HU0 HU1 HU2 HU3]
  · iapply pointsTo_quarters_join
    isplitl [HU0]; · iexact HU0
    isplitl [HU1]; · iexact HU1
    isplitl [HU2]; · iexact HU2
    iexact HU3
  isplitl [Hb0 Hb1 Hb2 Hb3]
  · iapply pointsTo_quarters_join
    isplitl [Hb0]; · iexact Hb0
    isplitl [Hb1]; · iexact Hb1
    isplitl [Hb2]; · iexact Hb2
    iexact Hb3
  isplitl [Hoh]; · iexact Hoh
  iexact Hoc

end Cert.Kernel.Hand

end
-- ==== Proof.KernelFrame.Reg1.lean ====
/-
  The second LSTM cell's region over the thread state: entered from every unscoped buffer at the contents the
  preceding reshape leaves, left with its two output arrays at what the write-backs of all eight grid
  points leave and every other buffer as found. Its eight buffers are split out of the unscoped buffers
  and dealt to the seventeen windows (the three shared ones by quarters), and taken back at the exit.
-/
import proofs.«137003_j53412213293363_2_alg».proof.Proof.KernelFrame.PDats
import proofs.«137003_j53412213293363_2_alg».proof.Proof.KernelFrame.Shares1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's array is neither of the region's two output arrays. -/
theorem in_ne1 : ∀ w : Fin cfg1.W, (cfg1.win w).isOut = false →
    Pipeline.arrRef spec1 w ≠ main_v3_0 ∧ Pipeline.arrRef spec1 w ≠ main_v3_1 := by decide
/-- The output windows are the last two. -/
theorem out_cases1 : ∀ w : Fin cfg1.W, (cfg1.win w).isOut = true → w = 15 ∨ w = 16 := by decide

/-- At the region's exit each of its arrays holds what the pipeline leaves: an input array what it held, an output
    array the folded write-backs. -/
theorem hF1 (c : Dev nD) (w : Fin cfg1.W) : (dat1 (V3 m ρ) c).arrAt w cfg1.N = V4 m ρ c (Pipeline.arrRef spec1 w) := by
  by_cases hw : (cfg1.win w).isOut = true
  · rcases out_cases1 w hw with rfl | rfl
    · exact (W4_main_v3_0 m ρ c).symm
    · exact (W4_main_v3_1 m ρ c).symm
  · have hw' : (cfg1.win w).isOut = false := by simpa using hw
    exact ((dat1 (V3 m ρ) c).arrAt_in w hw' _).trans
      ((A_eq1 (V3 m ρ) c w).trans (W4_of_ne m ρ c _ (in_ne1 w hw').1 (in_ne1 w hw').2).symm)

/-- Every buffer that is no array of the region is as the region found it. -/
theorem hrest1 (c : Dev nD) : ∀ b, b ∉ Finset.univ.image (Pipeline.arrRef spec1) → V4 m ρ c b = V3 m ρ c b :=
  fun b hb => W4_of_ne m ρ c b (fun e => hb (Finset.mem_image.mpr ⟨15, Finset.mem_univ _, e.symm⟩))
    (fun e => hb (Finset.mem_image.mpr ⟨16, Finset.mem_univ _, e.symm⟩))

/-- ENTRY, the arrays' part: the unscoped buffers at the entry contents are the pipeline's arrays, dealt, and the rest. -/
theorem enter1 (c : Dev nD) :
    (StableHlo.held (c : Thread nD τ) (Pipeline.ucRefs τ sig) (W3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  rw [← Pipeline.unscopedBufs_held (Ix := Unit) (Name := ℕ) (U := UR sig nD τ) (Lvl := ℕ) c (W3 m ρ c),
    Pipeline.unscopedBufs_split₀ cfgs 1 winFacts₀1.arr_unscoped c (V3 m ρ c)]
  exact sep_mono (arrays_split1 (V3 m ρ) c (V3 m ρ c) _ (fun w => A_eq1 (V3 m ρ) c w)) .rfl

/-- EXIT, the arrays' part: the pipeline's arrays as it leaves them and the rest are the unscoped buffers at the exit contents. -/
theorem leave1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  rw [← Pipeline.unscopedBufs_held (Ix := Unit) (Name := ℕ) (U := UR sig nD τ) (Lvl := ℕ) c (W4 m ρ c),
    Pipeline.unscopedBufs_split₀ cfgs 1 winFacts₀1.arr_unscoped c (V4 m ρ c)]
  refine sep_mono (arrays_join1 (V3 m ρ) c (V4 m ρ c) _ (hF1 m ρ c)) (Entails.of_eq ?_)
  unfold Pipeline.unscopedRest
  exact bigSep_congr fun b hb => by rw [hrest1 m ρ c b (Finset.mem_sdiff.mp hb).2]

set_option backward.isDefEq.respectTransparency.types false in
/-- Region 1 as a segment of @main. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hE : (StableHlo.held (c : Thread nD τ) (Pipeline.ucRefs τ sig) (W3 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V3 m ρ c)) := enter1 m ρ c
    iintro ⟨⟨Hub, Hp, HO⟩, -, -⟩
    ihave H := hE $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hJ : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (StableHlo.held (c : Thread nD τ) (Pipeline.ucRefs τ sig) (W4 m ρ c) : sProp 𝕄) := leave1 m ρ c
    iintro ⟨Ha, HO, HY, Hrest⟩
    imodintro
    isplitl [Ha Hrest]
    · iapply hJ; isplitl [Ha] <;> iassumption
    isplitl [HY]; · iexact HY
    unfold Pipeline.Dat.owesAt Pipeline.owesWithin
    icases HO with ⟨%W, -, HO⟩; iexists W; iexact HO

end Cert.Kernel.Hand

end
-- ==== Proof.KernelFrame.Shares2.lean ====
/-
  Dealing the arrays' buffers among the windows of the third LSTM cell's pipeline, and taking them back.

  The region reads eight distinct buffers through seventeen windows: the weight matrix, the recurrent
  matrix and the bias row are each read through four windows, one per gate. Whole at the full share,
  those three buffers are dealt to their windows as the four quarters of the full share; the other five
  go whole to their one window. After the region the same quarters make the full share again, at the
  contents the arrays then have. Both directions, at any contents the windows' arrays agree with.
-/
import proofs.«137003_j53412213293363_2_alg».proof.Proof.KernelFrame.Dat2
import proofs.«137003_j53412213293363_2_alg».proof.Proof.LibQuarterShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays. -/
theorem arrImage2 : Finset.univ.image (Pipeline.arrRef spec2) = ([main_v3_0, main_arg5, main_arg6, main_arg13, main_arg14, main_v4, main_v5_0, main_v5_1] : List (Ref sig .tc)).toFinset := by decide

/-- The pipeline's arrays, window by window, each a whole buffer held at the window's share. -/
theorem arrays_eq2 (c : Dev nD) (Fw : (w : Fin cfg2.W) → Buf (Elt F) ((cfg2.win w).arr.view.loc (c : Thread nD τ))) :
    (dat2 V c).arrays Fw = bigSep Finset.univ fun w => (((c : Thread nD τ).loc (Pipeline.arrRef spec2 w)) ↦{(dat2 V c).share w} Fw w : sProp 𝕄) := by
  unfold Dat.arrays
  exact bigSep_congr fun w _ => by rw [(arr_whole2 w).set_eq_univ]

/-- The arrays, and the distinct buffers behind them, as chains. -/
theorem arrays_chain2 (c : Dev nD) (V' : (b : Ref sig .tc) → Buf (Elt F) ((c : Thread nD τ).loc b))
    (Fw : (w : Fin cfg2.W) → Buf (Elt F) ((cfg2.win w).arr.view.loc (c : Thread nD τ)))
    (hF : ∀ w, Fw w = V' (Pipeline.arrRef spec2 w)) :
    (dat2 V c).arrays Fw = iprop(
      (((c : Thread nD τ).loc (Pipeline.arrRef spec2 0)) ↦{fullShare} V' (Pipeline.arrRef spec2 0)) ∗
      (((c : Thread nD τ).loc (Pipeline.arrRef spec2 1)) ↦{fullShare} V' (Pipeline.arrRef spec2 1)) ∗
      (((c : Thread nD τ).loc (Pipeline.arrRef spec2 2)) ↦{fullShare} V' (Pipeline.arrRef spec2 2)) ∗
      (((c : Thread nD τ).loc (Pipeline.arrRef spec2 3)) ↦{fullShare.left.left} V' (Pipeline.arrRef spec2 3)) ∗
      (((c : Thread nD τ).loc (Pipeline.arrRef spec2 4)) ↦{fullShare.left.right} V' (Pipeline.arrRef spec2 4)) ∗
      (((c : Thread nD τ).loc (Pipeline.arrRef spec2 5)) ↦{fullShare.right.left} V' (Pipeline.arrRef spec2 5)) ∗
      (((c : Thread nD τ).loc (Pipeline.arrRef spec2 6)) ↦{fullShare.right.right} V' (Pipeline.arrRef spec2 6)) ∗
      (((c : Thread nD τ).loc (Pipeline.arrRef spec2 7)) ↦{fullShare.left.left} V' (Pipeline.arrRef spec2 7)) ∗
      (((c : Thread nD τ).loc (Pipeline.arrRef spec2 8)) ↦{fullShare.left.right} V' (Pipeline.arrRef spec2 8)) ∗
      (((c : Thread nD τ).loc (Pipeline.arrRef spec2 9)) ↦{fullShare.right.left} V' (Pipeline.arrRef spec2 9)) ∗
      (((c : Thread nD τ).loc (Pipeline.arrRef spec2 10)) ↦{fullShare.right.right} V' (Pipeline.arrRef spec2 10)) ∗
      (((c : Thread nD τ).loc (Pipeline.arrRef spec2 11)) ↦{fullShare.left.left} V' (Pipeline.arrRef spec2 11)) ∗
      (((c : Thread nD τ).loc (Pipeline.arrRef spec2 12)) ↦{fullShare.left.right} V' (Pipeline.arrRef spec2 12)) ∗
      (((c : Thread nD τ).loc (Pipeline.arrRef spec2 13)) ↦{fullShare.right.left} V' (Pipeline.arrRef spec2 13)) ∗
      (((c : Thread nD τ).loc (Pipeline.arrRef spec2 14)) ↦{fullShare.right.right} V' (Pipeline.arrRef spec2 14)) ∗
      (((c : Thread nD τ).loc (Pipeline.arrRef spec2 15)) ↦{fullShare} V' (Pipeline.arrRef spec2 15)) ∗
      (((c : Thread nD τ).loc (Pipeline.arrRef spec2 16)) ↦{fullShare} V' (Pipeline.arrRef spec2 16))) := by
  rw [arrays_eq2, bigSep_W2]
  simp only [hF]
  rfl

theorem arrBufs_chain2 (c : Dev nD) (V' : (b : Ref sig .tc) → Buf (Elt F) ((c : Thread nD τ).loc b)) :
    (Pipeline.arrBufs (Ix := Unit) (Name := ℕ) (U := UR sig nD τ) (Lvl := ℕ) spec2 c V' : sProp 𝕄) = iprop(
      (((c : Thread nD τ).loc main_v3_0) ↦{fullShare} V' main_v3_0) ∗
      (((c : Thread nD τ).loc main_arg5) ↦{fullShare} V' main_arg5) ∗
      (((c : Thread nD τ).loc main_arg6) ↦{fullShare} V' main_arg6) ∗
      (((c : Thread nD τ).loc main_arg13) ↦{fullShare} V' main_arg13) ∗
      (((c : Thread nD τ).loc main_arg14) ↦{fullShare} V' main_arg14) ∗
      (((c : Thread nD τ).loc main_v4) ↦{fullShare} V' main_v4) ∗
      (((c : Thread nD τ).loc main_v5_0) ↦{fullShare} V' main_v5_0) ∗
      (((c : Thread nD τ).loc main_v5_1) ↦{fullShare} V' main_v5_1)) := by
  unfold Pipeline.arrBufs
  rw [bigSep_eq_bigSepL_of_eq _ arrImage2 (by decide)]
  rfl

/-- ENTRY: the buffers whole at the full share, dealt to the windows. -/
theorem arrays_split2 (c : Dev nD) (V' : (b : Ref sig .tc) → Buf (Elt F) ((c : Thread nD τ).loc b))
    (Fw : (w : Fin cfg2.W) → Buf (Elt F) ((cfg2.win w).arr.view.loc (c : Thread nD τ)))
    (hF : ∀ w, Fw w = V' (Pipeline.arrRef spec2 w)) :
    (Pipeline.arrBufs (Ix := Unit) (Name := ℕ) (U := UR sig nD τ) (Lvl := ℕ) spec2 c V' : sProp 𝕄) ⊢ (dat2 V c).arrays Fw := by
  rw [arrays_chain2 V c V' Fw hF, arrBufs_chain2]
  iintro ⟨Hx, Hh, Hc, HW, HU, Hb, Hoh, Hoc⟩
  ihave HW' := pointsTo_quarters_split $$ HW
  icases HW' with ⟨HW0, HW1, HW2, HW3⟩
  ihave HU' := pointsTo_quarters_split $$ HU
  icases HU' with ⟨HU0, HU1, HU2, HU3⟩
  ihave Hb' := pointsTo_quarters_split $$ Hb
  icases Hb' with ⟨Hb0, Hb1, Hb2, Hb3⟩
  isplitl [Hx]; · iexact Hx
  isplitl [Hh]; · iexact Hh
  isplitl [Hc]; · iexact Hc
  isplitl [HW0]; · iexact HW0
  isplitl [HW1]; · iexact HW1
  isplitl [HW2]; · iexact HW2
  isplitl [HW3]; · iexact HW3
  isplitl [HU0]; · iexact HU0
  isplitl [HU1]; · iexact HU1
  isplitl [HU2]; · iexact HU2
  isplitl [HU3]; · iexact HU3
  isplitl [Hb0]; · iexact Hb0
  isplitl [Hb1]; · iexact Hb1
  isplitl [Hb2]; · iexact Hb2
  isplitl [Hb3]; · iexact Hb3
  isplitl [Hoh]; · iexact Hoh
  iexact Hoc

/-- EXIT: the windows' shares taken back, each buffer whole at the full share again. -/
theorem arrays_join2 (c : Dev nD) (V' : (b : Ref sig .tc) → Buf (Elt F) ((c : Thread nD τ).loc b))
    (Fw : (w : Fin cfg2.W) → Buf (Elt F) ((cfg2.win w).arr.view.loc (c : Thread nD τ)))
    (hF : ∀ w, Fw w = V' (Pipeline.arrRef spec2 w)) :
    (dat2 V c).arrays Fw ⊢ (Pipeline.arrBufs (Ix := Unit) (Name := ℕ) (U := UR sig nD τ) (Lvl := ℕ) spec2 c V' : sProp 𝕄) := by
  rw [arrays_chain2 V c V' Fw hF, arrBufs_chain2]
  iintro ⟨Hx, Hh, Hc, HW0, HW1, HW2, HW3, HU0, HU1, HU2, HU3, Hb0, Hb1, Hb2, Hb3, Hoh, Hoc⟩
  isplitl [Hx]; · iexact Hx
  isplitl [Hh]; · iexact Hh
  isplitl [Hc]; · iexact Hc
  isplitl [HW0 HW1 HW2 HW3]
  · iapply pointsTo_quarters_join
    isplitl [HW0]; · iexact HW0
    isplitl [HW1]; · iexact HW1
    isplitl [HW2]; · iexact HW2
    iexact HW3
  isplitl [HU0 HU1 HU2 HU3]
  · iapply pointsTo_quarters_join
    isplitl [HU0]; · iexact HU0
    isplitl [HU1]; · iexact HU1
    isplitl [HU2]; · iexact HU2
    iexact HU3
  isplitl [Hb0 Hb1 Hb2 Hb3]
  · iapply pointsTo_quarters_join
    isplitl [Hb0]; · iexact Hb0
    isplitl [Hb1]; · iexact Hb1
    isplitl [Hb2]; · iexact Hb2
    iexact Hb3
  isplitl [Hoh]; · iexact Hoh
  iexact Hoc

end Cert.Kernel.Hand

end
-- ==== Proof.KernelFrame.Reg2.lean ====
/-
  The third LSTM cell's region over the thread state: entered from every unscoped buffer at the contents the
  preceding reshape leaves, left with its two output arrays at what the write-backs of all eight grid
  points leave and every other buffer as found. Its eight buffers are split out of the unscoped buffers
  and dealt to the seventeen windows (the three shared ones by quarters), and taken back at the exit.
-/
import proofs.«137003_j53412213293363_2_alg».proof.Proof.KernelFrame.PDats
import proofs.«137003_j53412213293363_2_alg».proof.Proof.KernelFrame.Shares2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's array is neither of the region's two output arrays. -/
theorem in_ne2 : ∀ w : Fin cfg2.W, (cfg2.win w).isOut = false →
    Pipeline.arrRef spec2 w ≠ main_v5_0 ∧ Pipeline.arrRef spec2 w ≠ main_v5_1 := by decide
/-- The output windows are the last two. -/
theorem out_cases2 : ∀ w : Fin cfg2.W, (cfg2.win w).isOut = true → w = 15 ∨ w = 16 := by decide

/-- At the region's exit each of its arrays holds what the pipeline leaves: an input array what it held, an output
    array the folded write-backs. -/
theorem hF2 (c : Dev nD) (w : Fin cfg2.W) : (dat2 (V5 m ρ) c).arrAt w cfg2.N = V6 m ρ c (Pipeline.arrRef spec2 w) := by
  by_cases hw : (cfg2.win w).isOut = true
  · rcases out_cases2 w hw with rfl | rfl
    · exact (W6_main_v5_0 m ρ c).symm
    · exact (W6_main_v5_1 m ρ c).symm
  · have hw' : (cfg2.win w).isOut = false := by simpa using hw
    exact ((dat2 (V5 m ρ) c).arrAt_in w hw' _).trans
      ((A_eq2 (V5 m ρ) c w).trans (W6_of_ne m ρ c _ (in_ne2 w hw').1 (in_ne2 w hw').2).symm)

/-- Every buffer that is no array of the region is as the region found it. -/
theorem hrest2 (c : Dev nD) : ∀ b, b ∉ Finset.univ.image (Pipeline.arrRef spec2) → V6 m ρ c b = V5 m ρ c b :=
  fun b hb => W6_of_ne m ρ c b (fun e => hb (Finset.mem_image.mpr ⟨15, Finset.mem_univ _, e.symm⟩))
    (fun e => hb (Finset.mem_image.mpr ⟨16, Finset.mem_univ _, e.symm⟩))

/-- ENTRY, the arrays' part: the unscoped buffers at the entry contents are the pipeline's arrays, dealt, and the rest. -/
theorem enter2 (c : Dev nD) :
    (StableHlo.held (c : Thread nD τ) (Pipeline.ucRefs τ sig) (W5 m ρ c) : sProp 𝕄)
      ⊢ iprop((dat2 (V5 m ρ) c).arrays ((dat2 (V5 m ρ) c).arrAt · 0)
          ∗ Pipeline.unscopedRest (Ix := Unit) (Name := ℕ) (U := UR sig nD τ) (Lvl := ℕ) spec2 c (V5 m ρ c)) := by
  rw [← Pipeline.unscopedBufs_held (Ix := Unit) (Name := ℕ) (U := UR sig nD τ) (Lvl := ℕ) c (W5 m ρ c),
    Pipeline.unscopedBufs_split₀ cfgs 2 winFacts₀2.arr_unscoped c (V5 m ρ c)]
  exact sep_mono (arrays_split2 (V5 m ρ) c (V5 m ρ c) _ (fun w => A_eq2 (V5 m ρ) c w)) .rfl

/-- EXIT, the arrays' part: the pipeline's arrays as it leaves them and the rest are the unscoped buffers at the exit contents. -/
theorem leave2 (c : Dev nD) :
    iprop((dat2 (V5 m ρ) c).arrays ((dat2 (V5 m ρ) c).arrAt · cfg2.N)
        ∗ Pipeline.unscopedRest (Ix := Unit) (Name := ℕ) (U := UR sig nD τ) (Lvl := ℕ) spec2 c (V5 m ρ c))
      ⊢ (StableHlo.held (c : Thread nD τ) (Pipeline.ucRefs τ sig) (W6 m ρ c) : sProp 𝕄) := by
  rw [← Pipeline.unscopedBufs_held (Ix := Unit) (Name := ℕ) (U := UR sig nD τ) (Lvl := ℕ) c (W6 m ρ c),
    Pipeline.unscopedBufs_split₀ cfgs 2 winFacts₀2.arr_unscoped c (V6 m ρ c)]
  refine sep_mono (arrays_join2 (V5 m ρ) c (V6 m ρ c) _ (hF2 m ρ c)) (Entails.of_eq ?_)
  unfold Pipeline.unscopedRest
  exact bigSep_congr fun b hb => by rw [hrest2 m ρ c b (Finset.mem_sdiff.mp hb).2]

set_option backward.isDefEq.respectTransparency.types false in
/-- Region 2 as a segment of @main. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hE : (StableHlo.held (c : Thread nD τ) (Pipeline.ucRefs τ sig) (W5 m ρ c) : sProp 𝕄)
        ⊢ iprop((pdats m ρ 2 c).arrays ((pdats m ρ 2 c).arrAt · 0)
          ∗ Pipeline.unscopedRest (Ix := Unit) (Name := ℕ) (U := UR sig nD τ) (Lvl := ℕ) spec2 c (V5 m ρ c)) := enter2 m ρ c
    iintro ⟨⟨Hub, Hp, HO⟩, -, -⟩
    ihave H := hE $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hJ : iprop((pdats m ρ 2 c).arrays ((pdats m ρ 2 c).arrAt · cfg2.N)
          ∗ Pipeline.unscopedRest (Ix := Unit) (Name := ℕ) (U := UR sig nD τ) (Lvl := ℕ) spec2 c (V5 m ρ c))
        ⊢ (StableHlo.held (c : Thread nD τ) (Pipeline.ucRefs τ sig) (W6 m ρ c) : sProp 𝕄) := leave2 m ρ c
    iintro ⟨Ha, HO, HY, Hrest⟩
    imodintro
    isplitl [Ha Hrest]
    · iapply hJ; isplitl [Ha] <;> iassumption
    isplitl [HY]; · iexact HY
    unfold Pipeline.Dat.owesAt Pipeline.owesWithin
    icases HO with ⟨%W, -, HO⟩; iexists W; iexact HO

end Cert.Kernel.Hand

end
-- ==== Proof.KernelFrame.Reg3.lean ====
/-
  The dense layer's region over the thread state: entered from every unscoped buffer at the contents
  the last reshape leaves, left with the logits' array at what the write-backs of both grid points
  leave and every other buffer as found. Its four arrays are distinct buffers: they are split out of
  the unscoped buffers at the full share and put back at the exit contents.
-/
import proofs.«137003_j53412213293363_2_alg».proof.Proof.KernelFrame.PDats
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the region's exit each of its arrays holds what the pipeline leaves: an input array what it held, the output
    array the folded write-backs. -/
theorem hF3 (c : Dev nD) (w : Fin cfg3.W) : (dat3 (V7 m ρ) c).arrAt w cfg3.N = V8 m ρ c (Pipeline.arrRef spec3 w) := by
  match w with
  | ⟨0, _⟩ => exact ((dat3 (V7 m ρ) c).arrAt_in 0 rfl _).trans ((A_eq3 (V7 m ρ) c 0).trans (W8_of_ne m ρ c _ (by decide)).symm)
  | ⟨1, _⟩ => exact ((dat3 (V7 m ρ) c).arrAt_in 1 rfl _).trans ((A_eq3 (V7 m ρ) c 1).trans (W8_of_ne m ρ c _ (by decide)).symm)
  | ⟨2, _⟩ => exact ((dat3 (V7 m ρ) c).arrAt_in 2 rfl _).trans ((A_eq3 (V7 m ρ) c 2).trans (W8_of_ne m ρ c _ (by decide)).symm)
  | ⟨3, _⟩ => exact (W8_main_v7 m ρ c).symm

/-- Every buffer that is no array of the region is as the region found it. -/
theorem hrest3 (c : Dev nD) : ∀ b, b ∉ Finset.univ.image (Pipeline.arrRef spec3) → V8 m ρ c b = V7 m ρ c b :=
  fun b hb => W8_of_ne m ρ c b fun e => hb (Finset.mem_image.mpr ⟨3, Finset.mem_univ _, e.symm⟩)

set_option backward.isDefEq.respectTransparency.types false in
/-- Region 3 as a segment of @main. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.KernelFrame.Run.lean ====
/-
  The run of @main: four host stretches and four kernel regions in order, from the launch memory to
  the return. Every weakly fair execution terminates, nothing faulting, and every final memory holds
  each unscoped buffer at the last boundary's contents: the arguments as launched, each region's output
  arrays at what its write-backs leave.
-/
import proofs.«137003_j53412213293363_2_alg».proof.Proof.KernelFrame.Reg0
import proofs.«137003_j53412213293363_2_alg».proof.Proof.KernelFrame.Reg1
import proofs.«137003_j53412213293363_2_alg».proof.Proof.KernelFrame.Reg2
import proofs.«137003_j53412213293363_2_alg».proof.Proof.KernelFrame.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory has each unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.KernelIdealFrame.Body0.lean ====
/-
  The first LSTM cell's kernel body, run once on whole staging buffers: from the fifteen input blocks
  (the rows of the layer's input and of its previous hidden state, the tile of the cell state, and per
  gate the tile of the input weights, of the recurrent weights and of the bias row) it leaves the tile
  of the new hidden state in the sixteenth buffer and the tile of the new cell state in the
  seventeenth, the inputs untouched. Every load and every store is of a whole buffer.
-/
import proofs.«137003_j53412213293363_2_alg».proof.Proof.Gen.KernelIdeal.Launch
import proofs.«137003_j53412213293363_2_alg».proof.Proof.Gen.KernelIdeal.Skeleton
import proofs.«137003_j53412213293363_2_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev r0_x : Rect S256x512 := Rect.unit (s := S256x512) ![0, 0] S256x512.size inb_S256x512_S256x512_0_0
abbrev r0_h : Rect S256x1024 := Rect.unit (s := S256x1024) ![0, 0] S256x1024.size inb_S256x1024_S256x1024_0_0
abbrev r0_t : Rect S256x128 := Rect.unit (s := S256x128) ![0, 0] S256x128.size inb_S256x128_S256x128_0_0
abbrev r0_w : Rect S512x128 := Rect.unit (s := S512x128) ![0, 0] S512x128.size inb_S512x128_S512x128_0_0
abbrev r0_u : Rect S1024x128 := Rect.unit (s := S1024x128) ![0, 0] S1024x128.size inb_S1024x128_S1024x128_0_0
abbrev r0_b : Rect S1x128 := Rect.unit (s := S1x128) ![0, 0] S1x128.size inb_S1x128_S1x128_0_0

/-! ## What the body leaves in the two output buffers -/

/-- The new hidden state's tile, from the fifteen input blocks: the body's one store into that buffer. -/
def out0_15 (x0 : Vec F S256x512 .f32) (x1 : Vec F S256x1024 .f32) (x2 : Vec F S256x128 .f32) (x3 : Vec F S512x128 .f32) (x4 : Vec F S512x128 .f32) (x5 : Vec F S512x128 .f32) (x6 : Vec F S512x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) (x14 : Vec F S1x128 .f32) : Vec F S256x128 .f32 :=
  View.canon [⟨r0_t, k0_pay2 (k0_pay3 (View.ld x0 r0_x)) (k0_pay4 (View.ld x1 r0_h)) (View.ld x2 r0_t) (k0_pay5 (View.ld x0 r0_x) (View.ld x1 r0_h) (View.ld x3 r0_w) (View.ld x7 r0_u) (View.ld x11 r0_b)) (k0_pay6 (View.ld x0 r0_x) (View.ld x1 r0_h) (View.ld x4 r0_w) (View.ld x8 r0_u) (View.ld x12 r0_b)) (k0_pay7 (View.ld x5 r0_w)) (k0_pay8 (View.ld x9 r0_u)) (View.ld x13 r0_b) (View.ld x6 r0_w) (View.ld x10 r0_u) (View.ld x14 r0_b)⟩]

/-- The new cell state's tile, from the blocks it depends on (the output gate's are not among them). -/
def out0_16 (x0 : Vec F S256x512 .f32) (x1 : Vec F S256x1024 .f32) (x2 : Vec F S256x128 .f32) (x3 : Vec F S512x128 .f32) (x4 : Vec F S512x128 .f32) (x5 : Vec F S512x128 .f32) (x6 : Vec F S512x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) : Vec F S256x128 .f32 :=
  View.canon [⟨r0_t, k0_pay1 (k0_pay3 (View.ld x0 r0_x)) (k0_pay4 (View.ld x1 r0_h)) (View.ld x2 r0_t) (k0_pay5 (View.ld x0 r0_x) (View.ld x1 r0_h) (View.ld x3 r0_w) (View.ld x7 r0_u) (View.ld x11 r0_b)) (k0_pay6 (View.ld x0 r0_x) (View.ld x1 r0_h) (View.ld x4 r0_w) (View.ld x8 r0_u) (View.ld x12 r0_b)) (k0_pay7 (View.ld x5 r0_w)) (k0_pay8 (View.ld x9 r0_u)) (View.ld x13 r0_b)⟩]

/-- One store of the whole tile covers the buffer. -/
theorem cover0_t (p0 : Vec F S256x128 .f32) (y : S256x128.Idx) :
    ∃ pc ∈ ([⟨r0_t, p0⟩] : List (View.Piece (Elt F) S256x128 .f32)), y ∈ pc.1.set :=
  View.cover_of_tiled [⟨r0_t, p0⟩] S256x128.size (by rfl) y

/-! ## The body's triple -/

set_option maxHeartbeats 4000000 in
/-- The kernel body on whole staging memrefs, the inputs' at contents `xW` and the outputs' at anything, runs to the
    continuation holding the inputs' as they were and the two outputs' at `out0_15`, `out0_16` of the inputs'. -/
theorem sound_kernel0 (c : Dev nD) (E : Set ℕ) (i : grid0.Coords) (arg1 : Memref sig .tc .vmem S256x512 .f32) (harg1 : arg1.IsWhole) (arg2 : Memref sig .tc .vmem S256x1024 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S256x128 .f32) (harg16 : arg16.IsWhole) (arg17 : Memref sig .tc .vmem S256x128 .f32) (harg17 : arg17.IsWhole)
    (x0 : Vec F S256x512 .f32) (x1 : Vec F S256x1024 .f32) (x2 : Vec F S256x128 .f32) (x3 : Vec F S512x128 .f32) (x4 : Vec F S512x128 .f32) (x5 : Vec F S512x128 .f32) (x6 : Vec F S512x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14) ∗ owns (c : Thread nD τ) arg17 fullShare (out0_16 x0 x1 x2 x3 x4 x5 x6 x7 x8 x9 x10 x11 x12 x13)) -∗ K ⟨⟩))
      ⊢ wp frame (wpE (defs₀ (F := F)) Variants.none c none) E (cc0__lstm_cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__lstm_cell_kernel_eq_skeleton]; unfold cc0__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover0_t _)
  iexists _; isplitr
  swap; · iexact H16
  ipureintro
  exact View.read_writes_eq_canon _ _ _ (cover0_t _)

end Cert.KernelIdeal.Hand

end
-- ==== Proof.KernelIdealFrame.Dat0.lean ====
/-
  The proof data of the first LSTM cell's pipeline: what each window's staging buffer holds
  when the body runs at a grid point and what the body leaves there, as functions of the arrays the
  region finds. An input window's buffer holds its block of the array at every point, whether the
  block was fetched there or earlier; the two output buffers are left at the body's results on the
  fifteen input blocks. The weight matrix, the recurrent matrix and the bias row are each read through
  four windows, one per gate: each of those windows holds its array at a quarter of the full share.
-/
import proofs.«137003_j53412213293363_2_alg».proof.Proof.KernelIdealFrame.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's current staging buffer holds its block at every point, fetched there or not. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

/-! ## The proof data -/

/-- The share of its array each window holds: a quarter for the four gate windows on one array, all of it otherwise. -/
def q0 : Fin cfg0.W → PosShare TreeShare
  | ⟨0, _⟩ => fullShare
  | ⟨1, _⟩ => fullShare
  | ⟨2, _⟩ => fullShare
  | ⟨3, _⟩ => fullShare.left.left
  | ⟨4, _⟩ => fullShare.left.right
  | ⟨5, _⟩ => fullShare.right.left
  | ⟨6, _⟩ => fullShare.right.right
  | ⟨7, _⟩ => fullShare.left.left
  | ⟨8, _⟩ => fullShare.left.right
  | ⟨9, _⟩ => fullShare.right.left
  | ⟨10, _⟩ => fullShare.right.right
  | ⟨11, _⟩ => fullShare.left.left
  | ⟨12, _⟩ => fullShare.left.right
  | ⟨13, _⟩ => fullShare.right.left
  | ⟨14, _⟩ => fullShare.right.right
  | ⟨15, _⟩ => fullShare
  | ⟨16, _⟩ => fullShare
  | ⟨_ + 17, h⟩ => absurd h (Nat.not_lt.2 (Nat.le_add_left _ _))

/-- The proof data of pipeline 0 on core `c`: the arrays as the region finds them; after the body at point `t` each
    input's buffer at its block and each output's at the body's result on the input blocks; the invariant the scoped
    buffers no window stages and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 17, h⟩ => absurd h (Nat.not_lt.2 (Nat.le_add_left _ _))
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel0 c Set.univ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealFrame.Body1.lean ====
/-
  The second LSTM cell's kernel body, run once on whole staging buffers: from the fifteen input blocks
  (the rows of the layer's input and of its previous hidden state, the tile of the cell state, and per
  gate the tile of the input weights, of the recurrent weights and of the bias row) it leaves the tile
  of the new hidden state in the sixteenth buffer and the tile of the new cell state in the
  seventeenth, the inputs untouched. Every load and every store is of a whole buffer.
-/
import proofs.«137003_j53412213293363_2_alg».proof.Proof.Gen.KernelIdeal.Launch
import proofs.«137003_j53412213293363_2_alg».proof.Proof.Gen.KernelIdeal.Skeleton
import proofs.«137003_j53412213293363_2_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev r1_x : Rect S256x1024 := Rect.unit (s := S256x1024) ![0, 0] S256x1024.size inb_S256x1024_S256x1024_0_0
abbrev r1_h : Rect S256x1024 := Rect.unit (s := S256x1024) ![0, 0] S256x1024.size inb_S256x1024_S256x1024_0_0
abbrev r1_t : Rect S256x128 := Rect.unit (s := S256x128) ![0, 0] S256x128.size inb_S256x128_S256x128_0_0
abbrev r1_w : Rect S1024x128 := Rect.unit (s := S1024x128) ![0, 0] S1024x128.size inb_S1024x128_S1024x128_0_0
abbrev r1_u : Rect S1024x128 := Rect.unit (s := S1024x128) ![0, 0] S1024x128.size inb_S1024x128_S1024x128_0_0
abbrev r1_b : Rect S1x128 := Rect.unit (s := S1x128) ![0, 0] S1x128.size inb_S1x128_S1x128_0_0

/-! ## What the body leaves in the two output buffers -/

/-- The new hidden state's tile, from the fifteen input blocks: the body's one store into that buffer. -/
def out1_15 (x0 : Vec F S256x1024 .f32) (x1 : Vec F S256x1024 .f32) (x2 : Vec F S256x128 .f32) (x3 : Vec F S1024x128 .f32) (x4 : Vec F S1024x128 .f32) (x5 : Vec F S1024x128 .f32) (x6 : Vec F S1024x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) (x14 : Vec F S1x128 .f32) : Vec F S256x128 .f32 :=
  View.canon [⟨r1_t, k1_pay2 (k1_pay3 (View.ld x0 r1_x)) (k1_pay4 (View.ld x1 r1_h)) (View.ld x2 r1_t) (k1_pay5 (View.ld x0 r1_x) (View.ld x1 r1_h) (View.ld x3 r1_w) (View.ld x7 r1_u) (View.ld x11 r1_b)) (k1_pay6 (View.ld x0 r1_x) (View.ld x1 r1_h) (View.ld x4 r1_w) (View.ld x8 r1_u) (View.ld x12 r1_b)) (k1_pay7 (View.ld x5 r1_w)) (k1_pay8 (View.ld x9 r1_u)) (View.ld x13 r1_b) (View.ld x6 r1_w) (View.ld x10 r1_u) (View.ld x14 r1_b)⟩]

/-- The new cell state's tile, from the blocks it depends on (the output gate's are not among them). -/
def out1_16 (x0 : Vec F S256x1024 .f32) (x1 : Vec F S256x1024 .f32) (x2 : Vec F S256x128 .f32) (x3 : Vec F S1024x128 .f32) (x4 : Vec F S1024x128 .f32) (x5 : Vec F S1024x128 .f32) (x6 : Vec F S1024x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) : Vec F S256x128 .f32 :=
  View.canon [⟨r1_t, k1_pay1 (k1_pay3 (View.ld x0 r1_x)) (k1_pay4 (View.ld x1 r1_h)) (View.ld x2 r1_t) (k1_pay5 (View.ld x0 r1_x) (View.ld x1 r1_h) (View.ld x3 r1_w) (View.ld x7 r1_u) (View.ld x11 r1_b)) (k1_pay6 (View.ld x0 r1_x) (View.ld x1 r1_h) (View.ld x4 r1_w) (View.ld x8 r1_u) (View.ld x12 r1_b)) (k1_pay7 (View.ld x5 r1_w)) (k1_pay8 (View.ld x9 r1_u)) (View.ld x13 r1_b)⟩]

/-- One store of the whole tile covers the buffer. -/
theorem cover1_t (p0 : Vec F S256x128 .f32) (y : S256x128.Idx) :
    ∃ pc ∈ ([⟨r1_t, p0⟩] : List (View.Piece (Elt F) S256x128 .f32)), y ∈ pc.1.set :=
  View.cover_of_tiled [⟨r1_t, p0⟩] S256x128.size (by rfl) y

/-! ## The body's triple -/

set_option maxHeartbeats 4000000 in
/-- The kernel body on whole staging memrefs, the inputs' at contents `xW` and the outputs' at anything, runs to the
    continuation holding the inputs' as they were and the two outputs' at `out1_15`, `out1_16` of the inputs'. -/
theorem sound_kernel1 (c : Dev nD) (E : Set ℕ) (i : grid1.Coords) (arg1 : Memref sig .tc .vmem S256x1024 .f32) (harg1 : arg1.IsWhole) (arg2 : Memref sig .tc .vmem S256x1024 .f32) (harg2 : arg2.IsWhole) (arg3 : Memref sig .tc .vmem S256x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S256x128 .f32) (harg16 : arg16.IsWhole) (arg17 : Memref sig .tc .vmem S256x128 .f32) (harg17 : arg17.IsWhole)
    (x0 : Vec F S256x1024 .f32) (x1 : Vec F S256x1024 .f32) (x2 : Vec F S256x128 .f32) (x3 : Vec F S1024x128 .f32) (x4 : Vec F S1024x128 .f32) (x5 : Vec F S1024x128 .f32) (x6 : Vec F S1024x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out1_15 x0 x1 x2 x3 x4 x5 x6 x7 x8 x9 x10 x11 x12 x13 x14) ∗ owns (c : Thread nD τ) arg17 fullShare (out1_16 x0 x1 x2 x3 x4 x5 x6 x7 x8 x9 x10 x11 x12 x13)) -∗ K ⟨⟩))
      ⊢ wp frame (wpE (defs₀ (F := F)) Variants.none c none) E (cc1__lstm_cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__lstm_cell_kernel_eq_skeleton]; unfold cc1__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover1_t _)
  iexists _; isplitr
  swap; · iexact H16
  ipureintro
  exact View.read_writes_eq_canon _ _ _ (cover1_t _)

end Cert.KernelIdeal.Hand

end
-- ==== Proof.KernelIdealFrame.Dat1.lean ====
/-
  The proof data of the second LSTM cell's pipeline: what each window's staging buffer holds
  when the body runs at a grid point and what the body leaves there, as functions of the arrays the
  region finds. An input window's buffer holds its block of the array at every point, whether the
  block was fetched there or earlier; the two output buffers are left at the body's results on the
  fifteen input blocks. The weight matrix, the recurrent matrix and the bias row are each read through
  four windows, one per gate: each of those windows holds its array at a quarter of the full share.
-/
import proofs.«137003_j53412213293363_2_alg».proof.Proof.KernelIdealFrame.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's current staging buffer holds its block at every point, fetched there or not. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-! ## The proof data -/

/-- The share of its array each window holds: a quarter for the four gate windows on one array, all of it otherwise. -/
def q1 : Fin cfg1.W → PosShare TreeShare
  | ⟨0, _⟩ => fullShare
  | ⟨1, _⟩ => fullShare
  | ⟨2, _⟩ => fullShare
  | ⟨3, _⟩ => fullShare.left.left
  | ⟨4, _⟩ => fullShare.left.right
  | ⟨5, _⟩ => fullShare.right.left
  | ⟨6, _⟩ => fullShare.right.right
  | ⟨7, _⟩ => fullShare.left.left
  | ⟨8, _⟩ => fullShare.left.right
  | ⟨9, _⟩ => fullShare.right.left
  | ⟨10, _⟩ => fullShare.right.right
  | ⟨11, _⟩ => fullShare.left.left
  | ⟨12, _⟩ => fullShare.left.right
  | ⟨13, _⟩ => fullShare.right.left
  | ⟨14, _⟩ => fullShare.right.right
  | ⟨15, _⟩ => fullShare
  | ⟨16, _⟩ => fullShare
  | ⟨_ + 17, h⟩ => absurd h (Nat.not_lt.2 (Nat.le_add_left _ _))

/-- The proof data of pipeline 1 on core `c`: the arrays as the region finds them; after the body at point `t` each
    input's buffer at its block and each output's at the body's result on the input blocks; the invariant the scoped
    buffers no window stages and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
    | ⟨_ + 17, h⟩ => absurd h (Nat.not_lt.2 (Nat.le_add_left _ _))
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

/-- The body at any point: the inputs' buffers hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel1 c Set.univ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealFrame.Body2.lean ====
/-
  The third LSTM cell's kernel body, run once on whole staging buffers: from the fifteen input blocks
  (the rows of the layer's input and of its previous hidden state, the tile of the cell state, and per
  gate the tile of the input weights, of the recurrent weights and of the bias row) it leaves the tile
  of the new hidden state in the sixteenth buffer and the tile of the new cell state in the
  seventeenth, the inputs untouched. Every load and every store is of a whole buffer.
-/
import proofs.«137003_j53412213293363_2_alg».proof.Proof.Gen.KernelIdeal.Launch
import proofs.«137003_j53412213293363_2_alg».proof.Proof.Gen.KernelIdeal.Skeleton
import proofs.«137003_j53412213293363_2_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev r2_x : Rect S256x1024 := Rect.unit (s := S256x1024) ![0, 0] S256x1024.size inb_S256x1024_S256x1024_0_0
abbrev r2_h : Rect S256x1024 := Rect.unit (s := S256x1024) ![0, 0] S256x1024.size inb_S256x1024_S256x1024_0_0
abbrev r2_t : Rect S256x128 := Rect.unit (s := S256x128) ![0, 0] S256x128.size inb_S256x128_S256x128_0_0
abbrev r2_w : Rect S1024x128 := Rect.unit (s := S1024x128) ![0, 0] S1024x128.size inb_S1024x128_S1024x128_0_0
abbrev r2_u : Rect S1024x128 := Rect.unit (s := S1024x128) ![0, 0] S1024x128.size inb_S1024x128_S1024x128_0_0
abbrev r2_b : Rect S1x128 := Rect.unit (s := S1x128) ![0, 0] S1x128.size inb_S1x128_S1x128_0_0

/-! ## What the body leaves in the two output buffers -/

/-- The new hidden state's tile, from the fifteen input blocks: the body's one store into that buffer. -/
def out2_15 (x0 : Vec F S256x1024 .f32) (x1 : Vec F S256x1024 .f32) (x2 : Vec F S256x128 .f32) (x3 : Vec F S1024x128 .f32) (x4 : Vec F S1024x128 .f32) (x5 : Vec F S1024x128 .f32) (x6 : Vec F S1024x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) (x14 : Vec F S1x128 .f32) : Vec F S256x128 .f32 :=
  View.canon [⟨r2_t, k2_pay2 (k2_pay3 (View.ld x0 r2_x)) (k2_pay4 (View.ld x1 r2_h)) (View.ld x2 r2_t) (k2_pay5 (View.ld x0 r2_x) (View.ld x1 r2_h) (View.ld x3 r2_w) (View.ld x7 r2_u) (View.ld x11 r2_b)) (k2_pay6 (View.ld x0 r2_x) (View.ld x1 r2_h) (View.ld x4 r2_w) (View.ld x8 r2_u) (View.ld x12 r2_b)) (k2_pay7 (View.ld x5 r2_w)) (k2_pay8 (View.ld x9 r2_u)) (View.ld x13 r2_b) (View.ld x6 r2_w) (View.ld x10 r2_u) (View.ld x14 r2_b)⟩]

/-- The new cell state's tile, from the blocks it depends on (the output gate's are not among them). -/
def out2_16 (x0 : Vec F S256x1024 .f32) (x1 : Vec F S256x1024 .f32) (x2 : Vec F S256x128 .f32) (x3 : Vec F S1024x128 .f32) (x4 : Vec F S1024x128 .f32) (x5 : Vec F S1024x128 .f32) (x6 : Vec F S1024x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) : Vec F S256x128 .f32 :=
  View.canon [⟨r2_t, k2_pay1 (k2_pay3 (View.ld x0 r2_x)) (k2_pay4 (View.ld x1 r2_h)) (View.ld x2 r2_t) (k2_pay5 (View.ld x0 r2_x) (View.ld x1 r2_h) (View.ld x3 r2_w) (View.ld x7 r2_u) (View.ld x11 r2_b)) (k2_pay6 (View.ld x0 r2_x) (View.ld x1 r2_h) (View.ld x4 r2_w) (View.ld x8 r2_u) (View.ld x12 r2_b)) (k2_pay7 (View.ld x5 r2_w)) (k2_pay8 (View.ld x9 r2_u)) (View.ld x13 r2_b)⟩]

/-- One store of the whole tile covers the buffer. -/
theorem cover2_t (p0 : Vec F S256x128 .f32) (y : S256x128.Idx) :
    ∃ pc ∈ ([⟨r2_t, p0⟩] : List (View.Piece (Elt F) S256x128 .f32)), y ∈ pc.1.set :=
  View.cover_of_tiled [⟨r2_t, p0⟩] S256x128.size (by rfl) y

/-! ## The body's triple -/

set_option maxHeartbeats 4000000 in
/-- The kernel body on whole staging memrefs, the inputs' at contents `xW` and the outputs' at anything, runs to the
    continuation holding the inputs' as they were and the two outputs' at `out2_15`, `out2_16` of the inputs'. -/
theorem sound_kernel2 (c : Dev nD) (E : Set ℕ) (i : grid2.Coords) (arg1 : Memref sig .tc .vmem S256x1024 .f32) (harg1 : arg1.IsWhole) (arg2 : Memref sig .tc .vmem S256x1024 .f32) (harg2 : arg2.IsWhole) (arg3 : Memref sig .tc .vmem S256x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S256x128 .f32) (harg16 : arg16.IsWhole) (arg17 : Memref sig .tc .vmem S256x128 .f32) (harg17 : arg17.IsWhole)
    (x0 : Vec F S256x1024 .f32) (x1 : Vec F S256x1024 .f32) (x2 : Vec F S256x128 .f32) (x3 : Vec F S1024x128 .f32) (x4 : Vec F S1024x128 .f32) (x5 : Vec F S1024x128 .f32) (x6 : Vec F S1024x128 .f32) (x7 : Vec F S1024x128 .f32) (x8 : Vec F S1024x128 .f32) (x9 : Vec F S1024x128 .f32) (x10 : Vec F S1024x128 .f32) (x11 : Vec F S1x128 .f32) (x12 : Vec F S1x128 .f32) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out2_15 x0 x1 x2 x3 x4 x5 x6 x7 x8 x9 x10 x11 x12 x13 x14) ∗ owns (c : Thread nD τ) arg17 fullShare (out2_16 x0 x1 x2 x3 x4 x5 x6 x7 x8 x9 x10 x11 x12 x13)) -∗ K ⟨⟩))
      ⊢ wp frame (wpE (defs₀ (F := F)) Variants.none c none) E (cc2__lstm_cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2__lstm_cell_kernel_eq_skeleton]; unfold cc2__lstm_cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover2_t _)
  iexists _; isplitr
  swap; · iexact H16
  ipureintro
  exact View.read_writes_eq_canon _ _ _ (cover2_t _)

end Cert.KernelIdeal.Hand

end
-- ==== Proof.KernelIdealFrame.Dat2.lean ====
/-
  The proof data of the third LSTM cell's pipeline: what each window's staging buffer holds
  when the body runs at a grid point and what the body leaves there, as functions of the arrays the
  region finds. An input window's buffer holds its block of the array at every point, whether the
  block was fetched there or earlier; the two output buffers are left at the body's results on the
  fifteen input blocks. The weight matrix, the recurrent matrix and the bias row are each read through
  four windows, one per gate: each of those windows holds its array at a quarter of the full share.
-/
import proofs.«137003_j53412213293363_2_alg».proof.Proof.KernelIdealFrame.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's current staging buffer holds its block at every point, fetched there or not. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- Input window 13's current staging buffer holds its block at every point, fetched there or not. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
/-- Input window 14's current staging buffer holds its block at every point, fetched there or not. -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The share of its array each window holds: a quarter for the four gate windows on one array, all of it otherwise. -/
def q2 : Fin cfg2.W → PosShare TreeShare
  | ⟨0, _⟩ => fullShare
  | ⟨1, _⟩ => fullShare
  | ⟨2, _⟩ => fullShare
  | ⟨3, _⟩ => fullShare.left.left
  | ⟨4, _⟩ => fullShare.left.right
  | ⟨5, _⟩ => fullShare.right.left
  | ⟨6, _⟩ => fullShare.right.right
  | ⟨7, _⟩ => fullShare.left.left
  | ⟨8, _⟩ => fullShare.left.right
  | ⟨9, _⟩ => fullShare.right.left
  | ⟨10, _⟩ => fullShare.right.right
  | ⟨11, _⟩ => fullShare.left.left
  | ⟨12, _⟩ => fullShare.left.right
  | ⟨13, _⟩ => fullShare.right.left
  | ⟨14, _⟩ => fullShare.right.right
  | ⟨15, _⟩ => fullShare
  | ⟨16, _⟩ => fullShare
  | ⟨_ + 17, h⟩ => absurd h (Nat.not_lt.2 (Nat.le_add_left _ _))

/-- The proof data of pipeline 2 on core `c`: the arrays as the region finds them; after the body at point `t` each
    input's buffer at its block and each output's at the body's result on the input blocks; the invariant the scoped
    buffers no window stages and the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t)
    | ⟨16, _⟩ => out2_16 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    | ⟨_ + 17, h⟩ => absurd h (Nat.not_lt.2 (Nat.le_add_left _ _))
  Φ _ := Pipeline.ΦA spec2 c
  q := q2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) := by dsimp only [dat2]
theorem after2_16 (c : Dev nD) (t : Fin cfg2.N) : (dat2 V c).after 16 t = out2_16 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t))

/-- The body at any point: the inputs' buffers hold their blocks, so the body's run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel2 c Set.univ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdealFrame.Body3.lean ====
/-
  The dense layer's kernel body, run once on whole staging buffers: from the rows of the last hidden
  state, a tile of the projection matrix and the matching tile of the bias row it leaves the tile of
  the logits in the fourth buffer, the inputs untouched.
-/
import proofs.«137003_j53412213293363_2_alg».proof.Proof.Gen.KernelIdeal.Launch
import proofs.«137003_j53412213293363_2_alg».proof.Proof.Gen.KernelIdeal.Skeleton
import proofs.«137003_j53412213293363_2_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev r3_h : Rect S256x1024 := Rect.unit (s := S256x1024) ![0, 0] S256x1024.size inb_S256x1024_S256x1024_0_0
abbrev r3_w : Rect S1024x256 := Rect.unit (s := S1024x256) ![0, 0] S1024x256.size inb_S1024x256_S1024x256_0_0
abbrev r3_b : Rect S1x256 := Rect.unit (s := S1x256) ![0, 0] S1x256.size inb_S1x256_S1x256_0_0
abbrev r3_t : Rect S256x256 := Rect.unit (s := S256x256) ![0, 0] S256x256.size inb_S256x256_S256x256_0_0

/-- The logits' tile, from the three input blocks: the body's one store. -/
def out3_3 (x0 : Vec F S256x1024 .f32) (x1 : Vec F S1024x256 .f32) (x2 : Vec F S1x256 .f32) : Vec F S256x256 .f32 :=
  View.canon [⟨r3_t, k3_pay1 (View.ld x0 r3_h) (View.ld x1 r3_w) (View.ld x2 r3_b)⟩]

/-- One store of the whole tile covers the buffer. -/
theorem cover3_t (p0 : Vec F S256x256 .f32) (y : S256x256.Idx) :
    ∃ pc ∈ ([⟨r3_t, p0⟩] : List (View.Piece (Elt F) S256x256 .f32)), y ∈ pc.1.set :=
  View.cover_of_tiled [⟨r3_t, p0⟩] S256x256.size (by rfl) y

set_option maxHeartbeats 4000000 in
/-- The kernel body on whole staging memrefs runs to the continuation holding the inputs' as they were and the output's
    at `out3_3` of the inputs'. -/
theorem sound_kernel3 (c : Dev nD) (E : Set ℕ) (i : grid3.Coords) (arg1 : Memref sig .tc .vmem S256x1024 .f32) (harg1 : arg1.IsWhole) (arg2 : Memref sig .tc .vmem S1024x256 .f32) (harg2 : arg2.IsWhole) (arg3 : Memref sig .tc .vmem S1x256 .f32) (harg3 : arg3.IsWhole) (arg4 : Memref sig .tc .vmem S256x256 .f32) (harg4 : arg4.IsWhole)
    (x0 : Vec F S256x1024 .f32) (x1 : Vec F S1024x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_t _)

end Cert.KernelIdeal.Hand

end
-- ==== Proof.KernelIdealFrame.Dat3.lean ====
/-
  The proof data of the dense layer's pipeline: each input window's staging buffer holds its block of
  the array the region finds at every grid point, and the output buffer is left at the body's result on
  the three input blocks. No two windows share an array here, so every array is held at the full share.
-/
import proofs.«137003_j53412213293363_2_alg».proof.Proof.KernelIdealFrame.Body3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdealFrame.Vals.lean ====
/-
  The buffer contents between @main's eight items, as a fold from the launch memory: a host stretch
  (one reshape of a bias vector to a row) leaves `StableHlo.after` of its operations; a kernel region
  leaves its output arrays at what the write-backs of all its grid points leave and every other buffer
  as it found it. No item writes an argument array, so each argument reads back through the fold to the
  launch memory.
-/
import proofs.«137003_j53412213293363_2_alg».proof.Proof.KernelIdealFrame.Dat0
import proofs.«137003_j53412213293363_2_alg».proof.Proof.KernelIdealFrame.Dat1
import proofs.«137003_j53412213293363_2_alg».proof.Proof.KernelIdealFrame.Dat2
import proofs.«137003_j53412213293363_2_alg».proof.Proof.KernelIdealFrame.Dat3
import proofs.«137003_j53412213293363_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- What region 0 leaves in `main_v1_0`: the write-backs of all its points folded over the entry contents. -/
def o0h (c : Dev nD) : Buf (Elt F) ((c : Thread nD τ).loc main_v1_0) := (dat0 (V1 m ρ) c).arrAt 15 cfg0.N
/-- What region 0 leaves in `main_v1_1`: the write-backs of all its points folded over the entry contents. -/
def o0c (c : Dev nD) : Buf (Elt F) ((c : Thread nD τ).loc main_v1_1) := (dat0 (V1 m ρ) c).arrAt 16 cfg0.N
/-- At region 0's exit. -/
def W2 (c : Dev nD) : Valuation τ sig (Elt F) :=
  Function.update (Function.update (W1 m ρ c) (Proc.devRef .tc main_v1_0) (o0h m ρ c)) (Proc.devRef .tc main_v1_1) (o0c m ρ c)
/-- The same read at the TensorCore's references. -/
abbrev V2 : (c : Dev nD) → (b : Ref sig .tc) → Buf (Elt F) ((c : Thread nD τ).loc b) := fun c b => W2 m ρ c b
theorem W2_of_ne (c : Dev nD) (b : Ref sig .tc) (h0 : b ≠ main_v1_0) (h1 : b ≠ main_v1_1) :
    W2 m ρ c (Proc.devRef .tc b) = W1 m ρ c (Proc.devRef .tc b) := by
  unfold W2
  rw [Function.update_of_ne (StableHlo.devRef_ne_of_ne h1 : (Proc.devRef .tc b : DevRef τ sig) ≠ Proc.devRef .tc main_v1_1), Function.update_of_ne (StableHlo.devRef_ne_of_ne h0 : (Proc.devRef .tc b : DevRef τ sig) ≠ Proc.devRef .tc main_v1_0)]
theorem W2_main_v1_0 (c : Dev nD) : W2 m ρ c (Proc.devRef .tc main_v1_0) = o0h m ρ c := by
  unfold W2
  rw [Function.update_of_ne (StableHlo.devRef_ne_of_ne (by decide : main_v1_0 ≠ main_v1_1) : (Proc.devRef .tc main_v1_0 : DevRef τ sig) ≠ Proc.devRef .tc main_v1_1), Function.update_self]
theorem W2_main_v1_1 (c : Dev nD) : W2 m ρ c (Proc.devRef .tc main_v1_1) = o0c m ρ c := by
  unfold W2
  rw [Function.update_self]
theorem W1_of_ne (c : Dev nD) (b : Ref sig .tc) (h : b ∉ hostOps0_W) : W1 m ρ c (Proc.devRef .tc b) = W0 m ρ c (Proc.devRef .tc b) :=
  StableHlo.after_of_writes_sub hostOps0 _ hostOps0_writes h

/-- After `hostOps1` (region 1's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- What region 1 leaves in `main_v3_0`: the write-backs of all its points folded over the entry contents. -/
def o1h (c : Dev nD) : Buf (Elt F) ((c : Thread nD τ).loc main_v3_0) := (dat1 (V3 m ρ) c).arrAt 15 cfg1.N
/-- What region 1 leaves in `main_v3_1`: the write-backs of all its points folded over the entry contents. -/
def o1c (c : Dev nD) : Buf (Elt F) ((c : Thread nD τ).loc main_v3_1) := (dat1 (V3 m ρ) c).arrAt 16 cfg1.N
/-- At region 1's exit. -/
def W4 (c : Dev nD) : Valuation τ sig (Elt F) :=
  Function.update (Function.update (W3 m ρ c) (Proc.devRef .tc main_v3_0) (o1h m ρ c)) (Proc.devRef .tc main_v3_1) (o1c m ρ c)
/-- The same read at the TensorCore's references. -/
abbrev V4 : (c : Dev nD) → (b : Ref sig .tc) → Buf (Elt F) ((c : Thread nD τ).loc b) := fun c b => W4 m ρ c b
theorem W4_of_ne (c : Dev nD) (b : Ref sig .tc) (h0 : b ≠ main_v3_0) (h1 : b ≠ main_v3_1) :
    W4 m ρ c (Proc.devRef .tc b) = W3 m ρ c (Proc.devRef .tc b) := by
  unfold W4
  rw [Function.update_of_ne (StableHlo.devRef_ne_of_ne h1 : (Proc.devRef .tc b : DevRef τ sig) ≠ Proc.devRef .tc main_v3_1), Function.update_of_ne (StableHlo.devRef_ne_of_ne h0 : (Proc.devRef .tc b : DevRef τ sig) ≠ Proc.devRef .tc main_v3_0)]
theorem W4_main_v3_0 (c : Dev nD) : W4 m ρ c (Proc.devRef .tc main_v3_0) = o1h m ρ c := by
  unfold W4
  rw [Function.update_of_ne (StableHlo.devRef_ne_of_ne (by decide : main_v3_0 ≠ main_v3_1) : (Proc.devRef .tc main_v3_0 : DevRef τ sig) ≠ Proc.devRef .tc main_v3_1), Function.update_self]
theorem W4_main_v3_1 (c : Dev nD) : W4 m ρ c (Proc.devRef .tc main_v3_1) = o1c m ρ c := by
  unfold W4
  rw [Function.update_self]
theorem W3_of_ne (c : Dev nD) (b : Ref sig .tc) (h : b ∉ hostOps1_W) : W3 m ρ c (Proc.devRef .tc b) = W2 m ρ c (Proc.devRef .tc b) :=
  StableHlo.after_of_writes_sub hostOps1 _ hostOps1_writes h

/-- After `hostOps2` (region 2's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- What region 2 leaves in `main_v5_0`: the write-backs of all its points folded over the entry contents. -/
def o2h (c : Dev nD) : Buf (Elt F) ((c : Thread nD τ).loc main_v5_0) := (dat2 (V5 m ρ) c).arrAt 15 cfg2.N
/-- What region 2 leaves in `main_v5_1`: the write-backs of all its points folded over the entry contents. -/
def o2c (c : Dev nD) : Buf (Elt F) ((c : Thread nD τ).loc main_v5_1) := (dat2 (V5 m ρ) c).arrAt 16 cfg2.N
/-- At region 2's exit. -/
def W6 (c : Dev nD) : Valuation τ sig (Elt F) :=
  Function.update (Function.update (W5 m ρ c) (Proc.devRef .tc main_v5_0) (o2h m ρ c)) (Proc.devRef .tc main_v5_1) (o2c m ρ c)
/-- The same read at the TensorCore's references. -/
abbrev V6 : (c : Dev nD) → (b : Ref sig .tc) → Buf (Elt F) ((c : Thread nD τ).loc b) := fun c b => W6 m ρ c b
theorem W6_of_ne (c : Dev nD) (b : Ref sig .tc) (h0 : b ≠ main_v5_0) (h1 : b ≠ main_v5_1) :
    W6 m ρ c (Proc.devRef .tc b) = W5 m ρ c (Proc.devRef .tc b) := by
  unfold W6
  rw [Function.update_of_ne (StableHlo.devRef_ne_of_ne h1 : (Proc.devRef .tc b : DevRef τ sig) ≠ Proc.devRef .tc main_v5_1), Function.update_of_ne (StableHlo.devRef_ne_of_ne h0 : (Proc.devRef .tc b : DevRef τ sig) ≠ Proc.devRef .tc main_v5_0)]
theorem W6_main_v5_0 (c : Dev nD) : W6 m ρ c (Proc.devRef .tc main_v5_0) = o2h m ρ c := by
  unfold W6
  rw [Function.update_of_ne (StableHlo.devRef_ne_of_ne (by decide : main_v5_0 ≠ main_v5_1) : (Proc.devRef .tc main_v5_0 : DevRef τ sig) ≠ Proc.devRef .tc main_v5_1), Function.update_self]
theorem W6_main_v5_1 (c : Dev nD) : W6 m ρ c (Proc.devRef .tc main_v5_1) = o2c m ρ c := by
  unfold W6
  rw [Function.update_self]
theorem W5_of_ne (c : Dev nD) (b : Ref sig .tc) (h : b ∉ hostOps2_W) : W5 m ρ c (Proc.devRef .tc b) = W4 m ρ c (Proc.devRef .tc b) :=
  StableHlo.after_of_writes_sub hostOps2 _ hostOps2_writes h

/-- After `hostOps3` (region 3's entry). -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- What region 3 leaves in `main_v7`: the write-backs of all its points folded over the entry contents. -/
def o3 (c : Dev nD) : Buf (Elt F) ((c : Thread nD τ).loc main_v7) := (dat3 (V7 m ρ) c).arrAt 3 cfg3.N
/-- At region 3's exit. -/
def W8 (c : Dev nD) : Valuation τ sig (Elt F) :=
  Function.update (W7 m ρ c) (Proc.devRef .tc main_v7) (o3 m ρ c)
/-- The same read at the TensorCore's references. -/
abbrev V8 : (c : Dev nD) → (b : Ref sig .tc) → Buf (Elt F) ((c : Thread nD τ).loc b) := fun c b => W8 m ρ c b
theorem W8_of_ne (c : Dev nD) (b : Ref sig .tc) (h0 : b ≠ main_v7) :
    W8 m ρ c (Proc.devRef .tc b) = W7 m ρ c (Proc.devRef .tc b) := by
  unfold W8
  rw [Function.update_of_ne (StableHlo.devRef_ne_of_ne h0 : (Proc.devRef .tc b : DevRef τ sig) ≠ Proc.devRef .tc main_v7)]
theorem W8_main_v7 (c : Dev nD) : W8 m ρ c (Proc.devRef .tc main_v7) = o3 m ρ c := by
  unfold W8
  rw [Function.update_self]
theorem W7_of_ne (c : Dev nD) (b : Ref sig .tc) (h : b ∉ hostOps3_W) : W7 m ρ c (Proc.devRef .tc b) = W6 m ρ c (Proc.devRef .tc b) :=
  StableHlo.after_of_writes_sub hostOps3 _ hostOps3_writes h

/-! ## The arguments end as launched -/
theorem W8_main_arg0 (c : Dev nD) : W8 m ρ c (Proc.devRef .tc main_arg0) = m ((c : Thread nD τ).loc main_arg0) :=
  (W8_of_ne m ρ c main_arg0 (by decide)).trans <| (W7_of_ne m ρ c main_arg0 (by decide)).trans <| (W6_of_ne m ρ c main_arg0 (by decide) (by decide)).trans <| (W5_of_ne m ρ c main_arg0 (by decide)).trans <| (W4_of_ne m ρ c main_arg0 (by decide) (by decide)).trans <| (W3_of_ne m ρ c main_arg0 (by decide)).trans <| (W2_of_ne m ρ c main_arg0 (by decide) (by decide)).trans <| (W1_of_ne m ρ c main_arg0 (by decide)).trans rfl
theorem W8_main_arg1 (c : Dev nD) : W8 m ρ c (Proc.devRef .tc main_arg1) = m ((c : Thread nD τ).loc main_arg1) :=
  (W8_of_ne m ρ c main_arg1 (by decide)).trans <| (W7_of_ne m ρ c main_arg1 (by decide)).trans <| (W6_of_ne m ρ c main_arg1 (by decide) (by decide)).trans <| (W5_of_ne m ρ c main_arg1 (by decide)).trans <| (W4_of_ne m ρ c main_arg1 (by decide) (by decide)).trans <| (W3_of_ne m ρ c main_arg1 (by decide)).trans <| (W2_of_ne m ρ c main_arg1 (by decide) (by decide)).trans <| (W1_of_ne m ρ c main_arg1 (by decide)).trans rfl
theorem W8_main_arg2 (c : Dev nD) : W8 m ρ c (Proc.devRef .tc main_arg2) = m ((c : Thread nD τ).loc main_arg2) :=
  (W8_of_ne m ρ c main_arg2 (by decide)).trans <| (W7_of_ne m ρ c main_arg2 (by decide)).trans <| (W6_of_ne m ρ c main_arg2 (by decide) (by decide)).trans <| (W5_of_ne m ρ c main_arg2 (by decide)).trans <| (W4_of_ne m ρ c main_arg2 (by decide) (by decide)).trans <| (W3_of_ne m ρ c main_arg2 (by decide)).trans <| (W2_of_ne m ρ c main_arg2 (by decide) (by decide)).trans <| (W1_of_ne m ρ c main_arg2 (by decide)).trans rfl
theorem W8_main_arg3 (c : Dev nD) : W8 m ρ c (Proc.devRef .tc main_arg3) = m ((c : Thread nD τ).loc main_arg3) :=
  (W8_of_ne m ρ c main_arg3 (by decide)).trans <| (W7_of_ne m ρ c main_arg3 (by decide)).trans <| (W6_of_ne m ρ c main_arg3 (by decide) (by decide)).trans <| (W5_of_ne m ρ c main_arg3 (by decide)).trans <| (W4_of_ne m ρ c main_arg3 (by decide) (by decide)).trans <| (W3_of_ne m ρ c main_arg3 (by decide)).trans <| (W2_of_ne m ρ c main_arg3 (by decide) (by decide)).trans <| (W1_of_ne m ρ c main_arg3 (by decide)).trans rfl
theorem W8_main_arg4 (c : Dev nD) : W8 m ρ c (Proc.devRef .tc main_arg4) = m ((c : Thread nD τ).loc main_arg4) :=
  (W8_of_ne m ρ c main_arg4 (by decide)).trans <| (W7_of_ne m ρ c main_arg4 (by decide)).trans <| (W6_of_ne m ρ c main_arg4 (by decide) (by decide)).trans <| (W5_of_ne m ρ c main_arg4 (by decide)).trans <| (W4_of_ne m ρ c main_arg4 (by decide) (by decide)).trans <| (W3_of_ne m ρ c main_arg4 (by decide)).trans <| (W2_of_ne m ρ c main_arg4 (by decide) (by decide)).trans <| (W1_of_ne m ρ c main_arg4 (by decide)).trans rfl
theorem W8_main_arg5 (c : Dev nD) : W8 m ρ c (Proc.devRef .tc main_arg5) = m ((c : Thread nD τ).loc main_arg5) :=
  (W8_of_ne m ρ c main_arg5 (by decide)).trans <| (W7_of_ne m ρ c main_arg5 (by decide)).trans <| (W6_of_ne m ρ c main_arg5 (by decide) (by decide)).trans <| (W5_of_ne m ρ c main_arg5 (by decide)).trans <| (W4_of_ne m ρ c main_arg5 (by decide) (by decide)).trans <| (W3_of_ne m ρ c main_arg5 (by decide)).trans <| (W2_of_ne m ρ c main_arg5 (by decide) (by decide)).trans <| (W1_of_ne m ρ c main_arg5 (by decide)).trans rfl
theorem W8_main_arg6 (c : Dev nD) : W8 m ρ c (Proc.devRef .tc main_arg6) = m ((c : Thread nD τ).loc main_arg6) :=
  (W8_of_ne m ρ c main_arg6 (by decide)).trans <| (W7_of_ne m ρ c main_arg6 (by decide)).trans <| (W6_of_ne m ρ c main_arg6 (by decide) (by decide)).trans <| (W5_of_ne m ρ c main_arg6 (by decide)).trans <| (W4_of_ne m ρ c main_arg6 (by decide) (by decide)).trans <| (W3_of_ne m ρ c main_arg6 (by decide)).trans <| (W2_of_ne m ρ c main_arg6 (by decide) (by decide)).trans <| (W1_of_ne m ρ c main_arg6 (by decide)).trans rfl
theorem W8_main_arg7 (c : Dev nD) : W8 m ρ c (Proc.devRef .tc main_arg7) = m ((c : Thread nD τ).loc main_arg7) :=
  (W8_of_ne m ρ c main_arg7 (by decide)).trans <| (W7_of_ne m ρ c main_arg7 (by decide)).trans <| (W6_of_ne m ρ c main_arg7 (by decide) (by decide)).trans <| (W5_of_ne m ρ c main_arg7 (by decide)).trans <| (W4_of_ne m ρ c main_arg7 (by decide) (by decide)).trans <| (W3_of_ne m ρ c main_arg7 (by decide)).trans <| (W2_of_ne m ρ c main_arg7 (by decide) (by decide)).trans <| (W1_of_ne m ρ c main_arg7 (by decide)).trans rfl
theorem W8_main_arg8 (c : Dev nD) : W8 m ρ c (Proc.devRef .tc main_arg8) = m ((c : Thread nD τ).loc main_arg8) :=
  (W8_of_ne m ρ c main_arg8 (by decide)).trans <| (W7_of_ne m ρ c main_arg8 (by decide)).trans <| (W6_of_ne m ρ c main_arg8 (by decide) (by decide)).trans <| (W5_of_ne m ρ c main_arg8 (by decide)).trans <| (W4_of_ne m ρ c main_arg8 (by decide) (by decide)).trans <| (W3_of_ne m ρ c main_arg8 (by decide)).trans <| (W2_of_ne m ρ c main_arg8 (by decide) (by decide)).trans <| (W1_of_ne m ρ c main_arg8 (by decide)).trans rfl
theorem W8_main_arg9 (c : Dev nD) : W8 m ρ c (Proc.devRef .tc main_arg9) = m ((c : Thread nD τ).loc main_arg9) :=
  (W8_of_ne m ρ c main_arg9 (by decide)).trans <| (W7_of_ne m ρ c main_arg9 (by decide)).trans <| (W6_of_ne m ρ c main_arg9 (by decide) (by decide)).trans <| (W5_of_ne m ρ c main_arg9 (by decide)).trans <| (W4_of_ne m ρ c main_arg9 (by decide) (by decide)).trans <| (W3_of_ne m ρ c main_arg9 (by decide)).trans <| (W2_of_ne m ρ c main_arg9 (by decide) (by decide)).trans <| (W1_of_ne m ρ c main_arg9 (by decide)).trans rfl
theorem W8_main_arg10 (c : Dev nD) : W8 m ρ c (Proc.devRef .tc main_arg10) = m ((c : Thread nD τ).loc main_arg10) :=
  (W8_of_ne m ρ c main_arg10 (by decide)).trans <| (W7_of_ne m ρ c main_arg10 (by decide)).trans <| (W6_of_ne m ρ c main_arg10 (by decide) (by decide)).trans <| (W5_of_ne m ρ c main_arg10 (by decide)).trans <| (W4_of_ne m ρ c main_arg10 (by decide) (by decide)).trans <| (W3_of_ne m ρ c main_arg10 (by decide)).trans <| (W2_of_ne m ρ c main_arg10 (by decide) (by decide)).trans <| (W1_of_ne m ρ c main_arg10 (by decide)).trans rfl
theorem W8_main_arg11 (c : Dev nD) : W8 m ρ c (Proc.devRef .tc main_arg11) = m ((c : Thread nD τ).loc main_arg11) :=
  (W8_of_ne m ρ c main_arg11 (by decide)).trans <| (W7_of_ne m ρ c main_arg11 (by decide)).trans <| (W6_of_ne m ρ c main_arg11 (by decide) (by decide)).trans <| (W5_of_ne m ρ c main_arg11 (by decide)).trans <| (W4_of_ne m ρ c main_arg11 (by decide) (by decide)).trans <| (W3_of_ne m ρ c main_arg11 (by decide)).trans <| (W2_of_ne m ρ c main_arg11 (by decide) (by decide)).trans <| (W1_of_ne m ρ c main_arg11 (by decide)).trans rfl
theorem W8_main_arg12 (c : Dev nD) : W8 m ρ c (Proc.devRef .tc main_arg12) = m ((c : Thread nD τ).loc main_arg12) :=
  (W8_of_ne m ρ c main_arg12 (by decide)).trans <| (W7_of_ne m ρ c main_arg12 (by decide)).trans <| (W6_of_ne m ρ c main_arg12 (by decide) (by decide)).trans <| (W5_of_ne m ρ c main_arg12 (by decide)).trans <| (W4_of_ne m ρ c main_arg12 (by decide) (by decide)).trans <| (W3_of_ne m ρ c main_arg12 (by decide)).trans <| (W2_of_ne m ρ c main_arg12 (by decide) (by decide)).trans <| (W1_of_ne m ρ c main_arg12 (by decide)).trans rfl
theorem W8_main_arg13 (c : Dev nD) : W8 m ρ c (Proc.devRef .tc main_arg13) = m ((c : Thread nD τ).loc main_arg13) :=
  (W8_of_ne m ρ c main_arg13 (by decide)).trans <| (W7_of_ne m ρ c main_arg13 (by decide)).trans <| (W6_of_ne m ρ c main_arg13 (by decide) (by decide)).trans <| (W5_of_ne m ρ c main_arg13 (by decide)).trans <| (W4_of_ne m ρ c main_arg13 (by decide) (by decide)).trans <| (W3_of_ne m ρ c main_arg13 (by decide)).trans <| (W2_of_ne m ρ c main_arg13 (by decide) (by decide)).trans <| (W1_of_ne m ρ c main_arg13 (by decide)).trans rfl
theorem W8_main_arg14 (c : Dev nD) : W8 m ρ c (Proc.devRef .tc main_arg14) = m ((c : Thread nD τ).loc main_arg14) :=
  (W8_of_ne m ρ c main_arg14 (by decide)).trans <| (W7_of_ne m ρ c main_arg14 (by decide)).trans <| (W6_of_ne m ρ c main_arg14 (by decide) (by decide)).trans <| (W5_of_ne m ρ c main_arg14 (by decide)).trans <| (W4_of_ne m ρ c main_arg14 (by decide) (by decide)).trans <| (W3_of_ne m ρ c main_arg14 (by decide)).trans <| (W2_of_ne m ρ c main_arg14 (by decide) (by decide)).trans <| (W1_of_ne m ρ c main_arg14 (by decide)).trans rfl
theorem W8_main_arg15 (c : Dev nD) : W8 m ρ c (Proc.devRef .tc main_arg15) = m ((c : Thread nD τ).loc main_arg15) :=
  (W8_of_ne m ρ c main_arg15 (by decide)).trans <| (W7_of_ne m ρ c main_arg15 (by decide)).trans <| (W6_of_ne m ρ c main_arg15 (by decide) (by decide)).trans <| (W5_of_ne m ρ c main_arg15 (by decide)).trans <| (W4_of_ne m ρ c main_arg15 (by decide) (by decide)).trans <| (W3_of_ne m ρ c main_arg15 (by decide)).trans <| (W2_of_ne m ρ c main_arg15 (by decide) (by decide)).trans <| (W1_of_ne m ρ c main_arg15 (by decide)).trans rfl
theorem W8_main_arg16 (c : Dev nD) : W8 m ρ c (Proc.devRef .tc main_arg16) = m ((c : Thread nD τ).loc main_arg16) :=
  (W8_of_ne m ρ c main_arg16 (by decide)).trans <| (W7_of_ne m ρ c main_arg16 (by decide)).trans <| (W6_of_ne m ρ c main_arg16 (by decide) (by decide)).trans <| (W5_of_ne m ρ c main_arg16 (by decide)).trans <| (W4_of_ne m ρ c main_arg16 (by decide) (by decide)).trans <| (W3_of_ne m ρ c main_arg16 (by decide)).trans <| (W2_of_ne m ρ c main_arg16 (by decide) (by decide)).trans <| (W1_of_ne m ρ c main_arg16 (by decide)).trans rfl
theorem W8_main_arg17 (c : Dev nD) : W8 m ρ c (Proc.devRef .tc main_arg17) = m ((c : Thread nD τ).loc main_arg17) :=
  (W8_of_ne m ρ c main_arg17 (by decide)).trans <| (W7_of_ne m ρ c main_arg17 (by decide)).trans <| (W6_of_ne m ρ c main_arg17 (by decide) (by decide)).trans <| (W5_of_ne m ρ c main_arg17 (by decide)).trans <| (W4_of_ne m ρ c main_arg17 (by decide) (by decide)).trans <| (W3_of_ne m ρ c main_arg17 (by decide)).trans <| (W2_of_ne m ρ c main_arg17 (by decide) (by decide)).trans <| (W1_of_ne m ρ c main_arg17 (by decide)).trans rfl

end Cert.KernelIdeal.Hand

end
-- ==== Proof.KernelIdealFrame.PDats.lean ====
/-
  Every pipeline's proof data at its region's entry contents, and what rides beside the buffers through
  every item of @main: the core's generator register at some state and its dues, at nothing.
-/
import proofs.«137003_j53412213293363_2_alg».proof.Proof.KernelIdealFrame.Vals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents: a literal match, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item. -/
abbrev R (c : Dev nD) : sProp 𝕄 := iprop((∃ r, prngReg c r) ∗ ∃ W, owes (c : Thread nD τ) (0 : CellTallies nD τ sig Unit) W)
/-- The last thread state without the dues: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KernelIdealFrame.Shares0.lean ====
/-
  Dealing the arrays' buffers among the windows of the first LSTM cell's pipeline, and taking them back.

  The region reads eight distinct buffers through seventeen windows: the weight matrix, the recurrent
  matrix and the bias row are each read through four windows, one per gate. Whole at the full share,
  those three buffers are dealt to their windows as the four quarters of the full share; the other five
  go whole to their one window. After the region the same quarters make the full share again, at the
  contents the arrays then have. Both directions, at any contents the windows' arrays agree with.
-/
import proofs.«137003_j53412213293363_2_alg».proof.Proof.KernelIdealFrame.Dat0
import proofs.«137003_j53412213293363_2_alg».proof.Proof.LibQuarterShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays. -/
theorem arrImage0 : Finset.univ.image (Pipeline.arrRef spec0) = ([main_arg0, main_arg1, main_arg2, main_arg7, main_arg8, main_v0, main_v1_0, main_v1_1] : List (Ref sig .tc)).toFinset := by decide

/-- The pipeline's arrays, window by window, each a whole buffer held at the window's share. -/
theorem arrays_eq0 (c : Dev nD) (Fw : (w : Fin cfg0.W) → Buf (Elt F) ((cfg0.win w).arr.view.loc (c : Thread nD τ))) :
    (dat0 V c).arrays Fw = bigSep Finset.univ fun w => (((c : Thread nD τ).loc (Pipeline.arrRef spec0 w)) ↦{(dat0 V c).share w} Fw w : sProp 𝕄) := by
  unfold Dat.arrays
  exact bigSep_congr fun w _ => by rw [(arr_whole0 w).set_eq_univ]

/-- The arrays, and the distinct buffers behind them, as chains. -/
theorem arrays_chain0 (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    (dat0 V c).arrays Fw = iprop(
      (((c : Thread nD τ).loc (Pipeline.arrRef spec0 0)) ↦{fullShare} V' (Pipeline.arrRef spec0 0)) ∗
      (((c : Thread nD τ).loc (Pipeline.arrRef spec0 1)) ↦{fullShare} V' (Pipeline.arrRef spec0 1)) ∗
      (((c : Thread nD τ).loc (Pipeline.arrRef spec0 2)) ↦{fullShare} V' (Pipeline.arrRef spec0 2)) ∗
      (((c : Thread nD τ).loc (Pipeline.arrRef spec0 3)) ↦{fullShare.left.left} V' (Pipeline.arrRef spec0 3)) ∗
      (((c : Thread nD τ).loc (Pipeline.arrRef spec0 4)) ↦{fullShare.left.right} V' (Pipeline.arrRef spec0 4)) ∗
      (((c : Thread nD τ).loc (Pipeline.arrRef spec0 5)) ↦{fullShare.right.left} V' (Pipeline.arrRef spec0 5)) ∗
      (((c : Thread nD τ).loc (Pipeline.arrRef spec0 6)) ↦{fullShare.right.right} V' (Pipeline.arrRef spec0 6)) ∗
      (((c : Thread nD τ).loc (Pipeline.arrRef spec0 7)) ↦{fullShare.left.left} V' (Pipeline.arrRef spec0 7)) ∗
      (((c : Thread nD τ).loc (Pipeline.arrRef spec0 8)) ↦{fullShare.left.right} V' (Pipeline.arrRef spec0 8)) ∗
      (((c : Thread nD τ).loc (Pipeline.arrRef spec0 9)) ↦{fullShare.right.left} V' (Pipeline.arrRef spec0 9)) ∗
      (((c : Thread nD τ).loc (Pipeline.arrRef spec0 10)) ↦{fullShare.right.right} V' (Pipeline.arrRef spec0 10)) ∗
      (((c : Thread nD τ).loc (Pipeline.arrRef spec0 11)) ↦{fullShare.left.left} V' (Pipeline.arrRef spec0 11)) ∗
      (((c : Thread nD τ).loc (Pipeline.arrRef spec0 12)) ↦{fullShare.left.right} V' (Pipeline.arrRef spec0 12)) ∗
      (((c : Thread nD τ).loc (Pipeline.arrRef spec0 13)) ↦{fullShare.right.left} V' (Pipeline.arrRef spec0 13)) ∗
      (((c : Thread nD τ).loc (Pipeline.arrRef spec0 14)) ↦{fullShare.right.right} V' (Pipeline.arrRef spec0 14)) ∗
      (((c : Thread nD τ).loc (Pipeline.arrRef spec0 15)) ↦{fullShare} V' (Pipeline.arrRef spec0 15)) ∗
      (((c : Thread nD τ).loc (Pipeline.arrRef spec0 16)) ↦{fullShare} V' (Pipeline.arrRef spec0 16))) := by
  rw [arrays_eq0, bigSep_W0]
  simp only [hF]
  rfl

theorem arrBufs_chain0 (c : Dev nD) (V' : (b : Ref sig .tc) → Buf (Elt F) ((c : Thread nD τ).loc b)) :
    (Pipeline.arrBufs (Ix := Unit) (Name := ℕ) (U := UR sig nD τ) (Lvl := ℕ) spec0 c V' : sProp 𝕄) = iprop(
      (((c : Thread nD τ).loc main_arg0) ↦{fullShare} V' main_arg0) ∗
      (((c : Thread nD τ).loc main_arg1) ↦{fullShare} V' main_arg1) ∗
      (((c : Thread nD τ).loc main_arg2) ↦{fullShare} V' main_arg2) ∗
      (((c : Thread nD τ).loc main_arg7) ↦{fullShare} V' main_arg7) ∗
      (((c : Thread nD τ).loc main_arg8) ↦{fullShare} V' main_arg8) ∗
      (((c : Thread nD τ).loc main_v0) ↦{fullShare} V' main_v0) ∗
      (((c : Thread nD τ).loc main_v1_0) ↦{fullShare} V' main_v1_0) ∗
      (((c : Thread nD τ).loc main_v1_1) ↦{fullShare} V' main_v1_1)) := by
  unfold Pipeline.arrBufs
  rw [bigSep_eq_bigSepL_of_eq _ arrImage0 (by decide)]
  rfl

/-- ENTRY: the buffers whole at the full share, dealt to the windows. -/
theorem arrays_split0 (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    (Pipeline.arrBufs (Ix := Unit) (Name := ℕ) (U := UR sig nD τ) (Lvl := ℕ) spec0 c V' : sProp 𝕄) ⊢ (dat0 V c).arrays Fw := by
  rw [arrays_chain0 V c V' Fw hF, arrBufs_chain0]
  iintro ⟨Hx, Hh, Hc, HW, HU, Hb, Hoh, Hoc⟩
  ihave HW' := pointsTo_quarters_split $$ HW
  icases HW' with ⟨HW0, HW1, HW2, HW3⟩
  ihave HU' := pointsTo_quarters_split $$ HU
  icases HU' with ⟨HU0, HU1, HU2, HU3⟩
  ihave Hb' := pointsTo_quarters_split $$ Hb
  icases Hb' with ⟨Hb0, Hb1, Hb2, Hb3⟩
  isplitl [Hx]; · iexact Hx
  isplitl [Hh]; · iexact Hh
  isplitl [Hc]; · iexact Hc
  isplitl [HW0]; · iexact HW0
  isplitl [HW1]; · iexact HW1
  isplitl [HW2]; · iexact HW2
  isplitl [HW3]; · iexact HW3
  isplitl [HU0]; · iexact HU0
  isplitl [HU1]; · iexact HU1
  isplitl [HU2]; · iexact HU2
  isplitl [HU3]; · iexact HU3
  isplitl [Hb0]; · iexact Hb0
  isplitl [Hb1]; · iexact Hb1
  isplitl [Hb2]; · iexact Hb2
  isplitl [Hb3]; · iexact Hb3
  isplitl [Hoh]; · iexact Hoh
  iexact Hoc

/-- EXIT: the windows' shares taken back, each buffer whole at the full share again. -/
theorem arrays_join0 (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    (dat0 V c).arrays Fw ⊢ (Pipeline.arrBufs (Ix := Unit) (Name := ℕ) (U := UR sig nD τ) (Lvl := ℕ) spec0 c V' : sProp 𝕄) := by
  rw [arrays_chain0 V c V' Fw hF, arrBufs_chain0]
  iintro ⟨Hx, Hh, Hc, HW0, HW1, HW2, HW3, HU0, HU1, HU2, HU3, Hb0, Hb1, Hb2, Hb3, Hoh, Hoc⟩
  isplitl [Hx]; · iexact Hx
  isplitl [Hh]; · iexact Hh
  isplitl [Hc]; · iexact Hc
  isplitl [HW0 HW1 HW2 HW3]
  · iapply pointsTo_quarters_join
    isplitl [HW0]; · iexact HW0
    isplitl [HW1]; · iexact HW1
    isplitl [HW2]; · iexact HW2
    iexact HW3
  isplitl [HU0 HU1 HU2 HU3]
  · iapply pointsTo_quarters_join
    isplitl [HU0]; · iexact HU0
    isplitl [HU1]; · iexact HU1
    isplitl [HU2]; · iexact HU2
    iexact HU3
  isplitl [Hb0 Hb1 Hb2 Hb3]
  · iapply pointsTo_quarters_join
    isplitl [Hb0]; · iexact Hb0
    isplitl [Hb1]; · iexact Hb1
    isplitl [Hb2]; · iexact Hb2
    iexact Hb3
  isplitl [Hoh]; · iexact Hoh
  iexact Hoc

end Cert.KernelIdeal.Hand

end
-- ==== Proof.KernelIdealFrame.Reg0.lean ====
/-
  The first LSTM cell's region over the thread state: entered from every unscoped buffer at the contents the
  preceding reshape leaves, left with its two output arrays at what the write-backs of all eight grid
  points leave and every other buffer as found. Its eight buffers are split out of the unscoped buffers
  and dealt to the seventeen windows (the three shared ones by quarters), and taken back at the exit.
-/
import proofs.«137003_j53412213293363_2_alg».proof.Proof.KernelIdealFrame.PDats
import proofs.«137003_j53412213293363_2_alg».proof.Proof.KernelIdealFrame.Shares0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's array is neither of the region's two output arrays. -/
theorem in_ne0 : ∀ w : Fin cfg0.W, (cfg0.win w).isOut = false →
    Pipeline.arrRef spec0 w ≠ main_v1_0 ∧ Pipeline.arrRef spec0 w ≠ main_v1_1 := by decide
/-- The output windows are the last two. -/
theorem out_cases0 : ∀ w : Fin cfg0.W, (cfg0.win w).isOut = true → w = 15 ∨ w = 16 := by decide

/-- At the region's exit each of its arrays holds what the pipeline leaves: an input array what it held, an output
    array the folded write-backs. -/
theorem hF0 (c : Dev nD) (w : Fin cfg0.W) : (dat0 (V1 m ρ) c).arrAt w cfg0.N = V2 m ρ c (Pipeline.arrRef spec0 w) := by
  by_cases hw : (cfg0.win w).isOut = true
  · rcases out_cases0 w hw with rfl | rfl
    · exact (W2_main_v1_0 m ρ c).symm
    · exact (W2_main_v1_1 m ρ c).symm
  · have hw' : (cfg0.win w).isOut = false := by simpa using hw
    exact ((dat0 (V1 m ρ) c).arrAt_in w hw' _).trans
      ((A_eq0 (V1 m ρ) c w).trans (W2_of_ne m ρ c _ (in_ne0 w hw').1 (in_ne0 w hw').2).symm)

/-- Every buffer that is no array of the region is as the region found it. -/
theorem hrest0 (c : Dev nD) : ∀ b, b ∉ Finset.univ.image (Pipeline.arrRef spec0) → V2 m ρ c b = V1 m ρ c b :=
  fun b hb => W2_of_ne m ρ c b (fun e => hb (Finset.mem_image.mpr ⟨15, Finset.mem_univ _, e.symm⟩))
    (fun e => hb (Finset.mem_image.mpr ⟨16, Finset.mem_univ _, e.symm⟩))

/-- ENTRY, the arrays' part: the unscoped buffers at the entry contents are the pipeline's arrays, dealt, and the rest. -/
theorem enter0 (c : Dev nD) :
    (StableHlo.held (c : Thread nD τ) (Pipeline.ucRefs τ sig) (W1 m ρ c) : sProp 𝕄)
      ⊢ iprop((dat0 (V1 m ρ) c).arrays ((dat0 (V1 m ρ) c).arrAt · 0)
          ∗ Pipeline.unscopedRest (Ix := Unit) (Name := ℕ) (U := UR sig nD τ) (Lvl := ℕ) spec0 c (V1 m ρ c)) := by
  rw [← Pipeline.unscopedBufs_held (Ix := Unit) (Name := ℕ) (U := UR sig nD τ) (Lvl := ℕ) c (W1 m ρ c),
    Pipeline.unscopedBufs_split₀ cfgs 0 winFacts₀0.arr_unscoped c (V1 m ρ c)]
  exact sep_mono (arrays_split0 (V1 m ρ) c (V1 m ρ c) _ (fun w => A_eq0 (V1 m ρ) c w)) .rfl

/-- EXIT, the arrays' part: the pipeline's arrays as it leaves them and the rest are the unscoped buffers at the exit contents. -/
theorem leave0 (c : Dev nD) :
    iprop((dat0 (V1 m ρ) c).arrays ((dat0 (V1 m ρ) c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held (Ix := Unit) (Name := ℕ) (U := UR sig nD τ) (Lvl := ℕ) c (W2 m ρ c),
    Pipeline.unscopedBufs_split₀ cfgs 0 winFacts₀0.arr_unscoped c (V2 m ρ c)]
  refine sep_mono (arrays_join0 (V1 m ρ) c (V2 m ρ c) _ (hF0 m ρ c)) (Entails.of_eq ?_)
  unfold Pipeline.unscopedRest
  exact bigSep_congr fun b hb => by rw [hrest0 m ρ c b (Finset.mem_sdiff.mp hb).2]

set_option backward.isDefEq.respectTransparency.types false in
/-- Region 0 as a segment of @main. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hE : (StableHlo.held (c : Thread nD τ) (Pipeline.ucRefs τ sig) (W1 m ρ c) : sProp 𝕄)
        ⊢ iprop((pdats m ρ 0 c).arrays ((pdats m ρ 0 c).arrAt · 0)
          ∗ Pipeline.unscopedRest (Ix := Unit) (Name := ℕ) (U := UR sig nD τ) (Lvl := ℕ) spec0 c (V1 m ρ c)) := enter0 m ρ c
    iintro ⟨⟨Hub, Hp, HO⟩, -, -⟩
    ihave H := hE $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hJ : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := leave0 m ρ c
    iintro ⟨Ha, HO, HY, Hrest⟩
    imodintro
    isplitl [Ha Hrest]
    · iapply hJ; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdealFrame.Shares1.lean ====
/-
  Dealing the arrays' buffers among the windows of the second LSTM cell's pipeline, and taking them back.

  The region reads eight distinct buffers through seventeen windows: the weight matrix, the recurrent
  matrix and the bias row are each read through four windows, one per gate. Whole at the full share,
  those three buffers are dealt to their windows as the four quarters of the full share; the other five
  go whole to their one window. After the region the same quarters make the full share again, at the
  contents the arrays then have. Both directions, at any contents the windows' arrays agree with.
-/
import proofs.«137003_j53412213293363_2_alg».proof.Proof.KernelIdealFrame.Dat1
import proofs.«137003_j53412213293363_2_alg».proof.Proof.LibQuarterShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays. -/
theorem arrImage1 : Finset.univ.image (Pipeline.arrRef spec1) = ([main_v1_0, main_arg3, main_arg4, main_arg10, main_arg11, main_v2, main_v3_0, main_v3_1] : List (Ref sig .tc)).toFinset := by decide

/-- The pipeline's arrays, window by window, each a whole buffer held at the window's share. -/
theorem arrays_eq1 (c : Dev nD) (Fw : (w : Fin cfg1.W) → Buf (Elt F) ((cfg1.win w).arr.view.loc (c : Thread nD τ))) :
    (dat1 V c).arrays Fw = bigSep Finset.univ fun w => (((c : Thread nD τ).loc (Pipeline.arrRef spec1 w)) ↦{(dat1 V c).share w} Fw w : sProp 𝕄) := by
  unfold Dat.arrays
  exact bigSep_congr fun w _ => by rw [(arr_whole1 w).set_eq_univ]

/-- The arrays, and the distinct buffers behind them, as chains. -/
theorem arrays_chain1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    (dat1 V c).arrays Fw = iprop(
      (((c : Thread nD τ).loc (Pipeline.arrRef spec1 0)) ↦{fullShare} V' (Pipeline.arrRef spec1 0)) ∗
      (((c : Thread nD τ).loc (Pipeline.arrRef spec1 1)) ↦{fullShare} V' (Pipeline.arrRef spec1 1)) ∗
      (((c : Thread nD τ).loc (Pipeline.arrRef spec1 2)) ↦{fullShare} V' (Pipeline.arrRef spec1 2)) ∗
      (((c : Thread nD τ).loc (Pipeline.arrRef spec1 3)) ↦{fullShare.left.left} V' (Pipeline.arrRef spec1 3)) ∗
      (((c : Thread nD τ).loc (Pipeline.arrRef spec1 4)) ↦{fullShare.left.right} V' (Pipeline.arrRef spec1 4)) ∗
      (((c : Thread nD τ).loc (Pipeline.arrRef spec1 5)) ↦{fullShare.right.left} V' (Pipeline.arrRef spec1 5)) ∗
      (((c : Thread nD τ).loc (Pipeline.arrRef spec1 6)) ↦{fullShare.right.right} V' (Pipeline.arrRef spec1 6)) ∗
      (((c : Thread nD τ).loc (Pipeline.arrRef spec1 7)) ↦{fullShare.left.left} V' (Pipeline.arrRef spec1 7)) ∗
      (((c : Thread nD τ).loc (Pipeline.arrRef spec1 8)) ↦{fullShare.left.right} V' (Pipeline.arrRef spec1 8)) ∗
      (((c : Thread nD τ).loc (Pipeline.arrRef spec1 9)) ↦{fullShare.right.left} V' (Pipeline.arrRef spec1 9)) ∗
      (((c : Thread nD τ).loc (Pipeline.arrRef spec1 10)) ↦{fullShare.right.right} V' (Pipeline.arrRef spec1 10)) ∗
      (((c : Thread nD τ).loc (Pipeline.arrRef spec1 11)) ↦{fullShare.left.left} V' (Pipeline.arrRef spec1 11)) ∗
      (((c : Thread nD τ).loc (Pipeline.arrRef spec1 12)) ↦{fullShare.left.right} V' (Pipeline.arrRef spec1 12)) ∗
      (((c : Thread nD τ).loc (Pipeline.arrRef spec1 13)) ↦{fullShare.right.left} V' (Pipeline.arrRef spec1 13)) ∗
      (((c : Thread nD τ).loc (Pipeline.arrRef spec1 14)) ↦{fullShare.right.right} V' (Pipeline.arrRef spec1 14)) ∗
      (((c : Thread nD τ).loc (Pipeline.arrRef spec1 15)) ↦{fullShare} V' (Pipeline.arrRef spec1 15)) ∗
      (((c : Thread nD τ).loc (Pipeline.arrRef spec1 16)) ↦{fullShare} V' (Pipeline.arrRef spec1 16))) := by
  rw [arrays_eq1, bigSep_W1]
  simp only [hF]
  rfl

theorem arrBufs_chain1 (c : Dev nD) (V' : (b : Ref sig .tc) → Buf (Elt F) ((c : Thread nD τ).loc b)) :
    (Pipeline.arrBufs (Ix := Unit) (Name := ℕ) (U := UR sig nD τ) (Lvl := ℕ) spec1 c V' : sProp 𝕄) = iprop(
      (((c : Thread nD τ).loc main_v1_0) ↦{fullShare} V' main_v1_0) ∗
      (((c : Thread nD τ).loc main_arg3) ↦{fullShare} V' main_arg3) ∗
      (((c : Thread nD τ).loc main_arg4) ↦{fullShare} V' main_arg4) ∗
      (((c : Thread nD τ).loc main_arg10) ↦{fullShare} V' main_arg10) ∗
      (((c : Thread nD τ).loc main_arg11) ↦{fullShare} V' main_arg11) ∗
      (((c : Thread nD τ).loc main_v2) ↦{fullShare} V' main_v2) ∗
      (((c : Thread nD τ).loc main_v3_0) ↦{fullShare} V' main_v3_0) ∗
      (((c : Thread nD τ).loc main_v3_1) ↦{fullShare} V' main_v3_1)) := by
  unfold Pipeline.arrBufs
  rw [bigSep_eq_bigSepL_of_eq _ arrImage1 (by decide)]
  rfl

/-- ENTRY: the buffers whole at the full share, dealt to the windows. -/
theorem arrays_split1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    (Pipeline.arrBufs (Ix := Unit) (Name := ℕ) (U := UR sig nD τ) (Lvl := ℕ) spec1 c V' : sProp 𝕄) ⊢ (dat1 V c).arrays Fw := by
  rw [arrays_chain1 V c V' Fw hF, arrBufs_chain1]
  iintro ⟨Hx, Hh, Hc, HW, HU, Hb, Hoh, Hoc⟩
  ihave HW' := pointsTo_quarters_split $$ HW
  icases HW' with ⟨HW0, HW1, HW2, HW3⟩
  ihave HU' := pointsTo_quarters_split $$ HU
  icases HU' with ⟨HU0, HU1, HU2, HU3⟩
  ihave Hb' := pointsTo_quarters_split $$ Hb
  icases Hb' with ⟨Hb0, Hb1, Hb2, Hb3⟩
  isplitl [Hx]; · iexact Hx
  isplitl [Hh]; · iexact Hh
  isplitl [Hc]; · iexact Hc
  isplitl [HW0]; · iexact HW0
  isplitl [HW1]; · iexact HW1
  isplitl [HW2]; · iexact HW2
  isplitl [HW3]; · iexact HW3
  isplitl [HU0]; · iexact HU0
  isplitl [HU1]; · iexact HU1
  isplitl [HU2]; · iexact HU2
  isplitl [HU3]; · iexact HU3
  isplitl [Hb0]; · iexact Hb0
  isplitl [Hb1]; · iexact Hb1
  isplitl [Hb2]; · iexact Hb2
  isplitl [Hb3]; · iexact Hb3
  isplitl [Hoh]; · iexact Hoh
  iexact Hoc

/-- EXIT: the windows' shares taken back, each buffer whole at the full share again. -/
theorem arrays_join1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    (dat1 V c).arrays Fw ⊢ (Pipeline.arrBufs (Ix := Unit) (Name := ℕ) (U := UR sig nD τ) (Lvl := ℕ) spec1 c V' : sProp 𝕄) := by
  rw [arrays_chain1 V c V' Fw hF, arrBufs_chain1]
  iintro ⟨Hx, Hh, Hc, HW0, HW1, HW2, HW3, HU0, HU1, HU2, HU3, Hb0, Hb1, Hb2, Hb3, Hoh, Hoc⟩
  isplitl [Hx]; · iexact Hx
  isplitl [Hh]; · iexact Hh
  isplitl [Hc]; · iexact Hc
  isplitl [HW0 HW1 HW2 HW3]
  · iapply pointsTo_quarters_join
    isplitl [HW0]; · iexact HW0
    isplitl [HW1]; · iexact HW1
    isplitl [HW2]; · iexact HW2
    iexact HW3
  isplitl [HU0 HU1 HU2 HU3]
  · iapply pointsTo_quarters_join
    isplitl [HU0]; · iexact HU0
    isplitl [HU1]; · iexact HU1
    isplitl [HU2]; · iexact HU2
    iexact HU3
  isplitl [Hb0 Hb1 Hb2 Hb3]
  · iapply pointsTo_quarters_join
    isplitl [Hb0]; · iexact Hb0
    isplitl [Hb1]; · iexact Hb1
    isplitl [Hb2]; · iexact Hb2
    iexact Hb3
  isplitl [Hoh]; · iexact Hoh
  iexact Hoc

end Cert.KernelIdeal.Hand

end
-- ==== Proof.KernelIdealFrame.Reg1.lean ====
/-
  The second LSTM cell's region over the thread state: entered from every unscoped buffer at the contents the
  preceding reshape leaves, left with its two output arrays at what the write-backs of all eight grid
  points leave and every other buffer as found. Its eight buffers are split out of the unscoped buffers
  and dealt to the seventeen windows (the three shared ones by quarters), and taken back at the exit.
-/
import proofs.«137003_j53412213293363_2_alg».proof.Proof.KernelIdealFrame.PDats
import proofs.«137003_j53412213293363_2_alg».proof.Proof.KernelIdealFrame.Shares1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's array is neither of the region's two output arrays. -/
theorem in_ne1 : ∀ w : Fin cfg1.W, (cfg1.win w).isOut = false →
    Pipeline.arrRef spec1 w ≠ main_v3_0 ∧ Pipeline.arrRef spec1 w ≠ main_v3_1 := by decide
/-- The output windows are the last two. -/
theorem out_cases1 : ∀ w : Fin cfg1.W, (cfg1.win w).isOut = true → w = 15 ∨ w = 16 := by decide

/-- At the region's exit each of its arrays holds what the pipeline leaves: an input array what it held, an output
    array the folded write-backs. -/
theorem hF1 (c : Dev nD) (w : Fin cfg1.W) : (dat1 (V3 m ρ) c).arrAt w cfg1.N = V4 m ρ c (Pipeline.arrRef spec1 w) := by
  by_cases hw : (cfg1.win w).isOut = true
  · rcases out_cases1 w hw with rfl | rfl
    · exact (W4_main_v3_0 m ρ c).symm
    · exact (W4_main_v3_1 m ρ c).symm
  · have hw' : (cfg1.win w).isOut = false := by simpa using hw
    exact ((dat1 (V3 m ρ) c).arrAt_in w hw' _).trans
      ((A_eq1 (V3 m ρ) c w).trans (W4_of_ne m ρ c _ (in_ne1 w hw').1 (in_ne1 w hw').2).symm)

/-- Every buffer that is no array of the region is as the region found it. -/
theorem hrest1 (c : Dev nD) : ∀ b, b ∉ Finset.univ.image (Pipeline.arrRef spec1) → V4 m ρ c b = V3 m ρ c b :=
  fun b hb => W4_of_ne m ρ c b (fun e => hb (Finset.mem_image.mpr ⟨15, Finset.mem_univ _, e.symm⟩))
    (fun e => hb (Finset.mem_image.mpr ⟨16, Finset.mem_univ _, e.symm⟩))

/-- ENTRY, the arrays' part: the unscoped buffers at the entry contents are the pipeline's arrays, dealt, and the rest. -/
theorem enter1 (c : Dev nD) :
    (StableHlo.held (c : Thread nD τ) (Pipeline.ucRefs τ sig) (W3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  rw [← Pipeline.unscopedBufs_held (Ix := Unit) (Name := ℕ) (U := UR sig nD τ) (Lvl := ℕ) c (W3 m ρ c),
    Pipeline.unscopedBufs_split₀ cfgs 1 winFacts₀1.arr_unscoped c (V3 m ρ c)]
  exact sep_mono (arrays_split1 (V3 m ρ) c (V3 m ρ c) _ (fun w => A_eq1 (V3 m ρ) c w)) .rfl

/-- EXIT, the arrays' part: the pipeline's arrays as it leaves them and the rest are the unscoped buffers at the exit contents. -/
theorem leave1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  rw [← Pipeline.unscopedBufs_held (Ix := Unit) (Name := ℕ) (U := UR sig nD τ) (Lvl := ℕ) c (W4 m ρ c),
    Pipeline.unscopedBufs_split₀ cfgs 1 winFacts₀1.arr_unscoped c (V4 m ρ c)]
  refine sep_mono (arrays_join1 (V3 m ρ) c (V4 m ρ c) _ (hF1 m ρ c)) (Entails.of_eq ?_)
  unfold Pipeline.unscopedRest
  exact bigSep_congr fun b hb => by rw [hrest1 m ρ c b (Finset.mem_sdiff.mp hb).2]

set_option backward.isDefEq.respectTransparency.types false in
/-- Region 1 as a segment of @main. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hE : (StableHlo.held (c : Thread nD τ) (Pipeline.ucRefs τ sig) (W3 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V3 m ρ c)) := enter1 m ρ c
    iintro ⟨⟨Hub, Hp, HO⟩, -, -⟩
    ihave H := hE $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hJ : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (StableHlo.held (c : Thread nD τ) (Pipeline.ucRefs τ sig) (W4 m ρ c) : sProp 𝕄) := leave1 m ρ c
    iintro ⟨Ha, HO, HY, Hrest⟩
    imodintro
    isplitl [Ha Hrest]
    · iapply hJ; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdealFrame.Shares2.lean ====
/-
  Dealing the arrays' buffers among the windows of the third LSTM cell's pipeline, and taking them back.

  The region reads eight distinct buffers through seventeen windows: the weight matrix, the recurrent
  matrix and the bias row are each read through four windows, one per gate. Whole at the full share,
  those three buffers are dealt to their windows as the four quarters of the full share; the other five
  go whole to their one window. After the region the same quarters make the full share again, at the
  contents the arrays then have. Both directions, at any contents the windows' arrays agree with.
-/
import proofs.«137003_j53412213293363_2_alg».proof.Proof.KernelIdealFrame.Dat2
import proofs.«137003_j53412213293363_2_alg».proof.Proof.LibQuarterShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the region's arrays. -/
theorem arrImage2 : Finset.univ.image (Pipeline.arrRef spec2) = ([main_v3_0, main_arg5, main_arg6, main_arg13, main_arg14, main_v4, main_v5_0, main_v5_1] : List (Ref sig .tc)).toFinset := by decide

/-- The pipeline's arrays, window by window, each a whole buffer held at the window's share. -/
theorem arrays_eq2 (c : Dev nD) (Fw : (w : Fin cfg2.W) → Buf (Elt F) ((cfg2.win w).arr.view.loc (c : Thread nD τ))) :
    (dat2 V c).arrays Fw = bigSep Finset.univ fun w => (((c : Thread nD τ).loc (Pipeline.arrRef spec2 w)) ↦{(dat2 V c).share w} Fw w : sProp 𝕄) := by
  unfold Dat.arrays
  exact bigSep_congr fun w _ => by rw [(arr_whole2 w).set_eq_univ]

/-- The arrays, and the distinct buffers behind them, as chains. -/
theorem arrays_chain2 (c : Dev nD) (V' : (b : Ref sig .tc) → Buf (Elt F) ((c : Thread nD τ).loc b))
    (Fw : (w : Fin cfg2.W) → Buf (Elt F) ((cfg2.win w).arr.view.loc (c : Thread nD τ)))
    (hF : ∀ w, Fw w = V' (Pipeline.arrRef spec2 w)) :
    (dat2 V c).arrays Fw = iprop(
      (((c : Thread nD τ).loc (Pipeline.arrRef spec2 0)) ↦{fullShare} V' (Pipeline.arrRef spec2 0)) ∗
      (((c : Thread nD τ).loc (Pipeline.arrRef spec2 1)) ↦{fullShare} V' (Pipeline.arrRef spec2 1)) ∗
      (((c : Thread nD τ).loc (Pipeline.arrRef spec2 2)) ↦{fullShare} V' (Pipeline.arrRef spec2 2)) ∗
      (((c : Thread nD τ).loc (Pipeline.arrRef spec2 3)) ↦{fullShare.left.left} V' (Pipeline.arrRef spec2 3)) ∗
      (((c : Thread nD τ).loc (Pipeline.arrRef spec2 4)) ↦{fullShare.left.right} V' (Pipeline.arrRef spec2 4)) ∗
      (((c : Thread nD τ).loc (Pipeline.arrRef spec2 5)) ↦{fullShare.right.left} V' (Pipeline.arrRef spec2 5)) ∗
      (((c : Thread nD τ).loc (Pipeline.arrRef spec2 6)) ↦{fullShare.right.right} V' (Pipeline.arrRef spec2 6)) ∗
      (((c : Thread nD τ).loc (Pipeline.arrRef spec2 7)) ↦{fullShare.left.left} V' (Pipeline.arrRef spec2 7)) ∗
      (((c : Thread nD τ).loc (Pipeline.arrRef spec2 8)) ↦{fullShare.left.right} V' (Pipeline.arrRef spec2 8)) ∗
      (((c : Thread nD τ).loc (Pipeline.arrRef spec2 9)) ↦{fullShare.right.left} V' (Pipeline.arrRef spec2 9)) ∗
      (((c : Thread nD τ).loc (Pipeline.arrRef spec2 10)) ↦{fullShare.right.right} V' (Pipeline.arrRef spec2 10)) ∗
      (((c : Thread nD τ).loc (Pipeline.arrRef spec2 11)) ↦{fullShare.left.left} V' (Pipeline.arrRef spec2 11)) ∗
      (((c : Thread nD τ).loc (Pipeline.arrRef spec2 12)) ↦{fullShare.left.right} V' (Pipeline.arrRef spec2 12)) ∗
      (((c : Thread nD τ).loc (Pipeline.arrRef spec2 13)) ↦{fullShare.right.left} V' (Pipeline.arrRef spec2 13)) ∗
      (((c : Thread nD τ).loc (Pipeline.arrRef spec2 14)) ↦{fullShare.right.right} V' (Pipeline.arrRef spec2 14)) ∗
      (((c : Thread nD τ).loc (Pipeline.arrRef spec2 15)) ↦{fullShare} V' (Pipeline.arrRef spec2 15)) ∗
      (((c : Thread nD τ).loc (Pipeline.arrRef spec2 16)) ↦{fullShare} V' (Pipeline.arrRef spec2 16))) := by
  rw [arrays_eq2, bigSep_W2]
  simp only [hF]
  rfl

theorem arrBufs_chain2 (c : Dev nD) (V' : (b : Ref sig .tc) → Buf (Elt F) ((c : Thread nD τ).loc b)) :
    (Pipeline.arrBufs (Ix := Unit) (Name := ℕ) (U := UR sig nD τ) (Lvl := ℕ) spec2 c V' : sProp 𝕄) = iprop(
      (((c : Thread nD τ).loc main_v3_0) ↦{fullShare} V' main_v3_0) ∗
      (((c : Thread nD τ).loc main_arg5) ↦{fullShare} V' main_arg5) ∗
      (((c : Thread nD τ).loc main_arg6) ↦{fullShare} V' main_arg6) ∗
      (((c : Thread nD τ).loc main_arg13) ↦{fullShare} V' main_arg13) ∗
      (((c : Thread nD τ).loc main_arg14) ↦{fullShare} V' main_arg14) ∗
      (((c : Thread nD τ).loc main_v4) ↦{fullShare} V' main_v4) ∗
      (((c : Thread nD τ).loc main_v5_0) ↦{fullShare} V' main_v5_0) ∗
      (((c : Thread nD τ).loc main_v5_1) ↦{fullShare} V' main_v5_1)) := by
  unfold Pipeline.arrBufs
  rw [bigSep_eq_bigSepL_of_eq _ arrImage2 (by decide)]
  rfl

/-- ENTRY: the buffers whole at the full share, dealt to the windows. -/
theorem arrays_split2 (c : Dev nD) (V' : (b : Ref sig .tc) → Buf (Elt F) ((c : Thread nD τ).loc b))
    (Fw : (w : Fin cfg2.W) → Buf (Elt F) ((cfg2.win w).arr.view.loc (c : Thread nD τ)))
    (hF : ∀ w, Fw w = V' (Pipeline.arrRef spec2 w)) :
    (Pipeline.arrBufs (Ix := Unit) (Name := ℕ) (U := UR sig nD τ) (Lvl := ℕ) spec2 c V' : sProp 𝕄) ⊢ (dat2 V c).arrays Fw := by
  rw [arrays_chain2 V c V' Fw hF, arrBufs_chain2]
  iintro ⟨Hx, Hh, Hc, HW, HU, Hb, Hoh, Hoc⟩
  ihave HW' := pointsTo_quarters_split $$ HW
  icases HW' with ⟨HW0, HW1, HW2, HW3⟩
  ihave HU' := pointsTo_quarters_split $$ HU
  icases HU' with ⟨HU0, HU1, HU2, HU3⟩
  ihave Hb' := pointsTo_quarters_split $$ Hb
  icases Hb' with ⟨Hb0, Hb1, Hb2, Hb3⟩
  isplitl [Hx]; · iexact Hx
  isplitl [Hh]; · iexact Hh
  isplitl [Hc]; · iexact Hc
  isplitl [HW0]; · iexact HW0
  isplitl [HW1]; · iexact HW1
  isplitl [HW2]; · iexact HW2
  isplitl [HW3]; · iexact HW3
  isplitl [HU0]; · iexact HU0
  isplitl [HU1]; · iexact HU1
  isplitl [HU2]; · iexact HU2
  isplitl [HU3]; · iexact HU3
  isplitl [Hb0]; · iexact Hb0
  isplitl [Hb1]; · iexact Hb1
  isplitl [Hb2]; · iexact Hb2
  isplitl [Hb3]; · iexact Hb3
  isplitl [Hoh]; · iexact Hoh
  iexact Hoc

/-- EXIT: the windows' shares taken back, each buffer whole at the full share again. -/
theorem arrays_join2 (c : Dev nD) (V' : (b : Ref sig .tc) → Buf (Elt F) ((c : Thread nD τ).loc b))
    (Fw : (w : Fin cfg2.W) → Buf (Elt F) ((cfg2.win w).arr.view.loc (c : Thread nD τ)))
    (hF : ∀ w, Fw w = V' (Pipeline.arrRef spec2 w)) :
    (dat2 V c).arrays Fw ⊢ (Pipeline.arrBufs (Ix := Unit) (Name := ℕ) (U := UR sig nD τ) (Lvl := ℕ) spec2 c V' : sProp 𝕄) := by
  rw [arrays_chain2 V c V' Fw hF, arrBufs_chain2]
  iintro ⟨Hx, Hh, Hc, HW0, HW1, HW2, HW3, HU0, HU1, HU2, HU3, Hb0, Hb1, Hb2, Hb3, Hoh, Hoc⟩
  isplitl [Hx]; · iexact Hx
  isplitl [Hh]; · iexact Hh
  isplitl [Hc]; · iexact Hc
  isplitl [HW0 HW1 HW2 HW3]
  · iapply pointsTo_quarters_join
    isplitl [HW0]; · iexact HW0
    isplitl [HW1]; · iexact HW1
    isplitl [HW2]; · iexact HW2
    iexact HW3
  isplitl [HU0 HU1 HU2 HU3]
  · iapply pointsTo_quarters_join
    isplitl [HU0]; · iexact HU0
    isplitl [HU1]; · iexact HU1
    isplitl [HU2]; · iexact HU2
    iexact HU3
  isplitl [Hb0 Hb1 Hb2 Hb3]
  · iapply pointsTo_quarters_join
    isplitl [Hb0]; · iexact Hb0
    isplitl [Hb1]; · iexact Hb1
    isplitl [Hb2]; · iexact Hb2
    iexact Hb3
  isplitl [Hoh]; · iexact Hoh
  iexact Hoc

end Cert.KernelIdeal.Hand

end
-- ==== Proof.KernelIdealFrame.Reg2.lean ====
/-
  The third LSTM cell's region over the thread state: entered from every unscoped buffer at the contents the
  preceding reshape leaves, left with its two output arrays at what the write-backs of all eight grid
  points leave and every other buffer as found. Its eight buffers are split out of the unscoped buffers
  and dealt to the seventeen windows (the three shared ones by quarters), and taken back at the exit.
-/
import proofs.«137003_j53412213293363_2_alg».proof.Proof.KernelIdealFrame.PDats
import proofs.«137003_j53412213293363_2_alg».proof.Proof.KernelIdealFrame.Shares2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input window's array is neither of the region's two output arrays. -/
theorem in_ne2 : ∀ w : Fin cfg2.W, (cfg2.win w).isOut = false →
    Pipeline.arrRef spec2 w ≠ main_v5_0 ∧ Pipeline.arrRef spec2 w ≠ main_v5_1 := by decide
/-- The output windows are the last two. -/
theorem out_cases2 : ∀ w : Fin cfg2.W, (cfg2.win w).isOut = true → w = 15 ∨ w = 16 := by decide

/-- At the region's exit each of its arrays holds what the pipeline leaves: an input array what it held, an output
    array the folded write-backs. -/
theorem hF2 (c : Dev nD) (w : Fin cfg2.W) : (dat2 (V5 m ρ) c).arrAt w cfg2.N = V6 m ρ c (Pipeline.arrRef spec2 w) := by
  by_cases hw : (cfg2.win w).isOut = true
  · rcases out_cases2 w hw with rfl | rfl
    · exact (W6_main_v5_0 m ρ c).symm
    · exact (W6_main_v5_1 m ρ c).symm
  · have hw' : (cfg2.win w).isOut = false := by simpa using hw
    exact ((dat2 (V5 m ρ) c).arrAt_in w hw' _).trans
      ((A_eq2 (V5 m ρ) c w).trans (W6_of_ne m ρ c _ (in_ne2 w hw').1 (in_ne2 w hw').2).symm)

/-- Every buffer that is no array of the region is as the region found it. -/
theorem hrest2 (c : Dev nD) : ∀ b, b ∉ Finset.univ.image (Pipeline.arrRef spec2) → V6 m ρ c b = V5 m ρ c b :=
  fun b hb => W6_of_ne m ρ c b (fun e => hb (Finset.mem_image.mpr ⟨15, Finset.mem_univ _, e.symm⟩))
    (fun e => hb (Finset.mem_image.mpr ⟨16, Finset.mem_univ _, e.symm⟩))

/-- ENTRY, the arrays' part: the unscoped buffers at the entry contents are the pipeline's arrays, dealt, and the rest. -/
theorem enter2 (c : Dev nD) :
    (StableHlo.held (c : Thread nD τ) (Pipeline.ucRefs τ sig) (W5 m ρ c) : sProp 𝕄)
      ⊢ iprop((dat2 (V5 m ρ) c).arrays ((dat2 (V5 m ρ) c).arrAt · 0)
          ∗ Pipeline.unscopedRest (Ix := Unit) (Name := ℕ) (U := UR sig nD τ) (Lvl := ℕ) spec2 c (V5 m ρ c)) := by
  rw [← Pipeline.unscopedBufs_held (Ix := Unit) (Name := ℕ) (U := UR sig nD τ) (Lvl := ℕ) c (W5 m ρ c),
    Pipeline.unscopedBufs_split₀ cfgs 2 winFacts₀2.arr_unscoped c (V5 m ρ c)]
  exact sep_mono (arrays_split2 (V5 m ρ) c (V5 m ρ c) _ (fun w => A_eq2 (V5 m ρ) c w)) .rfl

/-- EXIT, the arrays' part: the pipeline's arrays as it leaves them and the rest are the unscoped buffers at the exit contents. -/
theorem leave2 (c : Dev nD) :
    iprop((dat2 (V5 m ρ) c).arrays ((dat2 (V5 m ρ) c).arrAt · cfg2.N)
        ∗ Pipeline.unscopedRest (Ix := Unit) (Name := ℕ) (U := UR sig nD τ) (Lvl := ℕ) spec2 c (V5 m ρ c))
      ⊢ (StableHlo.held (c : Thread nD τ) (Pipeline.ucRefs τ sig) (W6 m ρ c) : sProp 𝕄) := by
  rw [← Pipeline.unscopedBufs_held (Ix := Unit) (Name := ℕ) (U := UR sig nD τ) (Lvl := ℕ) c (W6 m ρ c),
    Pipeline.unscopedBufs_split₀ cfgs 2 winFacts₀2.arr_unscoped c (V6 m ρ c)]
  refine sep_mono (arrays_join2 (V5 m ρ) c (V6 m ρ c) _ (hF2 m ρ c)) (Entails.of_eq ?_)
  unfold Pipeline.unscopedRest
  exact bigSep_congr fun b hb => by rw [hrest2 m ρ c b (Finset.mem_sdiff.mp hb).2]

set_option backward.isDefEq.respectTransparency.types false in
/-- Region 2 as a segment of @main. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hE : (StableHlo.held (c : Thread nD τ) (Pipeline.ucRefs τ sig) (W5 m ρ c) : sProp 𝕄)
        ⊢ iprop((pdats m ρ 2 c).arrays ((pdats m ρ 2 c).arrAt · 0)
          ∗ Pipeline.unscopedRest (Ix := Unit) (Name := ℕ) (U := UR sig nD τ) (Lvl := ℕ) spec2 c (V5 m ρ c)) := enter2 m ρ c
    iintro ⟨⟨Hub, Hp, HO⟩, -, -⟩
    ihave H := hE $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hJ : iprop((pdats m ρ 2 c).arrays ((pdats m ρ 2 c).arrAt · cfg2.N)
          ∗ Pipeline.unscopedRest (Ix := Unit) (Name := ℕ) (U := UR sig nD τ) (Lvl := ℕ) spec2 c (V5 m ρ c))
        ⊢ (StableHlo.held (c : Thread nD τ) (Pipeline.ucRefs τ sig) (W6 m ρ c) : sProp 𝕄) := leave2 m ρ c
    iintro ⟨Ha, HO, HY, Hrest⟩
    imodintro
    isplitl [Ha Hrest]
    · iapply hJ; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdealFrame.Reg3.lean ====
/-
  The dense layer's region over the thread state: entered from every unscoped buffer at the contents
  the last reshape leaves, left with the logits' array at what the write-backs of both grid points
  leave and every other buffer as found. Its four arrays are distinct buffers: they are split out of
  the unscoped buffers at the full share and put back at the exit contents.
-/
import proofs.«137003_j53412213293363_2_alg».proof.Proof.KernelIdealFrame.PDats
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the region's exit each of its arrays holds what the pipeline leaves: an input array what it held, the output
    array the folded write-backs. -/
theorem hF3 (c : Dev nD) (w : Fin cfg3.W) : (dat3 (V7 m ρ) c).arrAt w cfg3.N = V8 m ρ c (Pipeline.arrRef spec3 w) := by
  match w with
  | ⟨0, _⟩ => exact ((dat3 (V7 m ρ) c).arrAt_in 0 rfl _).trans ((A_eq3 (V7 m ρ) c 0).trans (W8_of_ne m ρ c _ (by decide)).symm)
  | ⟨1, _⟩ => exact ((dat3 (V7 m ρ) c).arrAt_in 1 rfl _).trans ((A_eq3 (V7 m ρ) c 1).trans (W8_of_ne m ρ c _ (by decide)).symm)
  | ⟨2, _⟩ => exact ((dat3 (V7 m ρ) c).arrAt_in 2 rfl _).trans ((A_eq3 (V7 m ρ) c 2).trans (W8_of_ne m ρ c _ (by decide)).symm)
  | ⟨3, _⟩ => exact (W8_main_v7 m ρ c).symm

/-- Every buffer that is no array of the region is as the region found it. -/
theorem hrest3 (c : Dev nD) : ∀ b, b ∉ Finset.univ.image (Pipeline.arrRef spec3) → V8 m ρ c b = V7 m ρ c b :=
  fun b hb => W8_of_ne m ρ c b fun e => hb (Finset.mem_image.mpr ⟨3, Finset.mem_univ _, e.symm⟩)

set_option backward.isDefEq.respectTransparency.types false in
/-- Region 3 as a segment of @main. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KernelIdealFrame.Run.lean ====
/-
  The run of @main: four host stretches and four kernel regions in order, from the launch memory to
  the return. Every weakly fair execution terminates, nothing faulting, and every final memory holds
  each unscoped buffer at the last boundary's contents: the arguments as launched, each region's output
  arrays at what its write-backs leave.
-/
import proofs.«137003_j53412213293363_2_alg».proof.Proof.KernelIdealFrame.Reg0
import proofs.«137003_j53412213293363_2_alg».proof.Proof.KernelIdealFrame.Reg1
import proofs.«137003_j53412213293363_2_alg».proof.Proof.KernelIdealFrame.Reg2
import proofs.«137003_j53412213293363_2_alg».proof.Proof.KernelIdealFrame.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory has each unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.KernelIdealVal.HostRows.lean ====
/-
  The four bias rows. Before each kernel region @main reshapes one bias vector of length `n` to a `1 × n` array,
  in row-major order, so entry `(0, j)` of the row is entry `j` of the vector; and no earlier item of @main
  writes a bias vector, so the vector is the launch memory's.
-/
import proofs.«137003_j53412213293363_2_alg».proof.Proof.KernelIdealFrame.Vals
import Idealize.ShloMosaic.Lib.ValueLayout

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- Row 0: entry `(0, j)` of `main_v0` at region 0's entry is entry `j` of the bias vector `main_arg9` as launched. -/
theorem row0 (c : Dev nD) (j : Fin 4096) :
    V1 m ρ c main_v0 (ix2 (0 : Fin 1) j) = m ((c : Thread nD τ).loc main_arg9) (ix1 j) := by
  have e : (V1 m ρ c main_v0 : S1x4096.Idx → EReal)
      = shapeCast S1x4096 (m ((c : Thread nD τ).loc main_arg9) : S4096.Idx → EReal) shapeCasts_S4096_S1x4096 := by
    show StableHlo.after hostOps0 (W0 m ρ c) (Proc.devRef .tc main_v0) = _
    after_results
    rfl
  exact (congrFun e _).trans (shapeCast_a_1a_apply _ _ (0 : Fin 1) j)

/-- Row 1: entry `(0, j)` of `main_v2` at region 1's entry is entry `j` of the bias vector `main_arg12` as launched. -/
theorem row1 (c : Dev nD) (j : Fin 4096) :
    V3 m ρ c main_v2 (ix2 (0 : Fin 1) j) = m ((c : Thread nD τ).loc main_arg12) (ix1 j) := by
  have e : (V3 m ρ c main_v2 : S1x4096.Idx → EReal)
      = shapeCast S1x4096 (W2 m ρ c (Proc.devRef .tc main_arg12) : S4096.Idx → EReal) shapeCasts_S4096_S1x4096 := by
    show StableHlo.after hostOps1 (W2 m ρ c) (Proc.devRef .tc main_v2) = _
    after_results
    rfl
  have a : W2 m ρ c (Proc.devRef .tc main_arg12) = m ((c : Thread nD τ).loc main_arg12) :=
    (W2_of_ne m ρ c main_arg12 (by decide) (by decide)).trans <| (W1_of_ne m ρ c main_arg12 (by decide)).trans rfl
  rw [a] at e
  exact (congrFun e _).trans (shapeCast_a_1a_apply _ _ (0 : Fin 1) j)

/-- Row 2: entry `(0, j)` of `main_v4` at region 2's entry is entry `j` of the bias vector `main_arg15` as launched. -/
theorem row2 (c : Dev nD) (j : Fin 4096) :
    V5 m ρ c main_v4 (ix2 (0 : Fin 1) j) = m ((c : Thread nD τ).loc main_arg15) (ix1 j) := by
  have e : (V5 m ρ c main_v4 : S1x4096.Idx → EReal)
      = shapeCast S1x4096 (W4 m ρ c (Proc.devRef .tc main_arg15) : S4096.Idx → EReal) shapeCasts_S4096_S1x4096 := by
    show StableHlo.after hostOps2 (W4 m ρ c) (Proc.devRef .tc main_v4) = _
    after_results
    rfl
  have a : W4 m ρ c (Proc.devRef .tc main_arg15) = m ((c : Thread nD τ).loc main_arg15) :=
    (W4_of_ne m ρ c main_arg15 (by decide) (by decide)).trans <| (W3_of_ne m ρ c main_arg15 (by decide)).trans <| (W2_of_ne m ρ c main_arg15 (by decide) (by decide)).trans <| (W1_of_ne m ρ c main_arg15 (by decide)).trans rfl
  rw [a] at e
  exact (congrFun e _).trans (shapeCast_a_1a_apply _ _ (0 : Fin 1) j)

/-- Row 3: entry `(0, j)` of `main_v6` at region 3's entry is entry `j` of the bias vector `main_arg17` as launched. -/
theorem row3 (c : Dev nD) (j : Fin 512) :
    V7 m ρ c main_v6 (ix2 (0 : Fin 1) j) = m ((c : Thread nD τ).loc main_arg17) (ix1 j) := by
  have e : (V7 m ρ c main_v6 : S1x512.Idx → EReal)
      = shapeCast S1x512 (W6 m ρ c (Proc.devRef .tc main_arg17) : S512.Idx → EReal) shapeCasts_S512_S1x512 := by
    show StableHlo.after hostOps3 (W6 m ρ c) (Proc.devRef .tc main_v6) = _
    after_results
    rfl
  have a : W6 m ρ c (Proc.devRef .tc main_arg17) = m ((c : Thread nD τ).loc main_arg17) :=
    (W6_of_ne m ρ c main_arg17 (by decide) (by decide)).trans <| (W5_of_ne m ρ c main_arg17 (by decide)).trans <| (W4_of_ne m ρ c main_arg17 (by decide) (by decide)).trans <| (W3_of_ne m ρ c main_arg17 (by decide)).trans <| (W2_of_ne m ρ c main_arg17 (by decide) (by decide)).trans <| (W1_of_ne m ρ c main_arg17 (by decide)).trans rfl
  rw [a] at e
  exact (congrFun e _).trans (shapeCast_a_1a_apply _ _ (0 : Fin 1) j)

end Cert.KernelIdeal.Val

end
-- ==== Proof.Spec.lean ====
/-
  The mathematics both programs compute, on the extended reals, entry by entry.

  One LSTM cell: with `z g` the pre-activation of gate `g` (input, forget, candidate, output) at row `r`
  and hidden unit `j` — the row of `x` against column `g·1024 + j` of `W`, plus the row of `h` against
  the same column of `U`, plus that entry of the bias —

      c' = σ(z 1) · c + σ(z 0) · tanh(z 2),        h' = σ(z 3) · tanh(c'),

  where σ is the logistic function `1 / (1 + e^(-t))`. Three cells are stacked, each fed the previous
  cell's `h'`, and the last `h'` goes through one dense layer. Nothing here asks the entries to be finite:
  the sums and products are the extended reals' own, taken in the one order both programs use.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `n0` rows and `n1` columns. -/
abbrev Mat (n0 n1 : Nat) : Type := (⟨2, ![n0, n1]⟩ : Shape).Idx → EReal
/-- A vector of extended reals of length `n`. -/
abbrev Vc (n : Nat) : Type := (⟨1, ![n]⟩ : Shape).Idx → EReal

/-- Column `g · 1024 + j` of the gate-concatenated axis: hidden unit `j` of gate `g`. -/
def col (g : Fin 4) (j : Fin 1024) : Fin 4096 := ⟨g.val * 1024 + j.val, by omega⟩

/-- Entry `(r, c)` of the matrix product `x · w`: the sum over the contracted axis, in its own order. -/
def dot {R K C : Nat} (x : Mat R K) (w : Mat K C) (r : Fin R) (c : Fin C) : EReal :=
  ∑ k : Fin K, x (ix2 r k) * w (ix2 k c)

/-- The new cell state from the three gate pre-activations it depends on and the old state. -/
def cC (zi zf zg c : EReal) : EReal := Ideal.logistic zf * c + Ideal.logistic zi * Ideal.tanh zg
/-- The new hidden state: the output gate times `tanh` of the new cell state. -/
def cH (zi zf zg zo c : EReal) : EReal := Ideal.logistic zo * Ideal.tanh (cC zi zf zg c)

/-- Gate `g`'s pre-activation at row `r`, hidden unit `j`: `(x·W + h·U) + b` at column `col g j`. -/
def z {K : Nat} (x : Mat 256 K) (h : Mat 256 1024) (W : Mat K 4096) (U : Mat 1024 4096) (b : Vc 4096)
    (g : Fin 4) (r : Fin 256) (j : Fin 1024) : EReal :=
  (dot x W r (col g j) + dot h U r (col g j)) + b (ix1 (col g j))

/-- A gate's pre-activation on ONE TILE of columns: the rows of `x` and `h` against the tile's columns of the two
    weight matrices (`w`, `u`: all rows, `T` columns) plus the tile of the bias row. -/
def tz {K T : Nat} (x : Mat 256 K) (h : Mat 256 1024) (w : Mat K T) (u : Mat 1024 T) (b : Mat 1 T)
    (r : Fin 256) (l : Fin T) : EReal :=
  (dot x w r l + dot h u r l) + b (ix2 0 l)

/-- The dense layer on one tile of columns. -/
def tdense {T : Nat} (h : Mat 256 1024) (w : Mat 1024 T) (b : Mat 1 T) (r : Fin 256) (l : Fin T) : EReal :=
  dot h w r l + b (ix2 0 l)

/-- The cell's new cell state, as an array. -/
def cellC {K : Nat} (x : Mat 256 K) (h c : Mat 256 1024) (W : Mat K 4096) (U : Mat 1024 4096) (b : Vc 4096) : Mat 256 1024 :=
  fun i => cC (z x h W U b 0 (i 0) (i 1)) (z x h W U b 1 (i 0) (i 1)) (z x h W U b 2 (i 0) (i 1)) (c i)
/-- The cell's new hidden state, as an array. -/
def cellH {K : Nat} (x : Mat 256 K) (h c : Mat 256 1024) (W : Mat K 4096) (U : Mat 1024 4096) (b : Vc 4096) : Mat 256 1024 :=
  fun i => cH (z x h W U b 0 (i 0) (i 1)) (z x h W U b 1 (i 0) (i 1)) (z x h W U b 2 (i 0) (i 1)) (z x h W U b 3 (i 0) (i 1)) (c i)

/-- The dense layer: `h · Wp + bp`. -/
def dense (h : Mat 256 1024) (Wp : Mat 1024 512) (bp : Vc 512) : Mat 256 512 :=
  fun i => dot h Wp (i 0) (i 1) + bp (ix1 (i 1))

/-- The eighteen argument arrays, in the programs' order. -/
structure Args where
  x : Mat 256 512
  h0 : Mat 256 1024
  c0 : Mat 256 1024
  h1 : Mat 256 1024
  c1 : Mat 256 1024
  h2 : Mat 256 1024
  c2 : Mat 256 1024
  W0 : Mat 512 4096
  U0 : Mat 1024 4096
  b0 : Vc 4096
  W1 : Mat 1024 4096
  U1 : Mat 1024 4096
  b1 : Vc 4096
  W2 : Mat 1024 4096
  U2 : Mat 1024 4096
  b2 : Vc 4096
  Wp : Mat 1024 512
  bp : Vc 512

namespace Args
variable (a : Args)
/-- The first cell's outputs. -/
def h0n : Mat 256 1024 := cellH a.x a.h0 a.c0 a.W0 a.U0 a.b0
def c0n : Mat 256 1024 := cellC a.x a.h0 a.c0 a.W0 a.U0 a.b0
/-- The second cell's, fed the first's hidden state. -/
def h1n : Mat 256 1024 := cellH a.h0n a.h1 a.c1 a.W1 a.U1 a.b1
def c1n : Mat 256 1024 := cellC a.h0n a.h1 a.c1 a.W1 a.U1 a.b1
/-- The third cell's, fed the second's hidden state. -/
def h2n : Mat 256 1024 := cellH a.h1n a.h2 a.c2 a.W2 a.U2 a.b2
def c2n : Mat 256 1024 := cellC a.h1n a.h2 a.c2 a.W2 a.U2 a.b2
/-- The step's logits. -/
def logits : Mat 256 512 := dense a.h2n a.Wp a.bp
end Args

end Cert.Spec

end
-- ==== Proof.KernelIdealVal.PayLib.lean ====
/-
  The kernel bodies' arithmetic read at an index: the pieces every body shares.

  On the extended reals the product of a [R, K] array by a [K, C] array, accumulated into the zero array, is at entry
  (r, c) the sum over k of x(r, k) · w(k, c), taken in the contraction axis's own order; a narrowing format change and
  a cast to the same shape change nothing; a [1, C] row broadcast down R rows reads its one row at every row. A gate's
  pre-activation on one tile of columns, (x·w + h·u) + b, is therefore `Spec.tz` entry by entry, and the dense layer's
  tile, h·w + b, is `Spec.tdense`. No sum is reordered and no entry is asked to be finite.
-/
import proofs.«137003_j53412213293363_2_alg».proof.Proof.Gen.KernelIdeal.Skeleton
import proofs.«137003_j53412213293363_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-! ## A product into the zero array, entry by entry

For each of the three products the bodies take — [256, 512] by [512, 128], [256, 1024] by [1024, 128] and
[256, 1024] by [1024, 256] — the left operand is read at (row of the output, contraction position) and the right
operand at (contraction position, column of the output). -/

theorem lhs512_0 (i : S256x128.Idx) (q : dot_S256x512_S512x128_S256x128_1_0_0_1_n_n.contr.Idx) :
    (dot_S256x512_S512x128_S256x128_1_0_0_1_n_n.lhsIdx i q 0).val = (i 0).val := by
  unfold DotDims.lhsIdx
  rw [dif_neg (show ¬(0 : Fin S256x512.rank) ∈ dot_S256x512_S512x128_S256x128_1_0_0_1_n_n.lhsBatch by decide),
    dif_pos (show (0 : Fin S256x512.rank) ∈ dot_S256x512_S512x128_S256x128_1_0_0_1_n_n.lhsNonContracting by decide)]
  rfl
theorem lhs512_1 (i : S256x128.Idx) (q : dot_S256x512_S512x128_S256x128_1_0_0_1_n_n.contr.Idx) :
    (dot_S256x512_S512x128_S256x128_1_0_0_1_n_n.lhsIdx i q 1).val = (q ⟨0, by decide⟩).val :=
  dot_S256x512_S512x128_S256x128_1_0_0_1_n_n.lhsIdx_val_of_single rfl i q
theorem rhs512_0 (i : S256x128.Idx) (q : dot_S256x512_S512x128_S256x128_1_0_0_1_n_n.contr.Idx) :
    (dot_S256x512_S512x128_S256x128_1_0_0_1_n_n.rhsIdx i q 0).val = (q ⟨0, by decide⟩).val :=
  dot_S256x512_S512x128_S256x128_1_0_0_1_n_n.rhsIdx_val_of_single rfl i q
theorem rhs512_1 (i : S256x128.Idx) (q : dot_S256x512_S512x128_S256x128_1_0_0_1_n_n.contr.Idx) :
    (dot_S256x512_S512x128_S256x128_1_0_0_1_n_n.rhsIdx i q 1).val = (i 1).val := by
  unfold DotDims.rhsIdx
  rw [dif_neg (show ¬(1 : Fin S512x128.rank) ∈ dot_S256x512_S512x128_S256x128_1_0_0_1_n_n.rhsBatch by decide),
    dif_pos (show (1 : Fin S512x128.rank) ∈ dot_S256x512_S512x128_S256x128_1_0_0_1_n_n.rhsNonContracting by decide)]
  rfl

/-- The [256, 512] by [512, 128] product into the zero array, at (r, l): the sum over k of x(r, k) · w(k, l). -/
theorem matmul512_apply (x : FVec Ideal S256x512 .bf16) (w : FVec Ideal S512x128 .bf16) (r : Fin 256) (l : Fin 128) :
    matmul dot_S256x512_S512x128_S256x128_1_0_0_1_n_n none x w (constant (F := Ideal) S256x128 .f32 0x00000000#32) (ix2 r l)
      = Cert.Spec.dot x w r l := by
  simp only [matmul]
  rw [Ideal.matmul_constant_zero_apply,
    ← Equiv.sum_comp (contrEquiv1 dot_S256x512_S512x128_S256x128_1_0_0_1_n_n 512 rfl rfl).symm]
  unfold Cert.Spec.dot
  refine Finset.sum_congr rfl fun k _ => ?_
  have hk := contrEquiv1_symm_val dot_S256x512_S512x128_S256x128_1_0_0_1_n_n 512 rfl rfl k
  have el : dot_S256x512_S512x128_S256x128_1_0_0_1_n_n.lhsIdx (ix2 r l)
      ((contrEquiv1 dot_S256x512_S512x128_S256x128_1_0_0_1_n_n 512 rfl rfl).symm k) = ix2 r k :=
    funext fun a => Fin.ext (by
      match a with
      | ⟨0, _⟩ => exact lhs512_0 _ _
      | ⟨1, _⟩ => exact (lhs512_1 _ _).trans hk)
  have er : dot_S256x512_S512x128_S256x128_1_0_0_1_n_n.rhsIdx (ix2 r l)
      ((contrEquiv1 dot_S256x512_S512x128_S256x128_1_0_0_1_n_n 512 rfl rfl).symm k) = ix2 k l :=
    funext fun a => Fin.ext (by
      match a with
      | ⟨0, _⟩ => exact (rhs512_0 _ _).trans hk
      | ⟨1, _⟩ => exact rhs512_1 _ _)
  rw [el, er]

theorem lhs1024_0 (i : S256x128.Idx) (q : dot_S256x1024_S1024x128_S256x128_1_0_0_1_n_n.contr.Idx) :
    (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide),
    dif_pos (show (0 : Fin S256x1024.rank) ∈ dot_S256x1024_S1024x128_S256x128_1_0_0_1_n_n.lhsNonContracting by decide)]
  rfl
theorem lhs1024_1 (i : S256x128.Idx) (q : dot_S256x1024_S1024x128_S256x128_1_0_0_1_n_n.contr.Idx) :
    (dot_S256x1024_S1024x128_S256x128_1_0_0_1_n_n.lhsIdx i q 1).val = (q ⟨0, by decide⟩).val :=
  dot_S256x1024_S1024x128_S256x128_1_0_0_1_n_n.lhsIdx_val_of_single rfl i q
theorem rhs1024_0 (i : S256x128.Idx) (q : dot_S256x1024_S1024x128_S256x128_1_0_0_1_n_n.contr.Idx) :
    (dot_S256x1024_S1024x128_S256x128_1_0_0_1_n_n.rhsIdx i q 0).val = (q ⟨0, by decide⟩).val :=
  dot_S256x1024_S1024x128_S256x128_1_0_0_1_n_n.rhsIdx_val_of_single rfl i q
theorem rhs1024_1 (i : S256x128.Idx) (q : dot_S256x1024_S1024x128_S256x128_1_0_0_1_n_n.contr.Idx) :
    (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide),
    dif_pos (show (1 : Fin S1024x128.rank) ∈ dot_S256x1024_S1024x128_S256x128_1_0_0_1_n_n.rhsNonContracting by decide)]
  rfl

/-- The [256, 1024] by [1024, 128] product into the zero array, at (r, l): the sum over k of x(r, k) · w(k, l). -/
theorem matmul1024_apply (x : FVec Ideal S256x1024 .bf16) (w : FVec Ideal S1024x128 .bf16) (r : Fin 256) (l : Fin 128) :
    matmul dot_S256x1024_S1024x128_S256x128_1_0_0_1_n_n none x w (constant (F := Ideal) S256x128 .f32 0x00000000#32) (ix2 r l)
      = Cert.Spec.dot x w r l := by
  simp only [matmul]
  rw [Ideal.matmul_constant_zero_apply,
    ← Equiv.sum_comp (contrEquiv1 dot_S256x1024_S1024x128_S256x128_1_0_0_1_n_n 1024 rfl rfl).symm]
  unfold Cert.Spec.dot
  refine Finset.sum_congr rfl fun k _ => ?_
  have hk := contrEquiv1_symm_val dot_S256x1024_S1024x128_S256x128_1_0_0_1_n_n 1024 rfl rfl k
  have el : dot_S256x1024_S1024x128_S256x128_1_0_0_1_n_n.lhsIdx (ix2 r l)
      ((contrEquiv1 dot_S256x1024_S1024x128_S256x128_1_0_0_1_n_n 1024 rfl rfl).symm k) = ix2 r k :=
    funext fun a => Fin.ext (by
      match a with
      | ⟨0, _⟩ => exact lhs1024_0 _ _
      | ⟨1, _⟩ => exact (lhs1024_1 _ _).trans hk)
  have er : dot_S256x1024_S1024x128_S256x128_1_0_0_1_n_n.rhsIdx (ix2 r l)
      ((contrEquiv1 dot_S256x1024_S1024x128_S256x128_1_0_0_1_n_n 1024 rfl rfl).symm k) = ix2 k l :=
    funext fun a => Fin.ext (by
      match a with
      | ⟨0, _⟩ => exact (rhs1024_0 _ _).trans hk
      | ⟨1, _⟩ => exact rhs1024_1 _ _)
  rw [el, er]

theorem lhs1024w_0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide),
    dif_pos (show (0 : Fin S256x1024.rank) ∈ dot_S256x1024_S1024x256_S256x256_1_0_0_1_n_n.lhsNonContracting by decide)]
  rfl
theorem lhs1024w_1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
theorem rhs1024w_0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
theorem rhs1024w_1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide),
    dif_pos (show (1 : Fin S1024x256.rank) ∈ dot_S256x1024_S1024x256_S256x256_1_0_0_1_n_n.rhsNonContracting by decide)]
  rfl

/-- The [256, 1024] by [1024, 256] product into the zero array, at (r, l): the sum over k of x(r, k) · w(k, l). -/
theorem matmul1024w_apply (x : FVec Ideal S256x1024 .bf16) (w : FVec Ideal S1024x256 .bf16) (r : Fin 256) (l : Fin 256) :
    matmul dot_S256x1024_S1024x256_S256x256_1_0_0_1_n_n none x w (constant (F := Ideal) S256x256 .f32 0x00000000#32) (ix2 r l)
      = Cert.Spec.dot x w r l := by
  simp only [matmul]
  rw [Ideal.matmul_constant_zero_apply,
    ← Equiv.sum_comp (contrEquiv1 dot_S256x1024_S1024x256_S256x256_1_0_0_1_n_n 1024 rfl rfl).symm]
  unfold Cert.Spec.dot
  refine Finset.sum_congr rfl fun k _ => ?_
  have hk := contrEquiv1_symm_val dot_S256x1024_S1024x256_S256x256_1_0_0_1_n_n 1024 rfl rfl k
  have el : dot_S256x1024_S1024x256_S256x256_1_0_0_1_n_n.lhsIdx (ix2 r l)
      ((contrEquiv1 dot_S256x1024_S1024x256_S256x256_1_0_0_1_n_n 1024 rfl rfl).symm k) = ix2 r k :=
    funext fun a => Fin.ext (by
      match a with
      | ⟨0, _⟩ => exact lhs1024w_0 _ _
      | ⟨1, _⟩ => exact (lhs1024w_1 _ _).trans hk)
  have er : dot_S256x1024_S1024x256_S256x256_1_0_0_1_n_n.rhsIdx (ix2 r l)
      ((contrEquiv1 dot_S256x1024_S1024x256_S256x256_1_0_0_1_n_n 1024 rfl rfl).symm k) = ix2 k l :=
    funext fun a => Fin.ext (by
      match a with
      | ⟨0, _⟩ => exact (rhs1024w_0 _ _).trans hk
      | ⟨1, _⟩ => exact rhs1024w_1 _ _)
  rw [el, er]

/-! ## Format changes -/

/-- At the extended reals a narrowing format change is the identity on arrays. -/
theorem truncf_eq {s : Shape} {φ ψ : FTy} (a : FVec Ideal s φ) (h : ψ.bits < φ.bits) : (truncf ψ a h : FVec Ideal s ψ) = a := rfl

/-! ## A gate's pre-activation on one tile of columns

`gate0` is the term the first cell's body computes for each of its four gates (its `x` has 512 columns), `gate1`
the one the second and third cells' bodies compute (1024 columns): the two products into zero arrays, added, plus the
bias row broadcast down the 256 rows. -/

/-- The first cell's gate term. -/
def gate0 (x : FVec Ideal S256x512 .bf16) (h : FVec Ideal S256x1024 .bf16) (w : FVec Ideal S512x128 .bf16)
    (u : FVec Ideal S1024x128 .bf16) (b : Vec Ideal S1x128 .f32) : FVec Ideal S256x128 .f32 :=
  addf
    (addf (matmul dot_S256x512_S512x128_S256x128_1_0_0_1_n_n none x w (constant S256x128 .f32 0x00000000#32))
      (matmul dot_S256x1024_S1024x128_S256x128_1_0_0_1_n_n none h u (constant S256x128 .f32 0x00000000#32)))
    (broadcastTo S256x128 (shapeCast S1x128 b shapeCasts_S1x128_S1x128) broadcasts_S1x128_S256x128)

/-- The second and third cells' gate term. -/
def gate1 (x : FVec Ideal S256x1024 .bf16) (h : FVec Ideal S256x1024 .bf16) (w : FVec Ideal S1024x128 .bf16)
    (u : FVec Ideal S1024x128 .bf16) (b : Vec Ideal S1x128 .f32) : FVec Ideal S256x128 .f32 :=
  addf
    (addf (matmul dot_S256x1024_S1024x128_S256x128_1_0_0_1_n_n none x w (constant S256x128 .f32 0x00000000#32))
      (matmul dot_S256x1024_S1024x128_S256x128_1_0_0_1_n_n none h u (constant S256x128 .f32 0x00000000#32)))
    (broadcastTo S256x128 (shapeCast S1x128 b shapeCasts_S1x128_S1x128) broadcasts_S1x128_S256x128)

/-- Entry (r, l) of the first cell's gate term is `Spec.tz`: (x·w + h·u)(r, l) + b(0, l). -/
theorem gate0_apply (x : FVec Ideal S256x512 .bf16) (h : FVec Ideal S256x1024 .bf16) (w : FVec Ideal S512x128 .bf16)
    (u : FVec Ideal S1024x128 .bf16) (b : Vec Ideal S1x128 .f32) (r : Fin 256) (l : Fin 128) :
    gate0 x h w u b (ix2 r l) = Cert.Spec.tz x h w u b r l := by
  unfold gate0 Cert.Spec.tz
  rw [addf_apply, addf_apply, matmul512_apply, matmul1024_apply, shapeCast_self, broadcastTo_1b_ab_apply]

/-- Entry (r, l) of the second and third cells' gate term is `Spec.tz`. -/
theorem gate1_apply (x : FVec Ideal S256x1024 .bf16) (h : FVec Ideal S256x1024 .bf16) (w : FVec Ideal S1024x128 .bf16)
    (u : FVec Ideal S1024x128 .bf16) (b : Vec Ideal S1x128 .f32) (r : Fin 256) (l : Fin 128) :
    gate1 x h w u b (ix2 r l) = Cert.Spec.tz x h w u b r l := by
  unfold gate1 Cert.Spec.tz
  rw [addf_apply, addf_apply, matmul1024_apply, matmul1024_apply, shapeCast_self, broadcastTo_1b_ab_apply]

/-! ## The cell's two outputs from the gates, entry by entry -/

/-- The new cell state's term: σ(forget) · c + σ(input) · tanh(candidate), arrays multiplied and added entry by entry. -/
theorem cellC_apply (zi zf zg c : FVec Ideal S256x128 .f32) (i : S256x128.Idx) :
    addf (mulf (logistic zf) c) (mulf (logistic zi) (tanh zg)) i = Cert.Spec.cC (zi i) (zf i) (zg i) (c i) := rfl

/-- The new hidden state's term: σ(output) · tanh(new cell state). -/
theorem cellH_apply (zo cn : FVec Ideal S256x128 .f32) (i : S256x128.Idx) :
    mulf (logistic zo) (tanh cn) i = Ideal.logistic (zo i) * Ideal.tanh (cn i) := rfl

end Cert.KernelIdeal.Val

end
-- ==== Proof.KernelIdealVal.Pay0.lean ====
/-
  The first LSTM cell's body, read at an index: on one tile of 128 columns, its two stored arrays are at entry (r, l)
  the new cell state σ(z_f)·c + σ(z_i)·tanh(z_g) and the new hidden state σ(z_o)·tanh(new cell state), each z the gate's
  pre-activation `Spec.tz` of the rows of `x` and `h` against that gate's tiles of the two weight matrices and of the bias.
-/
import proofs.«137003_j53412213293363_2_alg».proof.Proof.KernelIdealVal.PayLib

noncomputable section

open scoped BigOperators

namespace Cert.KernelIdeal.Val

open Cert.KernelIdeal Cert.KernelIdeal.Gen Idealize.ShloMosaic Idealize.ShloMosaic.ValueIdx

/-! ## The gates -/

/-- The input gate's term is the gate term of the rows of `x` and `h` against the gate's tiles: the format changes
    in front of the products are the identity. -/
theorem k0_pay5_eq (x0 : Vec Ideal S256x512 .f32) (x1 : Vec Ideal S256x1024 .f32) (w : Vec Ideal S512x128 .f32)
    (u : Vec Ideal S1024x128 .f32) (b : Vec Ideal S1x128 .f32) :
    k0_pay5 (F := Ideal) x0 x1 w u b = gate0 x0 x1 w u b := rfl
/-- The forget gate's likewise. -/
theorem k0_pay6_eq (x0 : Vec Ideal S256x512 .f32) (x1 : Vec Ideal S256x1024 .f32) (w : Vec Ideal S512x128 .f32)
    (u : Vec Ideal S1024x128 .f32) (b : Vec Ideal S1x128 .f32) :
    k0_pay6 (F := Ideal) x0 x1 w u b = gate0 x0 x1 w u b := rfl

/-- The input gate's pre-activation at (r, l). -/
theorem k0_pay5_apply (x0 : Vec Ideal S256x512 .f32) (x1 : Vec Ideal S256x1024 .f32) (w : Vec Ideal S512x128 .f32)
    (u : Vec Ideal S1024x128 .f32) (b : Vec Ideal S1x128 .f32) (r : Fin 256) (l : Fin 128) :
    k0_pay5 (F := Ideal) x0 x1 w u b (ix2 r l) = Cert.Spec.tz x0 x1 w u b r l := by
  rw [k0_pay5_eq, gate0_apply]
/-- The forget gate's pre-activation at (r, l). -/
theorem k0_pay6_apply (x0 : Vec Ideal S256x512 .f32) (x1 : Vec Ideal S256x1024 .f32) (w : Vec Ideal S512x128 .f32)
    (u : Vec Ideal S1024x128 .f32) (b : Vec Ideal S1x128 .f32) (r : Fin 256) (l : Fin 128) :
    k0_pay6 (F := Ideal) x0 x1 w u b (ix2 r l) = Cert.Spec.tz x0 x1 w u b r l := by
  rw [k0_pay6_eq, gate0_apply]

/-! ## The two outputs -/

/-- The new cell state's array: σ(forget) · c + σ(input) · tanh(candidate gate's term). -/
theorem k0_pay1_eq (x0 : Vec Ideal S256x512 .f32) (x1 : Vec Ideal S256x1024 .f32) (x2 : Vec Ideal S256x128 .f32)
    (zi zf : FVec Ideal S256x128 .f32) (x5 : Vec Ideal S512x128 .f32) (x9 : Vec Ideal S1024x128 .f32) (x13 : Vec Ideal S1x128 .f32) :
    k0_pay1 (F := Ideal) (k0_pay3 x0) (k0_pay4 x1) x2 zi zf (k0_pay7 x5) (k0_pay8 x9) x13
      = addf (mulf (logistic zf) x2) (mulf (logistic zi) (tanh (gate0 x0 x1 x5 x9 x13))) := rfl

/-- The new hidden state's array: σ(output gate's term) · tanh(new cell state). -/
theorem k0_pay2_eq (x0 : Vec Ideal S256x512 .f32) (x1 : Vec Ideal S256x1024 .f32) (x2 : Vec Ideal S256x128 .f32)
    (zi zf : FVec Ideal S256x128 .f32) (x5 : Vec Ideal S512x128 .f32) (x9 : Vec Ideal S1024x128 .f32) (x13 : Vec Ideal S1x128 .f32)
    (x6 : Vec Ideal S512x128 .f32) (x10 : Vec Ideal S1024x128 .f32) (x14 : Vec Ideal S1x128 .f32) :
    k0_pay2 (F := Ideal) (k0_pay3 x0) (k0_pay4 x1) x2 zi zf (k0_pay7 x5) (k0_pay8 x9) x13 x6 x10 x14
      = mulf (logistic (gate0 x0 x1 x6 x10 x14))
          (tanh (k0_pay1 (F := Ideal) (k0_pay3 x0) (k0_pay4 x1) x2 zi zf (k0_pay7 x5) (k0_pay8 x9) x13)) := rfl

/-- THE FIRST CELL'S NEW CELL STATE at (r, l), on one tile of columns. -/
theorem cell0_c (x0 : Vec Ideal S256x512 .f32) (x1 : Vec Ideal S256x1024 .f32) (x2 : Vec Ideal S256x128 .f32)
    (x3 x4 x5 : Vec Ideal S512x128 .f32) (x7 x8 x9 : Vec Ideal S1024x128 .f32) (x11 x12 x13 : Vec Ideal S1x128 .f32)
    (r : Fin 256) (l : Fin 128) :
    k0_pay1 (F := Ideal) (k0_pay3 x0) (k0_pay4 x1) x2 (k0_pay5 x0 x1 x3 x7 x11) (k0_pay6 x0 x1 x4 x8 x12) (k0_pay7 x5) (k0_pay8 x9) x13 (ix2 r l)
      = Cert.Spec.cC (Cert.Spec.tz x0 x1 x3 x7 x11 r l) (Cert.Spec.tz x0 x1 x4 x8 x12 r l) (Cert.Spec.tz x0 x1 x5 x9 x13 r l) (x2 (ix2 r l)) := by
  rw [k0_pay1_eq, cellC_apply, k0_pay5_apply, k0_pay6_apply, gate0_apply]

/-- THE FIRST CELL'S NEW HIDDEN STATE at (r, l), on one tile of columns. -/
theorem cell0_h (x0 : Vec Ideal S256x512 .f32) (x1 : Vec Ideal S256x1024 .f32) (x2 : Vec Ideal S256x128 .f32)
    (x3 x4 x5 x6 : Vec Ideal S512x128 .f32) (x7 x8 x9 x10 : Vec Ideal S1024x128 .f32) (x11 x12 x13 x14 : Vec Ideal S1x128 .f32)
    (r : Fin 256) (l : Fin 128) :
    k0_pay2 (F := Ideal) (k0_pay3 x0) (k0_pay4 x1) x2 (k0_pay5 x0 x1 x3 x7 x11) (k0_pay6 x0 x1 x4 x8 x12) (k0_pay7 x5) (k0_pay8 x9) x13 x6 x10 x14 (ix2 r l)
      = Cert.Spec.cH (Cert.Spec.tz x0 x1 x3 x7 x11 r l) (Cert.Spec.tz x0 x1 x4 x8 x12 r l) (Cert.Spec.tz x0 x1 x5 x9 x13 r l)
          (Cert.Spec.tz x0 x1 x6 x10 x14 r l) (x2 (ix2 r l)) := by
  rw [k0_pay2_eq, cellH_apply, gate0_apply, cell0_c]
  rfl

end Cert.KernelIdeal.Val

end
-- ==== Proof.KernelIdealVal.TileLib.lean ====
/-
  From one tile of columns to the arrays: a gate's pre-activation computed from blocks — the rows of `x` and `h`, and the
  tile of the gate's columns of the two weight matrices and of the bias row — is the gate's pre-activation `Spec.z` of the
  arrays at the tile's place, and so the cell's two outputs computed from blocks are `Spec.cellC` and `Spec.cellH` of
  the arrays there. Every sum keeps its own order; only the names of the entries change.
-/
import proofs.«137003_j53412213293363_2_alg».proof.Proof.Spec

noncomputable section

open scoped BigOperators

namespace Cert.KernelIdeal.Val

open Idealize.ShloMosaic Idealize.ShloMosaic.ValueIdx
open Cert.Spec (Mat Vc)

/-- Column `l` of block column `t` (128 columns wide) of a 1024-column array. -/
def tcol (t : Nat) (ht : t < 8) (l : Fin 128) : Fin 1024 := ⟨t * 128 + l.val, by omega⟩

/-- Gate `g`'s pre-activation at row `r` from blocks: when row `r` of the two row blocks is row `r` of `x` and `h`,
    column `l` of the two weight tiles is column `col g j` of `W` and `U`, and entry `l` of the bias tile is entry
    `col g j` of the bias, the tile's pre-activation at (r, l) is the arrays' at (r, j). -/
theorem tz_tile {K : Nat} (x : Mat 256 K) (h : Mat 256 1024) (W : Mat K 4096) (U : Mat 1024 4096) (brow : Mat 1 4096)
    (b : Vc 4096) (hb : ∀ j : Fin 4096, brow (ix2 (0 : Fin 1) j) = b (ix1 j)) (g : Fin 4) (j : Fin 1024)
    (xb : Mat 256 K) (hbk : Mat 256 1024) (w : Mat K 128) (u : Mat 1024 128) (bb : Mat 1 128) (r : Fin 256) (l : Fin 128)
    (ex : ∀ k : Fin K, xb (ix2 r k) = x (ix2 r k)) (eh : ∀ k : Fin 1024, hbk (ix2 r k) = h (ix2 r k))
    (ew : ∀ k : Fin K, w (ix2 k l) = W (ix2 k (Cert.Spec.col g j)))
    (eu : ∀ k : Fin 1024, u (ix2 k l) = U (ix2 k (Cert.Spec.col g j)))
    (eb : bb (ix2 (0 : Fin 1) l) = brow (ix2 (0 : Fin 1) (Cert.Spec.col g j))) :
    Cert.Spec.tz xb hbk w u bb r l = Cert.Spec.z x h W U b g r j := by
  unfold Cert.Spec.tz Cert.Spec.z Cert.Spec.dot
  rw [eb, hb]
  refine congrArg (· + _) (congrArg₂ (· + ·) (Finset.sum_congr rfl fun k _ => ?_) (Finset.sum_congr rfl fun k _ => ?_))
  · rw [ex, ew]
  · rw [eh, eu]

/-- The new cell state at (r, j) from blocks. -/
theorem cellC_tile {K : Nat} (x : Mat 256 K) (h c : Mat 256 1024) (W : Mat K 4096) (U : Mat 1024 4096) (brow : Mat 1 4096)
    (b : Vc 4096) (hb : ∀ j : Fin 4096, brow (ix2 (0 : Fin 1) j) = b (ix1 j)) (j : Fin 1024)
    (x0 : Mat 256 K) (x1 : Mat 256 1024) (x2 : Mat 256 128) (x3 x4 x5 : Mat K 128) (x7 x8 x9 : Mat 1024 128)
    (x11 x12 x13 : Mat 1 128) (r : Fin 256) (l : Fin 128)
    (e0 : ∀ k : Fin K, x0 (ix2 r k) = x (ix2 r k)) (e1 : ∀ k : Fin 1024, x1 (ix2 r k) = h (ix2 r k))
    (e2 : x2 (ix2 r l) = c (ix2 r j))
    (e3 : ∀ k : Fin K, x3 (ix2 k l) = W (ix2 k (Cert.Spec.col 0 j)))
    (e4 : ∀ k : Fin K, x4 (ix2 k l) = W (ix2 k (Cert.Spec.col 1 j)))
    (e5 : ∀ k : Fin K, x5 (ix2 k l) = W (ix2 k (Cert.Spec.col 2 j)))
    (e7 : ∀ k : Fin 1024, x7 (ix2 k l) = U (ix2 k (Cert.Spec.col 0 j)))
    (e8 : ∀ k : Fin 1024, x8 (ix2 k l) = U (ix2 k (Cert.Spec.col 1 j)))
    (e9 : ∀ k : Fin 1024, x9 (ix2 k l) = U (ix2 k (Cert.Spec.col 2 j)))
    (e11 : x11 (ix2 (0 : Fin 1) l) = brow (ix2 (0 : Fin 1) (Cert.Spec.col 0 j)))
    (e12 : x12 (ix2 (0 : Fin 1) l) = brow (ix2 (0 : Fin 1) (Cert.Spec.col 1 j)))
    (e13 : x13 (ix2 (0 : Fin 1) l) = brow (ix2 (0 : Fin 1) (Cert.Spec.col 2 j))) :
    Cert.Spec.cC (Cert.Spec.tz x0 x1 x3 x7 x11 r l) (Cert.Spec.tz x0 x1 x4 x8 x12 r l) (Cert.Spec.tz x0 x1 x5 x9 x13 r l) (x2 (ix2 r l))
      = Cert.Spec.cellC x h c W U b (ix2 r j) := by
  rw [tz_tile x h W U brow b hb 0 j x0 x1 x3 x7 x11 r l e0 e1 e3 e7 e11,
    tz_tile x h W U brow b hb 1 j x0 x1 x4 x8 x12 r l e0 e1 e4 e8 e12,
    tz_tile x h W U brow b hb 2 j x0 x1 x5 x9 x13 r l e0 e1 e5 e9 e13, e2]
  rfl

/-- The new hidden state at (r, j) from blocks. -/
theorem cellH_tile {K : Nat} (x : Mat 256 K) (h c : Mat 256 1024) (W : Mat K 4096) (U : Mat 1024 4096) (brow : Mat 1 4096)
    (b : Vc 4096) (hb : ∀ j : Fin 4096, brow (ix2 (0 : Fin 1) j) = b (ix1 j)) (j : Fin 1024)
    (x0 : Mat 256 K) (x1 : Mat 256 1024) (x2 : Mat 256 128) (x3 x4 x5 x6 : Mat K 128) (x7 x8 x9 x10 : Mat 1024 128)
    (x11 x12 x13 x14 : Mat 1 128) (r : Fin 256) (l : Fin 128)
    (e0 : ∀ k : Fin K, x0 (ix2 r k) = x (ix2 r k)) (e1 : ∀ k : Fin 1024, x1 (ix2 r k) = h (ix2 r k))
    (e2 : x2 (ix2 r l) = c (ix2 r j))
    (e3 : ∀ k : Fin K, x3 (ix2 k l) = W (ix2 k (Cert.Spec.col 0 j)))
    (e4 : ∀ k : Fin K, x4 (ix2 k l) = W (ix2 k (Cert.Spec.col 1 j)))
    (e5 : ∀ k : Fin K, x5 (ix2 k l) = W (ix2 k (Cert.Spec.col 2 j)))
    (e6 : ∀ k : Fin K, x6 (ix2 k l) = W (ix2 k (Cert.Spec.col 3 j)))
    (e7 : ∀ k : Fin 1024, x7 (ix2 k l) = U (ix2 k (Cert.Spec.col 0 j)))
    (e8 : ∀ k : Fin 1024, x8 (ix2 k l) = U (ix2 k (Cert.Spec.col 1 j)))
    (e9 : ∀ k : Fin 1024, x9 (ix2 k l) = U (ix2 k (Cert.Spec.col 2 j)))
    (e10 : ∀ k : Fin 1024, x10 (ix2 k l) = U (ix2 k (Cert.Spec.col 3 j)))
    (e11 : x11 (ix2 (0 : Fin 1) l) = brow (ix2 (0 : Fin 1) (Cert.Spec.col 0 j)))
    (e12 : x12 (ix2 (0 : Fin 1) l) = brow (ix2 (0 : Fin 1) (Cert.Spec.col 1 j)))
    (e13 : x13 (ix2 (0 : Fin 1) l) = brow (ix2 (0 : Fin 1) (Cert.Spec.col 2 j)))
    (e14 : x14 (ix2 (0 : Fin 1) l) = brow (ix2 (0 : Fin 1) (Cert.Spec.col 3 j))) :
    Cert.Spec.cH (Cert.Spec.tz x0 x1 x3 x7 x11 r l) (Cert.Spec.tz x0 x1 x4 x8 x12 r l) (Cert.Spec.tz x0 x1 x5 x9 x13 r l)
        (Cert.Spec.tz x0 x1 x6 x10 x14 r l) (x2 (ix2 r l))
      = Cert.Spec.cellH x h c W U b (ix2 r j) := by
  rw [tz_tile x h W U brow b hb 0 j x0 x1 x3 x7 x11 r l e0 e1 e3 e7 e11,
    tz_tile x h W U brow b hb 1 j x0 x1 x4 x8 x12 r l e0 e1 e4 e8 e12,
    tz_tile x h W U brow b hb 2 j x0 x1 x5 x9 x13 r l e0 e1 e5 e9 e13,
    tz_tile x h W U brow b hb 3 j x0 x1 x6 x10 x14 r l e0 e1 e6 e10 e14, e2]
  rfl

end Cert.KernelIdeal.Val

end
-- ==== Proof.KernelIdealVal.Final0.lean ====
/-
  The first LSTM cell's region, from blocks to the arrays: point t of the grid reads the rows of `x` and of `h`, block
  column t (128 columns) of `c`, and for each gate g block column 8g + t of the two weight matrices and of the bias row,
  and writes block column t of the new hidden state and of the new cell state; the eight points' blocks cover the two
  [256, 1024] results, which therefore end holding `Spec.cellH` and `Spec.cellC` of the arrays the region finds.
-/
import proofs.«137003_j53412213293363_2_alg».proof.Proof.KernelIdealFrame.Dat0
import proofs.«137003_j53412213293363_2_alg».proof.Proof.KernelIdealVal.Pay0
import proofs.«137003_j53412213293363_2_alg».proof.Proof.KernelIdealVal.TileLib
import proofs.«137003_j53412213293363_2_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Hand Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-! ## The printed index maps over the grid

The rows of `x` and of `h` are one block each; point `t` reads block column `t` of `c`, block column `8g + t` of the two
weight matrices and of the bias row for gate `g`, and writes block column `t` of the two results. -/

theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = t.val :=
  (by decide +kernel : ∀ t : Fin grid0.N, _)
theorem idx0_3 : ∀ t : Fin cfg0.N, win0_3.index t (0 : Fin 2) = 0 ∧ win0_3.index t (1 : Fin 2) = t.val :=
  (by decide +kernel : ∀ t : Fin grid0.N, _)
theorem idx0_4 : ∀ t : Fin cfg0.N, win0_4.index t (0 : Fin 2) = 0 ∧ win0_4.index t (1 : Fin 2) = 8 + t.val :=
  (by decide +kernel : ∀ t : Fin grid0.N, _)
theorem idx0_5 : ∀ t : Fin cfg0.N, win0_5.index t (0 : Fin 2) = 0 ∧ win0_5.index t (1 : Fin 2) = 16 + t.val :=
  (by decide +kernel : ∀ t : Fin grid0.N, _)
theorem idx0_6 : ∀ t : Fin cfg0.N, win0_6.index t (0 : Fin 2) = 0 ∧ win0_6.index t (1 : Fin 2) = 24 + t.val :=
  (by decide +kernel : ∀ t : Fin grid0.N, _)
theorem idx0_7 : ∀ t : Fin cfg0.N, win0_7.index t (0 : Fin 2) = 0 ∧ win0_7.index t (1 : Fin 2) = t.val :=
  (by decide +kernel : ∀ t : Fin grid0.N, _)
theorem idx0_8 : ∀ t : Fin cfg0.N, win0_8.index t (0 : Fin 2) = 0 ∧ win0_8.index t (1 : Fin 2) = 8 + t.val :=
  (by decide +kernel : ∀ t : Fin grid0.N, _)
theorem idx0_9 : ∀ t : Fin cfg0.N, win0_9.index t (0 : Fin 2) = 0 ∧ win0_9.index t (1 : Fin 2) = 16 + t.val :=
  (by decide +kernel : ∀ t : Fin grid0.N, _)
theorem idx0_10 : ∀ t : Fin cfg0.N, win0_10.index t (0 : Fin 2) = 0 ∧ win0_10.index t (1 : Fin 2) = 24 + t.val :=
  (by decide +kernel : ∀ t : Fin grid0.N, _)
theorem idx0_11 : ∀ t : Fin cfg0.N, win0_11.index t (0 : Fin 2) = 0 ∧ win0_11.index t (1 : Fin 2) = t.val :=
  (by decide +kernel : ∀ t : Fin grid0.N, _)
theorem idx0_12 : ∀ t : Fin cfg0.N, win0_12.index t (0 : Fin 2) = 0 ∧ win0_12.index t (1 : Fin 2) = 8 + t.val :=
  (by decide +kernel : ∀ t : Fin grid0.N, _)
theorem idx0_13 : ∀ t : Fin cfg0.N, win0_13.index t (0 : Fin 2) = 0 ∧ win0_13.index t (1 : Fin 2) = 16 + t.val :=
  (by decide +kernel : ∀ t : Fin grid0.N, _)
theorem idx0_14 : ∀ t : Fin cfg0.N, win0_14.index t (0 : Fin 2) = 0 ∧ win0_14.index t (1 : Fin 2) = 24 + t.val :=
  (by decide +kernel : ∀ t : Fin grid0.N, _)
theorem idx0_15 : ∀ t : Fin cfg0.N, win0_15.index t (0 : Fin 2) = 0 ∧ win0_15.index t (1 : Fin 2) = t.val :=
  (by decide +kernel : ∀ t : Fin grid0.N, _)
theorem idx0_16 : ∀ t : Fin cfg0.N, win0_16.index t (0 : Fin 2) = 0 ∧ win0_16.index t (1 : Fin 2) = t.val :=
  (by decide +kernel : ∀ t : Fin grid0.N, _)

/-! ## Each input block, entry by entry, as entries of the array the region finds -/

/-- The rows of `x`. -/
theorem blk0_0 (c : Dev nD) (t : Fin cfg0.N) (r : Fin 256) (k : Fin 512) :
    (iblk0 V c 0 t : S256x512.Idx → EReal) (ix2 r k) = (V c main_arg0 : S256x512.Idx → EReal) (ix2 r k) := by
  obtain ⟨f0, f1⟩ := idx0_0 t
  show V c main_arg0 (((cfg0.win 0).blk t).view.emb (ix2 r k)) = _
  refine congrArg _ (funext fun a => Fin.ext ?_)
  match a with
  | ⟨0, _⟩ => show win0_0.index t (0 : Fin 2) * 256 + 1 * r.val = r.val; omega
  | ⟨1, _⟩ => show win0_0.index t (1 : Fin 2) * 512 + 1 * k.val = k.val; omega
/-- The rows of `h`. -/
theorem blk0_1 (c : Dev nD) (t : Fin cfg0.N) (r : Fin 256) (k : Fin 1024) :
    (iblk0 V c 1 t : S256x1024.Idx → EReal) (ix2 r k) = (V c main_arg1 : S256x1024.Idx → EReal) (ix2 r k) := by
  obtain ⟨f0, f1⟩ := idx0_1 t
  show V c main_arg1 (((cfg0.win 1).blk t).view.emb (ix2 r k)) = _
  refine congrArg _ (funext fun a => Fin.ext ?_)
  match a with
  | ⟨0, _⟩ => show win0_1.index t (0 : Fin 2) * 256 + 1 * r.val = r.val; omega
  | ⟨1, _⟩ => show win0_1.index t (1 : Fin 2) * 1024 + 1 * k.val = k.val; omega
/-- The tile of `c`. -/
theorem blk0_2 (c : Dev nD) (t : Fin cfg0.N) (r : Fin 256) (l : Fin 128) :
    (iblk0 V c 2 t : S256x128.Idx → EReal) (ix2 r l)
      = (V c main_arg2 : S256x1024.Idx → EReal) (ix2 r (tcol t.val (lt_of_lt_of_eq t.isLt N_0) l)) := by
  obtain ⟨f0, f1⟩ := idx0_2 t
  show V c main_arg2 (((cfg0.win 2).blk t).view.emb (ix2 r l)) = _
  refine congrArg _ (funext fun a => Fin.ext ?_)
  match a with
  | ⟨0, _⟩ => show win0_2.index t (0 : Fin 2) * 256 + 1 * r.val = r.val; omega
  | ⟨1, _⟩ => show win0_2.index t (1 : Fin 2) * 128 + 1 * l.val = t.val * 128 + l.val; omega
/-- The input gate's tile of `W`. -/
theorem blk0_3 (c : Dev nD) (t : Fin cfg0.N) (k : Fin 512) (l : Fin 128) :
    (iblk0 V c 3 t : S512x128.Idx → EReal) (ix2 k l)
      = (V c main_arg7 : S512x4096.Idx → EReal) (ix2 k (Cert.Spec.col 0 (tcol t.val (lt_of_lt_of_eq t.isLt N_0) l))) := by
  obtain ⟨f0, f1⟩ := idx0_3 t
  show V c main_arg7 (((cfg0.win 3).blk t).view.emb (ix2 k l)) = _
  refine congrArg _ (funext fun a => Fin.ext ?_)
  match a with
  | ⟨0, _⟩ => show win0_3.index t (0 : Fin 2) * 512 + 1 * k.val = k.val; omega
  | ⟨1, _⟩ => show win0_3.index t (1 : Fin 2) * 128 + 1 * l.val = 0 * 1024 + (t.val * 128 + l.val); omega
/-- The forget gate's tile of `W`. -/
theorem blk0_4 (c : Dev nD) (t : Fin cfg0.N) (k : Fin 512) (l : Fin 128) :
    (iblk0 V c 4 t : S512x128.Idx → EReal) (ix2 k l)
      = (V c main_arg7 : S512x4096.Idx → EReal) (ix2 k (Cert.Spec.col 1 (tcol t.val (lt_of_lt_of_eq t.isLt N_0) l))) := by
  obtain ⟨f0, f1⟩ := idx0_4 t
  show V c main_arg7 (((cfg0.win 4).blk t).view.emb (ix2 k l)) = _
  refine congrArg _ (funext fun a => Fin.ext ?_)
  match a with
  | ⟨0, _⟩ => show win0_4.index t (0 : Fin 2) * 512 + 1 * k.val = k.val; omega
  | ⟨1, _⟩ => show win0_4.index t (1 : Fin 2) * 128 + 1 * l.val = 1 * 1024 + (t.val * 128 + l.val); omega
/-- The candidate gate's tile of `W`. -/
theorem blk0_5 (c : Dev nD) (t : Fin cfg0.N) (k : Fin 512) (l : Fin 128) :
    (iblk0 V c 5 t : S512x128.Idx → EReal) (ix2 k l)
      = (V c main_arg7 : S512x4096.Idx → EReal) (ix2 k (Cert.Spec.col 2 (tcol t.val (lt_of_lt_of_eq t.isLt N_0) l))) := by
  obtain ⟨f0, f1⟩ := idx0_5 t
  show V c main_arg7 (((cfg0.win 5).blk t).view.emb (ix2 k l)) = _
  refine congrArg _ (funext fun a => Fin.ext ?_)
  match a with
  | ⟨0, _⟩ => show win0_5.index t (0 : Fin 2) * 512 + 1 * k.val = k.val; omega
  | ⟨1, _⟩ => show win0_5.index t (1 : Fin 2) * 128 + 1 * l.val = 2 * 1024 + (t.val * 128 + l.val); omega
/-- The output gate's tile of `W`. -/
theorem blk0_6 (c : Dev nD) (t : Fin cfg0.N) (k : Fin 512) (l : Fin 128) :
    (iblk0 V c 6 t : S512x128.Idx → EReal) (ix2 k l)
      = (V c main_arg7 : S512x4096.Idx → EReal) (ix2 k (Cert.Spec.col 3 (tcol t.val (lt_of_lt_of_eq t.isLt N_0) l))) := by
  obtain ⟨f0, f1⟩ := idx0_6 t
  show V c main_arg7 (((cfg0.win 6).blk t).view.emb (ix2 k l)) = _
  refine congrArg _ (funext fun a => Fin.ext ?_)
  match a with
  | ⟨0, _⟩ => show win0_6.index t (0 : Fin 2) * 512 + 1 * k.val = k.val; omega
  | ⟨1, _⟩ => show win0_6.index t (1 : Fin 2) * 128 + 1 * l.val = 3 * 1024 + (t.val * 128 + l.val); omega
/-- The input gate's tile of `U`. -/
theorem blk0_7 (c : Dev nD) (t : Fin cfg0.N) (k : Fin 1024) (l : Fin 128) :
    (iblk0 V c 7 t : S1024x128.Idx → EReal) (ix2 k l)
      = (V c main_arg8 : S1024x4096.Idx → EReal) (ix2 k (Cert.Spec.col 0 (tcol t.val (lt_of_lt_of_eq t.isLt N_0) l))) := by
  obtain ⟨f0, f1⟩ := idx0_7 t
  show V c main_arg8 (((cfg0.win 7).blk t).view.emb (ix2 k l)) = _
  refine congrArg _ (funext fun a => Fin.ext ?_)
  match a with
  | ⟨0, _⟩ => show win0_7.index t (0 : Fin 2) * 1024 + 1 * k.val = k.val; omega
  | ⟨1, _⟩ => show win0_7.index t (1 : Fin 2) * 128 + 1 * l.val = 0 * 1024 + (t.val * 128 + l.val); omega
/-- The forget gate's tile of `U`. -/
theorem blk0_8 (c : Dev nD) (t : Fin cfg0.N) (k : Fin 1024) (l : Fin 128) :
    (iblk0 V c 8 t : S1024x128.Idx → EReal) (ix2 k l)
      = (V c main_arg8 : S1024x4096.Idx → EReal) (ix2 k (Cert.Spec.col 1 (tcol t.val (lt_of_lt_of_eq t.isLt N_0) l))) := by
  obtain ⟨f0, f1⟩ := idx0_8 t
  show V c main_arg8 (((cfg0.win 8).blk t).view.emb (ix2 k l)) = _
  refine congrArg _ (funext fun a => Fin.ext ?_)
  match a with
  | ⟨0, _⟩ => show win0_8.index t (0 : Fin 2) * 1024 + 1 * k.val = k.val; omega
  | ⟨1, _⟩ => show win0_8.index t (1 : Fin 2) * 128 + 1 * l.val = 1 * 1024 + (t.val * 128 + l.val); omega
/-- The candidate gate's tile of `U`. -/
theorem blk0_9 (c : Dev nD) (t : Fin cfg0.N) (k : Fin 1024) (l : Fin 128) :
    (iblk0 V c 9 t : S1024x128.Idx → EReal) (ix2 k l)
      = (V c main_arg8 : S1024x4096.Idx → EReal) (ix2 k (Cert.Spec.col 2 (tcol t.val (lt_of_lt_of_eq t.isLt N_0) l))) := by
  obtain ⟨f0, f1⟩ := idx0_9 t
  show V c main_arg8 (((cfg0.win 9).blk t).view.emb (ix2 k l)) = _
  refine congrArg _ (funext fun a => Fin.ext ?_)
  match a with
  | ⟨0, _⟩ => show win0_9.index t (0 : Fin 2) * 1024 + 1 * k.val = k.val; omega
  | ⟨1, _⟩ => show win0_9.index t (1 : Fin 2) * 128 + 1 * l.val = 2 * 1024 + (t.val * 128 + l.val); omega
/-- The output gate's tile of `U`. -/
theorem blk0_10 (c : Dev nD) (t : Fin cfg0.N) (k : Fin 1024) (l : Fin 128) :
    (iblk0 V c 10 t : S1024x128.Idx → EReal) (ix2 k l)
      = (V c main_arg8 : S1024x4096.Idx → EReal) (ix2 k (Cert.Spec.col 3 (tcol t.val (lt_of_lt_of_eq t.isLt N_0) l))) := by
  obtain ⟨f0, f1⟩ := idx0_10 t
  show V c main_arg8 (((cfg0.win 10).blk t).view.emb (ix2 k l)) = _
  refine congrArg _ (funext fun a => Fin.ext ?_)
  match a with
  | ⟨0, _⟩ => show win0_10.index t (0 : Fin 2) * 1024 + 1 * k.val = k.val; omega
  | ⟨1, _⟩ => show win0_10.index t (1 : Fin 2) * 128 + 1 * l.val = 3 * 1024 + (t.val * 128 + l.val); omega
/-- The input gate's tile of the bias row. -/
theorem blk0_11 (c : Dev nD) (t : Fin cfg0.N) (l : Fin 128) :
    (iblk0 V c 11 t : S1x128.Idx → EReal) (ix2 (0 : Fin 1) l)
      = (V c main_v0 : S1x4096.Idx → EReal) (ix2 (0 : Fin 1) (Cert.Spec.col 0 (tcol t.val (lt_of_lt_of_eq t.isLt N_0) l))) := by
  obtain ⟨f0, f1⟩ := idx0_11 t
  show V c main_v0 (((cfg0.win 11).blk t).view.emb (ix2 (0 : Fin 1) l)) = _
  refine congrArg _ (funext fun a => Fin.ext ?_)
  match a with
  | ⟨0, _⟩ => show win0_11.index t (0 : Fin 2) * 1 + 1 * 0 = 0; omega
  | ⟨1, _⟩ => show win0_11.index t (1 : Fin 2) * 128 + 1 * l.val = 0 * 1024 + (t.val * 128 + l.val); omega
/-- The forget gate's tile of the bias row. -/
theorem blk0_12 (c : Dev nD) (t : Fin cfg0.N) (l : Fin 128) :
    (iblk0 V c 12 t : S1x128.Idx → EReal) (ix2 (0 : Fin 1) l)
      = (V c main_v0 : S1x4096.Idx → EReal) (ix2 (0 : Fin 1) (Cert.Spec.col 1 (tcol t.val (lt_of_lt_of_eq t.isLt N_0) l))) := by
  obtain ⟨f0, f1⟩ := idx0_12 t
  show V c main_v0 (((cfg0.win 12).blk t).view.emb (ix2 (0 : Fin 1) l)) = _
  refine congrArg _ (funext fun a => Fin.ext ?_)
  match a with
  | ⟨0, _⟩ => show win0_12.index t (0 : Fin 2) * 1 + 1 * 0 = 0; omega
  | ⟨1, _⟩ => show win0_12.index t (1 : Fin 2) * 128 + 1 * l.val = 1 * 1024 + (t.val * 128 + l.val); omega
/-- The candidate gate's tile of the bias row. -/
theorem blk0_13 (c : Dev nD) (t : Fin cfg0.N) (l : Fin 128) :
    (iblk0 V c 13 t : S1x128.Idx → EReal) (ix2 (0 : Fin 1) l)
      = (V c main_v0 : S1x4096.Idx → EReal) (ix2 (0 : Fin 1) (Cert.Spec.col 2 (tcol t.val (lt_of_lt_of_eq t.isLt N_0) l))) := by
  obtain ⟨f0, f1⟩ := idx0_13 t
  show V c main_v0 (((cfg0.win 13).blk t).view.emb (ix2 (0 : Fin 1) l)) = _
  refine congrArg _ (funext fun a => Fin.ext ?_)
  match a with
  | ⟨0, _⟩ => show win0_13.index t (0 : Fin 2) * 1 + 1 * 0 = 0; omega
  | ⟨1, _⟩ => show win0_13.index t (1 : Fin 2) * 128 + 1 * l.val = 2 * 1024 + (t.val * 128 + l.val); omega
/-- The output gate's tile of the bias row. -/
theorem blk0_14 (c : Dev nD) (t : Fin cfg0.N) (l : Fin 128) :
    (iblk0 V c 14 t : S1x128.Idx → EReal) (ix2 (0 : Fin 1) l)
      = (V c main_v0 : S1x4096.Idx → EReal) (ix2 (0 : Fin 1) (Cert.Spec.col 3 (tcol t.val (lt_of_lt_of_eq t.isLt N_0) l))) := by
  obtain ⟨f0, f1⟩ := idx0_14 t
  show V c main_v0 (((cfg0.win 14).blk t).view.emb (ix2 (0 : Fin 1) l)) = _
  refine congrArg _ (funext fun a => Fin.ext ?_)
  match a with
  | ⟨0, _⟩ => show win0_14.index t (0 : Fin 2) * 1 + 1 * 0 = 0; omega
  | ⟨1, _⟩ => show win0_14.index t (1 : Fin 2) * 128 + 1 * l.val = 3 * 1024 + (t.val * 128 + l.val); omega

/-! ## From blocks to the two result arrays -/

/-- WHAT POINT `t` WRITES BACK into the new hidden state's array is block `t` of `Spec.cellH` of the arrays as the region finds them. -/
theorem flushed0_15_eq (c : Dev nD) (b : Cert.Spec.Vc 4096) (hb : ∀ j : Fin 4096, (V c main_v0 : S1x4096.Idx → EReal) (ix2 (0 : Fin 1) j) = b (ix1 j)) (t : Fin cfg0.N) :
    (dat0 (F := Ideal) V c).flushed 15 t
      = ((cfg0.win 15).blk t).view.read (Elt Ideal) (Cert.Spec.cellH (V c main_arg0) (V c main_arg1) (V c main_arg2) (V c main_arg7) (V c main_arg8) b) := by
  show (cfg0.win 15).cut (grid0.coords t) ((dat0 (F := Ideal) V c).after 15 t) = _
  rw [after0_15]
  unfold out0_15
  rw [View.canon_unit_zero hz0]
  simp only [View.ld_unit_zero (S := S256x512) hz0, View.ld_unit_zero (S := S256x1024) hz0, View.ld_unit_zero (S := S256x128) hz0,
    View.ld_unit_zero (S := S512x128) hz0, View.ld_unit_zero (S := S1024x128) hz0, View.ld_unit_zero (S := S1x128) hz0]
  obtain ⟨f0, f1⟩ := idx0_15 t
  have hN : t.val < 8 := lt_of_lt_of_eq t.isLt N_0
  funext j
  obtain ⟨p, q, rfl⟩ : ∃ (p : Fin 256) (q : Fin 128), j = ix2 p q := ⟨j 0, j 1, eq_ix2 (n0 := 256) (n1 := 128) j⟩
  show _ = Cert.Spec.cellH (V c main_arg0) (V c main_arg1) (V c main_arg2) (V c main_arg7) (V c main_arg8) b (((cfg0.win 15).blk t).view.emb (ix2 p q))
  have hemb : ((cfg0.win 15).blk t).view.emb (ix2 p q) = ix2 p (tcol t.val hN q) := by
    funext a; apply Fin.ext
    match a with
    | ⟨0, _⟩ => show win0_15.index t (0 : Fin 2) * 256 + 1 * p.val = p.val; omega
    | ⟨1, _⟩ => show win0_15.index t (1 : Fin 2) * 128 + 1 * q.val = t.val * 128 + q.val; omega
  rw [hemb]
  refine (cell0_h (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) p q).trans ?_
  exact cellH_tile (V c main_arg0) (V c main_arg1) (V c main_arg2) (V c main_arg7) (V c main_arg8) (V c main_v0) b hb (tcol t.val hN q)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) p q
    (fun k => blk0_0 V c t p k) (fun k => blk0_1 V c t p k) (blk0_2 V c t p q)
    (fun k => blk0_3 V c t k q) (fun k => blk0_4 V c t k q) (fun k => blk0_5 V c t k q) (fun k => blk0_6 V c t k q)
    (fun k => blk0_7 V c t k q) (fun k => blk0_8 V c t k q) (fun k => blk0_9 V c t k q) (fun k => blk0_10 V c t k q)
    (blk0_11 V c t q) (blk0_12 V c t q) (blk0_13 V c t q) (blk0_14 V c t q)

/-- An index of the new hidden state's array is in point `t`'s block iff each coordinate is in the block's range on its axis. -/
theorem mem_blk0_15 (t : Fin cfg0.N) (i : S256x1024.Idx) :
    i ∈ ((cfg0.win 15).blk t).view.set ↔ ∀ a : Fin 2, win0_15.index t a * S256x128.size a ≤ (i a).val ∧ (i a).val < win0_15.index t a * S256x128.size a + S256x128.size a := by
  show i ∈ ((View.whole main_v1_0).slice (win0_15.rect t)).set ↔ _
  rw [View.set_slice_whole, Rect.mem_set_unit]
  exact Iff.rfl

/-- THE FIRST CELL'S NEW HIDDEN STATE after the region: column j is written by point j / 128. -/
theorem final0_h (c : Dev nD) (b : Cert.Spec.Vc 4096) (hb : ∀ j : Fin 4096, (V c main_v0 : S1x4096.Idx → EReal) (ix2 (0 : Fin 1) j) = b (ix1 j)) :
    (dat0 (F := Ideal) V c).arrAt 15 cfg0.N = Cert.Spec.cellH (V c main_arg0) (V c main_arg1) (V c main_arg2) (V c main_arg7) (V c main_arg8) b :=
  (dat0 (F := Ideal) V c).arrAt_eq_of_cover 15 (Cert.Spec.cellH (V c main_arg0) (V c main_arg1) (V c main_arg2) (V c main_arg7) (V c main_arg8) b)
    (fun t _ => flushed0_15_eq V c b hb t) fun i => by
      have hi0 : (i 0).val < 256 := (i 0).isLt
      have hi1 : (i 1).val < 1024 := (i 1).isLt
      have hN : cfg0.N = 8 := N_0
      refine ⟨⟨(i 1).val / 128, by rw [hN]; omega⟩, flush0_15 _, ?_⟩
      rw [mem_blk0_15]
      obtain ⟨f0, f1⟩ := idx0_15 ⟨(i 1).val / 128, by rw [hN]; omega⟩
      intro a
      match a with
      | ⟨0, _⟩ => show win0_15.index _ (0 : Fin 2) * 256 ≤ (i 0).val ∧ (i 0).val < win0_15.index _ (0 : Fin 2) * 256 + 256; rw [f0]; omega
      | ⟨1, _⟩ => show win0_15.index _ (1 : Fin 2) * 128 ≤ (i 1).val ∧ (i 1).val < win0_15.index _ (1 : Fin 2) * 128 + 128; rw [f1]; show _ / 128 * 128 ≤ _ ∧ _ < _ / 128 * 128 + 128; omega

/-- WHAT POINT `t` WRITES BACK into the new cell state's array is block `t` of `Spec.cellC` of the arrays as the region finds them. -/
theorem flushed0_16_eq (c : Dev nD) (b : Cert.Spec.Vc 4096) (hb : ∀ j : Fin 4096, (V c main_v0 : S1x4096.Idx → EReal) (ix2 (0 : Fin 1) j) = b (ix1 j)) (t : Fin cfg0.N) :
    (dat0 (F := Ideal) V c).flushed 16 t
      = ((cfg0.win 16).blk t).view.read (Elt Ideal) (Cert.Spec.cellC (V c main_arg0) (V c main_arg1) (V c main_arg2) (V c main_arg7) (V c main_arg8) b) := by
  show (cfg0.win 16).cut (grid0.coords t) ((dat0 (F := Ideal) V c).after 16 t) = _
  rw [after0_16]
  unfold out0_16
  rw [View.canon_unit_zero hz0]
  simp only [View.ld_unit_zero (S := S256x512) hz0, View.ld_unit_zero (S := S256x1024) hz0, View.ld_unit_zero (S := S256x128) hz0,
    View.ld_unit_zero (S := S512x128) hz0, View.ld_unit_zero (S := S1024x128) hz0, View.ld_unit_zero (S := S1x128) hz0]
  obtain ⟨f0, f1⟩ := idx0_16 t
  have hN : t.val < 8 := lt_of_lt_of_eq t.isLt N_0
  funext j
  obtain ⟨p, q, rfl⟩ : ∃ (p : Fin 256) (q : Fin 128), j = ix2 p q := ⟨j 0, j 1, eq_ix2 (n0 := 256) (n1 := 128) j⟩
  show _ = Cert.Spec.cellC (V c main_arg0) (V c main_arg1) (V c main_arg2) (V c main_arg7) (V c main_arg8) b (((cfg0.win 16).blk t).view.emb (ix2 p q))
  have hemb : ((cfg0.win 16).blk t).view.emb (ix2 p q) = ix2 p (tcol t.val hN q) := by
    funext a; apply Fin.ext
    match a with
    | ⟨0, _⟩ => show win0_16.index t (0 : Fin 2) * 256 + 1 * p.val = p.val; omega
    | ⟨1, _⟩ => show win0_16.index t (1 : Fin 2) * 128 + 1 * q.val = t.val * 128 + q.val; omega
  rw [hemb]
  refine (cell0_c (iblk0 V c 0 t) (iblk0 V c 1 t) (iblk0 V c 2 t) (iblk0 V c 3 t) (iblk0 V c 4 t) (iblk0 V c 5 t) (iblk0 V c 7 t) (iblk0 V c 8 t) (iblk0 V c 9 t) (iblk0 V c 11 t) (iblk0 V c 12 t) (iblk0 V c 13 t) p q).trans ?_
  exact cellC_tile (V c main_arg0) (V c main_arg1) (V c main_arg2) (V c main_arg7) (V c main_arg8) (V c main_v0) b hb (tcol t.val hN q)
    (iblk0 V c 0 t) (iblk0 V c 1 t) (iblk0 V c 2 t) (iblk0 V c 3 t) (iblk0 V c 4 t) (iblk0 V c 5 t) (iblk0 V c 7 t) (iblk0 V c 8 t) (iblk0 V c 9 t) (iblk0 V c 11 t) (iblk0 V c 12 t) (iblk0 V c 13 t) p q
    (fun k => blk0_0 V c t p k) (fun k => blk0_1 V c t p k) (blk0_2 V c t p q)
    (fun k => blk0_3 V c t k q) (fun k => blk0_4 V c t k q) (fun k => blk0_5 V c t k q)
    (fun k => blk0_7 V c t k q) (fun k => blk0_8 V c t k q) (fun k => blk0_9 V c t k q)
    (blk0_11 V c t q) (blk0_12 V c t q) (blk0_13 V c t q)

/-- An index of the new cell state's array is in point `t`'s block iff each coordinate is in the block's range on its axis. -/
theorem mem_blk0_16 (t : Fin cfg0.N) (i : S256x1024.Idx) :
    i ∈ ((cfg0.win 16).blk t).view.set ↔ ∀ a : Fin 2, win0_16.index t a * S256x128.size a ≤ (i a).val ∧ (i a).val < win0_16.index t a * S256x128.size a + S256x128.size a := by
  show i ∈ ((View.whole main_v1_1).slice (win0_16.rect t)).set ↔ _
  rw [View.set_slice_whole, Rect.mem_set_unit]
  exact Iff.rfl

/-- THE FIRST CELL'S NEW CELL STATE after the region: column j is written by point j / 128. -/
theorem final0_c (c : Dev nD) (b : Cert.Spec.Vc 4096) (hb : ∀ j : Fin 4096, (V c main_v0 : S1x4096.Idx → EReal) (ix2 (0 : Fin 1) j) = b (ix1 j)) :
    (dat0 (F := Ideal) V c).arrAt 16 cfg0.N = Cert.Spec.cellC (V c main_arg0) (V c main_arg1) (V c main_arg2) (V c main_arg7) (V c main_arg8) b :=
  (dat0 (F := Ideal) V c).arrAt_eq_of_cover 16 (Cert.Spec.cellC (V c main_arg0) (V c main_arg1) (V c main_arg2) (V c main_arg7) (V c main_arg8) b)
    (fun t _ => flushed0_16_eq V c b hb t) fun i => by
      have hi0 : (i 0).val < 256 := (i 0).isLt
      have hi1 : (i 1).val < 1024 := (i 1).isLt
      have hN : cfg0.N = 8 := N_0
      refine ⟨⟨(i 1).val / 128, by rw [hN]; omega⟩, flush0_16 _, ?_⟩
      rw [mem_blk0_16]
      obtain ⟨f0, f1⟩ := idx0_16 ⟨(i 1).val / 128, by rw [hN]; omega⟩
      intro a
      match a with
      | ⟨0, _⟩ => show win0_16.index _ (0 : Fin 2) * 256 ≤ (i 0).val ∧ (i 0).val < win0_16.index _ (0 : Fin 2) * 256 + 256; rw [f0]; omega
      | ⟨1, _⟩ => show win0_16.index _ (1 : Fin 2) * 128 ≤ (i 1).val ∧ (i 1).val < win0_16.index _ (1 : Fin 2) * 128 + 128; rw [f1]; show _ / 128 * 128 ≤ _ ∧ _ < _ / 128 * 128 + 128; omega

end Cert.KernelIdeal.Val

end
-- ==== Proof.KernelIdealVal.Pay1.lean ====
/-
  The second LSTM cell's body, read at an index: on one tile of 128 columns, its two stored arrays are at entry (r, l)
  the new cell state σ(z_f)·c + σ(z_i)·tanh(z_g) and the new hidden state σ(z_o)·tanh(new cell state), each z the gate's
  pre-activation `Spec.tz` of the rows of the previous cell's hidden state and of this cell's own `h` against that gate's
  tiles of the two weight matrices and of the bias.
-/
import proofs.«137003_j53412213293363_2_alg».proof.Proof.KernelIdealVal.PayLib

noncomputable section

open scoped BigOperators

namespace Cert.KernelIdeal.Val

open Cert.KernelIdeal Cert.KernelIdeal.Gen Idealize.ShloMosaic Idealize.ShloMosaic.ValueIdx

/-! ## The rows of the previous cell's hidden state -/

/-- The body casts the rows of its first input to their own shape before narrowing them: both steps change nothing. -/
theorem k1_pay3_eq (x0 : Vec Ideal S256x1024 .f32) : k1_pay3 (F := Ideal) x0 = x0 := by
  show truncf (F := Ideal) (φ := .f32) .bf16 (shapeCast S256x1024 x0 shapeCasts_S256x1024_S256x1024) bitsLt_bf16_f32 = x0
  rw [shapeCast_self]
  rfl

/-! ## The gates -/

/-- The input gate's term is the gate term of the rows of `x` and `h` against the gate's tiles. -/
theorem k1_pay5_eq (x0 x1 : Vec Ideal S256x1024 .f32) (w u : Vec Ideal S1024x128 .f32) (b : Vec Ideal S1x128 .f32) :
    k1_pay5 (F := Ideal) x0 x1 w u b = gate1 (k1_pay3 x0) x1 w u b := rfl
/-- The forget gate's likewise. -/
theorem k1_pay6_eq (x0 x1 : Vec Ideal S256x1024 .f32) (w u : Vec Ideal S1024x128 .f32) (b : Vec Ideal S1x128 .f32) :
    k1_pay6 (F := Ideal) x0 x1 w u b = gate1 (k1_pay3 x0) x1 w u b := rfl

/-- The input gate's pre-activation at (r, l). -/
theorem k1_pay5_apply (x0 x1 : Vec Ideal S256x1024 .f32) (w u : Vec Ideal S1024x128 .f32) (b : Vec Ideal S1x128 .f32)
    (r : Fin 256) (l : Fin 128) :
    k1_pay5 (F := Ideal) x0 x1 w u b (ix2 r l) = Cert.Spec.tz x0 x1 w u b r l := by
  rw [k1_pay5_eq, gate1_apply, k1_pay3_eq]
/-- The forget gate's pre-activation at (r, l). -/
theorem k1_pay6_apply (x0 x1 : Vec Ideal S256x1024 .f32) (w u : Vec Ideal S1024x128 .f32) (b : Vec Ideal S1x128 .f32)
    (r : Fin 256) (l : Fin 128) :
    k1_pay6 (F := Ideal) x0 x1 w u b (ix2 r l) = Cert.Spec.tz x0 x1 w u b r l := by
  rw [k1_pay6_eq, gate1_apply, k1_pay3_eq]

/-! ## The two outputs -/

/-- The new cell state's array: σ(forget) · c + σ(input) · tanh(candidate gate's term). -/
theorem k1_pay1_eq (x0 x1 : Vec Ideal S256x1024 .f32) (x2 : Vec Ideal S256x128 .f32)
    (zi zf : FVec Ideal S256x128 .f32) (x5 x9 : Vec Ideal S1024x128 .f32) (x13 : Vec Ideal S1x128 .f32) :
    k1_pay1 (F := Ideal) (k1_pay3 x0) (k1_pay4 x1) x2 zi zf (k1_pay7 x5) (k1_pay8 x9) x13
      = addf (mulf (logistic zf) x2) (mulf (logistic zi) (tanh (gate1 (k1_pay3 x0) x1 x5 x9 x13))) := rfl

/-- The new hidden state's array: σ(output gate's term) · tanh(new cell state). -/
theorem k1_pay2_eq (x0 x1 : Vec Ideal S256x1024 .f32) (x2 : Vec Ideal S256x128 .f32)
    (zi zf : FVec Ideal S256x128 .f32) (x5 x9 : Vec Ideal S1024x128 .f32) (x13 : Vec Ideal S1x128 .f32)
    (x6 x10 : Vec Ideal S1024x128 .f32) (x14 : Vec Ideal S1x128 .f32) :
    k1_pay2 (F := Ideal) (k1_pay3 x0) (k1_pay4 x1) x2 zi zf (k1_pay7 x5) (k1_pay8 x9) x13 x6 x10 x14
      = mulf (logistic (gate1 (k1_pay3 x0) x1 x6 x10 x14))
          (tanh (k1_pay1 (F := Ideal) (k1_pay3 x0) (k1_pay4 x1) x2 zi zf (k1_pay7 x5) (k1_pay8 x9) x13)) := rfl

/-- THE SECOND CELL'S NEW CELL STATE at (r, l), on one tile of columns. -/
theorem cell1_c (x0 x1 : Vec Ideal S256x1024 .f32) (x2 : Vec Ideal S256x128 .f32)
    (x3 x4 x5 : Vec Ideal S1024x128 .f32) (x7 x8 x9 : Vec Ideal S1024x128 .f32) (x11 x12 x13 : Vec Ideal S1x128 .f32)
    (r : Fin 256) (l : Fin 128) :
    k1_pay1 (F := Ideal) (k1_pay3 x0) (k1_pay4 x1) x2 (k1_pay5 x0 x1 x3 x7 x11) (k1_pay6 x0 x1 x4 x8 x12) (k1_pay7 x5) (k1_pay8 x9) x13 (ix2 r l)
      = Cert.Spec.cC (Cert.Spec.tz x0 x1 x3 x7 x11 r l) (Cert.Spec.tz x0 x1 x4 x8 x12 r l) (Cert.Spec.tz x0 x1 x5 x9 x13 r l) (x2 (ix2 r l)) := by
  rw [k1_pay1_eq, cellC_apply, k1_pay5_apply, k1_pay6_apply, gate1_apply, k1_pay3_eq]

/-- THE SECOND CELL'S NEW HIDDEN STATE at (r, l), on one tile of columns. -/
theorem cell1_h (x0 x1 : Vec Ideal S256x1024 .f32) (x2 : Vec Ideal S256x128 .f32)
    (x3 x4 x5 x6 : Vec Ideal S1024x128 .f32) (x7 x8 x9 x10 : Vec Ideal S1024x128 .f32) (x11 x12 x13 x14 : Vec Ideal S1x128 .f32)
    (r : Fin 256) (l : Fin 128) :
    k1_pay2 (F := Ideal) (k1_pay3 x0) (k1_pay4 x1) x2 (k1_pay5 x0 x1 x3 x7 x11) (k1_pay6 x0 x1 x4 x8 x12) (k1_pay7 x5) (k1_pay8 x9) x13 x6 x10 x14 (ix2 r l)
      = Cert.Spec.cH (Cert.Spec.tz x0 x1 x3 x7 x11 r l) (Cert.Spec.tz x0 x1 x4 x8 x12 r l) (Cert.Spec.tz x0 x1 x5 x9 x13 r l)
          (Cert.Spec.tz x0 x1 x6 x10 x14 r l) (x2 (ix2 r l)) := by
  rw [k1_pay2_eq, cellH_apply, cell1_c, gate1_apply, k1_pay3_eq]
  rfl

end Cert.KernelIdeal.Val

end
-- ==== Proof.KernelIdealVal.Final1.lean ====
/-
  The second LSTM cell's region, from blocks to the arrays: point t of the grid reads the rows of `x` and of `h`, block
  column t (128 columns) of `c`, and for each gate g block column 8g + t of the two weight matrices and of the bias row,
  and writes block column t of the new hidden state and of the new cell state; the eight points' blocks cover the two
  [256, 1024] results, which therefore end holding `Spec.cellH` and `Spec.cellC` of the arrays the region finds.
-/
import proofs.«137003_j53412213293363_2_alg».proof.Proof.KernelIdealFrame.Dat1
import proofs.«137003_j53412213293363_2_alg».proof.Proof.KernelIdealVal.Pay1
import proofs.«137003_j53412213293363_2_alg».proof.Proof.KernelIdealVal.TileLib
import proofs.«137003_j53412213293363_2_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Hand Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-! ## The printed index maps over the grid

The rows of `x` and of `h` are one block each; point `t` reads block column `t` of `c`, block column `8g + t` of the two
weight matrices and of the bias row for gate `g`, and writes block column `t` of the two results. -/

theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = t.val :=
  (by decide +kernel : ∀ t : Fin grid1.N, _)
theorem idx1_3 : ∀ t : Fin cfg1.N, win1_3.index t (0 : Fin 2) = 0 ∧ win1_3.index t (1 : Fin 2) = t.val :=
  (by decide +kernel : ∀ t : Fin grid1.N, _)
theorem idx1_4 : ∀ t : Fin cfg1.N, win1_4.index t (0 : Fin 2) = 0 ∧ win1_4.index t (1 : Fin 2) = 8 + t.val :=
  (by decide +kernel : ∀ t : Fin grid1.N, _)
theorem idx1_5 : ∀ t : Fin cfg1.N, win1_5.index t (0 : Fin 2) = 0 ∧ win1_5.index t (1 : Fin 2) = 16 + t.val :=
  (by decide +kernel : ∀ t : Fin grid1.N, _)
theorem idx1_6 : ∀ t : Fin cfg1.N, win1_6.index t (0 : Fin 2) = 0 ∧ win1_6.index t (1 : Fin 2) = 24 + t.val :=
  (by decide +kernel : ∀ t : Fin grid1.N, _)
theorem idx1_7 : ∀ t : Fin cfg1.N, win1_7.index t (0 : Fin 2) = 0 ∧ win1_7.index t (1 : Fin 2) = t.val :=
  (by decide +kernel : ∀ t : Fin grid1.N, _)
theorem idx1_8 : ∀ t : Fin cfg1.N, win1_8.index t (0 : Fin 2) = 0 ∧ win1_8.index t (1 : Fin 2) = 8 + t.val :=
  (by decide +kernel : ∀ t : Fin grid1.N, _)
theorem idx1_9 : ∀ t : Fin cfg1.N, win1_9.index t (0 : Fin 2) = 0 ∧ win1_9.index t (1 : Fin 2) = 16 + t.val :=
  (by decide +kernel : ∀ t : Fin grid1.N, _)
theorem idx1_10 : ∀ t : Fin cfg1.N, win1_10.index t (0 : Fin 2) = 0 ∧ win1_10.index t (1 : Fin 2) = 24 + t.val :=
  (by decide +kernel : ∀ t : Fin grid1.N, _)
theorem idx1_11 : ∀ t : Fin cfg1.N, win1_11.index t (0 : Fin 2) = 0 ∧ win1_11.index t (1 : Fin 2) = t.val :=
  (by decide +kernel : ∀ t : Fin grid1.N, _)
theorem idx1_12 : ∀ t : Fin cfg1.N, win1_12.index t (0 : Fin 2) = 0 ∧ win1_12.index t (1 : Fin 2) = 8 + t.val :=
  (by decide +kernel : ∀ t : Fin grid1.N, _)
theorem idx1_13 : ∀ t : Fin cfg1.N, win1_13.index t (0 : Fin 2) = 0 ∧ win1_13.index t (1 : Fin 2) = 16 + t.val :=
  (by decide +kernel : ∀ t : Fin grid1.N, _)
theorem idx1_14 : ∀ t : Fin cfg1.N, win1_14.index t (0 : Fin 2) = 0 ∧ win1_14.index t (1 : Fin 2) = 24 + t.val :=
  (by decide +kernel : ∀ t : Fin grid1.N, _)
theorem idx1_15 : ∀ t : Fin cfg1.N, win1_15.index t (0 : Fin 2) = 0 ∧ win1_15.index t (1 : Fin 2) = t.val :=
  (by decide +kernel : ∀ t : Fin grid1.N, _)
theorem idx1_16 : ∀ t : Fin cfg1.N, win1_16.index t (0 : Fin 2) = 0 ∧ win1_16.index t (1 : Fin 2) = t.val :=
  (by decide +kernel : ∀ t : Fin grid1.N, _)

/-! ## Each input block, entry by entry, as entries of the array the region finds -/

/-- The rows of `x`. -/
theorem blk1_0 (c : Dev nD) (t : Fin cfg1.N) (r : Fin 256) (k : Fin 1024) :
    (iblk1 V c 0 t : S256x1024.Idx → EReal) (ix2 r k) = (V c main_v1_0 : S256x1024.Idx → EReal) (ix2 r k) := by
  obtain ⟨f0, f1⟩ := idx1_0 t
  show V c main_v1_0 (((cfg1.win 0).blk t).view.emb (ix2 r k)) = _
  refine congrArg _ (funext fun a => Fin.ext ?_)
  match a with
  | ⟨0, _⟩ => show win1_0.index t (0 : Fin 2) * 256 + 1 * r.val = r.val; omega
  | ⟨1, _⟩ => show win1_0.index t (1 : Fin 2) * 1024 + 1 * k.val = k.val; omega
/-- The rows of `h`. -/
theorem blk1_1 (c : Dev nD) (t : Fin cfg1.N) (r : Fin 256) (k : Fin 1024) :
    (iblk1 V c 1 t : S256x1024.Idx → EReal) (ix2 r k) = (V c main_arg3 : S256x1024.Idx → EReal) (ix2 r k) := by
  obtain ⟨f0, f1⟩ := idx1_1 t
  show V c main_arg3 (((cfg1.win 1).blk t).view.emb (ix2 r k)) = _
  refine congrArg _ (funext fun a => Fin.ext ?_)
  match a with
  | ⟨0, _⟩ => show win1_1.index t (0 : Fin 2) * 256 + 1 * r.val = r.val; omega
  | ⟨1, _⟩ => show win1_1.index t (1 : Fin 2) * 1024 + 1 * k.val = k.val; omega
/-- The tile of `c`. -/
theorem blk1_2 (c : Dev nD) (t : Fin cfg1.N) (r : Fin 256) (l : Fin 128) :
    (iblk1 V c 2 t : S256x128.Idx → EReal) (ix2 r l)
      = (V c main_arg4 : S256x1024.Idx → EReal) (ix2 r (tcol t.val (lt_of_lt_of_eq t.isLt N_1) l)) := by
  obtain ⟨f0, f1⟩ := idx1_2 t
  show V c main_arg4 (((cfg1.win 2).blk t).view.emb (ix2 r l)) = _
  refine congrArg _ (funext fun a => Fin.ext ?_)
  match a with
  | ⟨0, _⟩ => show win1_2.index t (0 : Fin 2) * 256 + 1 * r.val = r.val; omega
  | ⟨1, _⟩ => show win1_2.index t (1 : Fin 2) * 128 + 1 * l.val = t.val * 128 + l.val; omega
/-- The input gate's tile of `W`. -/
theorem blk1_3 (c : Dev nD) (t : Fin cfg1.N) (k : Fin 1024) (l : Fin 128) :
    (iblk1 V c 3 t : S1024x128.Idx → EReal) (ix2 k l)
      = (V c main_arg10 : S1024x4096.Idx → EReal) (ix2 k (Cert.Spec.col 0 (tcol t.val (lt_of_lt_of_eq t.isLt N_1) l))) := by
  obtain ⟨f0, f1⟩ := idx1_3 t
  show V c main_arg10 (((cfg1.win 3).blk t).view.emb (ix2 k l)) = _
  refine congrArg _ (funext fun a => Fin.ext ?_)
  match a with
  | ⟨0, _⟩ => show win1_3.index t (0 : Fin 2) * 1024 + 1 * k.val = k.val; omega
  | ⟨1, _⟩ => show win1_3.index t (1 : Fin 2) * 128 + 1 * l.val = 0 * 1024 + (t.val * 128 + l.val); omega
/-- The forget gate's tile of `W`. -/
theorem blk1_4 (c : Dev nD) (t : Fin cfg1.N) (k : Fin 1024) (l : Fin 128) :
    (iblk1 V c 4 t : S1024x128.Idx → EReal) (ix2 k l)
      = (V c main_arg10 : S1024x4096.Idx → EReal) (ix2 k (Cert.Spec.col 1 (tcol t.val (lt_of_lt_of_eq t.isLt N_1) l))) := by
  obtain ⟨f0, f1⟩ := idx1_4 t
  show V c main_arg10 (((cfg1.win 4).blk t).view.emb (ix2 k l)) = _
  refine congrArg _ (funext fun a => Fin.ext ?_)
  match a with
  | ⟨0, _⟩ => show win1_4.index t (0 : Fin 2) * 1024 + 1 * k.val = k.val; omega
  | ⟨1, _⟩ => show win1_4.index t (1 : Fin 2) * 128 + 1 * l.val = 1 * 1024 + (t.val * 128 + l.val); omega
/-- The candidate gate's tile of `W`. -/
theorem blk1_5 (c : Dev nD) (t : Fin cfg1.N) (k : Fin 1024) (l : Fin 128) :
    (iblk1 V c 5 t : S1024x128.Idx → EReal) (ix2 k l)
      = (V c main_arg10 : S1024x4096.Idx → EReal) (ix2 k (Cert.Spec.col 2 (tcol t.val (lt_of_lt_of_eq t.isLt N_1) l))) := by
  obtain ⟨f0, f1⟩ := idx1_5 t
  show V c main_arg10 (((cfg1.win 5).blk t).view.emb (ix2 k l)) = _
  refine congrArg _ (funext fun a => Fin.ext ?_)
  match a with
  | ⟨0, _⟩ => show win1_5.index t (0 : Fin 2) * 1024 + 1 * k.val = k.val; omega
  | ⟨1, _⟩ => show win1_5.index t (1 : Fin 2) * 128 + 1 * l.val = 2 * 1024 + (t.val * 128 + l.val); omega
/-- The output gate's tile of `W`. -/
theorem blk1_6 (c : Dev nD) (t : Fin cfg1.N) (k : Fin 1024) (l : Fin 128) :
    (iblk1 V c 6 t : S1024x128.Idx → EReal) (ix2 k l)
      = (V c main_arg10 : S1024x4096.Idx → EReal) (ix2 k (Cert.Spec.col 3 (tcol t.val (lt_of_lt_of_eq t.isLt N_1) l))) := by
  obtain ⟨f0, f1⟩ := idx1_6 t
  show V c main_arg10 (((cfg1.win 6).blk t).view.emb (ix2 k l)) = _
  refine congrArg _ (funext fun a => Fin.ext ?_)
  match a with
  | ⟨0, _⟩ => show win1_6.index t (0 : Fin 2) * 1024 + 1 * k.val = k.val; omega
  | ⟨1, _⟩ => show win1_6.index t (1 : Fin 2) * 128 + 1 * l.val = 3 * 1024 + (t.val * 128 + l.val); omega
/-- The input gate's tile of `U`. -/
theorem blk1_7 (c : Dev nD) (t : Fin cfg1.N) (k : Fin 1024) (l : Fin 128) :
    (iblk1 V c 7 t : S1024x128.Idx → EReal) (ix2 k l)
      = (V c main_arg11 : S1024x4096.Idx → EReal) (ix2 k (Cert.Spec.col 0 (tcol t.val (lt_of_lt_of_eq t.isLt N_1) l))) := by
  obtain ⟨f0, f1⟩ := idx1_7 t
  show V c main_arg11 (((cfg1.win 7).blk t).view.emb (ix2 k l)) = _
  refine congrArg _ (funext fun a => Fin.ext ?_)
  match a with
  | ⟨0, _⟩ => show win1_7.index t (0 : Fin 2) * 1024 + 1 * k.val = k.val; omega
  | ⟨1, _⟩ => show win1_7.index t (1 : Fin 2) * 128 + 1 * l.val = 0 * 1024 + (t.val * 128 + l.val); omega
/-- The forget gate's tile of `U`. -/
theorem blk1_8 (c : Dev nD) (t : Fin cfg1.N) (k : Fin 1024) (l : Fin 128) :
    (iblk1 V c 8 t : S1024x128.Idx → EReal) (ix2 k l)
      = (V c main_arg11 : S1024x4096.Idx → EReal) (ix2 k (Cert.Spec.col 1 (tcol t.val (lt_of_lt_of_eq t.isLt N_1) l))) := by
  obtain ⟨f0, f1⟩ := idx1_8 t
  show V c main_arg11 (((cfg1.win 8).blk t).view.emb (ix2 k l)) = _
  refine congrArg _ (funext fun a => Fin.ext ?_)
  match a with
  | ⟨0, _⟩ => show win1_8.index t (0 : Fin 2) * 1024 + 1 * k.val = k.val; omega
  | ⟨1, _⟩ => show win1_8.index t (1 : Fin 2) * 128 + 1 * l.val = 1 * 1024 + (t.val * 128 + l.val); omega
/-- The candidate gate's tile of `U`. -/
theorem blk1_9 (c : Dev nD) (t : Fin cfg1.N) (k : Fin 1024) (l : Fin 128) :
    (iblk1 V c 9 t : S1024x128.Idx → EReal) (ix2 k l)
      = (V c main_arg11 : S1024x4096.Idx → EReal) (ix2 k (Cert.Spec.col 2 (tcol t.val (lt_of_lt_of_eq t.isLt N_1) l))) := by
  obtain ⟨f0, f1⟩ := idx1_9 t
  show V c main_arg11 (((cfg1.win 9).blk t).view.emb (ix2 k l)) = _
  refine congrArg _ (funext fun a => Fin.ext ?_)
  match a with
  | ⟨0, _⟩ => show win1_9.index t (0 : Fin 2) * 1024 + 1 * k.val = k.val; omega
  | ⟨1, _⟩ => show win1_9.index t (1 : Fin 2) * 128 + 1 * l.val = 2 * 1024 + (t.val * 128 + l.val); omega
/-- The output gate's tile of `U`. -/
theorem blk1_10 (c : Dev nD) (t : Fin cfg1.N) (k : Fin 1024) (l : Fin 128) :
    (iblk1 V c 10 t : S1024x128.Idx → EReal) (ix2 k l)
      = (V c main_arg11 : S1024x4096.Idx → EReal) (ix2 k (Cert.Spec.col 3 (tcol t.val (lt_of_lt_of_eq t.isLt N_1) l))) := by
  obtain ⟨f0, f1⟩ := idx1_10 t
  show V c main_arg11 (((cfg1.win 10).blk t).view.emb (ix2 k l)) = _
  refine congrArg _ (funext fun a => Fin.ext ?_)
  match a with
  | ⟨0, _⟩ => show win1_10.index t (0 : Fin 2) * 1024 + 1 * k.val = k.val; omega
  | ⟨1, _⟩ => show win1_10.index t (1 : Fin 2) * 128 + 1 * l.val = 3 * 1024 + (t.val * 128 + l.val); omega
/-- The input gate's tile of the bias row. -/
theorem blk1_11 (c : Dev nD) (t : Fin cfg1.N) (l : Fin 128) :
    (iblk1 V c 11 t : S1x128.Idx → EReal) (ix2 (0 : Fin 1) l)
      = (V c main_v2 : S1x4096.Idx → EReal) (ix2 (0 : Fin 1) (Cert.Spec.col 0 (tcol t.val (lt_of_lt_of_eq t.isLt N_1) l))) := by
  obtain ⟨f0, f1⟩ := idx1_11 t
  show V c main_v2 (((cfg1.win 11).blk t).view.emb (ix2 (0 : Fin 1) l)) = _
  refine congrArg _ (funext fun a => Fin.ext ?_)
  match a with
  | ⟨0, _⟩ => show win1_11.index t (0 : Fin 2) * 1 + 1 * 0 = 0; omega
  | ⟨1, _⟩ => show win1_11.index t (1 : Fin 2) * 128 + 1 * l.val = 0 * 1024 + (t.val * 128 + l.val); omega
/-- The forget gate's tile of the bias row. -/
theorem blk1_12 (c : Dev nD) (t : Fin cfg1.N) (l : Fin 128) :
    (iblk1 V c 12 t : S1x128.Idx → EReal) (ix2 (0 : Fin 1) l)
      = (V c main_v2 : S1x4096.Idx → EReal) (ix2 (0 : Fin 1) (Cert.Spec.col 1 (tcol t.val (lt_of_lt_of_eq t.isLt N_1) l))) := by
  obtain ⟨f0, f1⟩ := idx1_12 t
  show V c main_v2 (((cfg1.win 12).blk t).view.emb (ix2 (0 : Fin 1) l)) = _
  refine congrArg _ (funext fun a => Fin.ext ?_)
  match a with
  | ⟨0, _⟩ => show win1_12.index t (0 : Fin 2) * 1 + 1 * 0 = 0; omega
  | ⟨1, _⟩ => show win1_12.index t (1 : Fin 2) * 128 + 1 * l.val = 1 * 1024 + (t.val * 128 + l.val); omega
/-- The candidate gate's tile of the bias row. -/
theorem blk1_13 (c : Dev nD) (t : Fin cfg1.N) (l : Fin 128) :
    (iblk1 V c 13 t : S1x128.Idx → EReal) (ix2 (0 : Fin 1) l)
      = (V c main_v2 : S1x4096.Idx → EReal) (ix2 (0 : Fin 1) (Cert.Spec.col 2 (tcol t.val (lt_of_lt_of_eq t.isLt N_1) l))) := by
  obtain ⟨f0, f1⟩ := idx1_13 t
  show V c main_v2 (((cfg1.win 13).blk t).view.emb (ix2 (0 : Fin 1) l)) = _
  refine congrArg _ (funext fun a => Fin.ext ?_)
  match a with
  | ⟨0, _⟩ => show win1_13.index t (0 : Fin 2) * 1 + 1 * 0 = 0; omega
  | ⟨1, _⟩ => show win1_13.index t (1 : Fin 2) * 128 + 1 * l.val = 2 * 1024 + (t.val * 128 + l.val); omega
/-- The output gate's tile of the bias row. -/
theorem blk1_14 (c : Dev nD) (t : Fin cfg1.N) (l : Fin 128) :
    (iblk1 V c 14 t : S1x128.Idx → EReal) (ix2 (0 : Fin 1) l)
      = (V c main_v2 : S1x4096.Idx → EReal) (ix2 (0 : Fin 1) (Cert.Spec.col 3 (tcol t.val (lt_of_lt_of_eq t.isLt N_1) l))) := by
  obtain ⟨f0, f1⟩ := idx1_14 t
  show V c main_v2 (((cfg1.win 14).blk t).view.emb (ix2 (0 : Fin 1) l)) = _
  refine congrArg _ (funext fun a => Fin.ext ?_)
  match a with
  | ⟨0, _⟩ => show win1_14.index t (0 : Fin 2) * 1 + 1 * 0 = 0; omega
  | ⟨1, _⟩ => show win1_14.index t (1 : Fin 2) * 128 + 1 * l.val = 3 * 1024 + (t.val * 128 + l.val); omega

/-! ## From blocks to the two result arrays -/

/-- WHAT POINT `t` WRITES BACK into the new hidden state's array is block `t` of `Spec.cellH` of the arrays as the region finds them. -/
theorem flushed1_15_eq (c : Dev nD) (b : Cert.Spec.Vc 4096) (hb : ∀ j : Fin 4096, (V c main_v2 : S1x4096.Idx → EReal) (ix2 (0 : Fin 1) j) = b (ix1 j)) (t : Fin cfg1.N) :
    (dat1 (F := Ideal) V c).flushed 15 t
      = ((cfg1.win 15).blk t).view.read (Elt Ideal) (Cert.Spec.cellH (V c main_v1_0) (V c main_arg3) (V c main_arg4) (V c main_arg10) (V c main_arg11) b) := by
  show (cfg1.win 15).cut (grid1.coords t) ((dat1 (F := Ideal) V c).after 15 t) = _
  rw [after1_15]
  unfold out1_15
  rw [View.canon_unit_zero hz1]
  simp only [View.ld_unit_zero (S := S256x1024) hz1, View.ld_unit_zero (S := S256x128) hz1,
    View.ld_unit_zero (S := S1024x128) hz1, View.ld_unit_zero (S := S1x128) hz1]
  obtain ⟨f0, f1⟩ := idx1_15 t
  have hN : t.val < 8 := lt_of_lt_of_eq t.isLt N_1
  funext j
  obtain ⟨p, q, rfl⟩ : ∃ (p : Fin 256) (q : Fin 128), j = ix2 p q := ⟨j 0, j 1, eq_ix2 (n0 := 256) (n1 := 128) j⟩
  show _ = Cert.Spec.cellH (V c main_v1_0) (V c main_arg3) (V c main_arg4) (V c main_arg10) (V c main_arg11) b (((cfg1.win 15).blk t).view.emb (ix2 p q))
  have hemb : ((cfg1.win 15).blk t).view.emb (ix2 p q) = ix2 p (tcol t.val hN q) := by
    funext a; apply Fin.ext
    match a with
    | ⟨0, _⟩ => show win1_15.index t (0 : Fin 2) * 256 + 1 * p.val = p.val; omega
    | ⟨1, _⟩ => show win1_15.index t (1 : Fin 2) * 128 + 1 * q.val = t.val * 128 + q.val; omega
  rw [hemb]
  refine (cell1_h (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) p q).trans ?_
  exact cellH_tile (V c main_v1_0) (V c main_arg3) (V c main_arg4) (V c main_arg10) (V c main_arg11) (V c main_v2) b hb (tcol t.val hN q)
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) p q
    (fun k => blk1_0 V c t p k) (fun k => blk1_1 V c t p k) (blk1_2 V c t p q)
    (fun k => blk1_3 V c t k q) (fun k => blk1_4 V c t k q) (fun k => blk1_5 V c t k q) (fun k => blk1_6 V c t k q)
    (fun k => blk1_7 V c t k q) (fun k => blk1_8 V c t k q) (fun k => blk1_9 V c t k q) (fun k => blk1_10 V c t k q)
    (blk1_11 V c t q) (blk1_12 V c t q) (blk1_13 V c t q) (blk1_14 V c t q)

/-- An index of the new hidden state's array is in point `t`'s block iff each coordinate is in the block's range on its axis. -/
theorem mem_blk1_15 (t : Fin cfg1.N) (i : S256x1024.Idx) :
    i ∈ ((cfg1.win 15).blk t).view.set ↔ ∀ a : Fin 2, win1_15.index t a * S256x128.size a ≤ (i a).val ∧ (i a).val < win1_15.index t a * S256x128.size a + S256x128.size a := by
  show i ∈ ((View.whole main_v3_0).slice (win1_15.rect t)).set ↔ _
  rw [View.set_slice_whole, Rect.mem_set_unit]
  exact Iff.rfl

/-- THE SECOND CELL'S NEW HIDDEN STATE after the region: column j is written by point j / 128. -/
theorem final1_h (c : Dev nD) (b : Cert.Spec.Vc 4096) (hb : ∀ j : Fin 4096, (V c main_v2 : S1x4096.Idx → EReal) (ix2 (0 : Fin 1) j) = b (ix1 j)) :
    (dat1 (F := Ideal) V c).arrAt 15 cfg1.N = Cert.Spec.cellH (V c main_v1_0) (V c main_arg3) (V c main_arg4) (V c main_arg10) (V c main_arg11) b :=
  (dat1 (F := Ideal) V c).arrAt_eq_of_cover 15 (Cert.Spec.cellH (V c main_v1_0) (V c main_arg3) (V c main_arg4) (V c main_arg10) (V c main_arg11) b)
    (fun t _ => flushed1_15_eq V c b hb t) fun i => by
      have hi0 : (i 0).val < 256 := (i 0).isLt
      have hi1 : (i 1).val < 1024 := (i 1).isLt
      have hN : cfg1.N = 8 := N_1
      refine ⟨⟨(i 1).val / 128, by rw [hN]; omega⟩, flush1_15 _, ?_⟩
      rw [mem_blk1_15]
      obtain ⟨f0, f1⟩ := idx1_15 ⟨(i 1).val / 128, by rw [hN]; omega⟩
      intro a
      match a with
      | ⟨0, _⟩ => show win1_15.index _ (0 : Fin 2) * 256 ≤ (i 0).val ∧ (i 0).val < win1_15.index _ (0 : Fin 2) * 256 + 256; rw [f0]; omega
      | ⟨1, _⟩ => show win1_15.index _ (1 : Fin 2) * 128 ≤ (i 1).val ∧ (i 1).val < win1_15.index _ (1 : Fin 2) * 128 + 128; rw [f1]; show _ / 128 * 128 ≤ _ ∧ _ < _ / 128 * 128 + 128; omega

/-- WHAT POINT `t` WRITES BACK into the new cell state's array is block `t` of `Spec.cellC` of the arrays as the region finds them. -/
theorem flushed1_16_eq (c : Dev nD) (b : Cert.Spec.Vc 4096) (hb : ∀ j : Fin 4096, (V c main_v2 : S1x4096.Idx → EReal) (ix2 (0 : Fin 1) j) = b (ix1 j)) (t : Fin cfg1.N) :
    (dat1 (F := Ideal) V c).flushed 16 t
      = ((cfg1.win 16).blk t).view.read (Elt Ideal) (Cert.Spec.cellC (V c main_v1_0) (V c main_arg3) (V c main_arg4) (V c main_arg10) (V c main_arg11) b) := by
  show (cfg1.win 16).cut (grid1.coords t) ((dat1 (F := Ideal) V c).after 16 t) = _
  rw [after1_16]
  unfold out1_16
  rw [View.canon_unit_zero hz1]
  simp only [View.ld_unit_zero (S := S256x1024) hz1, View.ld_unit_zero (S := S256x128) hz1,
    View.ld_unit_zero (S := S1024x128) hz1, View.ld_unit_zero (S := S1x128) hz1]
  obtain ⟨f0, f1⟩ := idx1_16 t
  have hN : t.val < 8 := lt_of_lt_of_eq t.isLt N_1
  funext j
  obtain ⟨p, q, rfl⟩ : ∃ (p : Fin 256) (q : Fin 128), j = ix2 p q := ⟨j 0, j 1, eq_ix2 (n0 := 256) (n1 := 128) j⟩
  show _ = Cert.Spec.cellC (V c main_v1_0) (V c main_arg3) (V c main_arg4) (V c main_arg10) (V c main_arg11) b (((cfg1.win 16).blk t).view.emb (ix2 p q))
  have hemb : ((cfg1.win 16).blk t).view.emb (ix2 p q) = ix2 p (tcol t.val hN q) := by
    funext a; apply Fin.ext
    match a with
    | ⟨0, _⟩ => show win1_16.index t (0 : Fin 2) * 256 + 1 * p.val = p.val; omega
    | ⟨1, _⟩ => show win1_16.index t (1 : Fin 2) * 128 + 1 * q.val = t.val * 128 + q.val; omega
  rw [hemb]
  refine (cell1_c (iblk1 V c 0 t) (iblk1 V c 1 t) (iblk1 V c 2 t) (iblk1 V c 3 t) (iblk1 V c 4 t) (iblk1 V c 5 t) (iblk1 V c 7 t) (iblk1 V c 8 t) (iblk1 V c 9 t) (iblk1 V c 11 t) (iblk1 V c 12 t) (iblk1 V c 13 t) p q).trans ?_
  exact cellC_tile (V c main_v1_0) (V c main_arg3) (V c main_arg4) (V c main_arg10) (V c main_arg11) (V c main_v2) b hb (tcol t.val hN q)
    (iblk1 V c 0 t) (iblk1 V c 1 t) (iblk1 V c 2 t) (iblk1 V c 3 t) (iblk1 V c 4 t) (iblk1 V c 5 t) (iblk1 V c 7 t) (iblk1 V c 8 t) (iblk1 V c 9 t) (iblk1 V c 11 t) (iblk1 V c 12 t) (iblk1 V c 13 t) p q
    (fun k => blk1_0 V c t p k) (fun k => blk1_1 V c t p k) (blk1_2 V c t p q)
    (fun k => blk1_3 V c t k q) (fun k => blk1_4 V c t k q) (fun k => blk1_5 V c t k q)
    (fun k => blk1_7 V c t k q) (fun k => blk1_8 V c t k q) (fun k => blk1_9 V c t k q)
    (blk1_11 V c t q) (blk1_12 V c t q) (blk1_13 V c t q)

/-- An index of the new cell state's array is in point `t`'s block iff each coordinate is in the block's range on its axis. -/
theorem mem_blk1_16 (t : Fin cfg1.N) (i : S256x1024.Idx) :
    i ∈ ((cfg1.win 16).blk t).view.set ↔ ∀ a : Fin 2, win1_16.index t a * S256x128.size a ≤ (i a).val ∧ (i a).val < win1_16.index t a * S256x128.size a + S256x128.size a := by
  show i ∈ ((View.whole main_v3_1).slice (win1_16.rect t)).set ↔ _
  rw [View.set_slice_whole, Rect.mem_set_unit]
  exact Iff.rfl

/-- THE SECOND CELL'S NEW CELL STATE after the region: column j is written by point j / 128. -/
theorem final1_c (c : Dev nD) (b : Cert.Spec.Vc 4096) (hb : ∀ j : Fin 4096, (V c main_v2 : S1x4096.Idx → EReal) (ix2 (0 : Fin 1) j) = b (ix1 j)) :
    (dat1 (F := Ideal) V c).arrAt 16 cfg1.N = Cert.Spec.cellC (V c main_v1_0) (V c main_arg3) (V c main_arg4) (V c main_arg10) (V c main_arg11) b :=
  (dat1 (F := Ideal) V c).arrAt_eq_of_cover 16 (Cert.Spec.cellC (V c main_v1_0) (V c main_arg3) (V c main_arg4) (V c main_arg10) (V c main_arg11) b)
    (fun t _ => flushed1_16_eq V c b hb t) fun i => by
      have hi0 : (i 0).val < 256 := (i 0).isLt
      have hi1 : (i 1).val < 1024 := (i 1).isLt
      have hN : cfg1.N = 8 := N_1
      refine ⟨⟨(i 1).val / 128, by rw [hN]; omega⟩, flush1_16 _, ?_⟩
      rw [mem_blk1_16]
      obtain ⟨f0, f1⟩ := idx1_16 ⟨(i 1).val / 128, by rw [hN]; omega⟩
      intro a
      match a with
      | ⟨0, _⟩ => show win1_16.index _ (0 : Fin 2) * 256 ≤ (i 0).val ∧ (i 0).val < win1_16.index _ (0 : Fin 2) * 256 + 256; rw [f0]; omega
      | ⟨1, _⟩ => show win1_16.index _ (1 : Fin 2) * 128 ≤ (i 1).val ∧ (i 1).val < win1_16.index _ (1 : Fin 2) * 128 + 128; rw [f1]; show _ / 128 * 128 ≤ _ ∧ _ < _ / 128 * 128 + 128; omega

end Cert.KernelIdeal.Val

end
-- ==== Proof.KernelIdealVal.Pay2.lean ====
/-
  The third LSTM cell's body, read at an index: on one tile of 128 columns, its two stored arrays are at entry (r, l)
  the new cell state σ(z_f)·c + σ(z_i)·tanh(z_g) and the new hidden state σ(z_o)·tanh(new cell state), each z the gate's
  pre-activation `Spec.tz` of the rows of the previous cell's hidden state and of this cell's own `h` against that gate's
  tiles of the two weight matrices and of the bias.
-/
import proofs.«137003_j53412213293363_2_alg».proof.Proof.KernelIdealVal.PayLib

noncomputable section

open scoped BigOperators

namespace Cert.KernelIdeal.Val

open Cert.KernelIdeal Cert.KernelIdeal.Gen Idealize.ShloMosaic Idealize.ShloMosaic.ValueIdx

/-! ## The rows of the previous cell's hidden state -/

/-- The body casts the rows of its first input to their own shape before narrowing them: both steps change nothing. -/
theorem k2_pay3_eq (x0 : Vec Ideal S256x1024 .f32) : k2_pay3 (F := Ideal) x0 = x0 := by
  show truncf (F := Ideal) (φ := .f32) .bf16 (shapeCast S256x1024 x0 shapeCasts_S256x1024_S256x1024) bitsLt_bf16_f32 = x0
  rw [shapeCast_self]
  rfl

/-! ## The gates -/

/-- The input gate's term is the gate term of the rows of `x` and `h` against the gate's tiles. -/
theorem k2_pay5_eq (x0 x1 : Vec Ideal S256x1024 .f32) (w u : Vec Ideal S1024x128 .f32) (b : Vec Ideal S1x128 .f32) :
    k2_pay5 (F := Ideal) x0 x1 w u b = gate1 (k2_pay3 x0) x1 w u b := rfl
/-- The forget gate's likewise. -/
theorem k2_pay6_eq (x0 x1 : Vec Ideal S256x1024 .f32) (w u : Vec Ideal S1024x128 .f32) (b : Vec Ideal S1x128 .f32) :
    k2_pay6 (F := Ideal) x0 x1 w u b = gate1 (k2_pay3 x0) x1 w u b := rfl

/-- The input gate's pre-activation at (r, l). -/
theorem k2_pay5_apply (x0 x1 : Vec Ideal S256x1024 .f32) (w u : Vec Ideal S1024x128 .f32) (b : Vec Ideal S1x128 .f32)
    (r : Fin 256) (l : Fin 128) :
    k2_pay5 (F := Ideal) x0 x1 w u b (ix2 r l) = Cert.Spec.tz x0 x1 w u b r l := by
  rw [k2_pay5_eq, gate1_apply, k2_pay3_eq]
/-- The forget gate's pre-activation at (r, l). -/
theorem k2_pay6_apply (x0 x1 : Vec Ideal S256x1024 .f32) (w u : Vec Ideal S1024x128 .f32) (b : Vec Ideal S1x128 .f32)
    (r : Fin 256) (l : Fin 128) :
    k2_pay6 (F := Ideal) x0 x1 w u b (ix2 r l) = Cert.Spec.tz x0 x1 w u b r l := by
  rw [k2_pay6_eq, gate1_apply, k2_pay3_eq]

/-! ## The two outputs -/

/-- The new cell state's array: σ(forget) · c + σ(input) · tanh(candidate gate's term). -/
theorem k2_pay1_eq (x0 x1 : Vec Ideal S256x1024 .f32) (x2 : Vec Ideal S256x128 .f32)
    (zi zf : FVec Ideal S256x128 .f32) (x5 x9 : Vec Ideal S1024x128 .f32) (x13 : Vec Ideal S1x128 .f32) :
    k2_pay1 (F := Ideal) (k2_pay3 x0) (k2_pay4 x1) x2 zi zf (k2_pay7 x5) (k2_pay8 x9) x13
      = addf (mulf (logistic zf) x2) (mulf (logistic zi) (tanh (gate1 (k2_pay3 x0) x1 x5 x9 x13))) := rfl

/-- The new hidden state's array: σ(output gate's term) · tanh(new cell state). -/
theorem k2_pay2_eq (x0 x1 : Vec Ideal S256x1024 .f32) (x2 : Vec Ideal S256x128 .f32)
    (zi zf : FVec Ideal S256x128 .f32) (x5 x9 : Vec Ideal S1024x128 .f32) (x13 : Vec Ideal S1x128 .f32)
    (x6 x10 : Vec Ideal S1024x128 .f32) (x14 : Vec Ideal S1x128 .f32) :
    k2_pay2 (F := Ideal) (k2_pay3 x0) (k2_pay4 x1) x2 zi zf (k2_pay7 x5) (k2_pay8 x9) x13 x6 x10 x14
      = mulf (logistic (gate1 (k2_pay3 x0) x1 x6 x10 x14))
          (tanh (k2_pay1 (F := Ideal) (k2_pay3 x0) (k2_pay4 x1) x2 zi zf (k2_pay7 x5) (k2_pay8 x9) x13)) := rfl

/-- THE THIRD CELL'S NEW CELL STATE at (r, l), on one tile of columns. -/
theorem cell2_c (x0 x1 : Vec Ideal S256x1024 .f32) (x2 : Vec Ideal S256x128 .f32)
    (x3 x4 x5 : Vec Ideal S1024x128 .f32) (x7 x8 x9 : Vec Ideal S1024x128 .f32) (x11 x12 x13 : Vec Ideal S1x128 .f32)
    (r : Fin 256) (l : Fin 128) :
    k2_pay1 (F := Ideal) (k2_pay3 x0) (k2_pay4 x1) x2 (k2_pay5 x0 x1 x3 x7 x11) (k2_pay6 x0 x1 x4 x8 x12) (k2_pay7 x5) (k2_pay8 x9) x13 (ix2 r l)
      = Cert.Spec.cC (Cert.Spec.tz x0 x1 x3 x7 x11 r l) (Cert.Spec.tz x0 x1 x4 x8 x12 r l) (Cert.Spec.tz x0 x1 x5 x9 x13 r l) (x2 (ix2 r l)) := by
  rw [k2_pay1_eq, cellC_apply, k2_pay5_apply, k2_pay6_apply, gate1_apply, k2_pay3_eq]

/-- THE THIRD CELL'S NEW HIDDEN STATE at (r, l), on one tile of columns. -/
theorem cell2_h (x0 x1 : Vec Ideal S256x1024 .f32) (x2 : Vec Ideal S256x128 .f32)
    (x3 x4 x5 x6 : Vec Ideal S1024x128 .f32) (x7 x8 x9 x10 : Vec Ideal S1024x128 .f32) (x11 x12 x13 x14 : Vec Ideal S1x128 .f32)
    (r : Fin 256) (l : Fin 128) :
    k2_pay2 (F := Ideal) (k2_pay3 x0) (k2_pay4 x1) x2 (k2_pay5 x0 x1 x3 x7 x11) (k2_pay6 x0 x1 x4 x8 x12) (k2_pay7 x5) (k2_pay8 x9) x13 x6 x10 x14 (ix2 r l)
      = Cert.Spec.cH (Cert.Spec.tz x0 x1 x3 x7 x11 r l) (Cert.Spec.tz x0 x1 x4 x8 x12 r l) (Cert.Spec.tz x0 x1 x5 x9 x13 r l)
          (Cert.Spec.tz x0 x1 x6 x10 x14 r l) (x2 (ix2 r l)) := by
  rw [k2_pay2_eq, cellH_apply, cell2_c, gate1_apply, k2_pay3_eq]
  rfl

end Cert.KernelIdeal.Val

end
-- ==== Proof.KernelIdealVal.Final2.lean ====
/-
  The third LSTM cell's region, from blocks to the arrays: point t of the grid reads the rows of `x` and of `h`, block
  column t (128 columns) of `c`, and for each gate g block column 8g + t of the two weight matrices and of the bias row,
  and writes block column t of the new hidden state and of the new cell state; the eight points' blocks cover the two
  [256, 1024] results, which therefore end holding `Spec.cellH` and `Spec.cellC` of the arrays the region finds.
-/
import proofs.«137003_j53412213293363_2_alg».proof.Proof.KernelIdealFrame.Dat2
import proofs.«137003_j53412213293363_2_alg».proof.Proof.KernelIdealVal.Pay2
import proofs.«137003_j53412213293363_2_alg».proof.Proof.KernelIdealVal.TileLib
import proofs.«137003_j53412213293363_2_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Hand Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## The printed index maps over the grid

The rows of `x` and of `h` are one block each; point `t` reads block column `t` of `c`, block column `8g + t` of the two
weight matrices and of the bias row for gate `g`, and writes block column `t` of the two results. -/

theorem idx2_0 : ∀ t : Fin cfg2.N, win2_0.index t (0 : Fin 2) = 0 ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = t.val :=
  (by decide +kernel : ∀ t : Fin grid2.N, _)
theorem idx2_3 : ∀ t : Fin cfg2.N, win2_3.index t (0 : Fin 2) = 0 ∧ win2_3.index t (1 : Fin 2) = t.val :=
  (by decide +kernel : ∀ t : Fin grid2.N, _)
theorem idx2_4 : ∀ t : Fin cfg2.N, win2_4.index t (0 : Fin 2) = 0 ∧ win2_4.index t (1 : Fin 2) = 8 + t.val :=
  (by decide +kernel : ∀ t : Fin grid2.N, _)
theorem idx2_5 : ∀ t : Fin cfg2.N, win2_5.index t (0 : Fin 2) = 0 ∧ win2_5.index t (1 : Fin 2) = 16 + t.val :=
  (by decide +kernel : ∀ t : Fin grid2.N, _)
theorem idx2_6 : ∀ t : Fin cfg2.N, win2_6.index t (0 : Fin 2) = 0 ∧ win2_6.index t (1 : Fin 2) = 24 + t.val :=
  (by decide +kernel : ∀ t : Fin grid2.N, _)
theorem idx2_7 : ∀ t : Fin cfg2.N, win2_7.index t (0 : Fin 2) = 0 ∧ win2_7.index t (1 : Fin 2) = t.val :=
  (by decide +kernel : ∀ t : Fin grid2.N, _)
theorem idx2_8 : ∀ t : Fin cfg2.N, win2_8.index t (0 : Fin 2) = 0 ∧ win2_8.index t (1 : Fin 2) = 8 + t.val :=
  (by decide +kernel : ∀ t : Fin grid2.N, _)
theorem idx2_9 : ∀ t : Fin cfg2.N, win2_9.index t (0 : Fin 2) = 0 ∧ win2_9.index t (1 : Fin 2) = 16 + t.val :=
  (by decide +kernel : ∀ t : Fin grid2.N, _)
theorem idx2_10 : ∀ t : Fin cfg2.N, win2_10.index t (0 : Fin 2) = 0 ∧ win2_10.index t (1 : Fin 2) = 24 + t.val :=
  (by decide +kernel : ∀ t : Fin grid2.N, _)
theorem idx2_11 : ∀ t : Fin cfg2.N, win2_11.index t (0 : Fin 2) = 0 ∧ win2_11.index t (1 : Fin 2) = t.val :=
  (by decide +kernel : ∀ t : Fin grid2.N, _)
theorem idx2_12 : ∀ t : Fin cfg2.N, win2_12.index t (0 : Fin 2) = 0 ∧ win2_12.index t (1 : Fin 2) = 8 + t.val :=
  (by decide +kernel : ∀ t : Fin grid2.N, _)
theorem idx2_13 : ∀ t : Fin cfg2.N, win2_13.index t (0 : Fin 2) = 0 ∧ win2_13.index t (1 : Fin 2) = 16 + t.val :=
  (by decide +kernel : ∀ t : Fin grid2.N, _)
theorem idx2_14 : ∀ t : Fin cfg2.N, win2_14.index t (0 : Fin 2) = 0 ∧ win2_14.index t (1 : Fin 2) = 24 + t.val :=
  (by decide +kernel : ∀ t : Fin grid2.N, _)
theorem idx2_15 : ∀ t : Fin cfg2.N, win2_15.index t (0 : Fin 2) = 0 ∧ win2_15.index t (1 : Fin 2) = t.val :=
  (by decide +kernel : ∀ t : Fin grid2.N, _)
theorem idx2_16 : ∀ t : Fin cfg2.N, win2_16.index t (0 : Fin 2) = 0 ∧ win2_16.index t (1 : Fin 2) = t.val :=
  (by decide +kernel : ∀ t : Fin grid2.N, _)

/-! ## Each input block, entry by entry, as entries of the array the region finds -/

/-- The rows of `x`. -/
theorem blk2_0 (c : Dev nD) (t : Fin cfg2.N) (r : Fin 256) (k : Fin 1024) :
    (iblk2 V c 0 t : S256x1024.Idx → EReal) (ix2 r k) = (V c main_v3_0 : S256x1024.Idx → EReal) (ix2 r k) := by
  obtain ⟨f0, f1⟩ := idx2_0 t
  show V c main_v3_0 (((cfg2.win 0).blk t).view.emb (ix2 r k)) = _
  refine congrArg _ (funext fun a => Fin.ext ?_)
  match a with
  | ⟨0, _⟩ => show win2_0.index t (0 : Fin 2) * 256 + 1 * r.val = r.val; omega
  | ⟨1, _⟩ => show win2_0.index t (1 : Fin 2) * 1024 + 1 * k.val = k.val; omega
/-- The rows of `h`. -/
theorem blk2_1 (c : Dev nD) (t : Fin cfg2.N) (r : Fin 256) (k : Fin 1024) :
    (iblk2 V c 1 t : S256x1024.Idx → EReal) (ix2 r k) = (V c main_arg5 : S256x1024.Idx → EReal) (ix2 r k) := by
  obtain ⟨f0, f1⟩ := idx2_1 t
  show V c main_arg5 (((cfg2.win 1).blk t).view.emb (ix2 r k)) = _
  refine congrArg _ (funext fun a => Fin.ext ?_)
  match a with
  | ⟨0, _⟩ => show win2_1.index t (0 : Fin 2) * 256 + 1 * r.val = r.val; omega
  | ⟨1, _⟩ => show win2_1.index t (1 : Fin 2) * 1024 + 1 * k.val = k.val; omega
/-- The tile of `c`. -/
theorem blk2_2 (c : Dev nD) (t : Fin cfg2.N) (r : Fin 256) (l : Fin 128) :
    (iblk2 V c 2 t : S256x128.Idx → EReal) (ix2 r l)
      = (V c main_arg6 : S256x1024.Idx → EReal) (ix2 r (tcol t.val (lt_of_lt_of_eq t.isLt N_2) l)) := by
  obtain ⟨f0, f1⟩ := idx2_2 t
  show V c main_arg6 (((cfg2.win 2).blk t).view.emb (ix2 r l)) = _
  refine congrArg _ (funext fun a => Fin.ext ?_)
  match a with
  | ⟨0, _⟩ => show win2_2.index t (0 : Fin 2) * 256 + 1 * r.val = r.val; omega
  | ⟨1, _⟩ => show win2_2.index t (1 : Fin 2) * 128 + 1 * l.val = t.val * 128 + l.val; omega
/-- The input gate's tile of `W`. -/
theorem blk2_3 (c : Dev nD) (t : Fin cfg2.N) (k : Fin 1024) (l : Fin 128) :
    (iblk2 V c 3 t : S1024x128.Idx → EReal) (ix2 k l)
      = (V c main_arg13 : S1024x4096.Idx → EReal) (ix2 k (Cert.Spec.col 0 (tcol t.val (lt_of_lt_of_eq t.isLt N_2) l))) := by
  obtain ⟨f0, f1⟩ := idx2_3 t
  show V c main_arg13 (((cfg2.win 3).blk t).view.emb (ix2 k l)) = _
  refine congrArg _ (funext fun a => Fin.ext ?_)
  match a with
  | ⟨0, _⟩ => show win2_3.index t (0 : Fin 2) * 1024 + 1 * k.val = k.val; omega
  | ⟨1, _⟩ => show win2_3.index t (1 : Fin 2) * 128 + 1 * l.val = 0 * 1024 + (t.val * 128 + l.val); omega
/-- The forget gate's tile of `W`. -/
theorem blk2_4 (c : Dev nD) (t : Fin cfg2.N) (k : Fin 1024) (l : Fin 128) :
    (iblk2 V c 4 t : S1024x128.Idx → EReal) (ix2 k l)
      = (V c main_arg13 : S1024x4096.Idx → EReal) (ix2 k (Cert.Spec.col 1 (tcol t.val (lt_of_lt_of_eq t.isLt N_2) l))) := by
  obtain ⟨f0, f1⟩ := idx2_4 t
  show V c main_arg13 (((cfg2.win 4).blk t).view.emb (ix2 k l)) = _
  refine congrArg _ (funext fun a => Fin.ext ?_)
  match a with
  | ⟨0, _⟩ => show win2_4.index t (0 : Fin 2) * 1024 + 1 * k.val = k.val; omega
  | ⟨1, _⟩ => show win2_4.index t (1 : Fin 2) * 128 + 1 * l.val = 1 * 1024 + (t.val * 128 + l.val); omega
/-- The candidate gate's tile of `W`. -/
theorem blk2_5 (c : Dev nD) (t : Fin cfg2.N) (k : Fin 1024) (l : Fin 128) :
    (iblk2 V c 5 t : S1024x128.Idx → EReal) (ix2 k l)
      = (V c main_arg13 : S1024x4096.Idx → EReal) (ix2 k (Cert.Spec.col 2 (tcol t.val (lt_of_lt_of_eq t.isLt N_2) l))) := by
  obtain ⟨f0, f1⟩ := idx2_5 t
  show V c main_arg13 (((cfg2.win 5).blk t).view.emb (ix2 k l)) = _
  refine congrArg _ (funext fun a => Fin.ext ?_)
  match a with
  | ⟨0, _⟩ => show win2_5.index t (0 : Fin 2) * 1024 + 1 * k.val = k.val; omega
  | ⟨1, _⟩ => show win2_5.index t (1 : Fin 2) * 128 + 1 * l.val = 2 * 1024 + (t.val * 128 + l.val); omega
/-- The output gate's tile of `W`. -/
theorem blk2_6 (c : Dev nD) (t : Fin cfg2.N) (k : Fin 1024) (l : Fin 128) :
    (iblk2 V c 6 t : S1024x128.Idx → EReal) (ix2 k l)
      = (V c main_arg13 : S1024x4096.Idx → EReal) (ix2 k (Cert.Spec.col 3 (tcol t.val (lt_of_lt_of_eq t.isLt N_2) l))) := by
  obtain ⟨f0, f1⟩ := idx2_6 t
  show V c main_arg13 (((cfg2.win 6).blk t).view.emb (ix2 k l)) = _
  refine congrArg _ (funext fun a => Fin.ext ?_)
  match a with
  | ⟨0, _⟩ => show win2_6.index t (0 : Fin 2) * 1024 + 1 * k.val = k.val; omega
  | ⟨1, _⟩ => show win2_6.index t (1 : Fin 2) * 128 + 1 * l.val = 3 * 1024 + (t.val * 128 + l.val); omega
/-- The input gate's tile of `U`. -/
theorem blk2_7 (c : Dev nD) (t : Fin cfg2.N) (k : Fin 1024) (l : Fin 128) :
    (iblk2 V c 7 t : S1024x128.Idx → EReal) (ix2 k l)
      = (V c main_arg14 : S1024x4096.Idx → EReal) (ix2 k (Cert.Spec.col 0 (tcol t.val (lt_of_lt_of_eq t.isLt N_2) l))) := by
  obtain ⟨f0, f1⟩ := idx2_7 t
  show V c main_arg14 (((cfg2.win 7).blk t).view.emb (ix2 k l)) = _
  refine congrArg _ (funext fun a => Fin.ext ?_)
  match a with
  | ⟨0, _⟩ => show win2_7.index t (0 : Fin 2) * 1024 + 1 * k.val = k.val; omega
  | ⟨1, _⟩ => show win2_7.index t (1 : Fin 2) * 128 + 1 * l.val = 0 * 1024 + (t.val * 128 + l.val); omega
/-- The forget gate's tile of `U`. -/
theorem blk2_8 (c : Dev nD) (t : Fin cfg2.N) (k : Fin 1024) (l : Fin 128) :
    (iblk2 V c 8 t : S1024x128.Idx → EReal) (ix2 k l)
      = (V c main_arg14 : S1024x4096.Idx → EReal) (ix2 k (Cert.Spec.col 1 (tcol t.val (lt_of_lt_of_eq t.isLt N_2) l))) := by
  obtain ⟨f0, f1⟩ := idx2_8 t
  show V c main_arg14 (((cfg2.win 8).blk t).view.emb (ix2 k l)) = _
  refine congrArg _ (funext fun a => Fin.ext ?_)
  match a with
  | ⟨0, _⟩ => show win2_8.index t (0 : Fin 2) * 1024 + 1 * k.val = k.val; omega
  | ⟨1, _⟩ => show win2_8.index t (1 : Fin 2) * 128 + 1 * l.val = 1 * 1024 + (t.val * 128 + l.val); omega
/-- The candidate gate's tile of `U`. -/
theorem blk2_9 (c : Dev nD) (t : Fin cfg2.N) (k : Fin 1024) (l : Fin 128) :
    (iblk2 V c 9 t : S1024x128.Idx → EReal) (ix2 k l)
      = (V c main_arg14 : S1024x4096.Idx → EReal) (ix2 k (Cert.Spec.col 2 (tcol t.val (lt_of_lt_of_eq t.isLt N_2) l))) := by
  obtain ⟨f0, f1⟩ := idx2_9 t
  show V c main_arg14 (((cfg2.win 9).blk t).view.emb (ix2 k l)) = _
  refine congrArg _ (funext fun a => Fin.ext ?_)
  match a with
  | ⟨0, _⟩ => show win2_9.index t (0 : Fin 2) * 1024 + 1 * k.val = k.val; omega
  | ⟨1, _⟩ => show win2_9.index t (1 : Fin 2) * 128 + 1 * l.val = 2 * 1024 + (t.val * 128 + l.val); omega
/-- The output gate's tile of `U`. -/
theorem blk2_10 (c : Dev nD) (t : Fin cfg2.N) (k : Fin 1024) (l : Fin 128) :
    (iblk2 V c 10 t : S1024x128.Idx → EReal) (ix2 k l)
      = (V c main_arg14 : S1024x4096.Idx → EReal) (ix2 k (Cert.Spec.col 3 (tcol t.val (lt_of_lt_of_eq t.isLt N_2) l))) := by
  obtain ⟨f0, f1⟩ := idx2_10 t
  show V c main_arg14 (((cfg2.win 10).blk t).view.emb (ix2 k l)) = _
  refine congrArg _ (funext fun a => Fin.ext ?_)
  match a with
  | ⟨0, _⟩ => show win2_10.index t (0 : Fin 2) * 1024 + 1 * k.val = k.val; omega
  | ⟨1, _⟩ => show win2_10.index t (1 : Fin 2) * 128 + 1 * l.val = 3 * 1024 + (t.val * 128 + l.val); omega
/-- The input gate's tile of the bias row. -/
theorem blk2_11 (c : Dev nD) (t : Fin cfg2.N) (l : Fin 128) :
    (iblk2 V c 11 t : S1x128.Idx → EReal) (ix2 (0 : Fin 1) l)
      = (V c main_v4 : S1x4096.Idx → EReal) (ix2 (0 : Fin 1) (Cert.Spec.col 0 (tcol t.val (lt_of_lt_of_eq t.isLt N_2) l))) := by
  obtain ⟨f0, f1⟩ := idx2_11 t
  show V c main_v4 (((cfg2.win 11).blk t).view.emb (ix2 (0 : Fin 1) l)) = _
  refine congrArg _ (funext fun a => Fin.ext ?_)
  match a with
  | ⟨0, _⟩ => show win2_11.index t (0 : Fin 2) * 1 + 1 * 0 = 0; omega
  | ⟨1, _⟩ => show win2_11.index t (1 : Fin 2) * 128 + 1 * l.val = 0 * 1024 + (t.val * 128 + l.val); omega
/-- The forget gate's tile of the bias row. -/
theorem blk2_12 (c : Dev nD) (t : Fin cfg2.N) (l : Fin 128) :
    (iblk2 V c 12 t : S1x128.Idx → EReal) (ix2 (0 : Fin 1) l)
      = (V c main_v4 : S1x4096.Idx → EReal) (ix2 (0 : Fin 1) (Cert.Spec.col 1 (tcol t.val (lt_of_lt_of_eq t.isLt N_2) l))) := by
  obtain ⟨f0, f1⟩ := idx2_12 t
  show V c main_v4 (((cfg2.win 12).blk t).view.emb (ix2 (0 : Fin 1) l)) = _
  refine congrArg _ (funext fun a => Fin.ext ?_)
  match a with
  | ⟨0, _⟩ => show win2_12.index t (0 : Fin 2) * 1 + 1 * 0 = 0; omega
  | ⟨1, _⟩ => show win2_12.index t (1 : Fin 2) * 128 + 1 * l.val = 1 * 1024 + (t.val * 128 + l.val); omega
/-- The candidate gate's tile of the bias row. -/
theorem blk2_13 (c : Dev nD) (t : Fin cfg2.N) (l : Fin 128) :
    (iblk2 V c 13 t : S1x128.Idx → EReal) (ix2 (0 : Fin 1) l)
      = (V c main_v4 : S1x4096.Idx → EReal) (ix2 (0 : Fin 1) (Cert.Spec.col 2 (tcol t.val (lt_of_lt_of_eq t.isLt N_2) l))) := by
  obtain ⟨f0, f1⟩ := idx2_13 t
  show V c main_v4 (((cfg2.win 13).blk t).view.emb (ix2 (0 : Fin 1) l)) = _
  refine congrArg _ (funext fun a => Fin.ext ?_)
  match a with
  | ⟨0, _⟩ => show win2_13.index t (0 : Fin 2) * 1 + 1 * 0 = 0; omega
  | ⟨1, _⟩ => show win2_13.index t (1 : Fin 2) * 128 + 1 * l.val = 2 * 1024 + (t.val * 128 + l.val); omega
/-- The output gate's tile of the bias row. -/
theorem blk2_14 (c : Dev nD) (t : Fin cfg2.N) (l : Fin 128) :
    (iblk2 V c 14 t : S1x128.Idx → EReal) (ix2 (0 : Fin 1) l)
      = (V c main_v4 : S1x4096.Idx → EReal) (ix2 (0 : Fin 1) (Cert.Spec.col 3 (tcol t.val (lt_of_lt_of_eq t.isLt N_2) l))) := by
  obtain ⟨f0, f1⟩ := idx2_14 t
  show V c main_v4 (((cfg2.win 14).blk t).view.emb (ix2 (0 : Fin 1) l)) = _
  refine congrArg _ (funext fun a => Fin.ext ?_)
  match a with
  | ⟨0, _⟩ => show win2_14.index t (0 : Fin 2) * 1 + 1 * 0 = 0; omega
  | ⟨1, _⟩ => show win2_14.index t (1 : Fin 2) * 128 + 1 * l.val = 3 * 1024 + (t.val * 128 + l.val); omega

/-! ## From blocks to the two result arrays -/

/-- WHAT POINT `t` WRITES BACK into the new hidden state's array is block `t` of `Spec.cellH` of the arrays as the region finds them. -/
theorem flushed2_15_eq (c : Dev nD) (b : Cert.Spec.Vc 4096) (hb : ∀ j : Fin 4096, (V c main_v4 : S1x4096.Idx → EReal) (ix2 (0 : Fin 1) j) = b (ix1 j)) (t : Fin cfg2.N) :
    (dat2 (F := Ideal) V c).flushed 15 t
      = ((cfg2.win 15).blk t).view.read (Elt Ideal) (Cert.Spec.cellH (V c main_v3_0) (V c main_arg5) (V c main_arg6) (V c main_arg13) (V c main_arg14) b) := by
  show (cfg2.win 15).cut (grid2.coords t) ((dat2 (F := Ideal) V c).after 15 t) = _
  rw [after2_15]
  unfold out2_15
  rw [View.canon_unit_zero hz2]
  simp only [View.ld_unit_zero (S := S256x1024) hz2, View.ld_unit_zero (S := S256x128) hz2,
    View.ld_unit_zero (S := S1024x128) hz2, View.ld_unit_zero (S := S1x128) hz2]
  obtain ⟨f0, f1⟩ := idx2_15 t
  have hN : t.val < 8 := lt_of_lt_of_eq t.isLt N_2
  funext j
  obtain ⟨p, q, rfl⟩ : ∃ (p : Fin 256) (q : Fin 128), j = ix2 p q := ⟨j 0, j 1, eq_ix2 (n0 := 256) (n1 := 128) j⟩
  show _ = Cert.Spec.cellH (V c main_v3_0) (V c main_arg5) (V c main_arg6) (V c main_arg13) (V c main_arg14) b (((cfg2.win 15).blk t).view.emb (ix2 p q))
  have hemb : ((cfg2.win 15).blk t).view.emb (ix2 p q) = ix2 p (tcol t.val hN q) := by
    funext a; apply Fin.ext
    match a with
    | ⟨0, _⟩ => show win2_15.index t (0 : Fin 2) * 256 + 1 * p.val = p.val; omega
    | ⟨1, _⟩ => show win2_15.index t (1 : Fin 2) * 128 + 1 * q.val = t.val * 128 + q.val; omega
  rw [hemb]
  refine (cell2_h (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) p q).trans ?_
  exact cellH_tile (V c main_v3_0) (V c main_arg5) (V c main_arg6) (V c main_arg13) (V c main_arg14) (V c main_v4) b hb (tcol t.val hN q)
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) p q
    (fun k => blk2_0 V c t p k) (fun k => blk2_1 V c t p k) (blk2_2 V c t p q)
    (fun k => blk2_3 V c t k q) (fun k => blk2_4 V c t k q) (fun k => blk2_5 V c t k q) (fun k => blk2_6 V c t k q)
    (fun k => blk2_7 V c t k q) (fun k => blk2_8 V c t k q) (fun k => blk2_9 V c t k q) (fun k => blk2_10 V c t k q)
    (blk2_11 V c t q) (blk2_12 V c t q) (blk2_13 V c t q) (blk2_14 V c t q)

/-- An index of the new hidden state's array is in point `t`'s block iff each coordinate is in the block's range on its axis. -/
theorem mem_blk2_15 (t : Fin cfg2.N) (i : S256x1024.Idx) :
    i ∈ ((cfg2.win 15).blk t).view.set ↔ ∀ a : Fin 2, win2_15.index t a * S256x128.size a ≤ (i a).val ∧ (i a).val < win2_15.index t a * S256x128.size a + S256x128.size a := by
  show i ∈ ((View.whole main_v5_0).slice (win2_15.rect t)).set ↔ _
  rw [View.set_slice_whole, Rect.mem_set_unit]
  exact Iff.rfl

/-- THE THIRD CELL'S NEW HIDDEN STATE after the region: column j is written by point j / 128. -/
theorem final2_h (c : Dev nD) (b : Cert.Spec.Vc 4096) (hb : ∀ j : Fin 4096, (V c main_v4 : S1x4096.Idx → EReal) (ix2 (0 : Fin 1) j) = b (ix1 j)) :
    (dat2 (F := Ideal) V c).arrAt 15 cfg2.N = Cert.Spec.cellH (V c main_v3_0) (V c main_arg5) (V c main_arg6) (V c main_arg13) (V c main_arg14) b :=
  (dat2 (F := Ideal) V c).arrAt_eq_of_cover 15 (Cert.Spec.cellH (V c main_v3_0) (V c main_arg5) (V c main_arg6) (V c main_arg13) (V c main_arg14) b)
    (fun t _ => flushed2_15_eq V c b hb t) fun i => by
      have hi0 : (i 0).val < 256 := (i 0).isLt
      have hi1 : (i 1).val < 1024 := (i 1).isLt
      have hN : cfg2.N = 8 := N_2
      refine ⟨⟨(i 1).val / 128, by rw [hN]; omega⟩, flush2_15 _, ?_⟩
      rw [mem_blk2_15]
      obtain ⟨f0, f1⟩ := idx2_15 ⟨(i 1).val / 128, by rw [hN]; omega⟩
      intro a
      match a with
      | ⟨0, _⟩ => show win2_15.index _ (0 : Fin 2) * 256 ≤ (i 0).val ∧ (i 0).val < win2_15.index _ (0 : Fin 2) * 256 + 256; rw [f0]; omega
      | ⟨1, _⟩ => show win2_15.index _ (1 : Fin 2) * 128 ≤ (i 1).val ∧ (i 1).val < win2_15.index _ (1 : Fin 2) * 128 + 128; rw [f1]; show _ / 128 * 128 ≤ _ ∧ _ < _ / 128 * 128 + 128; omega

/-- WHAT POINT `t` WRITES BACK into the new cell state's array is block `t` of `Spec.cellC` of the arrays as the region finds them. -/
theorem flushed2_16_eq (c : Dev nD) (b : Cert.Spec.Vc 4096) (hb : ∀ j : Fin 4096, (V c main_v4 : S1x4096.Idx → EReal) (ix2 (0 : Fin 1) j) = b (ix1 j)) (t : Fin cfg2.N) :
    (dat2 (F := Ideal) V c).flushed 16 t
      = ((cfg2.win 16).blk t).view.read (Elt Ideal) (Cert.Spec.cellC (V c main_v3_0) (V c main_arg5) (V c main_arg6) (V c main_arg13) (V c main_arg14) b) := by
  show (cfg2.win 16).cut (grid2.coords t) ((dat2 (F := Ideal) V c).after 16 t) = _
  rw [after2_16]
  unfold out2_16
  rw [View.canon_unit_zero hz2]
  simp only [View.ld_unit_zero (S := S256x1024) hz2, View.ld_unit_zero (S := S256x128) hz2,
    View.ld_unit_zero (S := S1024x128) hz2, View.ld_unit_zero (S := S1x128) hz2]
  obtain ⟨f0, f1⟩ := idx2_16 t
  have hN : t.val < 8 := lt_of_lt_of_eq t.isLt N_2
  funext j
  obtain ⟨p, q, rfl⟩ : ∃ (p : Fin 256) (q : Fin 128), j = ix2 p q := ⟨j 0, j 1, eq_ix2 (n0 := 256) (n1 := 128) j⟩
  show _ = Cert.Spec.cellC (V c main_v3_0) (V c main_arg5) (V c main_arg6) (V c main_arg13) (V c main_arg14) b (((cfg2.win 16).blk t).view.emb (ix2 p q))
  have hemb : ((cfg2.win 16).blk t).view.emb (ix2 p q) = ix2 p (tcol t.val hN q) := by
    funext a; apply Fin.ext
    match a with
    | ⟨0, _⟩ => show win2_16.index t (0 : Fin 2) * 256 + 1 * p.val = p.val; omega
    | ⟨1, _⟩ => show win2_16.index t (1 : Fin 2) * 128 + 1 * q.val = t.val * 128 + q.val; omega
  rw [hemb]
  refine (cell2_c (iblk2 V c 0 t) (iblk2 V c 1 t) (iblk2 V c 2 t) (iblk2 V c 3 t) (iblk2 V c 4 t) (iblk2 V c 5 t) (iblk2 V c 7 t) (iblk2 V c 8 t) (iblk2 V c 9 t) (iblk2 V c 11 t) (iblk2 V c 12 t) (iblk2 V c 13 t) p q).trans ?_
  exact cellC_tile (V c main_v3_0) (V c main_arg5) (V c main_arg6) (V c main_arg13) (V c main_arg14) (V c main_v4) b hb (tcol t.val hN q)
    (iblk2 V c 0 t) (iblk2 V c 1 t) (iblk2 V c 2 t) (iblk2 V c 3 t) (iblk2 V c 4 t) (iblk2 V c 5 t) (iblk2 V c 7 t) (iblk2 V c 8 t) (iblk2 V c 9 t) (iblk2 V c 11 t) (iblk2 V c 12 t) (iblk2 V c 13 t) p q
    (fun k => blk2_0 V c t p k) (fun k => blk2_1 V c t p k) (blk2_2 V c t p q)
    (fun k => blk2_3 V c t k q) (fun k => blk2_4 V c t k q) (fun k => blk2_5 V c t k q)
    (fun k => blk2_7 V c t k q) (fun k => blk2_8 V c t k q) (fun k => blk2_9 V c t k q)
    (blk2_11 V c t q) (blk2_12 V c t q) (blk2_13 V c t q)

/-- An index of the new cell state's array is in point `t`'s block iff each coordinate is in the block's range on its axis. -/
theorem mem_blk2_16 (t : Fin cfg2.N) (i : S256x1024.Idx) :
    i ∈ ((cfg2.win 16).blk t).view.set ↔ ∀ a : Fin 2, win2_16.index t a * S256x128.size a ≤ (i a).val ∧ (i a).val < win2_16.index t a * S256x128.size a + S256x128.size a := by
  show i ∈ ((View.whole main_v5_1).slice (win2_16.rect t)).set ↔ _
  rw [View.set_slice_whole, Rect.mem_set_unit]
  exact Iff.rfl

/-- THE THIRD CELL'S NEW CELL STATE after the region: column j is written by point j / 128. -/
theorem final2_c (c : Dev nD) (b : Cert.Spec.Vc 4096) (hb : ∀ j : Fin 4096, (V c main_v4 : S1x4096.Idx → EReal) (ix2 (0 : Fin 1) j) = b (ix1 j)) :
    (dat2 (F := Ideal) V c).arrAt 16 cfg2.N = Cert.Spec.cellC (V c main_v3_0) (V c main_arg5) (V c main_arg6) (V c main_arg13) (V c main_arg14) b :=
  (dat2 (F := Ideal) V c).arrAt_eq_of_cover 16 (Cert.Spec.cellC (V c main_v3_0) (V c main_arg5) (V c main_arg6) (V c main_arg13) (V c main_arg14) b)
    (fun t _ => flushed2_16_eq V c b hb t) fun i => by
      have hi0 : (i 0).val < 256 := (i 0).isLt
      have hi1 : (i 1).val < 1024 := (i 1).isLt
      have hN : cfg2.N = 8 := N_2
      refine ⟨⟨(i 1).val / 128, by rw [hN]; omega⟩, flush2_16 _, ?_⟩
      rw [mem_blk2_16]
      obtain ⟨f0, f1⟩ := idx2_16 ⟨(i 1).val / 128, by rw [hN]; omega⟩
      intro a
      match a with
      | ⟨0, _⟩ => show win2_16.index _ (0 : Fin 2) * 256 ≤ (i 0).val ∧ (i 0).val < win2_16.index _ (0 : Fin 2) * 256 + 256; rw [f0]; omega
      | ⟨1, _⟩ => show win2_16.index _ (1 : Fin 2) * 128 ≤ (i 1).val ∧ (i 1).val < win2_16.index _ (1 : Fin 2) * 128 + 128; rw [f1]; show _ / 128 * 128 ≤ _ ∧ _ < _ / 128 * 128 + 128; omega

end Cert.KernelIdeal.Val

end
-- ==== Proof.KernelIdealVal.Pay3.lean ====
/-
  The dense layer's body, read at an index: on one tile of 256 columns its stored array is at entry (r, l) the row r of
  the last hidden state against column l of the tile of the weight matrix, plus entry l of the tile of the bias row.
-/
import proofs.«137003_j53412213293363_2_alg».proof.Proof.KernelIdealVal.PayLib

noncomputable section

open scoped BigOperators

namespace Cert.KernelIdeal.Val

open Cert.KernelIdeal Cert.KernelIdeal.Gen Idealize.ShloMosaic Idealize.ShloMosaic.ValueIdx

/-- THE DENSE LAYER at (r, l), on one tile of 256 columns: h·w + b, the bias row read at every row. The cast of the
    rows of `h` and of the bias row to their own shapes, and the narrowing of the two operands, change nothing. -/
theorem dense3 (x0 : Vec Ideal S256x1024 .f32) (x1 : Vec Ideal S1024x256 .f32) (x2 : Vec Ideal S1x256 .f32)
    (r : Fin 256) (l : Fin 256) :
    k3_pay1 (F := Ideal) x0 x1 x2 (ix2 r l) = Cert.Spec.tdense x0 x1 x2 r l := by
  show matmul dot_S256x1024_S1024x256_S256x256_1_0_0_1_n_n none
        (truncf .bf16 (shapeCast S256x1024 x0 shapeCasts_S256x1024_S256x1024) bitsLt_bf16_f32) (truncf .bf16 x1 bitsLt_bf16_f32)
        (constant (F := Ideal) S256x256 .f32 0x00000000#32) (ix2 r l)
      + broadcastTo S256x256 (shapeCast S1x256 x2 shapeCasts_S1x256_S1x256) broadcasts_S1x256_S256x256 (ix2 r l) = _
  rw [matmul1024w_apply, shapeCast_self, shapeCast_self, broadcastTo_1b_ab_apply]
  rfl

end Cert.KernelIdeal.Val

end
-- ==== Proof.KernelIdealVal.Final3.lean ====
/-
  The dense layer's region, from blocks to the array: point t of the grid reads the rows of the last hidden state, block
  column t (256 columns) of the weight matrix and of the bias row, and writes block column t of the result; the two points'
  blocks cover the [256, 512] result, which therefore ends holding `Spec.dense` of the arrays the region finds.
-/
import proofs.«137003_j53412213293363_2_alg».proof.Proof.KernelIdealFrame.Dat3
import proofs.«137003_j53412213293363_2_alg».proof.Proof.KernelIdealVal.Pay3
import proofs.«137003_j53412213293363_2_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Hand Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- One tile of the dense layer: when the body's three inputs are the rows of `h`, the 256 columns of `W` from column
    `o` on and the same columns of the bias row, its result at (r, l) is the dense layer at (r, o + l). -/
theorem dense_tile (h : Cert.Spec.Mat 256 1024) (W : Cert.Spec.Mat 1024 512) (brow : Cert.Spec.Mat 1 512) (bp : Cert.Spec.Vc 512)
    (hb : ∀ j : Fin 512, brow (ix2 (0 : Fin 1) j) = bp (ix1 j))
    (x0 : Vec Ideal S256x1024 .f32) (x1 : Vec Ideal S1024x256 .f32) (x2 : Vec Ideal S1x256 .f32)
    (o : Nat) (ho : o + 256 ≤ 512)
    (e0 : ∀ (r : Fin 256) (k : Fin 1024), x0 (ix2 r k) = h (ix2 r k))
    (e1 : ∀ (k : Fin 1024) (l : Fin 256), x1 (ix2 k l) = W (ix2 k (⟨o + l.val, by omega⟩ : Fin 512)))
    (e2 : ∀ l : Fin 256, x2 (ix2 (0 : Fin 1) l) = brow (ix2 (0 : Fin 1) (⟨o + l.val, by omega⟩ : Fin 512)))
    (r : Fin 256) (l : Fin 256) :
    k3_pay1 (F := Ideal) x0 x1 x2 (ix2 r l) = Cert.Spec.dense h W bp (ix2 r (⟨o + l.val, by omega⟩ : Fin 512)) := by
  rw [dense3]
  show Cert.Spec.dot x0 x1 r l + x2 (ix2 (0 : Fin 1) l)
    = Cert.Spec.dot h W r (⟨o + l.val, by omega⟩ : Fin 512) + bp (ix1 (⟨o + l.val, by omega⟩ : Fin 512))
  rw [e2, hb]
  unfold Cert.Spec.dot
  refine congrArg (· + _) (Finset.sum_congr rfl fun k _ => ?_)
  rw [e0, e1]

/-- The printed index maps over the grid: the rows of `h` are one block; point `t` reads block column `t` of the weight
    matrix and of the bias row and writes block column `t` of the result. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = t.val
    ∧ win3_2.index t (0 : Fin 2) = 0 ∧ win3_2.index t (1 : Fin 2) = t.val
    ∧ win3_3.index t (0 : Fin 2) = 0 ∧ win3_3.index t (1 : Fin 2) = t.val :=
  (by decide +kernel : ∀ t : Fin grid3.N, _)

/-- WHAT POINT `t` WRITES BACK is block `t` of the dense layer of the arrays as the region finds them. -/
theorem flushed3_eq (c : Dev nD) (b : Cert.Spec.Vc 512)
    (hb : ∀ j : Fin 512, (V c main_v6 : S1x512.Idx → EReal) (ix2 (0 : Fin 1) j) = b (ix1 j)) (t : Fin cfg3.N) :
    (dat3 (F := Ideal) V c).flushed 3 t
      = ((cfg3.win 3).blk t).view.read (Elt Ideal) (Cert.Spec.dense (V c main_v5_0) (V c main_arg16) b) := by
  show (cfg3.win 3).cut (grid3.coords t) ((dat3 (F := Ideal) V c).after 3 t) = _
  rw [after3_3]
  unfold out3_3
  rw [View.canon_unit_zero hz3]
  simp only [View.ld_unit_zero (S := S256x1024) hz3, View.ld_unit_zero (S := S1024x256) hz3, View.ld_unit_zero (S := S1x256) hz3]
  obtain ⟨f00, f01, f10, f11, f20, f21, f30, f31⟩ := idx_facts3 t
  have hN : t.val < 2 := lt_of_lt_of_eq t.isLt N_3
  funext j
  obtain ⟨p, q, rfl⟩ : ∃ (p : Fin 256) (q : Fin 256), j = ix2 p q := ⟨j 0, j 1, eq_ix2 (n0 := 256) (n1 := 256) j⟩
  show k3_pay1 (F := Ideal) (iblk3 V c 0 t) (iblk3 V c 1 t) (iblk3 V c 2 t) (ix2 p q)
    = Cert.Spec.dense (V c main_v5_0) (V c main_arg16) b (((cfg3.win 3).blk t).view.emb (ix2 p q))
  have hemb : ((cfg3.win 3).blk t).view.emb (ix2 p q) = ix2 p (⟨t.val * 256 + q.val, by omega⟩ : Fin 512) := by
    funext a; apply Fin.ext
    match a with
    | ⟨0, _⟩ => show win3_3.index t (0 : Fin 2) * 256 + 1 * p.val = p.val; omega
    | ⟨1, _⟩ => show win3_3.index t (1 : Fin 2) * 256 + 1 * q.val = t.val * 256 + q.val; omega
  rw [hemb]
  refine dense_tile (V c main_v5_0) (V c main_arg16) (V c main_v6) b hb _ _ _ (t.val * 256) (by omega) ?_ ?_ ?_ p q
  · intro r k
    show V c main_v5_0 (((cfg3.win 0).blk t).view.emb (ix2 r k)) = V c main_v5_0 (ix2 r k)
    refine congrArg _ (funext fun a => Fin.ext ?_)
    match a with
    | ⟨0, _⟩ => show win3_0.index t (0 : Fin 2) * 256 + 1 * r.val = r.val; omega
    | ⟨1, _⟩ => show win3_0.index t (1 : Fin 2) * 1024 + 1 * k.val = k.val; omega
  · intro k l
    show V c main_arg16 (((cfg3.win 1).blk t).view.emb (ix2 k l)) = V c main_arg16 (ix2 k (⟨t.val * 256 + l.val, by omega⟩ : Fin 512))
    refine congrArg _ (funext fun a => Fin.ext ?_)
    match a with
    | ⟨0, _⟩ => show win3_1.index t (0 : Fin 2) * 1024 + 1 * k.val = k.val; omega
    | ⟨1, _⟩ => show win3_1.index t (1 : Fin 2) * 256 + 1 * l.val = t.val * 256 + l.val; omega
  · intro l
    show V c main_v6 (((cfg3.win 2).blk t).view.emb (ix2 (0 : Fin 1) l)) = V c main_v6 (ix2 (0 : Fin 1) (⟨t.val * 256 + l.val, by omega⟩ : Fin 512))
    refine congrArg _ (funext fun a => Fin.ext ?_)
    match a with
    | ⟨0, _⟩ => show win3_2.index t (0 : Fin 2) * 1 + 1 * 0 = 0; omega
    | ⟨1, _⟩ => show win3_2.index t (1 : Fin 2) * 256 + 1 * l.val = t.val * 256 + l.val; omega

/-- An index of the result array is in point `t`'s block iff each coordinate is in the block's range on its axis. -/
theorem mem_blk3 (t : Fin cfg3.N) (i : S256x512.Idx) :
    i ∈ ((cfg3.win 3).blk t).view.set ↔ ∀ a : Fin 2, win3_3.index t a * S256x256.size a ≤ (i a).val ∧ (i a).val < win3_3.index t a * S256x256.size a + S256x256.size a := by
  show i ∈ ((View.whole main_v7).slice (win3_3.rect t)).set ↔ _
  rw [View.set_slice_whole, Rect.mem_set_unit]
  exact Iff.rfl

/-- THE DENSE LAYER'S ARRAY after the region: column j is written by point j / 256. -/
theorem final3 (c : Dev nD) (b : Cert.Spec.Vc 512)
    (hb : ∀ j : Fin 512, (V c main_v6 : S1x512.Idx → EReal) (ix2 (0 : Fin 1) j) = b (ix1 j)) :
    (dat3 (F := Ideal) V c).arrAt 3 cfg3.N = Cert.Spec.dense (V c main_v5_0) (V c main_arg16) b :=
  (dat3 (F := Ideal) V c).arrAt_eq_of_cover 3 (Cert.Spec.dense (V c main_v5_0) (V c main_arg16) b)
    (fun t _ => flushed3_eq V c b hb t) fun i => by
      have hi0 : (i 0).val < 256 := (i 0).isLt
      have hi1 : (i 1).val < 512 := (i 1).isLt
      have hN : cfg3.N = 2 := N_3
      refine ⟨⟨(i 1).val / 256, by rw [hN]; omega⟩, flush3_3 _, ?_⟩
      rw [mem_blk3]
      obtain ⟨f00, f01, f10, f11, f20, f21, f30, f31⟩ := idx_facts3 ⟨(i 1).val / 256, by rw [hN]; omega⟩
      intro a
      match a with
      | ⟨0, _⟩ => show win3_3.index _ (0 : Fin 2) * 256 ≤ (i 0).val ∧ (i 0).val < win3_3.index _ (0 : Fin 2) * 256 + 256; rw [f30]; omega
      | ⟨1, _⟩ => show win3_3.index _ (1 : Fin 2) * 256 ≤ (i 1).val ∧ (i 1).val < win3_3.index _ (1 : Fin 2) * 256 + 256; rw [f31]; show _ / 256 * 256 ≤ _ ∧ _ < _ / 256 * 256 + 256; omega

end Cert.KernelIdeal.Val

end
-- ==== Proof.KernelIdealVal.Chain.lean ====
/-
  The kernel program's results as the specification's functions of its arguments. @main is four kernel regions, each
  after one reshape of a bias vector to a row: three LSTM cells, each fed the previous cell's new hidden state, and a
  dense layer fed the last. Each region leaves in its output arrays the specification's function of the arrays it
  finds; an array no earlier item writes is the launch memory's, and a cell's first operand is the array the region
  before it left. Walking the seven results back to the region that wrote them gives them as functions of the
  arguments alone.
-/
import proofs.«137003_j53412213293363_2_alg».proof.Proof.KernelIdealFrame.Run
import proofs.«137003_j53412213293363_2_alg».proof.Proof.KernelIdealVal.HostRows
import proofs.«137003_j53412213293363_2_alg».proof.Proof.KernelIdealVal.Final0
import proofs.«137003_j53412213293363_2_alg».proof.Proof.KernelIdealVal.Final1
import proofs.«137003_j53412213293363_2_alg».proof.Proof.KernelIdealVal.Final2
import proofs.«137003_j53412213293363_2_alg».proof.Proof.KernelIdealVal.Final3
import proofs.«137003_j53412213293363_2_alg».proof.Proof.Spec

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

/-- The kernel program's argument arrays on core `c`, as the specification's record. -/
def kArgs (m : (ℓ : Loc Cert.KernelIdeal.nD Cert.KernelIdeal.τ Cert.KernelIdeal.sig) → Buf (Elt Ideal) ℓ)
    (c : Dev Cert.KernelIdeal.nD) : Cert.Spec.Args where
  x := m ((c.tc : Thread Cert.KernelIdeal.nD Cert.KernelIdeal.τ).loc Cert.KernelIdeal.main_arg0)
  h0 := m ((c.tc : Thread Cert.KernelIdeal.nD Cert.KernelIdeal.τ).loc Cert.KernelIdeal.main_arg1)
  c0 := m ((c.tc : Thread Cert.KernelIdeal.nD Cert.KernelIdeal.τ).loc Cert.KernelIdeal.main_arg2)
  h1 := m ((c.tc : Thread Cert.KernelIdeal.nD Cert.KernelIdeal.τ).loc Cert.KernelIdeal.main_arg3)
  c1 := m ((c.tc : Thread Cert.KernelIdeal.nD Cert.KernelIdeal.τ).loc Cert.KernelIdeal.main_arg4)
  h2 := m ((c.tc : Thread Cert.KernelIdeal.nD Cert.KernelIdeal.τ).loc Cert.KernelIdeal.main_arg5)
  c2 := m ((c.tc : Thread Cert.KernelIdeal.nD Cert.KernelIdeal.τ).loc Cert.KernelIdeal.main_arg6)
  W0 := m ((c.tc : Thread Cert.KernelIdeal.nD Cert.KernelIdeal.τ).loc Cert.KernelIdeal.main_arg7)
  U0 := m ((c.tc : Thread Cert.KernelIdeal.nD Cert.KernelIdeal.τ).loc Cert.KernelIdeal.main_arg8)
  b0 := m ((c.tc : Thread Cert.KernelIdeal.nD Cert.KernelIdeal.τ).loc Cert.KernelIdeal.main_arg9)
  W1 := m ((c.tc : Thread Cert.KernelIdeal.nD Cert.KernelIdeal.τ).loc Cert.KernelIdeal.main_arg10)
  U1 := m ((c.tc : Thread Cert.KernelIdeal.nD Cert.KernelIdeal.τ).loc Cert.KernelIdeal.main_arg11)
  b1 := m ((c.tc : Thread Cert.KernelIdeal.nD Cert.KernelIdeal.τ).loc Cert.KernelIdeal.main_arg12)
  W2 := m ((c.tc : Thread Cert.KernelIdeal.nD Cert.KernelIdeal.τ).loc Cert.KernelIdeal.main_arg13)
  U2 := m ((c.tc : Thread Cert.KernelIdeal.nD Cert.KernelIdeal.τ).loc Cert.KernelIdeal.main_arg14)
  b2 := m ((c.tc : Thread Cert.KernelIdeal.nD Cert.KernelIdeal.τ).loc Cert.KernelIdeal.main_arg15)
  Wp := m ((c.tc : Thread Cert.KernelIdeal.nD Cert.KernelIdeal.τ).loc Cert.KernelIdeal.main_arg16)
  bp := m ((c.tc : Thread Cert.KernelIdeal.nD Cert.KernelIdeal.τ).loc Cert.KernelIdeal.main_arg17)

variable (m : (ℓ : Loc nD τ sig) → Buf (Elt Ideal) ℓ) (ρ : Dev nD → PrngReg)

/-! ## Arrays nothing has written yet -/

/-- An array that nothing before region 0 writes is, at that region's entry, the launch memory's. -/
theorem V1_arg (c : Dev nD) (b : Ref sig .tc) (h0 : b ∉ hostOps0_W) :
    V1 m ρ c b = m ((c : Thread nD τ).loc b) :=
  (W1_of_ne m ρ c b h0).trans rfl
/-- An array that nothing before region 1 writes is, at that region's entry, the launch memory's. -/
theorem V3_arg (c : Dev nD) (b : Ref sig .tc) (h1 : b ∉ hostOps1_W) (h10 : b ≠ main_v1_0) (h11 : b ≠ main_v1_1) (h0 : b ∉ hostOps0_W) :
    V3 m ρ c b = m ((c : Thread nD τ).loc b) :=
  (W3_of_ne m ρ c b h1).trans <| (W2_of_ne m ρ c b h10 h11).trans <| (W1_of_ne m ρ c b h0).trans rfl
/-- An array that nothing before region 2 writes is, at that region's entry, the launch memory's. -/
theorem V5_arg (c : Dev nD) (b : Ref sig .tc) (h2 : b ∉ hostOps2_W) (h30 : b ≠ main_v3_0) (h31 : b ≠ main_v3_1) (h1 : b ∉ hostOps1_W) (h10 : b ≠ main_v1_0) (h11 : b ≠ main_v1_1) (h0 : b ∉ hostOps0_W) :
    V5 m ρ c b = m ((c : Thread nD τ).loc b) :=
  (W5_of_ne m ρ c b h2).trans <| (W4_of_ne m ρ c b h30 h31).trans <| (W3_of_ne m ρ c b h1).trans <| (W2_of_ne m ρ c b h10 h11).trans <| (W1_of_ne m ρ c b h0).trans rfl
/-- An array that nothing before region 3 writes is, at that region's entry, the launch memory's. -/
theorem V7_arg (c : Dev nD) (b : Ref sig .tc) (h3 : b ∉ hostOps3_W) (h50 : b ≠ main_v5_0) (h51 : b ≠ main_v5_1) (h2 : b ∉ hostOps2_W) (h30 : b ≠ main_v3_0) (h31 : b ≠ main_v3_1) (h1 : b ∉ hostOps1_W) (h10 : b ≠ main_v1_0) (h11 : b ≠ main_v1_1) (h0 : b ∉ hostOps0_W) :
    V7 m ρ c b = m ((c : Thread nD τ).loc b) :=
  (W7_of_ne m ρ c b h3).trans <| (W6_of_ne m ρ c b h50 h51).trans <| (W5_of_ne m ρ c b h2).trans <| (W4_of_ne m ρ c b h30 h31).trans <| (W3_of_ne m ρ c b h1).trans <| (W2_of_ne m ρ c b h10 h11).trans <| (W1_of_ne m ρ c b h0).trans rfl

/-! ## What each region leaves, in order -/

/-- Region 0 leaves in its first output array the first cell's new hidden state, as a function of the arguments. -/
theorem o0h_eq (c : Dev nD) : o0h m ρ c = (kArgs m c).h0n := by
  unfold o0h
  refine (final0_h (V1 m ρ) c (m ((c : Thread nD τ).loc main_arg9)) (row0 m ρ c)).trans ?_
  rw [V1_arg m ρ c main_arg0 (by decide), V1_arg m ρ c main_arg1 (by decide),
    V1_arg m ρ c main_arg2 (by decide),
    V1_arg m ρ c main_arg7 (by decide),
    V1_arg m ρ c main_arg8 (by decide)]
  rfl
/-- Region 0 leaves in its second output array the first cell's new cell state, as a function of the arguments. -/
theorem o0c_eq (c : Dev nD) : o0c m ρ c = (kArgs m c).c0n := by
  unfold o0c
  refine (final0_c (V1 m ρ) c (m ((c : Thread nD τ).loc main_arg9)) (row0 m ρ c)).trans ?_
  rw [V1_arg m ρ c main_arg0 (by decide), V1_arg m ρ c main_arg1 (by decide),
    V1_arg m ρ c main_arg2 (by decide),
    V1_arg m ρ c main_arg7 (by decide),
    V1_arg m ρ c main_arg8 (by decide)]
  rfl
/-- Region 1's first operand is region 0's new hidden state. -/
theorem V3_prev (c : Dev nD) : V3 m ρ c main_v1_0 = (kArgs m c).h0n :=
  (W3_of_ne m ρ c main_v1_0 (by decide)).trans <| (W2_main_v1_0 m ρ c).trans (o0h_eq m ρ c)
/-- Region 1 leaves in its first output array the second cell's new hidden state, as a function of the arguments. -/
theorem o1h_eq (c : Dev nD) : o1h m ρ c = (kArgs m c).h1n := by
  unfold o1h
  refine (final1_h (V3 m ρ) c (m ((c : Thread nD τ).loc main_arg12)) (row1 m ρ c)).trans ?_
  rw [V3_prev m ρ c, V3_arg m ρ c main_arg3 (by decide) (by decide) (by decide) (by decide),
    V3_arg m ρ c main_arg4 (by decide) (by decide) (by decide) (by decide),
    V3_arg m ρ c main_arg10 (by decide) (by decide) (by decide) (by decide),
    V3_arg m ρ c main_arg11 (by decide) (by decide) (by decide) (by decide)]
  rfl
/-- Region 1 leaves in its second output array the second cell's new cell state, as a function of the arguments. -/
theorem o1c_eq (c : Dev nD) : o1c m ρ c = (kArgs m c).c1n := by
  unfold o1c
  refine (final1_c (V3 m ρ) c (m ((c : Thread nD τ).loc main_arg12)) (row1 m ρ c)).trans ?_
  rw [V3_prev m ρ c, V3_arg m ρ c main_arg3 (by decide) (by decide) (by decide) (by decide),
    V3_arg m ρ c main_arg4 (by decide) (by decide) (by decide) (by decide),
    V3_arg m ρ c main_arg10 (by decide) (by decide) (by decide) (by decide),
    V3_arg m ρ c main_arg11 (by decide) (by decide) (by decide) (by decide)]
  rfl
/-- Region 2's first operand is region 1's new hidden state. -/
theorem V5_prev (c : Dev nD) : V5 m ρ c main_v3_0 = (kArgs m c).h1n :=
  (W5_of_ne m ρ c main_v3_0 (by decide)).trans <| (W4_main_v3_0 m ρ c).trans (o1h_eq m ρ c)
/-- Region 2 leaves in its first output array the third cell's new hidden state, as a function of the arguments. -/
theorem o2h_eq (c : Dev nD) : o2h m ρ c = (kArgs m c).h2n := by
  unfold o2h
  refine (final2_h (V5 m ρ) c (m ((c : Thread nD τ).loc main_arg15)) (row2 m ρ c)).trans ?_
  rw [V5_prev m ρ c, V5_arg m ρ c main_arg5 (by decide) (by decide) (by decide) (by decide) (by decide) (by decide) (by decide),
    V5_arg m ρ c main_arg6 (by decide) (by decide) (by decide) (by decide) (by decide) (by decide) (by decide),
    V5_arg m ρ c main_arg13 (by decide) (by decide) (by decide) (by decide) (by decide) (by decide) (by decide),
    V5_arg m ρ c main_arg14 (by decide) (by decide) (by decide) (by decide) (by decide) (by decide) (by decide)]
  rfl
/-- Region 2 leaves in its second output array the third cell's new cell state, as a function of the arguments. -/
theorem o2c_eq (c : Dev nD) : o2c m ρ c = (kArgs m c).c2n := by
  unfold o2c
  refine (final2_c (V5 m ρ) c (m ((c : Thread nD τ).loc main_arg15)) (row2 m ρ c)).trans ?_
  rw [V5_prev m ρ c, V5_arg m ρ c main_arg5 (by decide) (by decide) (by decide) (by decide) (by decide) (by decide) (by decide),
    V5_arg m ρ c main_arg6 (by decide) (by decide) (by decide) (by decide) (by decide) (by decide) (by decide),
    V5_arg m ρ c main_arg13 (by decide) (by decide) (by decide) (by decide) (by decide) (by decide) (by decide),
    V5_arg m ρ c main_arg14 (by decide) (by decide) (by decide) (by decide) (by decide) (by decide) (by decide)]
  rfl
/-- Region 3's first operand is region 2's new hidden state. -/
theorem V7_prev (c : Dev nD) : V7 m ρ c main_v5_0 = (kArgs m c).h2n :=
  (W7_of_ne m ρ c main_v5_0 (by decide)).trans <| (W6_main_v5_0 m ρ c).trans (o2h_eq m ρ c)
/-- Region 3 leaves in its output array the dense layer of the third cell's new hidden state: the step's logits. -/
theorem o3_eq (c : Dev nD) : o3 m ρ c = (kArgs m c).logits := by
  unfold o3
  refine (final3 (V7 m ρ) c (m ((c : Thread nD τ).loc main_arg17)) (row3 m ρ c)).trans ?_
  rw [V7_prev m ρ c, V7_arg m ρ c main_arg16 (by decide) (by decide) (by decide) (by decide) (by decide) (by decide) (by decide) (by decide) (by decide) (by decide)]
  rfl

/-! ## The last boundary -/

/-- At @main's return the seven result arrays hold the specification's functions of the arguments. -/
theorem W8_results (c : Dev nD) :
    W8 m ρ c (Proc.devRef .tc main_v7) = (kArgs m c).logits
    ∧ W8 m ρ c (Proc.devRef .tc main_v1_0) = (kArgs m c).h0n
    ∧ W8 m ρ c (Proc.devRef .tc main_v1_1) = (kArgs m c).c0n
    ∧ W8 m ρ c (Proc.devRef .tc main_v3_0) = (kArgs m c).h1n
    ∧ W8 m ρ c (Proc.devRef .tc main_v3_1) = (kArgs m c).c1n
    ∧ W8 m ρ c (Proc.devRef .tc main_v5_0) = (kArgs m c).h2n
    ∧ W8 m ρ c (Proc.devRef .tc main_v5_1) = (kArgs m c).c2n :=
  ⟨(W8_main_v7 m ρ c).trans (o3_eq m ρ c),
   (W8_of_ne m ρ c main_v1_0 (by decide)).trans <| (W7_of_ne m ρ c main_v1_0 (by decide)).trans <| (W6_of_ne m ρ c main_v1_0 (by decide) (by decide)).trans <| (W5_of_ne m ρ c main_v1_0 (by decide)).trans <| (W4_of_ne m ρ c main_v1_0 (by decide) (by decide)).trans <| (W3_of_ne m ρ c main_v1_0 (by decide)).trans <| (W2_main_v1_0 m ρ c).trans (o0h_eq m ρ c),
   (W8_of_ne m ρ c main_v1_1 (by decide)).trans <| (W7_of_ne m ρ c main_v1_1 (by decide)).trans <| (W6_of_ne m ρ c main_v1_1 (by decide) (by decide)).trans <| (W5_of_ne m ρ c main_v1_1 (by decide)).trans <| (W4_of_ne m ρ c main_v1_1 (by decide) (by decide)).trans <| (W3_of_ne m ρ c main_v1_1 (by decide)).trans <| (W2_main_v1_1 m ρ c).trans (o0c_eq m ρ c),
   (W8_of_ne m ρ c main_v3_0 (by decide)).trans <| (W7_of_ne m ρ c main_v3_0 (by decide)).trans <| (W6_of_ne m ρ c main_v3_0 (by decide) (by decide)).trans <| (W5_of_ne m ρ c main_v3_0 (by decide)).trans <| (W4_main_v3_0 m ρ c).trans (o1h_eq m ρ c),
   (W8_of_ne m ρ c main_v3_1 (by decide)).trans <| (W7_of_ne m ρ c main_v3_1 (by decide)).trans <| (W6_of_ne m ρ c main_v3_1 (by decide) (by decide)).trans <| (W5_of_ne m ρ c main_v3_1 (by decide)).trans <| (W4_main_v3_1 m ρ c).trans (o1c_eq m ρ c),
   (W8_of_ne m ρ c main_v5_0 (by decide)).trans <| (W7_of_ne m ρ c main_v5_0 (by decide)).trans <| (W6_main_v5_0 m ρ c).trans (o2h_eq m ρ c),
   (W8_of_ne m ρ c main_v5_1 (by decide)).trans <| (W7_of_ne m ρ c main_v5_1 (by decide)).trans <| (W6_main_v5_1 m ρ c).trans (o2c_eq m ρ c)⟩

/-- Every weakly fair run of the kernel program ends with its results the specification's functions of the arguments,
    and the arguments as they were. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v7) = (kArgs m c).logits
      ∧ r.2.mem ((c.tc : Thread Cert.KernelIdeal.nD Cert.KernelIdeal.τ).loc Cert.KernelIdeal.main_v1_0) = (kArgs m c).h0n
      ∧ r.2.mem ((c.tc : Thread Cert.KernelIdeal.nD Cert.KernelIdeal.τ).loc Cert.KernelIdeal.main_v1_1) = (kArgs m c).c0n
      ∧ r.2.mem ((c.tc : Thread Cert.KernelIdeal.nD Cert.KernelIdeal.τ).loc Cert.KernelIdeal.main_v3_0) = (kArgs m c).h1n
      ∧ r.2.mem ((c.tc : Thread Cert.KernelIdeal.nD Cert.KernelIdeal.τ).loc Cert.KernelIdeal.main_v3_1) = (kArgs m c).c1n
      ∧ r.2.mem ((c.tc : Thread Cert.KernelIdeal.nD Cert.KernelIdeal.τ).loc Cert.KernelIdeal.main_v5_0) = (kArgs m c).h2n
      ∧ r.2.mem ((c.tc : Thread Cert.KernelIdeal.nD Cert.KernelIdeal.τ).loc Cert.KernelIdeal.main_v5_1) = (kArgs m c).c2n
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17) :=
  (θ_run _ _ _).mono (fun r h c =>
    ⟨(h c _ (mem_uc main_v7 (by decide))).trans (W8_results m ρ c).1,
     (h c _ (mem_uc main_v1_0 (by decide))).trans (W8_results m ρ c).2.1,
     (h c _ (mem_uc main_v1_1 (by decide))).trans (W8_results m ρ c).2.2.1,
     (h c _ (mem_uc main_v3_0 (by decide))).trans (W8_results m ρ c).2.2.2.1,
     (h c _ (mem_uc main_v3_1 (by decide))).trans (W8_results m ρ c).2.2.2.2.1,
     (h c _ (mem_uc main_v5_0 (by decide))).trans (W8_results m ρ c).2.2.2.2.2.1,
     (h c _ (mem_uc main_v5_1 (by decide))).trans (W8_results m ρ c).2.2.2.2.2.2,
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c),
     (h c _ (mem_uc main_arg16 (by decide))).trans (W8_main_arg16 m ρ c),
     (h c _ (mem_uc main_arg17 (by decide))).trans (W8_main_arg17 m ρ c)⟩)
    (run_all (F := Ideal) m ρ)

end Cert.KernelIdeal.Val

end
-- ==== Proof.RefSide.lean ====
/-
  The reference's run read one operation at a time: this module gathers the reference-side imports the
  bridge modules build on.
-/
import proofs.«137003_j53412213293363_2_alg».proof.Defs
import proofs.«137003_j53412213293363_2_alg».proof.Proof.Gen.ReferenceIdeal.Run
import proofs.«137003_j53412213293363_2_alg».proof.Proof.Gen.ReferenceIdeal.Read
-- ==== Proof.RefBridge.Basics.lean ====
/-
  Two facts the reference's spelling of a gate rests on. It writes the logistic function as the quotient
  `1 / (1 + e^(-t))` with both ones the single-precision word `0x3F800000`; that word is the number one, and
  with it the quotient is the logistic function of the extended reals. And a gate's quarter of the
  gate-concatenated axis starts at a multiple of 1024, so the entry `j` of quarter `g` sits at column
  `g · 1024 + j`.
-/
import proofs.«137003_j53412213293363_2_alg».proof.Proof.Spec
import proofs.«137003_j53412213293363_2_alg».proof.Proof.RefSide

noncomputable section

namespace Cert.RefBridge

open Idealize.ShloMosaic Idealize.ShloMosaic.ValueIdx

/-- A single-precision array of shape `s` at the extended reals. -/
abbrev A (s : Shape) : Type := (⟨s, .f32⟩ : BufTy).Contents (Elt Ideal)

/-- The single-precision word `0x3F800000` is the number one. -/
theorem one_f32 : Ideal.ofBits .f32 0x3F800000#32 = (1 : EReal) := by
  simp [Ideal.ofBits, Ideal.ieee, -EReal.coe_mul]; norm_num

/-- `1 / (1 + e^(-t))`, the ones spelt as that word, is the logistic function. -/
theorem sigmoid_eq (t : EReal) :
    Ideal.div (Ideal.ofBits .f32 0x3F800000#32) (Ideal.ofBits .f32 0x3F800000#32 + Ideal.exp (-t)) = Ideal.logistic t := by
  rw [one_f32]; rfl

/-- Quarter 0 starts at column 0. -/
theorem col0_val (j : Fin 1024) : j.val = (Cert.Spec.col 0 j).val := by
  show j.val = 0 * 1024 + j.val; omega
/-- Quarter 1 starts at column 1024. -/
theorem col1_val (j : Fin 1024) : 1024 + j.val = (Cert.Spec.col 1 j).val := by
  show 1024 + j.val = 1 * 1024 + j.val; omega
/-- Quarter 2 starts at column 2048. -/
theorem col2_val (j : Fin 1024) : 2048 + j.val = (Cert.Spec.col 2 j).val := by
  show 2048 + j.val = 2 * 1024 + j.val; omega
/-- Quarter 3 starts at column 3072. -/
theorem col3_val (j : Fin 1024) : 3072 + j.val = (Cert.Spec.col 3 j).val := by
  show 3072 + j.val = 3 * 1024 + j.val; omega

end Cert.RefBridge

end
-- ==== Proof.RefBridge.Cell0.lean ====
/-
  The first LSTM cell of the reference, entry by entry; its first operand is the step's input. The four gates'
  pre-activations are one 256 × 4096 array, the two matrix products added and then the bias, repeated along the
  rows; gate `g` reads the quarter of its columns that starts at `g · 1024`. With `1 / (1 + e^(-t))` read as the
  logistic function, the new cell state and the new hidden state are the specification's, term for term.
-/
import proofs.«137003_j53412213293363_2_alg».proof.Proof.RefBridge.Basics

noncomputable section

open scoped BigOperators

namespace Cert.RefBridge

open Cert.ReferenceIdeal Cert.ReferenceIdeal.Read Idealize.ShloMosaic Idealize.ShloMosaic.ValueIdx

/-- The gate pre-activations at row `r`, column `c`: the operand's row against `W`'s column, the hidden state's row
    against `U`'s column, and the bias at that column. -/
theorem gate0 (x0 : A S256x512) (x1 : A S256x1024) (x7 : A S512x4096) (x8 : A S1024x4096) (x9 : A S4096) (r : Fin 256) (c : Fin 4096) :
    val_main_v5 (F := Ideal) x0 x1 x7 x8 x9 (ix2 r c)
      = (Cert.Spec.dot x0 x7 r c + Cert.Spec.dot x1 x8 r c) + x9 (ix1 c) := by
  have el0 : ∀ k : Fin 512, lidx_main_v0 (ix2 r c) k = ix2 r k :=
    fun k => funext fun a => match a with | ⟨0, _⟩ => rfl | ⟨1, _⟩ => rfl
  have er0 : ∀ k : Fin 512, ridx_main_v0 (ix2 r c) k = ix2 k c :=
    fun k => funext fun a => match a with | ⟨0, _⟩ => rfl | ⟨1, _⟩ => rfl
  have el1 : ∀ k : Fin 1024, lidx_main_v1 (ix2 r c) k = ix2 r k :=
    fun k => funext fun a => match a with | ⟨0, _⟩ => rfl | ⟨1, _⟩ => rfl
  have er1 : ∀ k : Fin 1024, ridx_main_v1 (ix2 r c) k = ix2 k c :=
    fun k => funext fun a => match a with | ⟨0, _⟩ => rfl | ⟨1, _⟩ => rfl
  have eb : idx_main_v3 (idx_main_v4 (ix2 r c)) = ix1 c :=
    funext fun a => match a with | ⟨0, _⟩ => rfl
  rw [val_main_v5_apply, val_main_v2_apply, val_main_v0_apply, val_main_v1_apply, val_main_v4_apply, val_main_v3_apply]
  simp only [Ideal.addf_def]
  exact congrArg₂ (fun u w : EReal => u + w)
    (congrArg₂ (fun u w : EReal => u + w)
      (Finset.sum_congr rfl fun k _ => congrArg₂ (fun u w : EReal => u * w) (congrArg x0 (el0 k)) (congrArg x7 (er0 k)))
      (Finset.sum_congr rfl fun k _ => congrArg₂ (fun u w : EReal => u * w) (congrArg x1 (el1 k)) (congrArg x8 (er1 k))))
    (congrArg x9 eb)

/-- Gate 0's quarter: the entry at `(r, j)` is the pre-activation array's at column `0 · 1024 + j`. -/
theorem quarter0_0 (r : Fin 256) (j : Fin 1024) : idx_main_v6 (ix2 r j) = ix2 r (Cert.Spec.col 0 j) :=
  funext fun a => match a with | ⟨0, _⟩ => rfl | ⟨1, _⟩ => Fin.ext (col0_val j)
/-- Gate 1's quarter starts at column 1024. -/
theorem quarter0_1 (r : Fin 256) (j : Fin 1024) : idx_main_v7 (ix2 r j) = ix2 r (Cert.Spec.col 1 j) :=
  funext fun a => match a with | ⟨0, _⟩ => rfl | ⟨1, _⟩ => Fin.ext (col1_val j)
/-- Gate 2's quarter starts at column 2048. -/
theorem quarter0_2 (r : Fin 256) (j : Fin 1024) : idx_main_v8 (ix2 r j) = ix2 r (Cert.Spec.col 2 j) :=
  funext fun a => match a with | ⟨0, _⟩ => rfl | ⟨1, _⟩ => Fin.ext (col2_val j)
/-- Gate 3's quarter starts at column 3072. -/
theorem quarter0_3 (r : Fin 256) (j : Fin 1024) : idx_main_v9 (ix2 r j) = ix2 r (Cert.Spec.col 3 j) :=
  funext fun a => match a with | ⟨0, _⟩ => rfl | ⟨1, _⟩ => Fin.ext (col3_val j)

/-- The new cell state: `σ(z 1) · c + σ(z 0) · tanh(z 2)`. -/
theorem cellC0 (x0 : A S256x512) (x1 x2 : A S256x1024) (x7 : A S512x4096) (x8 : A S1024x4096) (x9 : A S4096) :
    val_main_v31 (F := Ideal) x0 x1 x2 x7 x8 x9 = Cert.Spec.cellC x0 x1 x2 x7 x8 x9 := by
  funext i
  obtain ⟨r, j, rfl⟩ : ∃ (r : Fin 256) (j : Fin 1024), i = ix2 r j := ⟨i 0, i 1, eq_ix2 i⟩
  simp only [val_main_v31_apply, val_main_v29_apply, val_main_v30_apply, val_main_v21_apply, val_main_v15_apply, val_main_v22_apply, val_main_v20_apply, val_main_v19_apply, val_main_v18_apply, val_main_v17_apply, val_main_v16_apply, val_main_v14_apply, val_main_v13_apply, val_main_v12_apply, val_main_v11_apply, val_main_v10_apply, val_main_v8_apply, val_main_v7_apply, val_main_v6_apply,
    val_main_cst_apply, val_main_cst_0_apply, val_main_cst_1_apply, val_main_cst_2_apply]
  rw [quarter0_0, quarter0_1, quarter0_2]
  simp only [gate0, Ideal.addf_def, Ideal.mulf_def, Ideal.hostDivf_def, Ideal.hostUnary_exp_def, Ideal.hostUnary_tanh_def,
    Ideal.hostNegf_def, Ideal.negf_def, Ideal.ofBits_def, one_f32]
  rfl

/-- The new hidden state: `σ(z 3) · tanh` of the new cell state. -/
theorem cellH0 (x0 : A S256x512) (x1 x2 : A S256x1024) (x7 : A S512x4096) (x8 : A S1024x4096) (x9 : A S4096) :
    val_main_v33 (F := Ideal) x0 x1 x2 x7 x8 x9 = Cert.Spec.cellH x0 x1 x2 x7 x8 x9 := by
  funext i
  obtain ⟨r, j, rfl⟩ : ∃ (r : Fin 256) (j : Fin 1024), i = ix2 r j := ⟨i 0, i 1, eq_ix2 i⟩
  simp only [val_main_v33_apply, val_main_v32_apply, val_main_v28_apply, val_main_v27_apply, val_main_v26_apply, val_main_v25_apply, val_main_v24_apply, val_main_v23_apply, val_main_v9_apply, val_main_cst_3_apply, val_main_cst_4_apply]
  rw [cellC0, quarter0_3]
  simp only [gate0, Ideal.addf_def, Ideal.mulf_def, Ideal.hostDivf_def, Ideal.hostUnary_exp_def, Ideal.hostUnary_tanh_def,
    Ideal.hostNegf_def, Ideal.negf_def, Ideal.ofBits_def, one_f32]
  rfl

end Cert.RefBridge

end
-- ==== Proof.RefBridge.Cell1.lean ====
/-
  The second LSTM cell of the reference, entry by entry; its first operand is the first cell's new hidden state. The four gates'
  pre-activations are one 256 × 4096 array, the two matrix products added and then the bias, repeated along the
  rows; gate `g` reads the quarter of its columns that starts at `g · 1024`. With `1 / (1 + e^(-t))` read as the
  logistic function, the new cell state and the new hidden state are the specification's, term for term.
-/
import proofs.«137003_j53412213293363_2_alg».proof.Proof.RefBridge.Basics

noncomputable section

open scoped BigOperators

namespace Cert.RefBridge

open Cert.ReferenceIdeal Cert.ReferenceIdeal.Read Idealize.ShloMosaic Idealize.ShloMosaic.ValueIdx

/-- The gate pre-activations at row `r`, column `c`: the operand's row against `W`'s column, the hidden state's row
    against `U`'s column, and the bias at that column. -/
theorem gate1 (x0 : A S256x512) (x1 x2 x3 : A S256x1024) (x7 : A S512x4096) (x8 : A S1024x4096) (x9 : A S4096) (x10 x11 : A S1024x4096) (x12 : A S4096) (r : Fin 256) (c : Fin 4096) :
    val_main_v39 (F := Ideal) x0 x1 x2 x3 x7 x8 x9 x10 x11 x12 (ix2 r c)
      = (Cert.Spec.dot (val_main_v33 (F := Ideal) x0 x1 x2 x7 x8 x9) x10 r c + Cert.Spec.dot x3 x11 r c) + x12 (ix1 c) := by
  have el0 : ∀ k : Fin 1024, lidx_main_v34 (ix2 r c) k = ix2 r k :=
    fun k => funext fun a => match a with | ⟨0, _⟩ => rfl | ⟨1, _⟩ => rfl
  have er0 : ∀ k : Fin 1024, ridx_main_v34 (ix2 r c) k = ix2 k c :=
    fun k => funext fun a => match a with | ⟨0, _⟩ => rfl | ⟨1, _⟩ => rfl
  have el1 : ∀ k : Fin 1024, lidx_main_v35 (ix2 r c) k = ix2 r k :=
    fun k => funext fun a => match a with | ⟨0, _⟩ => rfl | ⟨1, _⟩ => rfl
  have er1 : ∀ k : Fin 1024, ridx_main_v35 (ix2 r c) k = ix2 k c :=
    fun k => funext fun a => match a with | ⟨0, _⟩ => rfl | ⟨1, _⟩ => rfl
  have eb : idx_main_v37 (idx_main_v38 (ix2 r c)) = ix1 c :=
    funext fun a => match a with | ⟨0, _⟩ => rfl
  rw [val_main_v39_apply, val_main_v36_apply, val_main_v34_apply, val_main_v35_apply, val_main_v38_apply, val_main_v37_apply]
  simp only [Ideal.addf_def]
  exact congrArg₂ (fun u w : EReal => u + w)
    (congrArg₂ (fun u w : EReal => u + w)
      (Finset.sum_congr rfl fun k _ => congrArg₂ (fun u w : EReal => u * w) (congrArg (val_main_v33 (F := Ideal) x0 x1 x2 x7 x8 x9) (el0 k)) (congrArg x10 (er0 k)))
      (Finset.sum_congr rfl fun k _ => congrArg₂ (fun u w : EReal => u * w) (congrArg x3 (el1 k)) (congrArg x11 (er1 k))))
    (congrArg x12 eb)

/-- Gate 0's quarter: the entry at `(r, j)` is the pre-activation array's at column `0 · 1024 + j`. -/
theorem quarter1_0 (r : Fin 256) (j : Fin 1024) : idx_main_v40 (ix2 r j) = ix2 r (Cert.Spec.col 0 j) :=
  funext fun a => match a with | ⟨0, _⟩ => rfl | ⟨1, _⟩ => Fin.ext (col0_val j)
/-- Gate 1's quarter starts at column 1024. -/
theorem quarter1_1 (r : Fin 256) (j : Fin 1024) : idx_main_v41 (ix2 r j) = ix2 r (Cert.Spec.col 1 j) :=
  funext fun a => match a with | ⟨0, _⟩ => rfl | ⟨1, _⟩ => Fin.ext (col1_val j)
/-- Gate 2's quarter starts at column 2048. -/
theorem quarter1_2 (r : Fin 256) (j : Fin 1024) : idx_main_v42 (ix2 r j) = ix2 r (Cert.Spec.col 2 j) :=
  funext fun a => match a with | ⟨0, _⟩ => rfl | ⟨1, _⟩ => Fin.ext (col2_val j)
/-- Gate 3's quarter starts at column 3072. -/
theorem quarter1_3 (r : Fin 256) (j : Fin 1024) : idx_main_v43 (ix2 r j) = ix2 r (Cert.Spec.col 3 j) :=
  funext fun a => match a with | ⟨0, _⟩ => rfl | ⟨1, _⟩ => Fin.ext (col3_val j)

/-- The new cell state: `σ(z 1) · c + σ(z 0) · tanh(z 2)`. -/
theorem cellC1 (x0 : A S256x512) (x1 x2 x3 x4 : A S256x1024) (x7 : A S512x4096) (x8 : A S1024x4096) (x9 : A S4096) (x10 x11 : A S1024x4096) (x12 : A S4096) :
    val_main_v65 (F := Ideal) x0 x1 x2 x3 x4 x7 x8 x9 x10 x11 x12 = Cert.Spec.cellC (val_main_v33 (F := Ideal) x0 x1 x2 x7 x8 x9) x3 x4 x10 x11 x12 := by
  funext i
  obtain ⟨r, j, rfl⟩ : ∃ (r : Fin 256) (j : Fin 1024), i = ix2 r j := ⟨i 0, i 1, eq_ix2 i⟩
  simp only [val_main_v65_apply, val_main_v63_apply, val_main_v64_apply, val_main_v55_apply, val_main_v49_apply, val_main_v56_apply, val_main_v54_apply, val_main_v53_apply, val_main_v52_apply, val_main_v51_apply, val_main_v50_apply, val_main_v48_apply, val_main_v47_apply, val_main_v46_apply, val_main_v45_apply, val_main_v44_apply, val_main_v42_apply, val_main_v41_apply, val_main_v40_apply,
    val_main_cst_5_apply, val_main_cst_6_apply, val_main_cst_7_apply, val_main_cst_8_apply]
  rw [quarter1_0, quarter1_1, quarter1_2]
  simp only [gate1, Ideal.addf_def, Ideal.mulf_def, Ideal.hostDivf_def, Ideal.hostUnary_exp_def, Ideal.hostUnary_tanh_def,
    Ideal.hostNegf_def, Ideal.negf_def, Ideal.ofBits_def, one_f32]
  rfl

/-- The new hidden state: `σ(z 3) · tanh` of the new cell state. -/
theorem cellH1 (x0 : A S256x512) (x1 x2 x3 x4 : A S256x1024) (x7 : A S512x4096) (x8 : A S1024x4096) (x9 : A S4096) (x10 x11 : A S1024x4096) (x12 : A S4096) :
    val_main_v67 (F := Ideal) x0 x1 x2 x3 x4 x7 x8 x9 x10 x11 x12 = Cert.Spec.cellH (val_main_v33 (F := Ideal) x0 x1 x2 x7 x8 x9) x3 x4 x10 x11 x12 := by
  funext i
  obtain ⟨r, j, rfl⟩ : ∃ (r : Fin 256) (j : Fin 1024), i = ix2 r j := ⟨i 0, i 1, eq_ix2 i⟩
  simp only [val_main_v67_apply, val_main_v66_apply, val_main_v62_apply, val_main_v61_apply, val_main_v60_apply, val_main_v59_apply, val_main_v58_apply, val_main_v57_apply, val_main_v43_apply, val_main_cst_9_apply, val_main_cst_10_apply]
  rw [cellC1, quarter1_3]
  simp only [gate1, Ideal.addf_def, Ideal.mulf_def, Ideal.hostDivf_def, Ideal.hostUnary_exp_def, Ideal.hostUnary_tanh_def,
    Ideal.hostNegf_def, Ideal.negf_def, Ideal.ofBits_def, one_f32]
  rfl

end Cert.RefBridge

end
-- ==== Proof.RefBridge.Cell2.lean ====
/-
  The third LSTM cell of the reference, entry by entry; its first operand is the second cell's new hidden state. The four gates'
  pre-activations are one 256 × 4096 array, the two matrix products added and then the bias, repeated along the
  rows; gate `g` reads the quarter of its columns that starts at `g · 1024`. With `1 / (1 + e^(-t))` read as the
  logistic function, the new cell state and the new hidden state are the specification's, term for term.
-/
import proofs.«137003_j53412213293363_2_alg».proof.Proof.RefBridge.Basics

noncomputable section

open scoped BigOperators

namespace Cert.RefBridge

open Cert.ReferenceIdeal Cert.ReferenceIdeal.Read Idealize.ShloMosaic Idealize.ShloMosaic.ValueIdx

/-- The gate pre-activations at row `r`, column `c`: the operand's row against `W`'s column, the hidden state's row
    against `U`'s column, and the bias at that column. -/
theorem gate2 (x0 : A S256x512) (x1 x2 x3 x4 x5 : A S256x1024) (x7 : A S512x4096) (x8 : A S1024x4096) (x9 : A S4096) (x10 x11 : A S1024x4096) (x12 : A S4096) (x13 x14 : A S1024x4096) (x15 : A S4096) (r : Fin 256) (c : Fin 4096) :
    val_main_v73 (F := Ideal) x0 x1 x2 x3 x4 x5 x7 x8 x9 x10 x11 x12 x13 x14 x15 (ix2 r c)
      = (Cert.Spec.dot (val_main_v67 (F := Ideal) x0 x1 x2 x3 x4 x7 x8 x9 x10 x11 x12) x13 r c + Cert.Spec.dot x5 x14 r c) + x15 (ix1 c) := by
  have el0 : ∀ k : Fin 1024, lidx_main_v68 (ix2 r c) k = ix2 r k :=
    fun k => funext fun a => match a with | ⟨0, _⟩ => rfl | ⟨1, _⟩ => rfl
  have er0 : ∀ k : Fin 1024, ridx_main_v68 (ix2 r c) k = ix2 k c :=
    fun k => funext fun a => match a with | ⟨0, _⟩ => rfl | ⟨1, _⟩ => rfl
  have el1 : ∀ k : Fin 1024, lidx_main_v69 (ix2 r c) k = ix2 r k :=
    fun k => funext fun a => match a with | ⟨0, _⟩ => rfl | ⟨1, _⟩ => rfl
  have er1 : ∀ k : Fin 1024, ridx_main_v69 (ix2 r c) k = ix2 k c :=
    fun k => funext fun a => match a with | ⟨0, _⟩ => rfl | ⟨1, _⟩ => rfl
  have eb : idx_main_v71 (idx_main_v72 (ix2 r c)) = ix1 c :=
    funext fun a => match a with | ⟨0, _⟩ => rfl
  rw [val_main_v73_apply, val_main_v70_apply, val_main_v68_apply, val_main_v69_apply, val_main_v72_apply, val_main_v71_apply]
  simp only [Ideal.addf_def]
  exact congrArg₂ (fun u w : EReal => u + w)
    (congrArg₂ (fun u w : EReal => u + w)
      (Finset.sum_congr rfl fun k _ => congrArg₂ (fun u w : EReal => u * w) (congrArg (val_main_v67 (F := Ideal) x0 x1 x2 x3 x4 x7 x8 x9 x10 x11 x12) (el0 k)) (congrArg x13 (er0 k)))
      (Finset.sum_congr rfl fun k _ => congrArg₂ (fun u w : EReal => u * w) (congrArg x5 (el1 k)) (congrArg x14 (er1 k))))
    (congrArg x15 eb)

/-- Gate 0's quarter: the entry at `(r, j)` is the pre-activation array's at column `0 · 1024 + j`. -/
theorem quarter2_0 (r : Fin 256) (j : Fin 1024) : idx_main_v74 (ix2 r j) = ix2 r (Cert.Spec.col 0 j) :=
  funext fun a => match a with | ⟨0, _⟩ => rfl | ⟨1, _⟩ => Fin.ext (col0_val j)
/-- Gate 1's quarter starts at column 1024. -/
theorem quarter2_1 (r : Fin 256) (j : Fin 1024) : idx_main_v75 (ix2 r j) = ix2 r (Cert.Spec.col 1 j) :=
  funext fun a => match a with | ⟨0, _⟩ => rfl | ⟨1, _⟩ => Fin.ext (col1_val j)
/-- Gate 2's quarter starts at column 2048. -/
theorem quarter2_2 (r : Fin 256) (j : Fin 1024) : idx_main_v76 (ix2 r j) = ix2 r (Cert.Spec.col 2 j) :=
  funext fun a => match a with | ⟨0, _⟩ => rfl | ⟨1, _⟩ => Fin.ext (col2_val j)
/-- Gate 3's quarter starts at column 3072. -/
theorem quarter2_3 (r : Fin 256) (j : Fin 1024) : idx_main_v77 (ix2 r j) = ix2 r (Cert.Spec.col 3 j) :=
  funext fun a => match a with | ⟨0, _⟩ => rfl | ⟨1, _⟩ => Fin.ext (col3_val j)

/-- The new cell state: `σ(z 1) · c + σ(z 0) · tanh(z 2)`. -/
theorem cellC2 (x0 : A S256x512) (x1 x2 x3 x4 x5 x6 : A S256x1024) (x7 : A S512x4096) (x8 : A S1024x4096) (x9 : A S4096) (x10 x11 : A S1024x4096) (x12 : A S4096) (x13 x14 : A S1024x4096) (x15 : A S4096) :
    val_main_v99 (F := Ideal) x0 x1 x2 x3 x4 x5 x6 x7 x8 x9 x10 x11 x12 x13 x14 x15 = Cert.Spec.cellC (val_main_v67 (F := Ideal) x0 x1 x2 x3 x4 x7 x8 x9 x10 x11 x12) x5 x6 x13 x14 x15 := by
  funext i
  obtain ⟨r, j, rfl⟩ : ∃ (r : Fin 256) (j : Fin 1024), i = ix2 r j := ⟨i 0, i 1, eq_ix2 i⟩
  simp only [val_main_v99_apply, val_main_v97_apply, val_main_v98_apply, val_main_v89_apply, val_main_v83_apply, val_main_v90_apply, val_main_v88_apply, val_main_v87_apply, val_main_v86_apply, val_main_v85_apply, val_main_v84_apply, val_main_v82_apply, val_main_v81_apply, val_main_v80_apply, val_main_v79_apply, val_main_v78_apply, val_main_v76_apply, val_main_v75_apply, val_main_v74_apply,
    val_main_cst_11_apply, val_main_cst_12_apply, val_main_cst_13_apply, val_main_cst_14_apply]
  rw [quarter2_0, quarter2_1, quarter2_2]
  simp only [gate2, Ideal.addf_def, Ideal.mulf_def, Ideal.hostDivf_def, Ideal.hostUnary_exp_def, Ideal.hostUnary_tanh_def,
    Ideal.hostNegf_def, Ideal.negf_def, Ideal.ofBits_def, one_f32]
  rfl

/-- The new hidden state: `σ(z 3) · tanh` of the new cell state. -/
theorem cellH2 (x0 : A S256x512) (x1 x2 x3 x4 x5 x6 : A S256x1024) (x7 : A S512x4096) (x8 : A S1024x4096) (x9 : A S4096) (x10 x11 : A S1024x4096) (x12 : A S4096) (x13 x14 : A S1024x4096) (x15 : A S4096) :
    val_main_v101 (F := Ideal) x0 x1 x2 x3 x4 x5 x6 x7 x8 x9 x10 x11 x12 x13 x14 x15 = Cert.Spec.cellH (val_main_v67 (F := Ideal) x0 x1 x2 x3 x4 x7 x8 x9 x10 x11 x12) x5 x6 x13 x14 x15 := by
  funext i
  obtain ⟨r, j, rfl⟩ : ∃ (r : Fin 256) (j : Fin 1024), i = ix2 r j := ⟨i 0, i 1, eq_ix2 i⟩
  simp only [val_main_v101_apply, val_main_v100_apply, val_main_v96_apply, val_main_v95_apply, val_main_v94_apply, val_main_v93_apply, val_main_v92_apply, val_main_v91_apply, val_main_v77_apply, val_main_cst_15_apply, val_main_cst_16_apply]
  rw [cellC2, quarter2_3]
  simp only [gate2, Ideal.addf_def, Ideal.mulf_def, Ideal.hostDivf_def, Ideal.hostUnary_exp_def, Ideal.hostUnary_tanh_def,
    Ideal.hostNegf_def, Ideal.negf_def, Ideal.ofBits_def, one_f32]
  rfl

end Cert.RefBridge

end
-- ==== Proof.RefBridge.lean ====
/-
  The reference program's run, with every result named by the specification. Its seven results are the dense
  layer's output, and each of the three stacked cells' new hidden and cell state; read entry by entry they are
  the specification's `logits`, `h0n`, `c0n`, `h1n`, `c1n`, `h2n`, `c2n` of the argument arrays, and the
  arguments end as they began.
-/
import proofs.«137003_j53412213293363_2_alg».proof.Proof.RefBridge.Cell0
import proofs.«137003_j53412213293363_2_alg».proof.Proof.RefBridge.Cell1
import proofs.«137003_j53412213293363_2_alg».proof.Proof.RefBridge.Cell2

noncomputable section

open scoped BigOperators

namespace Cert.RefBridge

open Cert.ReferenceIdeal Cert.ReferenceIdeal.Read Idealize.ShloMosaic Idealize.ShloMosaic.TcCoe Idealize.SL.Sem
  Idealize.ShloMosaic.StableHlo Idealize.ShloMosaic.ValueIdx

/-- The dense layer at `(r, j)`: the last hidden state's row against `Wp`'s column, plus the bias at that column. -/
theorem dense_eq (x0 : A S256x512) (x1 x2 x3 x4 x5 x6 : A S256x1024) (x7 : A S512x4096) (x8 : A S1024x4096) (x9 : A S4096) (x10 x11 : A S1024x4096) (x12 : A S4096) (x13 x14 : A S1024x4096) (x15 : A S4096) (x16 : A S1024x512) (x17 : A S512) :
    val_main_v105 (F := Ideal) x0 x1 x2 x3 x4 x5 x6 x7 x8 x9 x10 x11 x12 x13 x14 x15 x16 x17
      = Cert.Spec.dense (val_main_v101 (F := Ideal) x0 x1 x2 x3 x4 x5 x6 x7 x8 x9 x10 x11 x12 x13 x14 x15) x16 x17 := by
  funext i
  obtain ⟨r, j, rfl⟩ : ∃ (r : Fin 256) (j : Fin 512), i = ix2 r j := ⟨i 0, i 1, eq_ix2 i⟩
  have el : ∀ k : Fin 1024, lidx_main_v102 (ix2 r j) k = ix2 r k :=
    fun k => funext fun a => match a with | ⟨0, _⟩ => rfl | ⟨1, _⟩ => rfl
  have er : ∀ k : Fin 1024, ridx_main_v102 (ix2 r j) k = ix2 k j :=
    fun k => funext fun a => match a with | ⟨0, _⟩ => rfl | ⟨1, _⟩ => rfl
  have eb : idx_main_v103 (idx_main_v104 (ix2 r j)) = ix1 j :=
    funext fun a => match a with | ⟨0, _⟩ => rfl
  rw [val_main_v105_apply, val_main_v102_apply, val_main_v104_apply, val_main_v103_apply]
  simp only [Ideal.addf_def]
  exact congrArg₂ (fun u w : EReal => u + w)
    (Finset.sum_congr rfl fun k _ => congrArg₂ (fun u w : EReal => u * w)
      (congrArg (val_main_v101 (F := Ideal) x0 x1 x2 x3 x4 x5 x6 x7 x8 x9 x10 x11 x12 x13 x14 x15) (el k)) (congrArg x16 (er k)))
    (congrArg x17 eb)

/-! ## The stages at a record of arguments -/

theorem h0n_eq (a : Cert.Spec.Args) : val_main_v33 (F := Ideal) a.x a.h0 a.c0 a.W0 a.U0 a.b0 = a.h0n :=
  cellH0 a.x a.h0 a.c0 a.W0 a.U0 a.b0
theorem c0n_eq (a : Cert.Spec.Args) : val_main_v31 (F := Ideal) a.x a.h0 a.c0 a.W0 a.U0 a.b0 = a.c0n :=
  cellC0 a.x a.h0 a.c0 a.W0 a.U0 a.b0
theorem h1n_eq (a : Cert.Spec.Args) : val_main_v67 (F := Ideal) a.x a.h0 a.c0 a.h1 a.c1 a.W0 a.U0 a.b0 a.W1 a.U1 a.b1 = a.h1n :=
  (cellH1 a.x a.h0 a.c0 a.h1 a.c1 a.W0 a.U0 a.b0 a.W1 a.U1 a.b1).trans (congrArg (fun X => Cert.Spec.cellH X a.h1 a.c1 a.W1 a.U1 a.b1) (h0n_eq a))
theorem c1n_eq (a : Cert.Spec.Args) : val_main_v65 (F := Ideal) a.x a.h0 a.c0 a.h1 a.c1 a.W0 a.U0 a.b0 a.W1 a.U1 a.b1 = a.c1n :=
  (cellC1 a.x a.h0 a.c0 a.h1 a.c1 a.W0 a.U0 a.b0 a.W1 a.U1 a.b1).trans (congrArg (fun X => Cert.Spec.cellC X a.h1 a.c1 a.W1 a.U1 a.b1) (h0n_eq a))
theorem h2n_eq (a : Cert.Spec.Args) : val_main_v101 (F := Ideal) a.x a.h0 a.c0 a.h1 a.c1 a.h2 a.c2 a.W0 a.U0 a.b0 a.W1 a.U1 a.b1 a.W2 a.U2 a.b2 = a.h2n :=
  (cellH2 a.x a.h0 a.c0 a.h1 a.c1 a.h2 a.c2 a.W0 a.U0 a.b0 a.W1 a.U1 a.b1 a.W2 a.U2 a.b2).trans (congrArg (fun X => Cert.Spec.cellH X a.h2 a.c2 a.W2 a.U2 a.b2) (h1n_eq a))
theorem c2n_eq (a : Cert.Spec.Args) : val_main_v99 (F := Ideal) a.x a.h0 a.c0 a.h1 a.c1 a.h2 a.c2 a.W0 a.U0 a.b0 a.W1 a.U1 a.b1 a.W2 a.U2 a.b2 = a.c2n :=
  (cellC2 a.x a.h0 a.c0 a.h1 a.c1 a.h2 a.c2 a.W0 a.U0 a.b0 a.W1 a.U1 a.b1 a.W2 a.U2 a.b2).trans (congrArg (fun X => Cert.Spec.cellC X a.h2 a.c2 a.W2 a.U2 a.b2) (h1n_eq a))
theorem logits_eq (a : Cert.Spec.Args) : val_main_v105 (F := Ideal) a.x a.h0 a.c0 a.h1 a.c1 a.h2 a.c2 a.W0 a.U0 a.b0 a.W1 a.U1 a.b1 a.W2 a.U2 a.b2 a.Wp a.bp = a.logits :=
  (dense_eq a.x a.h0 a.c0 a.h1 a.c1 a.h2 a.c2 a.W0 a.U0 a.b0 a.W1 a.U1 a.b1 a.W2 a.U2 a.b2 a.Wp a.bp).trans (congrArg (fun X => Cert.Spec.dense X a.Wp a.bp) (h2n_eq a))

/-! ## The run -/

/-- The reference's argument arrays on core `c`, as the specification's record. -/
def refArgs (m : (ℓ : Loc Cert.ReferenceIdeal.nD Cert.ReferenceIdeal.τ Cert.ReferenceIdeal.sig) → Buf (Elt Ideal) ℓ)
    (c : Dev Cert.ReferenceIdeal.nD) : Cert.Spec.Args where
  x := m ((c.tc : Thread Cert.ReferenceIdeal.nD Cert.ReferenceIdeal.τ).loc Cert.ReferenceIdeal.main_arg0)
  h0 := m ((c.tc : Thread Cert.ReferenceIdeal.nD Cert.ReferenceIdeal.τ).loc Cert.ReferenceIdeal.main_arg1)
  c0 := m ((c.tc : Thread Cert.ReferenceIdeal.nD Cert.ReferenceIdeal.τ).loc Cert.ReferenceIdeal.main_arg2)
  h1 := m ((c.tc : Thread Cert.ReferenceIdeal.nD Cert.ReferenceIdeal.τ).loc Cert.ReferenceIdeal.main_arg3)
  c1 := m ((c.tc : Thread Cert.ReferenceIdeal.nD Cert.ReferenceIdeal.τ).loc Cert.ReferenceIdeal.main_arg4)
  h2 := m ((c.tc : Thread Cert.ReferenceIdeal.nD Cert.ReferenceIdeal.τ).loc Cert.ReferenceIdeal.main_arg5)
  c2 := m ((c.tc : Thread Cert.ReferenceIdeal.nD Cert.ReferenceIdeal.τ).loc Cert.ReferenceIdeal.main_arg6)
  W0 := m ((c.tc : Thread Cert.ReferenceIdeal.nD Cert.ReferenceIdeal.τ).loc Cert.ReferenceIdeal.main_arg7)
  U0 := m ((c.tc : Thread Cert.ReferenceIdeal.nD Cert.ReferenceIdeal.τ).loc Cert.ReferenceIdeal.main_arg8)
  b0 := m ((c.tc : Thread Cert.ReferenceIdeal.nD Cert.ReferenceIdeal.τ).loc Cert.ReferenceIdeal.main_arg9)
  W1 := m ((c.tc : Thread Cert.ReferenceIdeal.nD Cert.ReferenceIdeal.τ).loc Cert.ReferenceIdeal.main_arg10)
  U1 := m ((c.tc : Thread Cert.ReferenceIdeal.nD Cert.ReferenceIdeal.τ).loc Cert.ReferenceIdeal.main_arg11)
  b1 := m ((c.tc : Thread Cert.ReferenceIdeal.nD Cert.ReferenceIdeal.τ).loc Cert.ReferenceIdeal.main_arg12)
  W2 := m ((c.tc : Thread Cert.ReferenceIdeal.nD Cert.ReferenceIdeal.τ).loc Cert.ReferenceIdeal.main_arg13)
  U2 := m ((c.tc : Thread Cert.ReferenceIdeal.nD Cert.ReferenceIdeal.τ).loc Cert.ReferenceIdeal.main_arg14)
  b2 := m ((c.tc : Thread Cert.ReferenceIdeal.nD Cert.ReferenceIdeal.τ).loc Cert.ReferenceIdeal.main_arg15)
  Wp := m ((c.tc : Thread Cert.ReferenceIdeal.nD Cert.ReferenceIdeal.τ).loc Cert.ReferenceIdeal.main_arg16)
  bp := m ((c.tc : Thread Cert.ReferenceIdeal.nD Cert.ReferenceIdeal.τ).loc Cert.ReferenceIdeal.main_arg17)

/-- Every weakly fair run of the reference ends with its results the specification's functions of the arguments, and
    the arguments as they were. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v105) = (refArgs m c).logits
      ∧ r.2.mem ((c.tc : Thread Cert.ReferenceIdeal.nD Cert.ReferenceIdeal.τ).loc Cert.ReferenceIdeal.main_v33) = (refArgs m c).h0n
      ∧ r.2.mem ((c.tc : Thread Cert.ReferenceIdeal.nD Cert.ReferenceIdeal.τ).loc Cert.ReferenceIdeal.main_v31) = (refArgs m c).c0n
      ∧ r.2.mem ((c.tc : Thread Cert.ReferenceIdeal.nD Cert.ReferenceIdeal.τ).loc Cert.ReferenceIdeal.main_v67) = (refArgs m c).h1n
      ∧ r.2.mem ((c.tc : Thread Cert.ReferenceIdeal.nD Cert.ReferenceIdeal.τ).loc Cert.ReferenceIdeal.main_v65) = (refArgs m c).c1n
      ∧ r.2.mem ((c.tc : Thread Cert.ReferenceIdeal.nD Cert.ReferenceIdeal.τ).loc Cert.ReferenceIdeal.main_v101) = (refArgs m c).h2n
      ∧ r.2.mem ((c.tc : Thread Cert.ReferenceIdeal.nD Cert.ReferenceIdeal.τ).loc Cert.ReferenceIdeal.main_v99) = (refArgs m c).c2n
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17) :=
  (θ_run _ _ _).mono (fun _ h c =>
    ⟨((h c).1.trans (val_main_v105_eq (F := Ideal) m c)).trans (logits_eq (refArgs m c)),
     ((h c).2.1.trans (val_main_v33_eq (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)))).trans (h0n_eq (refArgs m c)),
     ((h c).2.2.1.trans (val_main_v31_eq (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)))).trans (c0n_eq (refArgs m c)),
     ((h c).2.2.2.1.trans (val_main_v67_eq (F := Ideal) m c)).trans (h1n_eq (refArgs m c)),
     ((h c).2.2.2.2.1.trans (val_main_v65_eq (F := Ideal) m c)).trans (c1n_eq (refArgs m c)),
     ((h c).2.2.2.2.2.1.trans (val_main_v101_eq (F := Ideal) m c)).trans (h2n_eq (refArgs m c)),
     ((h c).2.2.2.2.2.2.1.trans (val_main_v99_eq (F := Ideal) m c)).trans (c2n_eq (refArgs m c)),
     (h c).2.2.2.2.2.2.2⟩)
    (Cert.ReferenceIdeal.Value.run (F := Ideal) m ρ)

end Cert.RefBridge

end
-- ==== Proof.lean ====
/-
  The certificate of the autoregressive step — three stacked LSTM cells and a dense layer — against its
  jnp reference.

  Both idealized programs compute, entry by entry on the extended reals, the functions of the eighteen
  argument arrays written in Proof/Spec.lean: per cell, each gate's pre-activation is the row of the
  layer's input against a column of the input weights plus the row of the previous hidden state against
  the same column of the recurrent weights plus the bias entry; the new cell state is
  σ(forget)·c + σ(input)·tanh(candidate) and the new hidden state σ(output)·tanh of it; the logits are
  the last hidden state through the dense layer. The kernel computes a cell 128 hidden units at a time,
  each grid point reading, per gate, the matching 128 columns of the two weight matrices and of the bias
  row; the reference computes all 4096 gate columns at once and slices them. A tile of a matrix product
  is the product with the tile of the right operand, term by term in the same order, the logistic
  function is one function in both spellings, and a change of float format is the identity: so the two
  agree with no appeal to finiteness, and the precondition is never opened.

  The frames: @main is four host reshapes and four kernel regions. Each region's pipeline is run from
  the contents the previous item leaves; the weight matrices and the bias row, read through four
  windows each, are held by quarters of the full share while a region runs. No item writes an argument.
  The ideal pass rewrote nothing, so the idealization is the program's own text read on the extended
  reals.
-/
import proofs.«137003_j53412213293363_2_alg».proof.Defs
import proofs.«137003_j53412213293363_2_alg».proof.Proof.Gen.Kernel
import proofs.«137003_j53412213293363_2_alg».proof.Proof.Gen.KernelIdeal
import proofs.«137003_j53412213293363_2_alg».proof.Proof.Gen.ReferenceIdeal
import proofs.«137003_j53412213293363_2_alg».proof.Proof.Gen.Pre_finite_inputs
import proofs.«137003_j53412213293363_2_alg».proof.Proof.KernelFrame.Run
import proofs.«137003_j53412213293363_2_alg».proof.Proof.KernelIdealVal.Chain
import proofs.«137003_j53412213293363_2_alg».proof.Proof.RefBridge

noncomputable section

namespace Cert.Proof

open Idealize.ShloMosaic Idealize.ShloMosaic.TcCoe Idealize.SL.Sem

/-- The word-level kernel runs and leaves its arguments as launched: every unscoped buffer ends at the last boundary's
    contents, and no item of @main writes an argument. -/
theorem frame_k : @Cert.frame_Kernel Cert.Kernel.Gen.facts Cert.Pre_finite_inputs.Gen.facts := fun m ρ _ =>
  (θ_run _ _ _).mono (fun r h c => ⟨
      (h c _ (Cert.Kernel.Hand.mem_uc Cert.Kernel.main_arg0 (by decide))).trans (Cert.Kernel.Hand.W8_main_arg0 m ρ c),
      (h c _ (Cert.Kernel.Hand.mem_uc Cert.Kernel.main_arg1 (by decide))).trans (Cert.Kernel.Hand.W8_main_arg1 m ρ c),
      (h c _ (Cert.Kernel.Hand.mem_uc Cert.Kernel.main_arg2 (by decide))).trans (Cert.Kernel.Hand.W8_main_arg2 m ρ c),
      (h c _ (Cert.Kernel.Hand.mem_uc Cert.Kernel.main_arg3 (by decide))).trans (Cert.Kernel.Hand.W8_main_arg3 m ρ c),
      (h c _ (Cert.Kernel.Hand.mem_uc Cert.Kernel.main_arg4 (by decide))).trans (Cert.Kernel.Hand.W8_main_arg4 m ρ c),
      (h c _ (Cert.Kernel.Hand.mem_uc Cert.Kernel.main_arg5 (by decide))).trans (Cert.Kernel.Hand.W8_main_arg5 m ρ c),
      (h c _ (Cert.Kernel.Hand.mem_uc Cert.Kernel.main_arg6 (by decide))).trans (Cert.Kernel.Hand.W8_main_arg6 m ρ c),
      (h c _ (Cert.Kernel.Hand.mem_uc Cert.Kernel.main_arg7 (by decide))).trans (Cert.Kernel.Hand.W8_main_arg7 m ρ c),
      (h c _ (Cert.Kernel.Hand.mem_uc Cert.Kernel.main_arg8 (by decide))).trans (Cert.Kernel.Hand.W8_main_arg8 m ρ c),
      (h c _ (Cert.Kernel.Hand.mem_uc Cert.Kernel.main_arg9 (by decide))).trans (Cert.Kernel.Hand.W8_main_arg9 m ρ c),
      (h c _ (Cert.Kernel.Hand.mem_uc Cert.Kernel.main_arg10 (by decide))).trans (Cert.Kernel.Hand.W8_main_arg10 m ρ c),
      (h c _ (Cert.Kernel.Hand.mem_uc Cert.Kernel.main_arg11 (by decide))).trans (Cert.Kernel.Hand.W8_main_arg11 m ρ c),
      (h c _ (Cert.Kernel.Hand.mem_uc Cert.Kernel.main_arg12 (by decide))).trans (Cert.Kernel.Hand.W8_main_arg12 m ρ c),
      (h c _ (Cert.Kernel.Hand.mem_uc Cert.Kernel.main_arg13 (by decide))).trans (Cert.Kernel.Hand.W8_main_arg13 m ρ c),
      (h c _ (Cert.Kernel.Hand.mem_uc Cert.Kernel.main_arg14 (by decide))).trans (Cert.Kernel.Hand.W8_main_arg14 m ρ c),
      (h c _ (Cert.Kernel.Hand.mem_uc Cert.Kernel.main_arg15 (by decide))).trans (Cert.Kernel.Hand.W8_main_arg15 m ρ c),
      (h c _ (Cert.Kernel.Hand.mem_uc Cert.Kernel.main_arg16 (by decide))).trans (Cert.Kernel.Hand.W8_main_arg16 m ρ c),
      (h c _ (Cert.Kernel.Hand.mem_uc Cert.Kernel.main_arg17 (by decide))).trans (Cert.Kernel.Hand.W8_main_arg17 m ρ c)⟩)
    (Cert.Kernel.Hand.run_all (F := Bits) m ρ)

/-- The idealized kernel likewise. -/
theorem frame_ki : @Cert.frame_KernelIdeal Cert.KernelIdeal.Gen.facts Cert.Pre_finite_inputs.Gen.facts := fun m ρ _ =>
  (θ_run _ _ _).mono (fun r h c => ⟨
      (h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c),
      (h c _ (Cert.KernelIdeal.Hand.mem_uc Cert.KernelIdeal.main_arg6 (by decide))).trans (Cert.KernelIdeal.Hand.W8_main_arg6 m ρ c),
      (h c _ (Cert.KernelIdeal.Hand.mem_uc Cert.KernelIdeal.main_arg7 (by decide))).trans (Cert.KernelIdeal.Hand.W8_main_arg7 m ρ c),
      (h c _ (Cert.KernelIdeal.Hand.mem_uc Cert.KernelIdeal.main_arg8 (by decide))).trans (Cert.KernelIdeal.Hand.W8_main_arg8 m ρ c),
      (h c _ (Cert.KernelIdeal.Hand.mem_uc Cert.KernelIdeal.main_arg9 (by decide))).trans (Cert.KernelIdeal.Hand.W8_main_arg9 m ρ c),
      (h c _ (Cert.KernelIdeal.Hand.mem_uc Cert.KernelIdeal.main_arg10 (by decide))).trans (Cert.KernelIdeal.Hand.W8_main_arg10 m ρ c),
      (h c _ (Cert.KernelIdeal.Hand.mem_uc Cert.KernelIdeal.main_arg11 (by decide))).trans (Cert.KernelIdeal.Hand.W8_main_arg11 m ρ c),
      (h c _ (Cert.KernelIdeal.Hand.mem_uc Cert.KernelIdeal.main_arg12 (by decide))).trans (Cert.KernelIdeal.Hand.W8_main_arg12 m ρ c),
      (h c _ (Cert.KernelIdeal.Hand.mem_uc Cert.KernelIdeal.main_arg13 (by decide))).trans (Cert.KernelIdeal.Hand.W8_main_arg13 m ρ c),
      (h c _ (Cert.KernelIdeal.Hand.mem_uc Cert.KernelIdeal.main_arg14 (by decide))).trans (Cert.KernelIdeal.Hand.W8_main_arg14 m ρ c),
      (h c _ (Cert.KernelIdeal.Hand.mem_uc Cert.KernelIdeal.main_arg15 (by decide))).trans (Cert.KernelIdeal.Hand.W8_main_arg15 m ρ c),
      (h c _ (Cert.KernelIdeal.Hand.mem_uc Cert.KernelIdeal.main_arg16 (by decide))).trans (Cert.KernelIdeal.Hand.W8_main_arg16 m ρ c),
      (h c _ (Cert.KernelIdeal.Hand.mem_uc Cert.KernelIdeal.main_arg17 (by decide))).trans (Cert.KernelIdeal.Hand.W8_main_arg17 m ρ c)⟩)
    (Cert.KernelIdeal.Hand.run_all (F := Ideal) m ρ)

/-- The reference runs and leaves its arguments as launched: its run, the results dropped. -/
theorem frame_ri : @Cert.frame_ReferenceIdeal Cert.ReferenceIdeal.Gen.facts Cert.Pre_finite_inputs.Gen.facts := fun m ρ _ =>
  (θ_run _ _ _).mono (fun _ h c => (h c).2.2.2.2.2.2.2) (Cert.RefBridge.ref_run m ρ)

/-- The ideal pass rewrote no operation. -/
theorem preserves : Cert.preserves_Kernel_KernelIdeal := trivial

/-- From memories agreeing on the arguments both idealized programs end with each result at the specification's
    function of the arguments: the same seven arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => (Cert.KernelIdeal.Val.kArgs m c).logits, fun c => (Cert.KernelIdeal.Val.kArgs m c).h0n,
    fun c => (Cert.KernelIdeal.Val.kArgs m c).c0n, fun c => (Cert.KernelIdeal.Val.kArgs m c).h1n,
    fun c => (Cert.KernelIdeal.Val.kArgs m c).c1n, fun c => (Cert.KernelIdeal.Val.kArgs m c).h2n,
    fun c => (Cert.KernelIdeal.Val.kArgs m c).c2n, Cert.KernelIdeal.Val.kernel_run m ρ, ?_⟩
  refine (θ_run _ _ _).mono (fun _ h c => ?_) (Cert.RefBridge.ref_run m' ρ')
  have e : Cert.RefBridge.refArgs m' c = Cert.KernelIdeal.Val.kArgs m c := by
    unfold Cert.RefBridge.refArgs Cert.KernelIdeal.Val.kArgs
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2.1,
      (hagree c).2.2.2.2.2.2.2.2.2.2.2.2.2.1, (hagree c).2.2.2.2.2.2.2.2.2.2.2.2.2.2.1, (hagree c).2.2.2.2.2.2.2.2.2.2.2.2.2.2.2.1,
      (hagree c).2.2.2.2.2.2.2.2.2.2.2.2.2.2.2.2.1, (hagree c).2.2.2.2.2.2.2.2.2.2.2.2.2.2.2.2.2]
  have h' := h c
  rw [e] at h'
  exact h'

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
